-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x256x128x128 : Shape := ⟨4, ![16, 256, 128, 128]⟩
abbrev S16x256 : Shape := ⟨2, ![16, 256]⟩
abbrev S16 : Shape := ⟨1, ![16]⟩
abbrev S256x16 : Shape := ⟨2, ![256, 16]⟩
abbrev S256 : Shape := ⟨1, ![256]⟩
abbrev S256x512 : Shape := ⟨2, ![256, 512]⟩
abbrev S_ : Shape := ⟨0, ![]⟩

class Facts : Prop where
  bcast_S_S16x256x128x128 : S_.BroadcastsInDim S16x256x128x128 (![] : Fin 0 → Fin S16x256x128x128.rank)
  reducesTo_S16x256x128x128_S_d0_1_2_3 : S16x256x128x128.ReducesTo [0, 1, 2, 3] S_
  h_S_ : 0 < S_.numel
  bcast_S_S16x256 : S_.BroadcastsInDim S16x256 (![] : Fin 0 → Fin S16x256.rank)
  reducesTo_S16x256_S_d0_1 : S16x256.ReducesTo [0, 1] S_
  bcast_S_S16 : S_.BroadcastsInDim S16 (![] : Fin 0 → Fin S16.rank)
  reducesTo_S16_S_d0 : S16.ReducesTo [0] S_
  bcast_S_S256x16 : S_.BroadcastsInDim S256x16 (![] : Fin 0 → Fin S256x16.rank)
  reducesTo_S256x16_S_d0_1 : S256x16.ReducesTo [0, 1] S_
  bcast_S_S256 : S_.BroadcastsInDim S256 (![] : Fin 0 → Fin S256.rank)
  reducesTo_S256_S_d0 : S256.ReducesTo [0] S_
  bcast_S_S256x512 : S_.BroadcastsInDim S256x512 (![] : Fin 0 → Fin S256x512.rank)
  reducesTo_S256x512_S_d0_1 : S256x512.ReducesTo [0, 1] S_

variable [Facts]

def fn_part4 {F : FTy → Type} [FloatOps F] (main_arg14 : FVec F S256 .f32) (main_v63 : IVec S_ 1) (main_v67 : IVec S_ 1) : IVec S_ 1 :=
  let main_v68 : IVec S_ 1 := andi main_v63 main_v67
  let main_v69 : FVec F S256 .f32 := Host.absf main_arg14
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  main_v73

def fn_part3 {F : FTy → Type} [FloatOps F] (main_arg11 : FVec F S16x256 .f32) (main_arg12 : FVec F S16 .f32) (main_arg13 : FVec F S256x16 .f32) (main_arg14 : FVec F S256 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S16x256 .f32 := Host.absf main_arg11
  let main_cst_20 : FVec F S_ .f32 := constant S_ .f32 0x7F800000#32
  let main_v55 : FVec F S16x256 .f32 := broadcastInDim S16x256 ![] bcast_S_S16x256 main_cst_20
  let main_v56 : IVec S16x256 1 := cmpf .olt main_v54 main_v55
  let main_c_21 : IVec S_ 1 := constantI S_ 1 1#1
  let main_v57 : IVec S_ 1 := (fun x v => Host.reduce IntOp.andi x v reducesTo_S16x256_S_d0_1 h_S_) main_v56 main_c_21
  let main_v58 : IVec S_ 1 := andi main_v53 main_v57
  let main_v59 : FVec F S16 .f32 := Host.absf main_arg12
  let main_cst_22 : FVec F S_ .f32 := constant S_ .f32 0x7F800000#32
  let main_v60 : FVec F S16 .f32 := broadcastInDim S16 ![] bcast_S_S16 main_cst_22
  let main_v61 : IVec S16 1 := cmpf .olt main_v59 main_v60
  let main_c_23 : IVec S_ 1 := constantI S_ 1 1#1
  let main_v62 : IVec S_ 1 := (fun x v => Host.reduce IntOp.andi x v reducesTo_S16_S_d0 h_S_) main_v61 main_c_23
  let main_v63 : IVec S_ 1 := andi main_v58 main_v62
  let main_v64 : FVec F S256x16 .f32 := Host.absf main_arg13
  let main_cst_24 : FVec F S_ .f32 := constant S_ .f32 0x7F800000#32
  let main_v65 : FVec F S256x16 .f32 := broadcastInDim S256x16 ![] bcast_S_S256x16 main_cst_24
  let main_v66 : IVec S256x16 1 := cmpf .olt main_v64 main_v65
  let main_c_25 : IVec S_ 1 := constantI S_ 1 1#1
  let main_v67 : IVec S_ 1 := (fun x v => Host.reduce IntOp.andi x v reducesTo_S256x16_S_d0_1 h_S_) main_v66 main_c_25
  fn_part4 (F := F) main_arg14 main_v63 main_v67

def fn_part2 {F : FTy → Type} [FloatOps F] (main_arg7 : FVec F S256x16 .f32) (main_arg8 : FVec F S256 .f32) (main_arg9 : FVec F S256x512 .f32) (main_arg10 : FVec F S256 .f32) (main_arg11 : FVec F S16x256 .f32) (main_arg12 : FVec F S16 .f32) (main_arg13 : FVec F S256x16 .f32) (main_arg14 : FVec F S256 .f32) (main_v33 : IVec S_ 1) : IVec S_ 1 :=
  let main_v34 : FVec F S256x16 .f32 := Host.absf main_arg7
  let main_cst_12 : FVec F S_ .f32 := constant S_ .f32 0x7F800000#32
  let main_v35 : FVec F S256x16 .f32 := broadcastInDim S256x16 ![] bcast_S_S256x16 main_cst_12
  let main_v36 : IVec S256x16 1 := cmpf .olt main_v34 main_v35
  let main_c_13 : IVec S_ 1 := constantI S_ 1 1#1
  let main_v37 : IVec S_ 1 := (fun x v => Host.reduce IntOp.andi x v reducesTo_S256x16_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x512 .f32 := Host.absf main_arg9
  let main_cst_16 : FVec F S_ .f32 := constant S_ .f32 0x7F800000#32
  let main_v45 : FVec F S256x512 .f32 := broadcastInDim S256x512 ![] bcast_S_S256x512 main_cst_16
  let main_v46 : IVec S256x512 1 := cmpf .olt main_v44 main_v45
  let main_c_17 : IVec S_ 1 := constantI S_ 1 1#1
  let main_v47 : IVec S_ 1 := (fun x v => Host.reduce IntOp.andi x v reducesTo_S256x512_S_d0_1 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_arg11 main_arg12 main_arg13 main_arg14 main_v48 main_v49 main_v50

def fn_part1 {F : FTy → Type} [FloatOps F] (main_arg4 : FVec F S256 .f32) (main_arg5 : FVec F S16x256 .f32) (main_arg6 : FVec F S16 .f32) (main_arg7 : FVec F S256x16 .f32) (main_arg8 : FVec F S256 .f32) (main_arg9 : FVec F S256x512 .f32) (main_arg10 : FVec F S256 .f32) (main_arg11 : FVec F S16x256 .f32) (main_arg12 : FVec F S16 .f32) (main_arg13 : FVec F S256x16 .f32) (main_arg14 : FVec F S256 .f32) (main_v13 : IVec S_ 1) (main_v16 : IVec S256x16 1) : IVec S_ 1 :=
  let main_c_5 : IVec S_ 1 := constantI S_ 1 1#1
  let main_v17 : IVec S_ 1 := (fun x v => Host.reduce IntOp.andi x v reducesTo_S256x16_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S16x256 .f32 := Host.absf main_arg5
  let main_cst_8 : FVec F S_ .f32 := constant S_ .f32 0x7F800000#32
  let main_v25 : FVec F S16x256 .f32 := broadcastInDim S16x256 ![] bcast_S_S16x256 main_cst_8
  let main_v26 : IVec S16x256 1 := cmpf .olt main_v24 main_v25
  let main_c_9 : IVec S_ 1 := constantI S_ 1 1#1
  let main_v27 : IVec S_ 1 := (fun x v => Host.reduce IntOp.andi x v reducesTo_S16x256_S_d0_1 h_S_) main_v26 main_c_9
  let main_v28 : IVec S_ 1 := andi main_v23 main_v27
  let main_v29 : FVec F S16 .f32 := Host.absf main_arg6
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S16x256x128x128 .f32) (main_arg1 : FVec F S16x256 .f32) (main_arg2 : FVec F S16 .f32) (main_arg3 : FVec F S256x16 .f32) (main_arg4 : FVec F S256 .f32) (main_arg5 : FVec F S16x256 .f32) (main_arg6 : FVec F S16 .f32) (main_arg7 : FVec F S256x16 .f32) (main_arg8 : FVec F S256 .f32) (main_arg9 : FVec F S256x512 .f32) (main_arg10 : FVec F S256 .f32) (main_arg11 : FVec F S16x256 .f32) (main_arg12 : FVec F S16 .f32) (main_arg13 : FVec F S256x16 .f32) (main_arg14 : FVec F S256 .f32) : IVec S_ 1 :=
  let main_v0 : FVec F S16x256x128x128 .f32 := Host.absf main_arg0
  let main_cst : FVec F S_ .f32 := constant S_ .f32 0x7F800000#32
  let main_v1 : FVec F S16x256x128x128 .f32 := broadcastInDim S16x256x128x128 ![] bcast_S_S16x256x128x128 main_cst
  let main_v2 : IVec S16x256x128x128 1 := cmpf .olt main_v0 main_v1
  let main_c : IVec S_ 1 := constantI S_ 1 1#1
  let main_v3 : IVec S_ 1 := (fun x v => Host.reduce IntOp.andi x v reducesTo_S16x256x128x128_S_d0_1_2_3 h_S_) main_v2 main_c
  let main_v4 : FVec F S16x256 .f32 := Host.absf main_arg1
  let main_cst_0 : FVec F S_ .f32 := constant S_ .f32 0x7F800000#32
  let main_v5 : FVec F S16x256 .f32 := broadcastInDim S16x256 ![] bcast_S_S16x256 main_cst_0
  let main_v6 : IVec S16x256 1 := cmpf .olt main_v4 main_v5
  let main_c_1 : IVec S_ 1 := constantI S_ 1 1#1
  let main_v7 : IVec S_ 1 := (fun x v => Host.reduce IntOp.andi x v reducesTo_S16x256_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S256x16 .f32 := Host.absf main_arg3
  let main_cst_4 : FVec F S_ .f32 := constant S_ .f32 0x7F800000#32
  let main_v15 : FVec F S256x16 .f32 := broadcastInDim S256x16 ![] bcast_S_S256x16 main_cst_4
  let main_v16 : IVec S256x16 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S16x256x128x128 : Shape := ⟨4, ![16, 256, 128, 128]⟩
abbrev S16x256 : Shape := ⟨2, ![16, 256]⟩
abbrev S16 : Shape := ⟨1, ![16]⟩
abbrev S256x16 : Shape := ⟨2, ![256, 16]⟩
abbrev S256 : Shape := ⟨1, ![256]⟩
abbrev S256x512 : Shape := ⟨2, ![256, 512]⟩
abbrev S8x256x16x128 : Shape := ⟨4, ![8, 256, 16, 128]⟩
abbrev S8x256 : Shape := ⟨2, ![8, 256]⟩
abbrev S8x256x16 : Shape := ⟨3, ![8, 256, 16]⟩
abbrev S8x16 : Shape := ⟨2, ![8, 16]⟩
abbrev S1x16 : Shape := ⟨2, ![1, 16]⟩
abbrev S1x256 : Shape := ⟨2, ![1, 256]⟩
abbrev S256x256 : Shape := ⟨2, ![256, 256]⟩
abbrev S4096x16384 : Shape := ⟨2, ![4096, 16384]⟩
abbrev S4096x1 : Shape := ⟨2, ![4096, 1]⟩
abbrev S512x2048 : Shape := ⟨2, ![512, 2048]⟩
abbrev S512x1 : Shape := ⟨2, ![512, 1]⟩

abbrev nBuf : Space → Nat
  | .hbm => 20
  | .vmem => 26
  | .smem => 0
  | _ => 0

abbrev bufTy : (tb : Table) → Fin (tcTables nBuf tb) → BufTy
  | .hbm, ⟨0, _⟩ => ⟨S16x256x128x128, .f32⟩
  | .hbm, ⟨1, _⟩ => ⟨S16x256, .f32⟩
  | .hbm, ⟨2, _⟩ => ⟨S16, .f32⟩
  | .hbm, ⟨3, _⟩ => ⟨S256x16, .f32⟩
  | .hbm, ⟨4, _⟩ => ⟨S256, .f32⟩
  | .hbm, ⟨5, _⟩ => ⟨S16x256, .f32⟩
  | .hbm, ⟨6, _⟩ => ⟨S16, .f32⟩
  | .hbm, ⟨7, _⟩ => ⟨S256x16, .f32⟩
  | .hbm, ⟨8, _⟩ => ⟨S256, .f32⟩
  | .hbm, ⟨9, _⟩ => ⟨S256x512, .f32⟩
  | .hbm, ⟨10, _⟩ => ⟨S256, .f32⟩
  | .hbm, ⟨11, _⟩ => ⟨S16x256, .f32⟩
  | .hbm, ⟨12, _⟩ => ⟨S16, .f32⟩
  | .hbm, ⟨13, _⟩ => ⟨S256x16, .f32⟩
  | .hbm, ⟨14, _⟩ => ⟨S256, .f32⟩
  | .hbm, ⟨15, _⟩ => ⟨S16x256, .f32⟩
  | .hbm, ⟨16, _⟩ => ⟨S4096x16384, .f32⟩
  | .hbm, ⟨17, _⟩ => ⟨S4096x1, .f32⟩
  | .hbm, ⟨18, _⟩ => ⟨S4096x16384, .f32⟩
  | .hbm, ⟨19, _⟩ => ⟨S16x256x128x128, .f32⟩
  | .local _ .vmem, ⟨0, _⟩ => ⟨S8x256x16x128, .f32⟩
  | .local _ .vmem, ⟨1, _⟩ => ⟨S8x256x16x128, .f32⟩
  | .local _ .vmem, ⟨2, _⟩ => ⟨S16x256, .f32⟩
  | .local _ .vmem, ⟨3, _⟩ => ⟨S16, .f32⟩
  | .local _ .vmem, ⟨4, _⟩ => ⟨S256x16, .f32⟩
  | .local _ .vmem, ⟨5, _⟩ => ⟨S256, .f32⟩
  | .local _ .vmem, ⟨6, _⟩ => ⟨S16x256, .f32⟩
  | .local _ .vmem, ⟨7, _⟩ => ⟨S16, .f32⟩
  | .local _ .vmem, ⟨8, _⟩ => ⟨S256x16, .f32⟩
  | .local _ .vmem, ⟨9, _⟩ => ⟨S256, .f32⟩
  | .local _ .vmem, ⟨10, _⟩ => ⟨S256x512, .f32⟩
  | .local _ .vmem, ⟨11, _⟩ => ⟨S256, .f32⟩
  | .local _ .vmem, ⟨12, _⟩ => ⟨S16x256, .f32⟩
  | .local _ .vmem, ⟨13, _⟩ => ⟨S16, .f32⟩
  | .local _ .vmem, ⟨14, _⟩ => ⟨S256x16, .f32⟩
  | .local _ .vmem, ⟨15, _⟩ => ⟨S256, .f32⟩
  | .local _ .vmem, ⟨16, _⟩ => ⟨S8x256, .f32⟩
  | .local _ .vmem, ⟨17, _⟩ => ⟨S8x256, .f32⟩
  | .local _ .vmem, ⟨18, _⟩ => ⟨S8x256, .f32⟩
  | .local _ .vmem, ⟨19, _⟩ => ⟨S8x256, .f32⟩
  | .local _ .vmem, ⟨20, _⟩ => ⟨S512x2048, .f32⟩
  | .local _ .vmem, ⟨21, _⟩ => ⟨S512x2048, .f32⟩
  | .local _ .vmem, ⟨22, _⟩ => ⟨S512x1, .f32⟩
  | .local _ .vmem, ⟨23, _⟩ => ⟨S512x1, .f32⟩
  | .local _ .vmem, ⟨24, _⟩ => ⟨S512x2048, .f32⟩
  | .local _ .vmem, ⟨25, _⟩ => ⟨S512x2048, .f32⟩
  | _, _ => ⟨S16x256x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg15_1 : Ref sig .tc := ⟨.vmem, 17, rfl⟩
abbrev cc0_scratch0 : Ref sig .tc := ⟨.vmem, 18, rfl⟩
abbrev cc0_scratch1 : Ref sig .tc := ⟨.vmem, 19, rfl⟩
abbrev cc1_stg0_0 : Ref sig .tc := ⟨.vmem, 20, rfl⟩
abbrev cc1_stg0_1 : Ref sig .tc := ⟨.vmem, 21, rfl⟩
abbrev cc1_stg1_0 : Ref sig .tc := ⟨.vmem, 22, rfl⟩
abbrev cc1_stg1_1 : Ref sig .tc := ⟨.vmem, 23, rfl⟩
abbrev cc1_stg2_0 : Ref sig .tc := ⟨.vmem, 24, rfl⟩
abbrev cc1_stg2_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem15_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v19 : BitVec 1 := Scalar.cmpi .eq arg1 c7_i32
  let v20 : BitVec 32 := Scalar.extui v19
  let c0_i32_15 : BitVec 32 := 0#32
  let v21 : BitVec 1 := Scalar.cmpi .ne v20 c0_i32_15
  v21

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x256x16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S16x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S16x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S256x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S16x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S16 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S256x16 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S8x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev grid1 : Pipeline.Grid := ⟨2, ![8, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S512x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S512x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  inb_S8x256_S8x256_0_0 : ∀ a, (![0, 0] : Fin 2 → Nat) a + S8x256.size a ≤ S8x256.size a
  h_S8x256 : 0 < S8x256.numel
  shapeCasts_S8x256_S8x256 : S8x256.ShapeCasts S8x256
  inb_S8x256x16x128_S8x256x16x128_0_0_0_0 : ∀ a, (![0, 0, 0, 0] : Fin 4 → Nat) a + S8x256x16x128.size a ≤ S8x256x16x128.size a
  h_S8x256x16x128 : 0 < S8x256x16x128.numel
  reduces_S8x256x16x128_S8x256x16 : S8x256x16x128.Reduces [3] S8x256x16
  reduces_S8x256x16_S8x256 : S8x256x16.Reduces [2] S8x256
  inb_S16x256_S16x256_0_0 : ∀ a, (![0, 0] : Fin 2 → Nat) a + S16x256.size a ≤ S16x256.size a
  h_S16x256 : 0 < S16x256.numel
  inb_S16_S16_0 : ∀ a, (![0] : Fin 1 → Nat) a + S16.size a ≤ S16.size a
  h_S16 : 0 < S16.numel
  shapeCasts_S16_S1x16 : S16.ShapeCasts S1x16
  broadcasts_S1x16_S8x16 : S1x16.Broadcasts S8x16
  inb_S256x16_S256x16_0_0 : ∀ a, (![0, 0] : Fin 2 → Nat) a + S256x16.size a ≤ S256x16.size a
  h_S256x16 : 0 < S256x16.numel
  inb_S256_S256_0 : ∀ a, (![0] : Fin 1 → Nat) a + S256.size a ≤ S256.size a
  h_S256 : 0 < S256.numel
  shapeCasts_S256_S1x256 : S256.ShapeCasts S1x256
  broadcasts_S1x256_S8x256 : S1x256.Broadcasts S8x256
  inb_S256x512_S256x256_0_0 : ∀ a, (![0, 0] : Fin 2 → Nat) a + S256x256.size a ≤ S256x512.size a
  h_S256x256 : 0 < S256x256.numel
  inb_S256x512_S256x256_0_256 : ∀ a, (![0, 256] : Fin 2 → Nat) a + S256x256.size a ≤ S256x512.size a
  shapeCasts_S16x256x128x128_S4096x16384 : S16x256x128x128.ShapeCasts S4096x16384
  shapeCasts_S16x256_S4096x1 : S16x256.ShapeCasts S4096x1
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x2048 : S512x1.Broadcasts S512x2048
  shapeCasts_S4096x16384_S16x256x128x128 : S4096x16384.ShapeCasts S16x256x128x128
  dot_S8x256_S16x256_S8x16_1_1_0_0_n_n_wf : DotDims.WF S8x256 S16x256 S8x16 [1] [1] [0] [0] [] []
  dot_S8x16_S256x16_S8x256_1_1_0_0_n_n_wf : DotDims.WF S8x16 S256x16 S8x256 [1] [1] [0] [0] [] []
  dot_S8x256_S256x256_S8x256_1_1_0_0_n_n_wf : DotDims.WF S8x256 S256x256 S8x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x256x16x128.size a ≤ S16x256x128x128.size a
  hwx0_0 : ∀ i : grid0.Coords, EltTy.bits .f32 = 32 ∨ (Rect.block (s := S16x256x128x128) S8x256x16x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x256.size a ≤ S16x256.size a
  hwx0_1 : ∀ i : grid0.Coords, EltTy.bits .f32 = 32 ∨ (Rect.block (s := S16x256) S16x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16.size a ≤ S16.size a
  hwx0_2 : ∀ i : grid0.Coords, EltTy.bits .f32 = 32 ∨ (Rect.block (s := S16) S16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x16.size a ≤ S256x16.size a
  hwx0_3 : ∀ i : grid0.Coords, EltTy.bits .f32 = 32 ∨ (Rect.block (s := S256x16) S256x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16x256.size a ≤ S16x256.size a
  hwx0_5 : ∀ i : grid0.Coords, EltTy.bits .f32 = 32 ∨ (Rect.block (s := S16x256) S16x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S16.size a ≤ S16.size a
  hwx0_6 : ∀ i : grid0.Coords, EltTy.bits .f32 = 32 ∨ (Rect.block (s := S16) S16.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x16.size a ≤ S256x16.size a
  hwx0_7 : ∀ i : grid0.Coords, EltTy.bits .f32 = 32 ∨ (Rect.block (s := S256x16) S256x16.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256.size a ≤ S256.size a
  hwx0_8 : ∀ i : grid0.Coords, EltTy.bits .f32 = 32 ∨ (Rect.block (s := S256) S256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x512.size a ≤ S256x512.size a
  hwx0_9 : ∀ i : grid0.Coords, EltTy.bits .f32 = 32 ∨ (Rect.block (s := S256x512) S256x512.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256.size a ≤ S256.size a
  hwx0_10 : ∀ i : grid0.Coords, EltTy.bits .f32 = 32 ∨ (Rect.block (s := S256) S256.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S16x256.size a ≤ S16x256.size a
  hwx0_11 : ∀ i : grid0.Coords, EltTy.bits .f32 = 32 ∨ (Rect.block (s := S16x256) S16x256.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S16.size a ≤ S16.size a
  hwx0_12 : ∀ i : grid0.Coords, EltTy.bits .f32 = 32 ∨ (Rect.block (s := S16) S16.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S256x16.size a ≤ S256x16.size a
  hwx0_13 : ∀ i : grid0.Coords, EltTy.bits .f32 = 32 ∨ (Rect.block (s := S256x16) S256x16.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S256.size a ≤ S256.size a
  hwx0_14 : ∀ i : grid0.Coords, EltTy.bits .f32 = 32 ∨ (Rect.block (s := S256) S256.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S8x256.size a ≤ S16x256.size a
  hwx0_15 : ∀ i : grid0.Coords, EltTy.bits .f32 = 32 ∨ (Rect.block (s := S16x256) S8x256.size (cc0_transform_15 i) (hinb0_15 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S4096x16384.size a
  hwx1_0 : ∀ i : grid1.Coords, EltTy.bits .f32 = 32 ∨ (Rect.block (s := S4096x16384) S512x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x1.size a ≤ S4096x1.size a
  hwx1_1 : ∀ i : grid1.Coords, EltTy.bits .f32 = 32 ∨ (Rect.block (s := S4096x1) S512x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x2048.size a ≤ S4096x16384.size a
  hwx1_2 : ∀ i : grid1.Coords, EltTy.bits .f32 = 32 ∨ (Rect.block (s := S4096x16384) S512x2048.size (cc1_transform_2 i) (hinb1_2 i)).WholeWords (EltTy.packing .f32)

variable [Facts₀]

def dot_S8x256_S16x256_S8x16_1_1_0_0_n_n : DotDims S8x256 S16x256 S8x16 where
  lhsContracting := [1]
  rhsContracting := [1]
  lhsNonContracting := [0]
  rhsNonContracting := [0]
  lhsBatch := []
  rhsBatch := []
  wf := dot_S8x256_S16x256_S8x16_1_1_0_0_n_n_wf
def dot_S8x16_S256x16_S8x256_1_1_0_0_n_n : DotDims S8x16 S256x16 S8x256 where
  lhsContracting := [1]
  rhsContracting := [1]
  lhsNonContracting := [0]
  rhsNonContracting := [0]
  lhsBatch := []
  rhsBatch := []
  wf := dot_S8x16_S256x16_S8x256_1_1_0_0_n_n_wf
def dot_S8x256_S256x256_S8x256_1_1_0_0_n_n : DotDims S8x256 S256x256 S8x256 where
  lhsContracting := [1]
  rhsContracting := [1]
  lhsNonContracting := [0]
  rhsNonContracting := [0]
  lhsBatch := []
  rhsBatch := []
  wf := dot_S8x256_S256x256_S8x256_1_1_0_0_n_n_wf

abbrev win0_0 : Pipeline.Window sig grid0 :=
  Pipeline.Window.ofSpec (Memref.whole main_arg0) S8x256x16x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S16x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S16.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S256x16.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S256x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S16x256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S16.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S256x16.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg14) S256.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v0) S8x256.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

abbrev idle0 : Fin 16 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun _ => false | 13 => fun _ => false | 14 => fun _ => false | 15 => fun i => !(k0_cond2 i == 1#1) | ⟨_ + 16, h⟩ => absurd h (Nat.not_lt.2 (Nat.le_add_left _ _))

abbrev win1_0 : Pipeline.Window sig grid1 :=
  Pipeline.Window.ofSpec (Memref.whole main_v1) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S512x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S512x2048.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S16x256x128x128 : Shape := ⟨4, ![16, 256, 128, 128]⟩
abbrev S16x256 : Shape := ⟨2, ![16, 256]⟩
abbrev S16 : Shape := ⟨1, ![16]⟩
abbrev S256x16 : Shape := ⟨2, ![256, 16]⟩
abbrev S256 : Shape := ⟨1, ![256]⟩
abbrev S256x512 : Shape := ⟨2, ![256, 512]⟩
abbrev S_ : Shape := ⟨0, ![]⟩
abbrev S16x256x1x1 : Shape := ⟨4, ![16, 256, 1, 1]⟩
abbrev S16x16 : Shape := ⟨2, ![16, 16]⟩
abbrev S1x16 : Shape := ⟨2, ![1, 16]⟩
abbrev S1x256 : Shape := ⟨2, ![1, 256]⟩
abbrev S16x512 : Shape := ⟨2, ![16, 512]⟩

abbrev nBuf : Space → Nat
  | .hbm => 82
  | .vmem => 0
  | .smem => 0
  | _ => 0

abbrev bufTy : (tb : Table) → Fin (tcTables nBuf tb) → BufTy
  | .hbm, ⟨0, _⟩ => ⟨S16x256x128x128, .f32⟩
  | .hbm, ⟨1, _⟩ => ⟨S16x256, .f32⟩
  | .hbm, ⟨2, _⟩ => ⟨S16, .f32⟩
  | .hbm, ⟨3, _⟩ => ⟨S256x16, .f32⟩
  | .hbm, ⟨4, _⟩ => ⟨S256, .f32⟩
  | .hbm, ⟨5, _⟩ => ⟨S16x256, .f32⟩
  | .hbm, ⟨6, _⟩ => ⟨S16, .f32⟩
  | .hbm, ⟨7, _⟩ => ⟨S256x16, .f32⟩
  | .hbm, ⟨8, _⟩ => ⟨S256, .f32⟩
  | .hbm, ⟨9, _⟩ => ⟨S256x512, .f32⟩
  | .hbm, ⟨10, _⟩ => ⟨S256, .f32⟩
  | .hbm, ⟨11, _⟩ => ⟨S16x256, .f32⟩
  | .hbm, ⟨12, _⟩ => ⟨S16, .f32⟩
  | .hbm, ⟨13, _⟩ => ⟨S256x16, .f32⟩
  | .hbm, ⟨14, _⟩ => ⟨S256, .f32⟩
  | .hbm, ⟨15, _⟩ => ⟨S_, .f32⟩
  | .hbm, ⟨16, _⟩ => ⟨S16x256, .f32⟩
  | .hbm, ⟨17, _⟩ => ⟨S_, .f32⟩
  | .hbm, ⟨18, _⟩ => ⟨S16x256, .f32⟩
  | .hbm, ⟨19, _⟩ => ⟨S16x256, .f32⟩
  | .hbm, ⟨20, _⟩ => ⟨S16x256x1x1, .f32⟩
  | .hbm, ⟨21, _⟩ => ⟨S16x256x128x128, .f32⟩
  | .hbm, ⟨22, _⟩ => ⟨S16x256x128x128, .f32⟩
  | .hbm, ⟨23, _⟩ => ⟨S16x256x128x128, .f32⟩
  | .hbm, ⟨24, _⟩ => ⟨S_, .f32⟩
  | .hbm, ⟨25, _⟩ => ⟨S16x256, .f32⟩
  | .hbm, ⟨26, _⟩ => ⟨S_, .f32⟩
  | .hbm, ⟨27, _⟩ => ⟨S16x256, .f32⟩
  | .hbm, ⟨28, _⟩ => ⟨S16x256, .f32⟩
  | .hbm, ⟨29, _⟩ => ⟨S16x256, .f32⟩
  | .hbm, ⟨30, _⟩ => ⟨S16x16, .f32⟩
  | .hbm, ⟨31, _⟩ => ⟨S1x16, .f32⟩
  | .hbm, ⟨32, _⟩ => ⟨S16x16, .f32⟩
  | .hbm, ⟨33, _⟩ => ⟨S16x16, .f32⟩
  | .hbm, ⟨34, _⟩ => ⟨S_, .f32⟩
  | .hbm, ⟨35, _⟩ => ⟨S16x16, .f32⟩
  | .hbm, ⟨36, _⟩ => ⟨S16x16, .f32⟩
  | .hbm, ⟨37, _⟩ => ⟨S16x256, .f32⟩
  | .hbm, ⟨38, _⟩ => ⟨S1x256, .f32⟩
  | .hbm, ⟨39, _⟩ => ⟨S16x256, .f32⟩
  | .hbm, ⟨40, _⟩ => ⟨S16x256, .f32⟩
  | .hbm, ⟨41, _⟩ => ⟨S16x16, .f32⟩
  | .hbm, ⟨42, _⟩ => ⟨S1x16, .f32⟩
  | .hbm, ⟨43, _⟩ => ⟨S16x16, .f32⟩
  | .hbm, ⟨44, _⟩ => ⟨S16x16, .f32⟩
  | .hbm, ⟨45, _⟩ => ⟨S_, .f32⟩
  | .hbm, ⟨46, _⟩ => ⟨S16x16, .f32⟩
  | .hbm, ⟨47, _⟩ => ⟨S16x16, .f32⟩
  | .hbm, ⟨48, _⟩ => ⟨S16x256, .f32⟩
  | .hbm, ⟨49, _⟩ => ⟨S1x256, .f32⟩
  | .hbm, ⟨50, _⟩ => ⟨S16x256, .f32⟩
  | .hbm, ⟨51, _⟩ => ⟨S16x256, .f32⟩
  | .hbm, ⟨52, _⟩ => ⟨S16x512, .f32⟩
  | .hbm, ⟨53, _⟩ => ⟨S16x256, .f32⟩
  | .hbm, ⟨54, _⟩ => ⟨S1x256, .f32⟩
  | .hbm, ⟨55, _⟩ => ⟨S16x256, .f32⟩
  | .hbm, ⟨56, _⟩ => ⟨S16x256, .f32⟩
  | .hbm, ⟨57, _⟩ => ⟨S_, .f32⟩
  | .hbm, ⟨58, _⟩ => ⟨S16x256, .f32⟩
  | .hbm, ⟨59, _⟩ => ⟨S16x256, .f32⟩
  | .hbm, ⟨60, _⟩ => ⟨S16x16, .f32⟩
  | .hbm, ⟨61, _⟩ => ⟨S1x16, .f32⟩
  | .hbm, ⟨62, _⟩ => ⟨S16x16, .f32⟩
  | .hbm, ⟨63, _⟩ => ⟨S16x16, .f32⟩
  | .hbm, ⟨64, _⟩ => ⟨S_, .f32⟩
  | .hbm, ⟨65, _⟩ => ⟨S16x16, .f32⟩
  | .hbm, ⟨66, _⟩ => ⟨S16x16, .f32⟩
  | .hbm, ⟨67, _⟩ => ⟨S16x256, .f32⟩
  | .hbm, ⟨68, _⟩ => ⟨S1x256, .f32⟩
  | .hbm, ⟨69, _⟩ => ⟨S16x256, .f32⟩
  | .hbm, ⟨70, _⟩ => ⟨S16x256, .f32⟩
  | .hbm, ⟨71, _⟩ => ⟨S16x256, .f32⟩
  | .hbm, ⟨72, _⟩ => ⟨S16x256, .f32⟩
  | .hbm, ⟨73, _⟩ => ⟨S_, .f32⟩
  | .hbm, ⟨74, _⟩ => ⟨S16x256, .f32⟩
  | .hbm, ⟨75, _⟩ => ⟨S16x256, .f32⟩
  | .hbm, ⟨76, _⟩ => ⟨S_, .f32⟩
  | .hbm, ⟨77, _⟩ => ⟨S16x256, .f32⟩
  | .hbm, ⟨78, _⟩ => ⟨S16x256, .f32⟩
  | .hbm, ⟨79, _⟩ => ⟨S16x256x1x1, .f32⟩
  | .hbm, ⟨80, _⟩ => ⟨S16x256x128x128, .f32⟩
  | .hbm, ⟨81, _⟩ => ⟨S16x256x128x128, .f32⟩
  | _, _ => ⟨S16x256x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_cst_0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst_1 : Ref sig .tc := ⟨.hbm, 24, rfl⟩
abbrev main_v7 : Ref sig .tc := ⟨.hbm, 25, rfl⟩
abbrev main_cst_2 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_call0_cst : Ref sig .tc := ⟨.hbm, 34, rfl⟩
abbrev main_call0_v0 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_call1_cst : Ref sig .tc := ⟨.hbm, 45, rfl⟩
abbrev main_call1_v0 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_call2_cst : Ref sig .tc := ⟨.hbm, 57, rfl⟩
abbrev main_call2_v0 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_call3_cst : Ref sig .tc := ⟨.hbm, 64, rfl⟩
abbrev main_call3_v0 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_cst_3 : Ref sig .tc := ⟨.hbm, 73, rfl⟩
abbrev main_v46 : Ref sig .tc := ⟨.hbm, 74, rfl⟩
abbrev main_v47 : Ref sig .tc := ⟨.hbm, 75, rfl⟩
abbrev main_cst_4 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩

abbrev nD : Nat := 1
abbrev τ : Topo := Topo.v7x

variable {F : FTy → Type} [FloatOps F]

class Facts₀ : Prop where
  reducesTo_S16x256x128x128_S16x256_d2_3 : S16x256x128x128.ReducesTo [2, 3] S16x256
  h_S_ : 0 < S_.numel
  bcast_S_S16x256 : S_.BroadcastsInDim S16x256 (![] : Fin 0 → Fin S16x256.rank)
  bcast_S16x256_S16x256x1x1_0_1 : S16x256.BroadcastsInDim S16x256x1x1 (![0, 1] : Fin 2 → Fin S16x256x1x1.rank)
  bcast_S16x256x1x1_S16x256x128x128_0_1_2_3 : S16x256x1x1.BroadcastsInDim S16x256x128x128 (![0, 1, 2, 3] : Fin 4 → Fin S16x256x128x128.rank)
  bcast_S16_S1x16_1 : S16.BroadcastsInDim S1x16 (![1] : Fin 1 → Fin S1x16.rank)
  bcast_S1x16_S16x16_0_1 : S1x16.BroadcastsInDim S16x16 (![0, 1] : Fin 2 → Fin S16x16.rank)
  bcast_S_S16x16 : S_.BroadcastsInDim S16x16 (![] : Fin 0 → Fin S16x16.rank)
  bcast_S256_S1x256_1 : S256.BroadcastsInDim S1x256 (![1] : Fin 1 → Fin S1x256.rank)
  bcast_S1x256_S16x256_0_1 : S1x256.BroadcastsInDim S16x256 (![0, 1] : Fin 2 → Fin S16x256.rank)
  concatenates_S16x256_S16x256_S16x512_d1 : Shape.Concatenates [S16x256, S16x256] S16x512 1
  dot_S16x256_S16x256_S16x16_1_1_0_0_n_n_wf : DotDims.WF S16x256 S16x256 S16x16 [1] [1] [0] [0] [] []
  dot_S16x16_S256x16_S16x256_1_1_0_0_n_n_wf : DotDims.WF S16x16 S256x16 S16x256 [1] [1] [0] [0] [] []
  dot_S16x512_S256x512_S16x256_1_1_0_0_n_n_wf : DotDims.WF S16x512 S256x512 S16x256 [1] [1] [0] [0] [] []

variable [Facts₀]

def dot_S16x256_S16x256_S16x16_1_1_0_0_n_n : DotDims S16x256 S16x256 S16x16 where
  lhsContracting := [1]
  rhsContracting := [1]
  lhsNonContracting := [0]
  rhsNonContracting := [0]
  lhsBatch := []
  rhsBatch := []
  wf := dot_S16x256_S16x256_S16x16_1_1_0_0_n_n_wf
def dot_S16x16_S256x16_S16x256_1_1_0_0_n_n : DotDims S16x16 S256x16 S16x256 where
  lhsContracting := [1]
  rhsContracting := [1]
  lhsNonContracting := [0]
  rhsNonContracting := [0]
  lhsBatch := []
  rhsBatch := []
  wf := dot_S16x16_S256x16_S16x256_1_1_0_0_n_n_wf
def dot_S16x512_S256x512_S16x256_1_1_0_0_n_n : DotDims S16x512 S256x512 S16x256 where
  lhsContracting := [1]
  rhsContracting := [1]
  lhsNonContracting := [0]
  rhsNonContracting := [0]
  lhsBatch := []
  rhsBatch := []
  wf := dot_S16x512_S256x512_S16x256_1_1_0_0_n_n_wf

class Facts : Prop extends Facts₀ where

variable [Facts]
-- ==== Proof.Region0RunsK.lean ====
/-
  Region 0 (the statistics-and-gate kernel on its 2 × 8 grid): what its whole-body runs are stated over.

  A grid point t has coordinates (t / 8, t % 8): a batch block of 8 rows and one of the 8 slabs of 16 image rows.
  The body first clears its two [8,256] accumulators when the slab coordinate is 0, then adds the slab's sums and
  sums of squares into them, and, when the slab coordinate is 7, turns the finished sums into the gate and stores it
  into the output block.  So three control cases occur: the first slab (t % 8 = 0), a middle slab (0 < t % 8 < 7)
  and the last slab (t % 8 = 7).  The output block is touched in the last case only; elsewhere the pipeline neither
  expects a store into it nor writes it back.
-/
import proofs.«165288_j12446815224180_2_alg».proof.Proof.Gen.Kernel.Launch
import proofs.«165288_j12446815224180_2_alg».proof.Proof.Gen.Kernel.Skeleton
import proofs.«165288_j12446815224180_2_alg».proof.Proof.Gen.Kernel.Points
import Idealize.ShloMosaic.Lib.Pipeline.FrameBody
import Idealize.ShloMosaic.Lib.Ring
import Idealize.ShloMosaic.Lib.Tactic

-- membership in a rectangle of full extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two branch conditions -/

/-- The condition of the first `scf.if` (clear the accumulators): the slab coordinate equals 0, as the body's
    integer chain computes it from the grid coordinates. -/
abbrev cond0_0 (i : grid0.Coords) : Prop := (Scalar.cmpi .ne (Scalar.extui (Scalar.cmpi .eq (BitVec.ofNat 32 (i 1).val) 0#32)) 0#32) = 1#1
/-- It holds exactly at the first slab of each batch block. -/
theorem hcond0_0 : ∀ t : Fin cfg0.N, cond0_0 (grid0.coords t) ↔ t.val % 8 = 0 :=
  (by decide +kernel : ∀ t : Fin grid0.N, cond0_0 (grid0.coords t) ↔ t.val % 8 = 0)

/-- The condition of the second `scf.if` (finish the gate): the slab coordinate equals 7. -/
abbrev cond0_1 (i : grid0.Coords) : Prop := k0_cond2 i = 1#1
/-- It holds exactly at the last slab of each batch block. -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

/-- Input window 0 is never idle. -/
theorem liveAt0_0 : ∀ t : Fin cfg0.N, cfg0.idle 0 (grid0.coords t) = false := by decide +kernel
/-- Input window 1 is never idle. -/
theorem liveAt0_1 : ∀ t : Fin cfg0.N, cfg0.idle 1 (grid0.coords t) = false := by decide +kernel
/-- Input window 2 is never idle. -/
theorem liveAt0_2 : ∀ t : Fin cfg0.N, cfg0.idle 2 (grid0.coords t) = false := by decide +kernel
/-- Input window 3 is never idle. -/
theorem liveAt0_3 : ∀ t : Fin cfg0.N, cfg0.idle 3 (grid0.coords t) = false := by decide +kernel
/-- Input window 4 is never idle. -/
theorem liveAt0_4 : ∀ t : Fin cfg0.N, cfg0.idle 4 (grid0.coords t) = false := by decide +kernel
/-- Input window 5 is never idle. -/
theorem liveAt0_5 : ∀ t : Fin cfg0.N, cfg0.idle 5 (grid0.coords t) = false := by decide +kernel
/-- Input window 6 is never idle. -/
theorem liveAt0_6 : ∀ t : Fin cfg0.N, cfg0.idle 6 (grid0.coords t) = false := by decide +kernel
/-- Input window 7 is never idle. -/
theorem liveAt0_7 : ∀ t : Fin cfg0.N, cfg0.idle 7 (grid0.coords t) = false := by decide +kernel
/-- Input window 8 is never idle. -/
theorem liveAt0_8 : ∀ t : Fin cfg0.N, cfg0.idle 8 (grid0.coords t) = false := by decide +kernel
/-- Input window 9 is never idle. -/
theorem liveAt0_9 : ∀ t : Fin cfg0.N, cfg0.idle 9 (grid0.coords t) = false := by decide +kernel
/-- Input window 10 is never idle. -/
theorem liveAt0_10 : ∀ t : Fin cfg0.N, cfg0.idle 10 (grid0.coords t) = false := by decide +kernel
/-- Input window 11 is never idle. -/
theorem liveAt0_11 : ∀ t : Fin cfg0.N, cfg0.idle 11 (grid0.coords t) = false := by decide +kernel
/-- Input window 12 is never idle. -/
theorem liveAt0_12 : ∀ t : Fin cfg0.N, cfg0.idle 12 (grid0.coords t) = false := by decide +kernel
/-- Input window 13 is never idle. -/
theorem liveAt0_13 : ∀ t : Fin cfg0.N, cfg0.idle 13 (grid0.coords t) = false := by decide +kernel
/-- Input window 14 is never idle. -/
theorem liveAt0_14 : ∀ t : Fin cfg0.N, cfg0.idle 14 (grid0.coords t) = false := by decide +kernel
/-- At a first slab nothing is stored into the output block: the window is idle there. -/
theorem idleAt0_15_A : ∀ t : Fin cfg0.N, cond0_0 (grid0.coords t) → ¬cond0_1 (grid0.coords t) → cfg0.idle 15 (grid0.coords t) = true := by decide +kernel
/-- At a first slab the output block is not written back. -/
theorem noFlush0_15_A : ∀ t : Fin cfg0.N, cond0_0 (grid0.coords t) → ¬cond0_1 (grid0.coords t) → (cfg0.win 15).flush t = false := by decide +kernel
/-- At a middle slab nothing is stored into the output block: the window is idle there. -/
theorem idleAt0_15_B : ∀ t : Fin cfg0.N, ¬cond0_0 (grid0.coords t) → ¬cond0_1 (grid0.coords t) → cfg0.idle 15 (grid0.coords t) = true := by decide +kernel
/-- At a middle slab the output block is not written back. -/
theorem noFlush0_15_B : ∀ t : Fin cfg0.N, ¬cond0_0 (grid0.coords t) → ¬cond0_1 (grid0.coords t) → (cfg0.win 15).flush t = false := by decide +kernel
/-- At a last slab the gate is stored into the output block: the window is live there. -/
theorem liveAt0_15_C : ∀ t : Fin cfg0.N, ¬cond0_0 (grid0.coords t) → cond0_1 (grid0.coords t) → cfg0.idle 15 (grid0.coords t) = false := by decide +kernel

/-! ## The memrefs the body is called with -/

/-- One staging buffer of the output window, through which the gate block's contents are stated (which of the two
    is chosen does not matter: a view's read-back of covering pieces depends on the pieces alone). -/
abbrev VO0_15 : View sig .tc .vmem S8x256 .f32 := (Memref.whole cc0_stg15_0 : Memref sig .tc .vmem S8x256 .f32).view
/-- Each window's current staging memref at point `t`, spelled as the pipeline passes it to the body, and its wholeness. -/
abbrev ms0_0 (t : Fin cfg0.N) : Memref sig .tc .vmem S8x256x16x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S16 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x16 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S16x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S16 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x16 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S256 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S256x512 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S256 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S16x256 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S16 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S256x16 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S256 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S8x256 .f32 := win0_15.stage (cfg0.slots t 15)
abbrev hs0_15 (t : Fin cfg0.N) : (ms0_15 t).IsWhole := hstage0_15 ((cfg0.slots t 15).cast nbuf0_15)
/-- The two accumulators: whole scoped buffers of the kernel's own, passed beside the windows. The first holds the
    running sums, the second the running sums of squares, per batch row and channel. -/
abbrev scM0_0 : Memref sig .tc .vmem S8x256 .f32 := Memref.whole cc0_scratch0
abbrev scM0_1 : Memref sig .tc .vmem S8x256 .f32 := Memref.whole cc0_scratch1
/-- The accumulators as views: what each holds between grid points is stated through them. -/
abbrev VS0_0 : View sig .tc .vmem S8x256 .f32 := scM0_0.view
abbrev VS0_1 : View sig .tc .vmem S8x256 .f32 := scM0_1.view

/-- The core's scoped buffers that belong to the second pallas_call (its six staging buffers), each whole at some
    contents: region 0 never touches them and carries them along as one conjunct. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The region's invariant with the two accumulators as memrefs owned at some contents, the second pallas_call's
    staging buffers as one conjunct, and the generator register at some state: what the body obligation hands a
    run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ rest0 (F := F) c) ∗ (∃ r, prngReg c r)) := by
  unfold Pipeline.ΦA rest0; rw [scopedRest0_eq]; simp only [scM0_0, scM0_1, owns_whole]; try rfl

end Cert.Kernel.Hand

end
-- ==== Proof.Region0RunAK.lean ====
/-
  Region 0, the body's run at the first slab of a batch block.
-/
import proofs.«165288_j12446815224180_2_alg».proof.Proof.Region0RunsK

-- membership in a rectangle of full extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- THE FIRST SLAB of a batch block (slab coordinate 0: the accumulators are cleared, the gate is not finished).
    On whole memrefs, with the image block `x0` and the fourteen weight arrays `x1 … x14` in their buffers, the
    output block at any contents `xi15` and the two accumulators at anything, the body runs to a state where the
    inputs and the output block are as they were and each accumulator holds what the listed pieces (last store
    first) write: first the zero block, then zero plus the slab's sums (`LS0`), respectively zero plus the slab's
    sums of squares (`LS1`). Nothing is stored into the output block: its piece list `L15` is empty. -/
noncomputable def kernelRun0_A (c : Dev nD) (i : grid0.Coords) (arg2 : Memref sig .tc .vmem S8x256x16x128 .f32) (harg2 : arg2.IsWhole) (arg3 : Memref sig .tc .vmem S16x256 .f32) (harg3 : arg3.IsWhole) (arg4 : Memref sig .tc .vmem S16 .f32) (harg4 : arg4.IsWhole) (arg5 : Memref sig .tc .vmem S256x16 .f32) (harg5 : arg5.IsWhole) (arg6 : Memref sig .tc .vmem S256 .f32) (harg6 : arg6.IsWhole) (arg7 : Memref sig .tc .vmem S16x256 .f32) (harg7 : arg7.IsWhole) (arg8 : Memref sig .tc .vmem S16 .f32) (harg8 : arg8.IsWhole) (arg9 : Memref sig .tc .vmem S256x16 .f32) (harg9 : arg9.IsWhole) (arg10 : Memref sig .tc .vmem S256 .f32) (harg10 : arg10.IsWhole) (arg11 : Memref sig .tc .vmem S256x512 .f32) (harg11 : arg11.IsWhole) (arg12 : Memref sig .tc .vmem S256 .f32) (harg12 : arg12.IsWhole) (arg13 : Memref sig .tc .vmem S16x256 .f32) (harg13 : arg13.IsWhole) (arg14 : Memref sig .tc .vmem S16 .f32) (harg14 : arg14.IsWhole) (arg15 : Memref sig .tc .vmem S256x16 .f32) (harg15 : arg15.IsWhole) (arg16 : Memref sig .tc .vmem S256 .f32) (harg16 : arg16.IsWhole) (arg17 : Memref sig .tc .vmem S8x256 .f32) (harg17 : arg17.IsWhole) (arg18 : Memref sig .tc .vmem S8x256 .f32) (harg18 : arg18.IsWhole) (arg19 : Memref sig .tc .vmem S8x256 .f32) (harg19 : arg19.IsWhole) (hc0 : cond0_0 i) (hc1 : ¬cond0_1 i)
    (x0 : Vec F S8x256x16x128 .f32) (x1 : Vec F S16x256 .f32) (x2 : Vec F S16 .f32) (x3 : Vec F S256x16 .f32) (x4 : Vec F S256 .f32) (x5 : Vec F S16x256 .f32) (x6 : Vec F S16 .f32) (x7 : Vec F S256x16 .f32) (x8 : Vec F S256 .f32) (x9 : Vec F S256x512 .f32) (x10 : Vec F S256 .f32) (x11 : Vec F S16x256 .f32) (x12 : Vec F S16 .f32) (x13 : Vec F S256x16 .f32) (x14 : Vec F S256 .f32) :
    Σ' (L15 : List (View.Piece (Elt F) S8x256 .f32)) (LS0 : List (View.Piece (Elt F) S8x256 .f32)), { LS1 : List (View.Piece (Elt F) S8x256 .f32) //
      ∀ (xi15 : Vec F S8x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare xi15 ∗ (∃ d, owns (c : Thread nD τ) arg18 fullShare d) ∗ (∃ d, owns (c : Thread nD τ) arg19 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare xi15 ∗ (∃ f, arg18.view.loc (c : Thread nD τ) ↦[arg18.view.set]{fullShare} arg18.view.writes (Elt F) f LS0) ∗ (∃ f, arg19.view.loc (c : Thread nD τ) ↦[arg19.view.set]{fullShare} arg19.view.writes (Elt F) f LS1)) -∗ K ⟨⟩))
          ⊢ wp frame (wpE (defs₀ (F := F)) Variants.none c none) E (cc0__stats_mask_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨[], ?_, ?_, fun xi15 E K => ?run⟩
  case run =>
    simp only [cc0__stats_mask_kernel_eq_skeleton]; unfold cc0__stats_mask_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [HS0]; · iexists _; iexact HS0
    iexists _; iexact HS1

end Cert.Kernel.Hand

end
-- ==== Proof.Region0RunBK.lean ====
/-
  Region 0, the body's run at a middle slab of a batch block.
-/
import proofs.«165288_j12446815224180_2_alg».proof.Proof.Region0RunAK

-- membership in a rectangle of full extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- A MIDDLE SLAB of a batch block (slab coordinate 1 … 6: nothing is cleared, the gate is not finished).
    On whole memrefs, with the image block `x0` and the fourteen weight arrays `x1 … x14` in their buffers, the
    output block at any contents `xi15` and the two accumulators at what the point before left (`xs0` the running
    sums, `xs1` the running sums of squares), the body runs to a state where the inputs and the output block are
    as they were and each accumulator holds what its one piece writes: `xs0` plus the slab's sums (`LS0`),
    `xs1` plus the slab's sums of squares (`LS1`). Nothing is stored into the output block: `L15` is empty. -/
noncomputable def kernelRun0_B (c : Dev nD) (i : grid0.Coords) (arg2 : Memref sig .tc .vmem S8x256x16x128 .f32) (harg2 : arg2.IsWhole) (arg3 : Memref sig .tc .vmem S16x256 .f32) (harg3 : arg3.IsWhole) (arg4 : Memref sig .tc .vmem S16 .f32) (harg4 : arg4.IsWhole) (arg5 : Memref sig .tc .vmem S256x16 .f32) (harg5 : arg5.IsWhole) (arg6 : Memref sig .tc .vmem S256 .f32) (harg6 : arg6.IsWhole) (arg7 : Memref sig .tc .vmem S16x256 .f32) (harg7 : arg7.IsWhole) (arg8 : Memref sig .tc .vmem S16 .f32) (harg8 : arg8.IsWhole) (arg9 : Memref sig .tc .vmem S256x16 .f32) (harg9 : arg9.IsWhole) (arg10 : Memref sig .tc .vmem S256 .f32) (harg10 : arg10.IsWhole) (arg11 : Memref sig .tc .vmem S256x512 .f32) (harg11 : arg11.IsWhole) (arg12 : Memref sig .tc .vmem S256 .f32) (harg12 : arg12.IsWhole) (arg13 : Memref sig .tc .vmem S16x256 .f32) (harg13 : arg13.IsWhole) (arg14 : Memref sig .tc .vmem S16 .f32) (harg14 : arg14.IsWhole) (arg15 : Memref sig .tc .vmem S256x16 .f32) (harg15 : arg15.IsWhole) (arg16 : Memref sig .tc .vmem S256 .f32) (harg16 : arg16.IsWhole) (arg17 : Memref sig .tc .vmem S8x256 .f32) (harg17 : arg17.IsWhole) (arg18 : Memref sig .tc .vmem S8x256 .f32) (harg18 : arg18.IsWhole) (arg19 : Memref sig .tc .vmem S8x256 .f32) (harg19 : arg19.IsWhole) (hc0 : ¬cond0_0 i) (hc1 : ¬cond0_1 i)
    (x0 : Vec F S8x256x16x128 .f32) (x1 : Vec F S16x256 .f32) (x2 : Vec F S16 .f32) (x3 : Vec F S256x16 .f32) (x4 : Vec F S256 .f32) (x5 : Vec F S16x256 .f32) (x6 : Vec F S16 .f32) (x7 : Vec F S256x16 .f32) (x8 : Vec F S256 .f32) (x9 : Vec F S256x512 .f32) (x10 : Vec F S256 .f32) (x11 : Vec F S16x256 .f32) (x12 : Vec F S16 .f32) (x13 : Vec F S256x16 .f32) (x14 : Vec F S256 .f32) (xs0 : Vec F S8x256 .f32) (xs1 : Vec F S8x256 .f32) :
    Σ' (L15 : List (View.Piece (Elt F) S8x256 .f32)) (LS0 : List (View.Piece (Elt F) S8x256 .f32)), { LS1 : List (View.Piece (Elt F) S8x256 .f32) //
      ∀ (xi15 : Vec F S8x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare xi15 ∗ owns (c : Thread nD τ) arg18 fullShare xs0 ∗ owns (c : Thread nD τ) arg19 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare xi15 ∗ (∃ f, arg18.view.loc (c : Thread nD τ) ↦[arg18.view.set]{fullShare} arg18.view.writes (Elt F) f LS0) ∗ (∃ f, arg19.view.loc (c : Thread nD τ) ↦[arg19.view.set]{fullShare} arg19.view.writes (Elt F) f LS1)) -∗ K ⟨⟩))
          ⊢ wp frame (wpE (defs₀ (F := F)) Variants.none c none) E (cc0__stats_mask_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨[], ?_, ?_, fun xi15 E K => ?run⟩
  case run =>
    simp only [cc0__stats_mask_kernel_eq_skeleton]; unfold cc0__stats_mask_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hfs0; obtain rfl := harg19.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [HS0]; · iexists _; iexact HS0
    iexists _; iexact HS1

end Cert.Kernel.Hand

end
-- ==== Proof.Region0RunCK.lean ====
/-
  Region 0, the body's run at the last slab of a batch block, where the gate is finished.
-/
import proofs.«165288_j12446815224180_2_alg».proof.Proof.Region0RunBK

-- membership in a rectangle of full extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- THE LAST SLAB of a batch block (slab coordinate 7: nothing is cleared, the gate is finished and stored).
    On whole memrefs, with the image block `x0` and the fourteen weight arrays `x1 … x14` in their buffers, the
    output block at anything and the two accumulators at what the point before left (`xs0`, `xs1`), the body runs
    to a state where the inputs are as they were, each accumulator holds what its one piece writes (`xs0` plus the
    slab's sums, `xs1` plus the slab's sums of squares) and the output block holds what its one piece `L15` writes:
    the gate computed from the finished sums — mean and deviation through their two squeeze-excite blocks, the
    split bottleneck, the last squeeze-excite block and the logistic function. -/
noncomputable def kernelRun0_C (c : Dev nD) (i : grid0.Coords) (arg2 : Memref sig .tc .vmem S8x256x16x128 .f32) (harg2 : arg2.IsWhole) (arg3 : Memref sig .tc .vmem S16x256 .f32) (harg3 : arg3.IsWhole) (arg4 : Memref sig .tc .vmem S16 .f32) (harg4 : arg4.IsWhole) (arg5 : Memref sig .tc .vmem S256x16 .f32) (harg5 : arg5.IsWhole) (arg6 : Memref sig .tc .vmem S256 .f32) (harg6 : arg6.IsWhole) (arg7 : Memref sig .tc .vmem S16x256 .f32) (harg7 : arg7.IsWhole) (arg8 : Memref sig .tc .vmem S16 .f32) (harg8 : arg8.IsWhole) (arg9 : Memref sig .tc .vmem S256x16 .f32) (harg9 : arg9.IsWhole) (arg10 : Memref sig .tc .vmem S256 .f32) (harg10 : arg10.IsWhole) (arg11 : Memref sig .tc .vmem S256x512 .f32) (harg11 : arg11.IsWhole) (arg12 : Memref sig .tc .vmem S256 .f32) (harg12 : arg12.IsWhole) (arg13 : Memref sig .tc .vmem S16x256 .f32) (harg13 : arg13.IsWhole) (arg14 : Memref sig .tc .vmem S16 .f32) (harg14 : arg14.IsWhole) (arg15 : Memref sig .tc .vmem S256x16 .f32) (harg15 : arg15.IsWhole) (arg16 : Memref sig .tc .vmem S256 .f32) (harg16 : arg16.IsWhole) (arg17 : Memref sig .tc .vmem S8x256 .f32) (harg17 : arg17.IsWhole) (arg18 : Memref sig .tc .vmem S8x256 .f32) (harg18 : arg18.IsWhole) (arg19 : Memref sig .tc .vmem S8x256 .f32) (harg19 : arg19.IsWhole) (hc0 : ¬cond0_0 i) (hc1 : cond0_1 i)
    (x0 : Vec F S8x256x16x128 .f32) (x1 : Vec F S16x256 .f32) (x2 : Vec F S16 .f32) (x3 : Vec F S256x16 .f32) (x4 : Vec F S256 .f32) (x5 : Vec F S16x256 .f32) (x6 : Vec F S16 .f32) (x7 : Vec F S256x16 .f32) (x8 : Vec F S256 .f32) (x9 : Vec F S256x512 .f32) (x10 : Vec F S256 .f32) (x11 : Vec F S16x256 .f32) (x12 : Vec F S16 .f32) (x13 : Vec F S256x16 .f32) (x14 : Vec F S256 .f32) (xs0 : Vec F S8x256 .f32) (xs1 : Vec F S8x256 .f32) :
    Σ' (L15 : List (View.Piece (Elt F) S8x256 .f32)) (LS0 : List (View.Piece (Elt F) S8x256 .f32)), { LS1 : List (View.Piece (Elt F) S8x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ (∃ d, owns (c : Thread nD τ) arg17 fullShare d) ∗ owns (c : Thread nD τ) arg18 fullShare xs0 ∗ owns (c : Thread nD τ) arg19 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ (∃ f, arg17.view.loc (c : Thread nD τ) ↦[arg17.view.set]{fullShare} arg17.view.writes (Elt F) f L15) ∗ (∃ f, arg18.view.loc (c : Thread nD τ) ↦[arg18.view.set]{fullShare} arg18.view.writes (Elt F) f LS0) ∗ (∃ f, arg19.view.loc (c : Thread nD τ) ↦[arg19.view.set]{fullShare} arg19.view.writes (Elt F) f LS1)) -∗ K ⟨⟩))
          ⊢ wp frame (wpE (defs₀ (F := F)) Variants.none c none) E (cc0__stats_mask_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, fun E K => ?run⟩
  case run =>
    simp only [cc0__stats_mask_kernel_eq_skeleton]; unfold cc0__stats_mask_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg18.eq_unread hfs0; obtain rfl := harg19.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]; · iexists _; iexact H15
    isplitl [HS0]; · iexists _; iexact HS0
    iexists _; iexact HS1

end Cert.Kernel.Hand

end
-- ==== Proof.Region0K.lean ====
/-
  Region 0 (the statistics-and-gate kernel) as the pipeline's proof data, at any float instance.

  The grid has 16 points t = 8·bo + ho.  The body adds the x block's per-(batch, channel) sums and sums of squares
  into two [8,256] accumulators that live in scratch memory ACROSS the points of one bo: at ho = 0 it first zeroes
  them, at ho = 7 it also computes the gate from them and stores it into the output block, which the pipeline writes
  back only there.  So what the two accumulators hold after point t is a function of what they held after point t − 1
  (except at ho = 0), and the region's invariant between points must say what they hold: before the first point
  anything, after point n the contents the case at n leaves (`outsAt0`).  The output block's buffer is untouched
  ("idle") at the points with ho ≠ 7.
-/
import proofs.«165288_j12446815224180_2_alg».proof.Proof.Region0RunCK

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not (an unfetched
    point has the block index of the point before). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not (an unfetched
    point has the block index of the point before). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not (an unfetched
    point has the block index of the point before). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not (an unfetched
    point has the block index of the point before). -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not (an unfetched
    point has the block index of the point before). -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not (an unfetched
    point has the block index of the point before). -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, fetched there or not (an unfetched
    point has the block index of the point before). -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Input window 7's current staging buffer holds its block at every point, fetched there or not (an unfetched
    point has the block index of the point before). -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-- Input window 8's current staging buffer holds its block at every point, fetched there or not (an unfetched
    point has the block index of the point before). -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-- Input window 9's current staging buffer holds its block at every point, fetched there or not (an unfetched
    point has the block index of the point before). -/
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)

/-- Input window 10's current staging buffer holds its block at every point, fetched there or not (an unfetched
    point has the block index of the point before). -/
theorem before0_10_of {c : Dev nD} (dat : Dat τ (Elt F) Unit ℕ (UR sig nD τ) ℕ cfg0 c) (hA : dat.A 10 = V c (Pipeline.arrRef spec0 10))
    (hafter : ∀ t, dat.after 10 t = iblk0 V c 10 t) (t : Fin cfg0.N) (d) : dat.before 10 t d = iblk0 V c 10 t :=
  (dat.before_in_eq_fetched 10 rfl (fun _ => rfl) (fun _ _ _ => rfl) (fun t => by rw [hafter]; unfold Dat.blockOf iblk0; rw [hA]; try rfl) t d).trans
    (by unfold Dat.fetched Dat.blockOf iblk0; rw [hA]; try rfl)

/-- Input window 11's current staging buffer holds its block at every point, fetched there or not (an unfetched
    point has the block index of the point before). -/
theorem before0_11_of {c : Dev nD} (dat : Dat τ (Elt F) Unit ℕ (UR sig nD τ) ℕ cfg0 c) (hA : dat.A 11 = V c (Pipeline.arrRef spec0 11))
    (hafter : ∀ t, dat.after 11 t = iblk0 V c 11 t) (t : Fin cfg0.N) (d) : dat.before 11 t d = iblk0 V c 11 t :=
  (dat.before_in_eq_fetched 11 rfl (fun _ => rfl) (fun _ _ _ => rfl) (fun t => by rw [hafter]; unfold Dat.blockOf iblk0; rw [hA]; try rfl) t d).trans
    (by unfold Dat.fetched Dat.blockOf iblk0; rw [hA]; try rfl)

/-- Input window 12's current staging buffer holds its block at every point, fetched there or not (an unfetched
    point has the block index of the point before). -/
theorem before0_12_of {c : Dev nD} (dat : Dat τ (Elt F) Unit ℕ (UR sig nD τ) ℕ cfg0 c) (hA : dat.A 12 = V c (Pipeline.arrRef spec0 12))
    (hafter : ∀ t, dat.after 12 t = iblk0 V c 12 t) (t : Fin cfg0.N) (d) : dat.before 12 t d = iblk0 V c 12 t :=
  (dat.before_in_eq_fetched 12 rfl (fun _ => rfl) (fun _ _ _ => rfl) (fun t => by rw [hafter]; unfold Dat.blockOf iblk0; rw [hA]; try rfl) t d).trans
    (by unfold Dat.fetched Dat.blockOf iblk0; rw [hA]; try rfl)

/-- Input window 13's current staging buffer holds its block at every point, fetched there or not (an unfetched
    point has the block index of the point before). -/
theorem before0_13_of {c : Dev nD} (dat : Dat τ (Elt F) Unit ℕ (UR sig nD τ) ℕ cfg0 c) (hA : dat.A 13 = V c (Pipeline.arrRef spec0 13))
    (hafter : ∀ t, dat.after 13 t = iblk0 V c 13 t) (t : Fin cfg0.N) (d) : dat.before 13 t d = iblk0 V c 13 t :=
  (dat.before_in_eq_fetched 13 rfl (fun _ => rfl) (fun _ _ _ => rfl) (fun t => by rw [hafter]; unfold Dat.blockOf iblk0; rw [hA]; try rfl) t d).trans
    (by unfold Dat.fetched Dat.blockOf iblk0; rw [hA]; try rfl)

/-- Input window 14's current staging buffer holds its block at every point, fetched there or not (an unfetched
    point has the block index of the point before). -/
theorem before0_14_of {c : Dev nD} (dat : Dat τ (Elt F) Unit ℕ (UR sig nD τ) ℕ cfg0 c) (hA : dat.A 14 = V c (Pipeline.arrRef spec0 14))
    (hafter : ∀ t, dat.after 14 t = iblk0 V c 14 t) (t : Fin cfg0.N) (d) : dat.before 14 t d = iblk0 V c 14 t :=
  (dat.before_in_eq_fetched 14 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves: the output block's buffer, then the two accumulators -/

/-- The three buffers after the body at a point with ho = 0 (the accumulators zeroed, then this block added; the
    output buffer's component is a placeholder nothing consults: the window is idle there). -/
def resA (c : Dev nD) (t : Fin cfg0.N) (h0 : t.val % 8 = 0) (h1 : ¬t.val % 8 = 7) : Vec F S8x256 .f32 × Vec F S8x256 .f32 × Vec F S8x256 .f32 :=
  (VO0_15.read (Elt F) (VO0_15.writes (Elt F) VO0_15.junk (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t)).1), VS0_0.read (Elt F) (VS0_0.writes (Elt F) VS0_0.junk (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t)).2.1), VS0_1.read (Elt F) (VS0_1.writes (Elt F) VS0_1.junk (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t)).2.2.1))

/-- The same at a point with 0 < ho < 7, over what the point before left in the accumulators. -/
def resB (c : Dev nD) (t : Fin cfg0.N) (h0 : ¬t.val % 8 = 0) (h1 : ¬t.val % 8 = 7) (xs0 xs1 : Vec F S8x256 .f32) : Vec F S8x256 .f32 × Vec F S8x256 .f32 × Vec F S8x256 .f32 :=
  (VO0_15.read (Elt F) (VO0_15.writes (Elt F) VO0_15.junk (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) xs0 xs1).1), VS0_0.read (Elt F) (VS0_0.writes (Elt F) VS0_0.junk (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) xs0 xs1).2.1), VS0_1.read (Elt F) (VS0_1.writes (Elt F) VS0_1.junk (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) xs0 xs1).2.2.1))

/-- The same at a point with ho = 7: the output buffer's component is the gate block. -/
def resC (c : Dev nD) (t : Fin cfg0.N) (h0 : ¬t.val % 8 = 0) (h1 : t.val % 8 = 7) (xs0 xs1 : Vec F S8x256 .f32) : Vec F S8x256 .f32 × Vec F S8x256 .f32 × Vec F S8x256 .f32 :=
  (VO0_15.read (Elt F) (VO0_15.writes (Elt F) VO0_15.junk (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) xs0 xs1).1), VS0_0.read (Elt F) (VS0_0.writes (Elt F) VS0_0.junk (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) xs0 xs1).2.1), VS0_1.read (Elt F) (VS0_1.writes (Elt F) VS0_1.junk (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) xs0 xs1).2.2.1))

/-- Each case's stores into an accumulator (and, at ho = 7, into the output block) tile the buffer, so they cover it. -/
theorem scoverA_0 (c : Dev nD) (t : Fin cfg0.N) (h0 : t.val % 8 = 0) (h1 : ¬t.val % 8 = 7) (y : S8x256.Idx) :
    ∃ pc ∈ (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t)).2.1, y ∈ pc.1.set :=
  View.cover_of_tiledL _ S8x256.size (by sl_kernel_rfl) y
theorem scoverA_1 (c : Dev nD) (t : Fin cfg0.N) (h0 : t.val % 8 = 0) (h1 : ¬t.val % 8 = 7) (y : S8x256.Idx) :
    ∃ pc ∈ (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t)).2.2.1, y ∈ pc.1.set :=
  View.cover_of_tiledL _ S8x256.size (by sl_kernel_rfl) y
theorem scoverB_0 (c : Dev nD) (t : Fin cfg0.N) (h0 : ¬t.val % 8 = 0) (h1 : ¬t.val % 8 = 7) (xs0 xs1 : Vec F S8x256 .f32) (y : S8x256.Idx) :
    ∃ pc ∈ (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) xs0 xs1).2.1, y ∈ pc.1.set :=
  View.cover_of_tiledL _ S8x256.size (by sl_kernel_rfl) y
theorem scoverB_1 (c : Dev nD) (t : Fin cfg0.N) (h0 : ¬t.val % 8 = 0) (h1 : ¬t.val % 8 = 7) (xs0 xs1 : Vec F S8x256 .f32) (y : S8x256.Idx) :
    ∃ pc ∈ (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) xs0 xs1).2.2.1, y ∈ pc.1.set :=
  View.cover_of_tiledL _ S8x256.size (by sl_kernel_rfl) y
theorem scoverC_0 (c : Dev nD) (t : Fin cfg0.N) (h0 : ¬t.val % 8 = 0) (h1 : t.val % 8 = 7) (xs0 xs1 : Vec F S8x256 .f32) (y : S8x256.Idx) :
    ∃ pc ∈ (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) xs0 xs1).2.1, y ∈ pc.1.set :=
  View.cover_of_tiledL _ S8x256.size (by sl_kernel_rfl) y
theorem scoverC_1 (c : Dev nD) (t : Fin cfg0.N) (h0 : ¬t.val % 8 = 0) (h1 : t.val % 8 = 7) (xs0 xs1 : Vec F S8x256 .f32) (y : S8x256.Idx) :
    ∃ pc ∈ (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) xs0 xs1).2.2.1, y ∈ pc.1.set :=
  View.cover_of_tiledL _ S8x256.size (by sl_kernel_rfl) y
theorem coverC_15 (c : Dev nD) (t : Fin cfg0.N) (h0 : ¬t.val % 8 = 0) (h1 : t.val % 8 = 7) (xs0 xs1 : Vec F S8x256 .f32) (y : S8x256.Idx) :
    ∃ pc ∈ (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) xs0 xs1).1, y ∈ pc.1.set :=
  View.cover_of_tiledL _ S8x256.size (by sl_kernel_rfl) y

/-! ## What the three buffers hold after each point -/

/-- THE ACCUMULATION: the output block's buffer and the two accumulators after the body at position `n` — the case
    ho = n % 8 selects, run on the point's blocks, the accumulators taken from position n − 1 unless ho = 0. -/
def outsAt0 (c : Dev nD) : (n : ℕ) → n < cfg0.N → Vec F S8x256 .f32 × Vec F S8x256 .f32 × Vec F S8x256 .f32
  | 0, hn => resA V c ⟨0, hn⟩ (Nat.zero_mod _) (by show ¬(0 % 8 = 7); omega)
  | n + 1, hn =>
    if h0 : (n + 1) % 8 = 0 then resA V c ⟨n + 1, hn⟩ h0 (by show ¬((n + 1) % 8 = 7); omega)
    else if h1 : (n + 1) % 8 = 7 then resC V c ⟨n + 1, hn⟩ h0 h1 (outsAt0 c n (Nat.lt_of_succ_lt hn)).2.1 (outsAt0 c n (Nat.lt_of_succ_lt hn)).2.2
    else resB V c ⟨n + 1, hn⟩ h0 h1 (outsAt0 c n (Nat.lt_of_succ_lt hn)).2.1 (outsAt0 c n (Nat.lt_of_succ_lt hn)).2.2

theorem outsAt0_A (c : Dev nD) (t : Fin cfg0.N) (h0 : t.val % 8 = 0) (h1 : ¬t.val % 8 = 7) :
    outsAt0 V c t.val t.isLt = resA V c t h0 h1 := by
  obtain ⟨n, hn⟩ := t
  cases n with
  | zero => rfl
  | succ n => exact (dif_pos h0).trans rfl

theorem outsAt0_B (c : Dev nD) (t : Fin cfg0.N) (h0 : ¬t.val % 8 = 0) (h1 : ¬t.val % 8 = 7) :
    outsAt0 V c t.val t.isLt = resB V c t h0 h1 (outsAt0 V c (t.val - 1) (Nat.lt_of_le_of_lt (Nat.sub_le _ _) t.isLt)).2.1
      (outsAt0 V c (t.val - 1) (Nat.lt_of_le_of_lt (Nat.sub_le _ _) t.isLt)).2.2 := by
  obtain ⟨n, hn⟩ := t
  cases n with
  | zero => exact absurd (Nat.zero_mod _) h0
  | succ n => exact (dif_neg h0).trans ((dif_neg h1).trans rfl)

theorem outsAt0_C (c : Dev nD) (t : Fin cfg0.N) (h0 : ¬t.val % 8 = 0) (h1 : t.val % 8 = 7) :
    outsAt0 V c t.val t.isLt = resC V c t h0 h1 (outsAt0 V c (t.val - 1) (Nat.lt_of_le_of_lt (Nat.sub_le _ _) t.isLt)).2.1
      (outsAt0 V c (t.val - 1) (Nat.lt_of_le_of_lt (Nat.sub_le _ _) t.isLt)).2.2 := by
  obtain ⟨n, hn⟩ := t
  cases n with
  | zero => exact absurd (Nat.zero_mod _) h0
  | succ n => exact (dif_neg h0).trans ((dif_pos h1).trans rfl)

/-! ## The invariant between points -/

/-- Before the first point: the two accumulators (and the other kernel's idle staging buffers) at anything; after point
    `n`: the accumulators at what that point left, the rest at anything; the generator register at some state throughout. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.1) ∗ owns (c : Thread nD τ) scM0_1 fullShare ((outsAt0 V c n hn).2.2) ∗ rest0 (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2.1) ∗ owns (c : Thread nD τ) scM0_1 fullShare ((outsAt0 V c n hn).2.2) ∗ rest0 (F := F) c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2.1) ∗ owns (c : Thread nD τ) scM0_1 fullShare ((outsAt0 V c (n - 1) (by omega)).2.2) ∗ rest0 (F := F) c) ∗ (∃ r, prngReg c r)) := by
  cases n with
  | zero => exact absurd rfl hz
  | succ n => rfl

/-! ## The pipeline's proof data -/

/-- The arrays as the region finds them; after the body at point `t` each input's buffer at its block and the output's
    at `outsAt0`'s first component; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => iblk0 V c 12 t
    | ⟨13, _⟩ => iblk0 V c 13 t
    | ⟨14, _⟩ => iblk0 V c 14 t
    | ⟨15, _⟩ => (outsAt0 V c t.val t.isLt).1
    | ⟨_ + 16, h⟩ => absurd h (Nat.not_lt.2 (Nat.le_add_left _ _))
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = iblk0 V c 11 t := by dsimp only [dat0]
theorem after0_12 (c : Dev nD) (t : Fin cfg0.N) : (dat0 V c).after 12 t = iblk0 V c 12 t := by dsimp only [dat0]
theorem after0_13 (c : Dev nD) (t : Fin cfg0.N) : (dat0 V c).after 13 t = iblk0 V c 13 t := by dsimp only [dat0]
theorem after0_14 (c : Dev nD) (t : Fin cfg0.N) : (dat0 V c).after 14 t = iblk0 V c 14 t := by dsimp only [dat0]
theorem after0_15 (c : Dev nD) (t : Fin cfg0.N) : (dat0 V c).after 15 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d
theorem before0_10 (c : Dev nD) (t : Fin cfg0.N) (d) : (dat0 V c).before 10 t d = iblk0 V c 10 t :=
  before0_10_of V (dat0 V c) (A_eq0 V c 10) (after0_10 V c) t d
theorem before0_11 (c : Dev nD) (t : Fin cfg0.N) (d) : (dat0 V c).before 11 t d = iblk0 V c 11 t :=
  before0_11_of V (dat0 V c) (A_eq0 V c 11) (after0_11 V c) t d
theorem before0_12 (c : Dev nD) (t : Fin cfg0.N) (d) : (dat0 V c).before 12 t d = iblk0 V c 12 t :=
  before0_12_of V (dat0 V c) (A_eq0 V c 12) (after0_12 V c) t d
theorem before0_13 (c : Dev nD) (t : Fin cfg0.N) (d) : (dat0 V c).before 13 t d = iblk0 V c 13 t :=
  before0_13_of V (dat0 V c) (A_eq0 V c 13) (after0_13 V c) t d
theorem before0_14 (c : Dev nD) (t : Fin cfg0.N) (d) : (dat0 V c).before 14 t d = iblk0 V c 14 t :=
  before0_14_of V (dat0 V c) (A_eq0 V c 14) (after0_14 V c) t d

/-! ## The body obligation -/

/-- What the body is called with at point `t`: the invariant, the core's dues, each window's current staging buffer. -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d))
    ∗ (∃ d, owns (c : Thread nD τ) (ms0_10 t) fullShare ((dat0 V c).before 10 t d))
    ∗ (∃ d, owns (c : Thread nD τ) (ms0_11 t) fullShare ((dat0 V c).before 11 t d))
    ∗ (∃ d, owns (c : Thread nD τ) (ms0_12 t) fullShare ((dat0 V c).before 12 t d))
    ∗ (∃ d, owns (c : Thread nD τ) (ms0_13 t) fullShare ((dat0 V c).before 13 t d))
    ∗ (∃ d, owns (c : Thread nD τ) (ms0_14 t) fullShare ((dat0 V c).before 14 t d))
    ∗ (∃ d, owns (c : Thread nD τ) (ms0_15 t) fullShare ((dat0 V c).before 15 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t
    ∗ (dat0 V c).leavesExact 9 t
    ∗ (dat0 V c).leavesExact 10 t
    ∗ (dat0 V c).leavesExact 11 t
    ∗ (dat0 V c).leavesExact 12 t
    ∗ (dat0 V c).leavesExact 13 t
    ∗ (dat0 V c).leavesExact 14 t
    ∗ (dat0 V c).leavesExact 15 t)

set_option maxHeartbeats 16000000 in
/-- The body at any point. The closed forms of the two conditions say which case the point is in; each input's buffer
    holds its block; the invariant hands the body the two accumulators — at what the point before left, or at anything
    before the first point — and takes them back at this point's contents; the output block's buffer is handed back
    untouched unless ho = 7, where it ends at the case's stores; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10, before0_11, before0_12, before0_13, before0_14]
  rw [show (dat0 V c).owesAt () t.succ = (dat0 V c).owesAt () t.castSucc from rfl]
  rw [show (dat0 V c).Φ t.succ = PhiS V c (t.val + 1) t.isLt from rfl, PhiS_succ]
  have hN : t.val < 16 := lt_of_lt_of_eq t.isLt (show cfg0.N = 16 from N_0)
  by_cases h0 : t.val % 8 = 0
  · have h1 : ¬t.val % 8 = 7 := by omega
    rw [show (dat0 V c).leavesExact 0 t = owns (c : Thread nD τ) (ms0_0 t) fullShare ((dat0 V c).after 0 t) from by
      unfold Dat.leavesExact; rw [liveAt0_0 t], after0_0]
    rw [show (dat0 V c).leavesExact 1 t = owns (c : Thread nD τ) (ms0_1 t) fullShare ((dat0 V c).after 1 t) from by
      unfold Dat.leavesExact; rw [liveAt0_1 t], after0_1]
    rw [show (dat0 V c).leavesExact 2 t = owns (c : Thread nD τ) (ms0_2 t) fullShare ((dat0 V c).after 2 t) from by
      unfold Dat.leavesExact; rw [liveAt0_2 t], after0_2]
    rw [show (dat0 V c).leavesExact 3 t = owns (c : Thread nD τ) (ms0_3 t) fullShare ((dat0 V c).after 3 t) from by
      unfold Dat.leavesExact; rw [liveAt0_3 t], after0_3]
    rw [show (dat0 V c).leavesExact 4 t = owns (c : Thread nD τ) (ms0_4 t) fullShare ((dat0 V c).after 4 t) from by
      unfold Dat.leavesExact; rw [liveAt0_4 t], after0_4]
    rw [show (dat0 V c).leavesExact 5 t = owns (c : Thread nD τ) (ms0_5 t) fullShare ((dat0 V c).after 5 t) from by
      unfold Dat.leavesExact; rw [liveAt0_5 t], after0_5]
    rw [show (dat0 V c).leavesExact 6 t = owns (c : Thread nD τ) (ms0_6 t) fullShare ((dat0 V c).after 6 t) from by
      unfold Dat.leavesExact; rw [liveAt0_6 t], after0_6]
    rw [show (dat0 V c).leavesExact 7 t = owns (c : Thread nD τ) (ms0_7 t) fullShare ((dat0 V c).after 7 t) from by
      unfold Dat.leavesExact; rw [liveAt0_7 t], after0_7]
    rw [show (dat0 V c).leavesExact 8 t = owns (c : Thread nD τ) (ms0_8 t) fullShare ((dat0 V c).after 8 t) from by
      unfold Dat.leavesExact; rw [liveAt0_8 t], after0_8]
    rw [show (dat0 V c).leavesExact 9 t = owns (c : Thread nD τ) (ms0_9 t) fullShare ((dat0 V c).after 9 t) from by
      unfold Dat.leavesExact; rw [liveAt0_9 t], after0_9]
    rw [show (dat0 V c).leavesExact 10 t = owns (c : Thread nD τ) (ms0_10 t) fullShare ((dat0 V c).after 10 t) from by
      unfold Dat.leavesExact; rw [liveAt0_10 t], after0_10]
    rw [show (dat0 V c).leavesExact 11 t = owns (c : Thread nD τ) (ms0_11 t) fullShare ((dat0 V c).after 11 t) from by
      unfold Dat.leavesExact; rw [liveAt0_11 t], after0_11]
    rw [show (dat0 V c).leavesExact 12 t = owns (c : Thread nD τ) (ms0_12 t) fullShare ((dat0 V c).after 12 t) from by
      unfold Dat.leavesExact; rw [liveAt0_12 t], after0_12]
    rw [show (dat0 V c).leavesExact 13 t = owns (c : Thread nD τ) (ms0_13 t) fullShare ((dat0 V c).after 13 t) from by
      unfold Dat.leavesExact; rw [liveAt0_13 t], after0_13]
    rw [show (dat0 V c).leavesExact 14 t = owns (c : Thread nD τ) (ms0_14 t) fullShare ((dat0 V c).after 14 t) from by
      unfold Dat.leavesExact; rw [liveAt0_14 t], after0_14]
    rw [Dat.leavesExact_idle (dat0 V c) 15 t (idleAt0_15_A t ((hcond0_0 t).mpr h0) (fun h => h1 ((hcond0_1 t).mp h))) (noFlush0_15_A t ((hcond0_0 t).mpr h0) (fun h => h1 ((hcond0_1 t).mp h)))]
    rw [outsAt0_A V c t h0 h1]
    unfold resA; (try dsimp only)
    by_cases hz : t.val = 0
    ·
      rw [PhiS_castSucc V c t, PhiS_zero V c _ _ hz, PhiA0_eq]
      iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
      iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t)).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [HS0]; · iexact HS0
      isplitl [HS1]; · iexact HS1
      iintro ⟨H0, H1, H2, H3, H4, H5, H6, H7, H8, H9, H10, H11, H12, H13, H14, H15, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scoverA_0 V c t h0 h1)
          isplitl [HS1]
          · unfold owns; iexists _; isplitr
            swap; · iexact HS1
            ipureintro; exact View.read_writes_of_cover _ _ _ _ _ (scoverA_1 V c t h0 h1)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      iexists _; iexact H15
    ·
      rw [PhiS_castSucc V c t, PhiS_pos V c _ _ hz]
      iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
      iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t)).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [HS0]; · iexists _; iexact HS0
      isplitl [HS1]; · iexists _; iexact HS1
      iintro ⟨H0, H1, H2, H3, H4, H5, H6, H7, H8, H9, H10, H11, H12, H13, H14, H15, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scoverA_0 V c t h0 h1)
          isplitl [HS1]
          · unfold owns; iexists _; isplitr
            swap; · iexact HS1
            ipureintro; exact View.read_writes_of_cover _ _ _ _ _ (scoverA_1 V c t h0 h1)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      iexists _; iexact H15
  · have hz : t.val ≠ 0 := fun e => h0 (by rw [e])
    by_cases h1 : t.val % 8 = 7
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [show (dat0 V c).leavesExact 7 t = owns (c : Thread nD τ) (ms0_7 t) fullShare ((dat0 V c).after 7 t) from by
        unfold Dat.leavesExact; rw [liveAt0_7 t], after0_7]
      rw [show (dat0 V c).leavesExact 8 t = owns (c : Thread nD τ) (ms0_8 t) fullShare ((dat0 V c).after 8 t) from by
        unfold Dat.leavesExact; rw [liveAt0_8 t], after0_8]
      rw [show (dat0 V c).leavesExact 9 t = owns (c : Thread nD τ) (ms0_9 t) fullShare ((dat0 V c).after 9 t) from by
        unfold Dat.leavesExact; rw [liveAt0_9 t], after0_9]
      rw [show (dat0 V c).leavesExact 10 t = owns (c : Thread nD τ) (ms0_10 t) fullShare ((dat0 V c).after 10 t) from by
        unfold Dat.leavesExact; rw [liveAt0_10 t], after0_10]
      rw [show (dat0 V c).leavesExact 11 t = owns (c : Thread nD τ) (ms0_11 t) fullShare ((dat0 V c).after 11 t) from by
        unfold Dat.leavesExact; rw [liveAt0_11 t], after0_11]
      rw [show (dat0 V c).leavesExact 12 t = owns (c : Thread nD τ) (ms0_12 t) fullShare ((dat0 V c).after 12 t) from by
        unfold Dat.leavesExact; rw [liveAt0_12 t], after0_12]
      rw [show (dat0 V c).leavesExact 13 t = owns (c : Thread nD τ) (ms0_13 t) fullShare ((dat0 V c).after 13 t) from by
        unfold Dat.leavesExact; rw [liveAt0_13 t], after0_13]
      rw [show (dat0 V c).leavesExact 14 t = owns (c : Thread nD τ) (ms0_14 t) fullShare ((dat0 V c).after 14 t) from by
        unfold Dat.leavesExact; rw [liveAt0_14 t], after0_14]
      rw [show (dat0 V c).leavesExact 15 t = owns (c : Thread nD τ) (ms0_15 t) fullShare ((dat0 V c).after 15 t) from by
        unfold Dat.leavesExact; rw [liveAt0_15_C t (fun h => h0 ((hcond0_0 t).mp h)) ((hcond0_1 t).mpr h1)], after0_15]
      rw [outsAt0_C V c t h0 h1]
      unfold resC; (try dsimp only)
      rw [PhiS_castSucc V c t, PhiS_pos V c _ _ hz]
      iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
      iapply ((kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) _ _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexists _; iexact H15
      isplitl [HS0]; · iexact HS0
      isplitl [HS1]; · iexact HS1
      iintro ⟨H0, H1, H2, H3, H4, H5, H6, H7, H8, H9, H10, H11, H12, H13, H14, ⟨%e15, H15⟩, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scoverC_0 V c t h0 h1 _ _)
          isplitl [HS1]
          · unfold owns; iexists _; isplitr
            swap; · iexact HS1
            ipureintro; exact View.read_writes_of_cover _ _ _ _ _ (scoverC_1 V c t h0 h1 _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      unfold owns; iexists _; isplitr
      swap; · iexact H15
      ipureintro; exact View.read_writes_of_cover _ _ _ _ _ (coverC_15 V c t h0 h1 _ _)
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [show (dat0 V c).leavesExact 7 t = owns (c : Thread nD τ) (ms0_7 t) fullShare ((dat0 V c).after 7 t) from by
        unfold Dat.leavesExact; rw [liveAt0_7 t], after0_7]
      rw [show (dat0 V c).leavesExact 8 t = owns (c : Thread nD τ) (ms0_8 t) fullShare ((dat0 V c).after 8 t) from by
        unfold Dat.leavesExact; rw [liveAt0_8 t], after0_8]
      rw [show (dat0 V c).leavesExact 9 t = owns (c : Thread nD τ) (ms0_9 t) fullShare ((dat0 V c).after 9 t) from by
        unfold Dat.leavesExact; rw [liveAt0_9 t], after0_9]
      rw [show (dat0 V c).leavesExact 10 t = owns (c : Thread nD τ) (ms0_10 t) fullShare ((dat0 V c).after 10 t) from by
        unfold Dat.leavesExact; rw [liveAt0_10 t], after0_10]
      rw [show (dat0 V c).leavesExact 11 t = owns (c : Thread nD τ) (ms0_11 t) fullShare ((dat0 V c).after 11 t) from by
        unfold Dat.leavesExact; rw [liveAt0_11 t], after0_11]
      rw [show (dat0 V c).leavesExact 12 t = owns (c : Thread nD τ) (ms0_12 t) fullShare ((dat0 V c).after 12 t) from by
        unfold Dat.leavesExact; rw [liveAt0_12 t], after0_12]
      rw [show (dat0 V c).leavesExact 13 t = owns (c : Thread nD τ) (ms0_13 t) fullShare ((dat0 V c).after 13 t) from by
        unfold Dat.leavesExact; rw [liveAt0_13 t], after0_13]
      rw [show (dat0 V c).leavesExact 14 t = owns (c : Thread nD τ) (ms0_14 t) fullShare ((dat0 V c).after 14 t) from by
        unfold Dat.leavesExact; rw [liveAt0_14 t], after0_14]
      rw [Dat.leavesExact_idle (dat0 V c) 15 t (idleAt0_15_B t (fun h => h0 ((hcond0_0 t).mp h)) (fun h => h1 ((hcond0_1 t).mp h))) (noFlush0_15_B t (fun h => h0 ((hcond0_0 t).mp h)) (fun h => h1 ((hcond0_1 t).mp h)))]
      rw [outsAt0_B V c t h0 h1]
      unfold resB; (try dsimp only)
      rw [PhiS_castSucc V c t, PhiS_pos V c _ _ hz]
      iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
      iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) _ _).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [HS0]; · iexact HS0
      isplitl [HS1]; · iexact HS1
      iintro ⟨H0, H1, H2, H3, H4, H5, H6, H7, H8, H9, H10, H11, H12, H13, H14, H15, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scoverB_0 V c t h0 h1 _ _)
          isplitl [HS1]
          · unfold owns; iexists _; isplitr
            swap; · iexact HS1
            ipureintro; exact View.read_writes_of_cover _ _ _ _ _ (scoverB_1 V c t h0 h1 _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      iexists _; iexact H15

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the region is entered with is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the class's back: what the accumulators hold is forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HS1, HR⟩, Hg⟩
  isplitl [HS0 HS1 HR]
  · isplitl [HS0]; · iexists _; iexact HS0
    isplitl [HS1]; · iexists _; iexact HS1
    iexact HR
  iexact Hg

theorem hout0 (c : Dev nD) : (dat0 V c).Φ (Fin.last cfg0.N) ⊢ Pipeline.ΦA spec0 c :=
  Phi_out0 V c _ (by rw [Fin.val_last]; have : cfg0.N = 16 := N_0; omega)

end Cert.Kernel.Hand

end
-- ==== Proof.Region1K.lean ====
/-
  The scaling region's half of the frame, at a parameter V: the contents of the TensorCore's buffers when the region
  is entered.

  The region walks an 8 × 8 grid.  At a point it holds three staging buffers: a [512,2048] block of the tensor x
  (laid out as a [4096,16384] matrix, one row per (batch, channel) pair), the matching [512,1] block of the gate
  column, and a [512,2048] block of the result.  The body multiplies each row of the x block by that row's gate
  entry and stores the whole product block.  Everything here is uniform in the float instance.
-/
import proofs.«165288_j12446815224180_2_alg».proof.Proof.Gen.Kernel.Launch
import proofs.«165288_j12446815224180_2_alg».proof.Proof.Gen.Kernel.Skeleton
import proofs.«165288_j12446815224180_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The x window's current staging buffer holds the x block of the point, for any proof data whose array is the
    entry contents and whose body leaves the block in place.  The block index moves at every point, so the buffer
    was fetched at this very point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The gate window's current staging buffer holds the gate block of the point.  Its block index depends on the
    first grid coordinate only, so it is fetched once in every 8 points; at the 7 points between two fetches the
    index has not moved and the body has left the block in place, so the buffer still holds the block of the point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each staging buffer whole -/

abbrev r1_0 : Rect S512x2048 := Rect.unit (s := S512x2048) ![0, 0] S512x2048.size inb_S512x2048_S512x2048_0_0
abbrev r1_1 : Rect S512x1 := Rect.unit (s := S512x1) ![0, 0] S512x1.size inb_S512x1_S512x1_0_0
abbrev r1_2 : Rect S512x2048 := Rect.unit (s := S512x2048) ![0, 0] S512x2048.size inb_S512x2048_S512x2048_0_0

/-! ## What the body leaves in the result window's buffer -/

/-- The result buffer after the body, from the x block `x0` and the gate block `x1`: one store of the whole
    buffer, whose value is the row-wise product of `x0` with the gate column `x1` broadcast along the row. -/
def out1_2 (x0 : Vec F S512x2048 .f32) (x1 : Vec F S512x1 .f32) : Vec F S512x2048 .f32 :=
  View.canon [⟨r1_2, k1_pay1 (View.ld x0 r1_0) (View.ld x1 r1_1)⟩]

/-- The one store is of the whole buffer, so it covers every index. -/
theorem cover1_2 (p0 : Vec F S512x2048 .f32) (y : S512x2048.Idx) :
    ∃ pc ∈ ([⟨r1_2, p0⟩] : List (View.Piece (Elt F) S512x2048 .f32)), y ∈ pc.1.set :=
  View.cover_of_tiledL [⟨r1_2, p0⟩] S512x2048.size (by sl_kernel_rfl) y

/-! ## The body's triple -/

set_option maxHeartbeats 1000000 in
/-- The body on whole staging memrefs — the x buffer at `x0`, the gate buffer at `x1`, the result buffer at anything —
    runs to the continuation with the two inputs as they were and the result buffer at `out1_2 x0 x1`.  The body also
    loads the result buffer before storing into it; the loaded value is not used. -/
theorem sound_kernel1 (c : Dev nD) (E : Set ℕ) (i : grid1.Coords) (arg2 : Memref sig .tc .vmem S512x2048 .f32) (harg2 : arg2.IsWhole)
    (arg3 : Memref sig .tc .vmem S512x1 .f32) (harg3 : arg3.IsWhole) (arg4 : Memref sig .tc .vmem S512x2048 .f32) (harg4 : arg4.IsWhole)
    (x0 : Vec F S512x2048 .f32) (x1 : Vec F S512x1 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out1_2 x0 x1)) -∗ K ⟨⟩))
      ⊢ wp frame (wpE (defs₀ (F := F)) Variants.none c none) E (cc1__scale_kernel i arg2 harg2 arg3 harg3 arg4 harg4) K := by
  simp only [cc1__scale_kernel_eq_skeleton]; unfold cc1__scale_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of the region on core `c`: the arrays as the region finds them; after the body at point `t` the x
    and gate buffers at their blocks and the result buffer at `out1_2` of the two blocks; the invariant is the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`: the invariant, the core's debts, and the three current staging
    buffers, each at what the pipeline has put there. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns: the same, each staging buffer at what the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so the body's triple applies; the invariant and the
    core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Hand

end
-- ==== Proof.RunK.lean ====
/-
  The whole run of @main, at any float instance: region 0, two host reshapes, region 1, one host reshape.

  The contents of every unscoped buffer at each boundary between two items are written as a fold from the launch memory:
  a region replaces its windows' arrays by what its write-backs leave (the inputs as entered, the output block by block)
  and touches nothing else; a host stretch applies its operations.  Each region is entered from "every unscoped buffer
  at the boundary's contents, the generator register at some state, nothing owed" and left in the same form at the next
  boundary, so the items chain; at the end every unscoped buffer is read against the final memory, and it holds the
  last fold's contents.  The frame claim (the fifteen arguments end as launched) and the value of the result array are
  both read off that one statement.
-/
import proofs.«165288_j12446815224180_2_alg».proof.Proof.Region0K
import proofs.«165288_j12446815224180_2_alg».proof.Proof.Region1K
import proofs.«165288_j12446815224180_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch (region 0's entry: no host operation comes before it). -/
abbrev W0 : Dev nD → Valuation τ sig (Elt F) := fun c b => (s₀ m ρ).mem ((c : Dev nD), b)
abbrev Ve0 : (c : Dev nD) → (b : Ref sig .tc) → Buf (Elt F) ((c : Thread nD τ).loc b) := fun c b => W0 m ρ c b
/-- At region 0's exit: the gate array at what the sixteen points' write-backs leave, everything else as entered. -/
def W1 (c : Dev nD) : Valuation τ sig (Elt F) :=
  Pipeline.withArrays spec0 c (W0 m ρ c) fun w => (dat0 (Ve0 m ρ) c).arrAt w cfg0.N
theorem W1_arr (c : Dev nD) (w : Fin cfg0.W) :
    W1 m ρ c (Proc.devRef .tc (Pipeline.arrRef spec0 w)) = (dat0 (Ve0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev Vx0 : (c : Dev nD) → (b : Ref sig .tc) → Buf (Elt F) ((c : Thread nD τ).loc b) := fun c b => W1 m ρ c b
theorem hF0 (c : Dev nD) (w : Fin cfg0.W) : (dat0 (Ve0 m ρ) c).arrAt w cfg0.N = Vx0 m ρ c (Pipeline.arrRef spec0 w) :=
  (W1_arr m ρ c w).symm
theorem hrest0 (c : Dev nD) : ∀ b, b ∉ Finset.univ.image (Pipeline.arrRef spec0) → Vx0 m ρ c b = Ve0 m ρ c b :=
  fun b hb => W1_of_ne m ρ c b fun w e => hb (Finset.mem_image.mpr ⟨w, Finset.mem_univ _, e⟩)

/-- After the two reshapes (region 1's entry). -/
abbrev W2 : Dev nD → Valuation τ sig (Elt F) := fun c => StableHlo.after hostOps1 (W1 m ρ c)
abbrev Ve1 : (c : Dev nD) → (b : Ref sig .tc) → Buf (Elt F) ((c : Thread nD τ).loc b) := fun c b => W2 m ρ c b
/-- At region 1's exit: the scaled [4096,16384] array at what the sixty-four points' write-backs leave. -/
def W3 (c : Dev nD) : Valuation τ sig (Elt F) :=
  Pipeline.withArrays spec1 c (W2 m ρ c) fun w => (dat1 (Ve1 m ρ) c).arrAt w cfg1.N
theorem W3_arr (c : Dev nD) (w : Fin cfg1.W) :
    W3 m ρ c (Proc.devRef .tc (Pipeline.arrRef spec1 w)) = (dat1 (Ve1 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev Vx1 : (c : Dev nD) → (b : Ref sig .tc) → Buf (Elt F) ((c : Thread nD τ).loc b) := fun c b => W3 m ρ c b
theorem hF1 (c : Dev nD) (w : Fin cfg1.W) : (dat1 (Ve1 m ρ) c).arrAt w cfg1.N = Vx1 m ρ c (Pipeline.arrRef spec1 w) :=
  (W3_arr m ρ c w).symm
theorem hrest1 (c : Dev nD) : ∀ b, b ∉ Finset.univ.image (Pipeline.arrRef spec1) → Vx1 m ρ c b = Ve1 m ρ c b :=
  fun b hb => W3_of_ne m ρ c b fun w e => hb (Finset.mem_image.mpr ⟨w, Finset.mem_univ _, e⟩)

/-- After the last reshape: the end. -/
abbrev W4 : Dev nD → Valuation τ sig (Elt F) := fun c => StableHlo.after hostOps2 (W3 m ρ c)

/-! ### The arguments end as launched: region 0 only reads them (each is an input window's array), the reshapes write
    other buffers, region 1 does not touch them -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_writes_sub hostOps2 _ hostOps2_writes (r := main_arg0) (by decide)
    _ = W2 m ρ c (Proc.devRef .tc main_arg0) := W3_of_ne m ρ c main_arg0 (by decide)
    _ = W1 m ρ c (Proc.devRef .tc main_arg0) := StableHlo.after_of_writes_sub hostOps1 _ hostOps1_writes (r := main_arg0) (by decide)
    _ = W0 m ρ c (Proc.devRef .tc main_arg0) := (W1_arr m ρ c 0).trans (((dat0 (Ve0 m ρ) c).arrAt_in 0 rfl _).trans (A_eq0 (Ve0 m ρ) c 0))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_writes_sub hostOps2 _ hostOps2_writes (r := main_arg1) (by decide)
    _ = W2 m ρ c (Proc.devRef .tc main_arg1) := W3_of_ne m ρ c main_arg1 (by decide)
    _ = W1 m ρ c (Proc.devRef .tc main_arg1) := StableHlo.after_of_writes_sub hostOps1 _ hostOps1_writes (r := main_arg1) (by decide)
    _ = W0 m ρ c (Proc.devRef .tc main_arg1) := (W1_arr m ρ c 1).trans (((dat0 (Ve0 m ρ) c).arrAt_in 1 rfl _).trans (A_eq0 (Ve0 m ρ) c 1))
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := StableHlo.after_of_writes_sub hostOps2 _ hostOps2_writes (r := main_arg2) (by decide)
    _ = W2 m ρ c (Proc.devRef .tc main_arg2) := W3_of_ne m ρ c main_arg2 (by decide)
    _ = W1 m ρ c (Proc.devRef .tc main_arg2) := StableHlo.after_of_writes_sub hostOps1 _ hostOps1_writes (r := main_arg2) (by decide)
    _ = W0 m ρ c (Proc.devRef .tc main_arg2) := (W1_arr m ρ c 2).trans (((dat0 (Ve0 m ρ) c).arrAt_in 2 rfl _).trans (A_eq0 (Ve0 m ρ) c 2))
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := StableHlo.after_of_writes_sub hostOps2 _ hostOps2_writes (r := main_arg3) (by decide)
    _ = W2 m ρ c (Proc.devRef .tc main_arg3) := W3_of_ne m ρ c main_arg3 (by decide)
    _ = W1 m ρ c (Proc.devRef .tc main_arg3) := StableHlo.after_of_writes_sub hostOps1 _ hostOps1_writes (r := main_arg3) (by decide)
    _ = W0 m ρ c (Proc.devRef .tc main_arg3) := (W1_arr m ρ c 3).trans (((dat0 (Ve0 m ρ) c).arrAt_in 3 rfl _).trans (A_eq0 (Ve0 m ρ) c 3))
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := StableHlo.after_of_writes_sub hostOps2 _ hostOps2_writes (r := main_arg4) (by decide)
    _ = W2 m ρ c (Proc.devRef .tc main_arg4) := W3_of_ne m ρ c main_arg4 (by decide)
    _ = W1 m ρ c (Proc.devRef .tc main_arg4) := StableHlo.after_of_writes_sub hostOps1 _ hostOps1_writes (r := main_arg4) (by decide)
    _ = W0 m ρ c (Proc.devRef .tc main_arg4) := (W1_arr m ρ c 4).trans (((dat0 (Ve0 m ρ) c).arrAt_in 4 rfl _).trans (A_eq0 (Ve0 m ρ) c 4))
    _ = m ((c : Thread nD τ).loc main_arg4) := rfl

theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := StableHlo.after_of_writes_sub hostOps2 _ hostOps2_writes (r := main_arg5) (by decide)
    _ = W2 m ρ c (Proc.devRef .tc main_arg5) := W3_of_ne m ρ c main_arg5 (by decide)
    _ = W1 m ρ c (Proc.devRef .tc main_arg5) := StableHlo.after_of_writes_sub hostOps1 _ hostOps1_writes (r := main_arg5) (by decide)
    _ = W0 m ρ c (Proc.devRef .tc main_arg5) := (W1_arr m ρ c 5).trans (((dat0 (Ve0 m ρ) c).arrAt_in 5 rfl _).trans (A_eq0 (Ve0 m ρ) c 5))
    _ = m ((c : Thread nD τ).loc main_arg5) := rfl

theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := StableHlo.after_of_writes_sub hostOps2 _ hostOps2_writes (r := main_arg6) (by decide)
    _ = W2 m ρ c (Proc.devRef .tc main_arg6) := W3_of_ne m ρ c main_arg6 (by decide)
    _ = W1 m ρ c (Proc.devRef .tc main_arg6) := StableHlo.after_of_writes_sub hostOps1 _ hostOps1_writes (r := main_arg6) (by decide)
    _ = W0 m ρ c (Proc.devRef .tc main_arg6) := (W1_arr m ρ c 6).trans (((dat0 (Ve0 m ρ) c).arrAt_in 6 rfl _).trans (A_eq0 (Ve0 m ρ) c 6))
    _ = m ((c : Thread nD τ).loc main_arg6) := rfl

theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := StableHlo.after_of_writes_sub hostOps2 _ hostOps2_writes (r := main_arg7) (by decide)
    _ = W2 m ρ c (Proc.devRef .tc main_arg7) := W3_of_ne m ρ c main_arg7 (by decide)
    _ = W1 m ρ c (Proc.devRef .tc main_arg7) := StableHlo.after_of_writes_sub hostOps1 _ hostOps1_writes (r := main_arg7) (by decide)
    _ = W0 m ρ c (Proc.devRef .tc main_arg7) := (W1_arr m ρ c 7).trans (((dat0 (Ve0 m ρ) c).arrAt_in 7 rfl _).trans (A_eq0 (Ve0 m ρ) c 7))
    _ = m ((c : Thread nD τ).loc main_arg7) := rfl

theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := StableHlo.after_of_writes_sub hostOps2 _ hostOps2_writes (r := main_arg8) (by decide)
    _ = W2 m ρ c (Proc.devRef .tc main_arg8) := W3_of_ne m ρ c main_arg8 (by decide)
    _ = W1 m ρ c (Proc.devRef .tc main_arg8) := StableHlo.after_of_writes_sub hostOps1 _ hostOps1_writes (r := main_arg8) (by decide)
    _ = W0 m ρ c (Proc.devRef .tc main_arg8) := (W1_arr m ρ c 8).trans (((dat0 (Ve0 m ρ) c).arrAt_in 8 rfl _).trans (A_eq0 (Ve0 m ρ) c 8))
    _ = m ((c : Thread nD τ).loc main_arg8) := rfl

theorem W4_main_arg9 (c : Dev nD) : W4 m ρ c (Proc.devRef .tc main_arg9) = m ((c : Thread nD τ).loc main_arg9) :=
  calc W4 m ρ c (Proc.devRef .tc main_arg9)
    _ = W3 m ρ c (Proc.devRef .tc main_arg9) := StableHlo.after_of_writes_sub hostOps2 _ hostOps2_writes (r := main_arg9) (by decide)
    _ = W2 m ρ c (Proc.devRef .tc main_arg9) := W3_of_ne m ρ c main_arg9 (by decide)
    _ = W1 m ρ c (Proc.devRef .tc main_arg9) := StableHlo.after_of_writes_sub hostOps1 _ hostOps1_writes (r := main_arg9) (by decide)
    _ = W0 m ρ c (Proc.devRef .tc main_arg9) := (W1_arr m ρ c 9).trans (((dat0 (Ve0 m ρ) c).arrAt_in 9 rfl _).trans (A_eq0 (Ve0 m ρ) c 9))
    _ = m ((c : Thread nD τ).loc main_arg9) := rfl

theorem W4_main_arg10 (c : Dev nD) : W4 m ρ c (Proc.devRef .tc main_arg10) = m ((c : Thread nD τ).loc main_arg10) :=
  calc W4 m ρ c (Proc.devRef .tc main_arg10)
    _ = W3 m ρ c (Proc.devRef .tc main_arg10) := StableHlo.after_of_writes_sub hostOps2 _ hostOps2_writes (r := main_arg10) (by decide)
    _ = W2 m ρ c (Proc.devRef .tc main_arg10) := W3_of_ne m ρ c main_arg10 (by decide)
    _ = W1 m ρ c (Proc.devRef .tc main_arg10) := StableHlo.after_of_writes_sub hostOps1 _ hostOps1_writes (r := main_arg10) (by decide)
    _ = W0 m ρ c (Proc.devRef .tc main_arg10) := (W1_arr m ρ c 10).trans (((dat0 (Ve0 m ρ) c).arrAt_in 10 rfl _).trans (A_eq0 (Ve0 m ρ) c 10))
    _ = m ((c : Thread nD τ).loc main_arg10) := rfl

theorem W4_main_arg11 (c : Dev nD) : W4 m ρ c (Proc.devRef .tc main_arg11) = m ((c : Thread nD τ).loc main_arg11) :=
  calc W4 m ρ c (Proc.devRef .tc main_arg11)
    _ = W3 m ρ c (Proc.devRef .tc main_arg11) := StableHlo.after_of_writes_sub hostOps2 _ hostOps2_writes (r := main_arg11) (by decide)
    _ = W2 m ρ c (Proc.devRef .tc main_arg11) := W3_of_ne m ρ c main_arg11 (by decide)
    _ = W1 m ρ c (Proc.devRef .tc main_arg11) := StableHlo.after_of_writes_sub hostOps1 _ hostOps1_writes (r := main_arg11) (by decide)
    _ = W0 m ρ c (Proc.devRef .tc main_arg11) := (W1_arr m ρ c 11).trans (((dat0 (Ve0 m ρ) c).arrAt_in 11 rfl _).trans (A_eq0 (Ve0 m ρ) c 11))
    _ = m ((c : Thread nD τ).loc main_arg11) := rfl

theorem W4_main_arg12 (c : Dev nD) : W4 m ρ c (Proc.devRef .tc main_arg12) = m ((c : Thread nD τ).loc main_arg12) :=
  calc W4 m ρ c (Proc.devRef .tc main_arg12)
    _ = W3 m ρ c (Proc.devRef .tc main_arg12) := StableHlo.after_of_writes_sub hostOps2 _ hostOps2_writes (r := main_arg12) (by decide)
    _ = W2 m ρ c (Proc.devRef .tc main_arg12) := W3_of_ne m ρ c main_arg12 (by decide)
    _ = W1 m ρ c (Proc.devRef .tc main_arg12) := StableHlo.after_of_writes_sub hostOps1 _ hostOps1_writes (r := main_arg12) (by decide)
    _ = W0 m ρ c (Proc.devRef .tc main_arg12) := (W1_arr m ρ c 12).trans (((dat0 (Ve0 m ρ) c).arrAt_in 12 rfl _).trans (A_eq0 (Ve0 m ρ) c 12))
    _ = m ((c : Thread nD τ).loc main_arg12) := rfl

theorem W4_main_arg13 (c : Dev nD) : W4 m ρ c (Proc.devRef .tc main_arg13) = m ((c : Thread nD τ).loc main_arg13) :=
  calc W4 m ρ c (Proc.devRef .tc main_arg13)
    _ = W3 m ρ c (Proc.devRef .tc main_arg13) := StableHlo.after_of_writes_sub hostOps2 _ hostOps2_writes (r := main_arg13) (by decide)
    _ = W2 m ρ c (Proc.devRef .tc main_arg13) := W3_of_ne m ρ c main_arg13 (by decide)
    _ = W1 m ρ c (Proc.devRef .tc main_arg13) := StableHlo.after_of_writes_sub hostOps1 _ hostOps1_writes (r := main_arg13) (by decide)
    _ = W0 m ρ c (Proc.devRef .tc main_arg13) := (W1_arr m ρ c 13).trans (((dat0 (Ve0 m ρ) c).arrAt_in 13 rfl _).trans (A_eq0 (Ve0 m ρ) c 13))
    _ = m ((c : Thread nD τ).loc main_arg13) := rfl

theorem W4_main_arg14 (c : Dev nD) : W4 m ρ c (Proc.devRef .tc main_arg14) = m ((c : Thread nD τ).loc main_arg14) :=
  calc W4 m ρ c (Proc.devRef .tc main_arg14)
    _ = W3 m ρ c (Proc.devRef .tc main_arg14) := StableHlo.after_of_writes_sub hostOps2 _ hostOps2_writes (r := main_arg14) (by decide)
    _ = W2 m ρ c (Proc.devRef .tc main_arg14) := W3_of_ne m ρ c main_arg14 (by decide)
    _ = W1 m ρ c (Proc.devRef .tc main_arg14) := StableHlo.after_of_writes_sub hostOps1 _ hostOps1_writes (r := main_arg14) (by decide)
    _ = W0 m ρ c (Proc.devRef .tc main_arg14) := (W1_arr m ρ c 14).trans (((dat0 (Ve0 m ρ) c).arrAt_in 14 rfl _).trans (A_eq0 (Ve0 m ρ) c 14))
    _ = m ((c : Thread nD τ).loc main_arg14) := rfl

/-! ## The proof data family and the thread state -/

/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (Ve0 m ρ) c
  | ⟨1, _⟩ => fun c => dat1 (Ve1 m ρ) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last fold, the generator register at some state. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Ve0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (Ve0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Ve0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : Pipeline.ΦA spec0 c ⊢ (pdats m ρ 0 c).Φ 0 := hin0 (Ve0 m ρ) c
    unfold Pipeline.ΦA at h
    iintro ⟨Hp, -, Hr⟩
    iapply h
    isplitl [Hr]; · iexact Hr
    iexact Hp
  hout c := by
    rw [Pipeline.ownSems0_none]
    have h : (pdats m ρ 0 c).Φ (Fin.last _) ⊢ Pipeline.ΦA spec0 c := hout0 (Ve0 m ρ) c
    unfold Pipeline.ΦA at h
    iintro HΦ
    ihave H := h $$ HΦ
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Ve0 m ρ c) (Vx0 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Ve1 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (Ve1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Ve1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Ve1 m ρ c) (Vx1 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)) ]

theorem main_run (c : Dev nD) : main (F := F) c = Pipeline.Seg.run (segs m ρ) :=
  main_segs adm (pdats m ρ) () 𝒱₀ L lv _ _ (reg0 m ρ) (reg1 m ρ) rfl rfl c

set_option backward.isDefEq.respectTransparency.types false in
/-- THE RUN: from any memory with zero counters every weakly fair execution of @main terminates, nothing faulting, and in
    every final state each unscoped buffer holds the last fold's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c =>
      (show (iprop(StableHlo.held (c : Thread nD τ) (Pipeline.ucRefs τ sig) (W4 m ρ c) ∗ R c) : sProp 𝕄)
          ⊢ iprop(Tₙ m ρ c ∗ ∃ W, owes (c : Thread nD τ) (0 : CellTallies nD τ sig Unit) W) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- THE FRAME: the fifteen argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c),
     (h c _ (mem_uc main_arg8 (by decide))).trans (W4_main_arg8 m ρ c),
     (h c _ (mem_uc main_arg9 (by decide))).trans (W4_main_arg9 m ρ c),
     (h c _ (mem_uc main_arg10 (by decide))).trans (W4_main_arg10 m ρ c),
     (h c _ (mem_uc main_arg11 (by decide))).trans (W4_main_arg11 m ρ c),
     (h c _ (mem_uc main_arg12 (by decide))).trans (W4_main_arg12 m ρ c),
     (h c _ (mem_uc main_arg13 (by decide))).trans (W4_main_arg13 m ρ c),
     (h c _ (mem_uc main_arg14 (by decide))).trans (W4_main_arg14 m ρ c)⟩) (run_all m ρ)

end Cert.Kernel.Hand

end
-- ==== Proof.Region0Runs.lean ====
/-
  Region 0 (the statistics-and-gate kernel on its 2 × 8 grid): what its whole-body runs are stated over.

  A grid point t has coordinates (t / 8, t % 8): a batch block of 8 rows and one of the 8 slabs of 16 image rows.
  The body first clears its two [8,256] accumulators when the slab coordinate is 0, then adds the slab's sums and
  sums of squares into them, and, when the slab coordinate is 7, turns the finished sums into the gate and stores it
  into the output block.  So three control cases occur: the first slab (t % 8 = 0), a middle slab (0 < t % 8 < 7)
  and the last slab (t % 8 = 7).  The output block is touched in the last case only; elsewhere the pipeline neither
  expects a store into it nor writes it back.
-/
import proofs.«165288_j12446815224180_2_alg».proof.Proof.Gen.KernelIdeal.Launch
import proofs.«165288_j12446815224180_2_alg».proof.Proof.Gen.KernelIdeal.Skeleton
import proofs.«165288_j12446815224180_2_alg».proof.Proof.Gen.KernelIdeal.Points
import Idealize.ShloMosaic.Lib.Pipeline.FrameBody
import Idealize.ShloMosaic.Lib.Ring
import Idealize.ShloMosaic.Lib.Tactic

-- membership in a rectangle of full extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two branch conditions -/

/-- The condition of the first `scf.if` (clear the accumulators): the slab coordinate equals 0, as the body's
    integer chain computes it from the grid coordinates. -/
abbrev cond0_0 (i : grid0.Coords) : Prop := (Scalar.cmpi .ne (Scalar.extui (Scalar.cmpi .eq (BitVec.ofNat 32 (i 1).val) 0#32)) 0#32) = 1#1
/-- It holds exactly at the first slab of each batch block. -/
theorem hcond0_0 : ∀ t : Fin cfg0.N, cond0_0 (grid0.coords t) ↔ t.val % 8 = 0 :=
  (by decide +kernel : ∀ t : Fin grid0.N, cond0_0 (grid0.coords t) ↔ t.val % 8 = 0)

/-- The condition of the second `scf.if` (finish the gate): the slab coordinate equals 7. -/
abbrev cond0_1 (i : grid0.Coords) : Prop := k0_cond2 i = 1#1
/-- It holds exactly at the last slab of each batch block. -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

/-- Input window 0 is never idle. -/
theorem liveAt0_0 : ∀ t : Fin cfg0.N, cfg0.idle 0 (grid0.coords t) = false := by decide +kernel
/-- Input window 1 is never idle. -/
theorem liveAt0_1 : ∀ t : Fin cfg0.N, cfg0.idle 1 (grid0.coords t) = false := by decide +kernel
/-- Input window 2 is never idle. -/
theorem liveAt0_2 : ∀ t : Fin cfg0.N, cfg0.idle 2 (grid0.coords t) = false := by decide +kernel
/-- Input window 3 is never idle. -/
theorem liveAt0_3 : ∀ t : Fin cfg0.N, cfg0.idle 3 (grid0.coords t) = false := by decide +kernel
/-- Input window 4 is never idle. -/
theorem liveAt0_4 : ∀ t : Fin cfg0.N, cfg0.idle 4 (grid0.coords t) = false := by decide +kernel
/-- Input window 5 is never idle. -/
theorem liveAt0_5 : ∀ t : Fin cfg0.N, cfg0.idle 5 (grid0.coords t) = false := by decide +kernel
/-- Input window 6 is never idle. -/
theorem liveAt0_6 : ∀ t : Fin cfg0.N, cfg0.idle 6 (grid0.coords t) = false := by decide +kernel
/-- Input window 7 is never idle. -/
theorem liveAt0_7 : ∀ t : Fin cfg0.N, cfg0.idle 7 (grid0.coords t) = false := by decide +kernel
/-- Input window 8 is never idle. -/
theorem liveAt0_8 : ∀ t : Fin cfg0.N, cfg0.idle 8 (grid0.coords t) = false := by decide +kernel
/-- Input window 9 is never idle. -/
theorem liveAt0_9 : ∀ t : Fin cfg0.N, cfg0.idle 9 (grid0.coords t) = false := by decide +kernel
/-- Input window 10 is never idle. -/
theorem liveAt0_10 : ∀ t : Fin cfg0.N, cfg0.idle 10 (grid0.coords t) = false := by decide +kernel
/-- Input window 11 is never idle. -/
theorem liveAt0_11 : ∀ t : Fin cfg0.N, cfg0.idle 11 (grid0.coords t) = false := by decide +kernel
/-- Input window 12 is never idle. -/
theorem liveAt0_12 : ∀ t : Fin cfg0.N, cfg0.idle 12 (grid0.coords t) = false := by decide +kernel
/-- Input window 13 is never idle. -/
theorem liveAt0_13 : ∀ t : Fin cfg0.N, cfg0.idle 13 (grid0.coords t) = false := by decide +kernel
/-- Input window 14 is never idle. -/
theorem liveAt0_14 : ∀ t : Fin cfg0.N, cfg0.idle 14 (grid0.coords t) = false := by decide +kernel
/-- At a first slab nothing is stored into the output block: the window is idle there. -/
theorem idleAt0_15_A : ∀ t : Fin cfg0.N, cond0_0 (grid0.coords t) → ¬cond0_1 (grid0.coords t) → cfg0.idle 15 (grid0.coords t) = true := by decide +kernel
/-- At a first slab the output block is not written back. -/
theorem noFlush0_15_A : ∀ t : Fin cfg0.N, cond0_0 (grid0.coords t) → ¬cond0_1 (grid0.coords t) → (cfg0.win 15).flush t = false := by decide +kernel
/-- At a middle slab nothing is stored into the output block: the window is idle there. -/
theorem idleAt0_15_B : ∀ t : Fin cfg0.N, ¬cond0_0 (grid0.coords t) → ¬cond0_1 (grid0.coords t) → cfg0.idle 15 (grid0.coords t) = true := by decide +kernel
/-- At a middle slab the output block is not written back. -/
theorem noFlush0_15_B : ∀ t : Fin cfg0.N, ¬cond0_0 (grid0.coords t) → ¬cond0_1 (grid0.coords t) → (cfg0.win 15).flush t = false := by decide +kernel
/-- At a last slab the gate is stored into the output block: the window is live there. -/
theorem liveAt0_15_C : ∀ t : Fin cfg0.N, ¬cond0_0 (grid0.coords t) → cond0_1 (grid0.coords t) → cfg0.idle 15 (grid0.coords t) = false := by decide +kernel

/-! ## The memrefs the body is called with -/

/-- One staging buffer of the output window, through which the gate block's contents are stated (which of the two
    is chosen does not matter: a view's read-back of covering pieces depends on the pieces alone). -/
abbrev VO0_15 : View sig .tc .vmem S8x256 .f32 := (Memref.whole cc0_stg15_0 : Memref sig .tc .vmem S8x256 .f32).view
/-- Each window's current staging memref at point `t`, spelled as the pipeline passes it to the body, and its wholeness. -/
abbrev ms0_0 (t : Fin cfg0.N) : Memref sig .tc .vmem S8x256x16x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S16 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x16 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S16x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S16 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x16 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S256 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S256x512 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S256 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S16x256 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S16 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S256x16 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S256 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S8x256 .f32 := win0_15.stage (cfg0.slots t 15)
abbrev hs0_15 (t : Fin cfg0.N) : (ms0_15 t).IsWhole := hstage0_15 ((cfg0.slots t 15).cast nbuf0_15)
/-- The two accumulators: whole scoped buffers of the kernel's own, passed beside the windows. The first holds the
    running sums, the second the running sums of squares, per batch row and channel. -/
abbrev scM0_0 : Memref sig .tc .vmem S8x256 .f32 := Memref.whole cc0_scratch0
abbrev scM0_1 : Memref sig .tc .vmem S8x256 .f32 := Memref.whole cc0_scratch1
/-- The accumulators as views: what each holds between grid points is stated through them. -/
abbrev VS0_0 : View sig .tc .vmem S8x256 .f32 := scM0_0.view
abbrev VS0_1 : View sig .tc .vmem S8x256 .f32 := scM0_1.view

/-- The core's scoped buffers that belong to the second pallas_call (its six staging buffers), each whole at some
    contents: region 0 never touches them and carries them along as one conjunct. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The region's invariant with the two accumulators as memrefs owned at some contents, the second pallas_call's
    staging buffers as one conjunct, and the generator register at some state: what the body obligation hands a
    run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ rest0 (F := F) c) ∗ (∃ r, prngReg c r)) := by
  unfold Pipeline.ΦA rest0; rw [scopedRest0_eq]; simp only [scM0_0, scM0_1, owns_whole]; try rfl

end Cert.KernelIdeal.Hand

end
-- ==== Proof.Region0RunA.lean ====
/-
  Region 0, the body's run at the first slab of a batch block.
-/
import proofs.«165288_j12446815224180_2_alg».proof.Proof.Region0Runs

-- membership in a rectangle of full extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- THE FIRST SLAB of a batch block (slab coordinate 0: the accumulators are cleared, the gate is not finished).
    On whole memrefs, with the image block `x0` and the fourteen weight arrays `x1 … x14` in their buffers, the
    output block at any contents `xi15` and the two accumulators at anything, the body runs to a state where the
    inputs and the output block are as they were and each accumulator holds what the listed pieces (last store
    first) write: first the zero block, then zero plus the slab's sums (`LS0`), respectively zero plus the slab's
    sums of squares (`LS1`). Nothing is stored into the output block: its piece list `L15` is empty. -/
noncomputable def kernelRun0_A (c : Dev nD) (i : grid0.Coords) (arg2 : Memref sig .tc .vmem S8x256x16x128 .f32) (harg2 : arg2.IsWhole) (arg3 : Memref sig .tc .vmem S16x256 .f32) (harg3 : arg3.IsWhole) (arg4 : Memref sig .tc .vmem S16 .f32) (harg4 : arg4.IsWhole) (arg5 : Memref sig .tc .vmem S256x16 .f32) (harg5 : arg5.IsWhole) (arg6 : Memref sig .tc .vmem S256 .f32) (harg6 : arg6.IsWhole) (arg7 : Memref sig .tc .vmem S16x256 .f32) (harg7 : arg7.IsWhole) (arg8 : Memref sig .tc .vmem S16 .f32) (harg8 : arg8.IsWhole) (arg9 : Memref sig .tc .vmem S256x16 .f32) (harg9 : arg9.IsWhole) (arg10 : Memref sig .tc .vmem S256 .f32) (harg10 : arg10.IsWhole) (arg11 : Memref sig .tc .vmem S256x512 .f32) (harg11 : arg11.IsWhole) (arg12 : Memref sig .tc .vmem S256 .f32) (harg12 : arg12.IsWhole) (arg13 : Memref sig .tc .vmem S16x256 .f32) (harg13 : arg13.IsWhole) (arg14 : Memref sig .tc .vmem S16 .f32) (harg14 : arg14.IsWhole) (arg15 : Memref sig .tc .vmem S256x16 .f32) (harg15 : arg15.IsWhole) (arg16 : Memref sig .tc .vmem S256 .f32) (harg16 : arg16.IsWhole) (arg17 : Memref sig .tc .vmem S8x256 .f32) (harg17 : arg17.IsWhole) (arg18 : Memref sig .tc .vmem S8x256 .f32) (harg18 : arg18.IsWhole) (arg19 : Memref sig .tc .vmem S8x256 .f32) (harg19 : arg19.IsWhole) (hc0 : cond0_0 i) (hc1 : ¬cond0_1 i)
    (x0 : Vec F S8x256x16x128 .f32) (x1 : Vec F S16x256 .f32) (x2 : Vec F S16 .f32) (x3 : Vec F S256x16 .f32) (x4 : Vec F S256 .f32) (x5 : Vec F S16x256 .f32) (x6 : Vec F S16 .f32) (x7 : Vec F S256x16 .f32) (x8 : Vec F S256 .f32) (x9 : Vec F S256x512 .f32) (x10 : Vec F S256 .f32) (x11 : Vec F S16x256 .f32) (x12 : Vec F S16 .f32) (x13 : Vec F S256x16 .f32) (x14 : Vec F S256 .f32) :
    Σ' (L15 : List (View.Piece (Elt F) S8x256 .f32)) (LS0 : List (View.Piece (Elt F) S8x256 .f32)), { LS1 : List (View.Piece (Elt F) S8x256 .f32) //
      ∀ (xi15 : Vec F S8x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare xi15 ∗ (∃ d, owns (c : Thread nD τ) arg18 fullShare d) ∗ (∃ d, owns (c : Thread nD τ) arg19 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare xi15 ∗ (∃ f, arg18.view.loc (c : Thread nD τ) ↦[arg18.view.set]{fullShare} arg18.view.writes (Elt F) f LS0) ∗ (∃ f, arg19.view.loc (c : Thread nD τ) ↦[arg19.view.set]{fullShare} arg19.view.writes (Elt F) f LS1)) -∗ K ⟨⟩))
          ⊢ wp frame (wpE (defs₀ (F := F)) Variants.none c none) E (cc0__stats_mask_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨[], ?_, ?_, fun xi15 E K => ?run⟩
  case run =>
    simp only [cc0__stats_mask_kernel_eq_skeleton]; unfold cc0__stats_mask_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [HS0]; · iexists _; iexact HS0
    iexists _; iexact HS1

end Cert.KernelIdeal.Hand

end
-- ==== Proof.Region0RunB.lean ====
/-
  Region 0, the body's run at a middle slab of a batch block.
-/
import proofs.«165288_j12446815224180_2_alg».proof.Proof.Region0RunA

-- membership in a rectangle of full extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- A MIDDLE SLAB of a batch block (slab coordinate 1 … 6: nothing is cleared, the gate is not finished).
    On whole memrefs, with the image block `x0` and the fourteen weight arrays `x1 … x14` in their buffers, the
    output block at any contents `xi15` and the two accumulators at what the point before left (`xs0` the running
    sums, `xs1` the running sums of squares), the body runs to a state where the inputs and the output block are
    as they were and each accumulator holds what its one piece writes: `xs0` plus the slab's sums (`LS0`),
    `xs1` plus the slab's sums of squares (`LS1`). Nothing is stored into the output block: `L15` is empty. -/
noncomputable def kernelRun0_B (c : Dev nD) (i : grid0.Coords) (arg2 : Memref sig .tc .vmem S8x256x16x128 .f32) (harg2 : arg2.IsWhole) (arg3 : Memref sig .tc .vmem S16x256 .f32) (harg3 : arg3.IsWhole) (arg4 : Memref sig .tc .vmem S16 .f32) (harg4 : arg4.IsWhole) (arg5 : Memref sig .tc .vmem S256x16 .f32) (harg5 : arg5.IsWhole) (arg6 : Memref sig .tc .vmem S256 .f32) (harg6 : arg6.IsWhole) (arg7 : Memref sig .tc .vmem S16x256 .f32) (harg7 : arg7.IsWhole) (arg8 : Memref sig .tc .vmem S16 .f32) (harg8 : arg8.IsWhole) (arg9 : Memref sig .tc .vmem S256x16 .f32) (harg9 : arg9.IsWhole) (arg10 : Memref sig .tc .vmem S256 .f32) (harg10 : arg10.IsWhole) (arg11 : Memref sig .tc .vmem S256x512 .f32) (harg11 : arg11.IsWhole) (arg12 : Memref sig .tc .vmem S256 .f32) (harg12 : arg12.IsWhole) (arg13 : Memref sig .tc .vmem S16x256 .f32) (harg13 : arg13.IsWhole) (arg14 : Memref sig .tc .vmem S16 .f32) (harg14 : arg14.IsWhole) (arg15 : Memref sig .tc .vmem S256x16 .f32) (harg15 : arg15.IsWhole) (arg16 : Memref sig .tc .vmem S256 .f32) (harg16 : arg16.IsWhole) (arg17 : Memref sig .tc .vmem S8x256 .f32) (harg17 : arg17.IsWhole) (arg18 : Memref sig .tc .vmem S8x256 .f32) (harg18 : arg18.IsWhole) (arg19 : Memref sig .tc .vmem S8x256 .f32) (harg19 : arg19.IsWhole) (hc0 : ¬cond0_0 i) (hc1 : ¬cond0_1 i)
    (x0 : Vec F S8x256x16x128 .f32) (x1 : Vec F S16x256 .f32) (x2 : Vec F S16 .f32) (x3 : Vec F S256x16 .f32) (x4 : Vec F S256 .f32) (x5 : Vec F S16x256 .f32) (x6 : Vec F S16 .f32) (x7 : Vec F S256x16 .f32) (x8 : Vec F S256 .f32) (x9 : Vec F S256x512 .f32) (x10 : Vec F S256 .f32) (x11 : Vec F S16x256 .f32) (x12 : Vec F S16 .f32) (x13 : Vec F S256x16 .f32) (x14 : Vec F S256 .f32) (xs0 : Vec F S8x256 .f32) (xs1 : Vec F S8x256 .f32) :
    Σ' (L15 : List (View.Piece (Elt F) S8x256 .f32)) (LS0 : List (View.Piece (Elt F) S8x256 .f32)), { LS1 : List (View.Piece (Elt F) S8x256 .f32) //
      ∀ (xi15 : Vec F S8x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare xi15 ∗ owns (c : Thread nD τ) arg18 fullShare xs0 ∗ owns (c : Thread nD τ) arg19 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare xi15 ∗ (∃ f, arg18.view.loc (c : Thread nD τ) ↦[arg18.view.set]{fullShare} arg18.view.writes (Elt F) f LS0) ∗ (∃ f, arg19.view.loc (c : Thread nD τ) ↦[arg19.view.set]{fullShare} arg19.view.writes (Elt F) f LS1)) -∗ K ⟨⟩))
          ⊢ wp frame (wpE (defs₀ (F := F)) Variants.none c none) E (cc0__stats_mask_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨[], ?_, ?_, fun xi15 E K => ?run⟩
  case run =>
    simp only [cc0__stats_mask_kernel_eq_skeleton]; unfold cc0__stats_mask_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hfs0; obtain rfl := harg19.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [HS0]; · iexists _; iexact HS0
    iexists _; iexact HS1

end Cert.KernelIdeal.Hand

end
-- ==== Proof.Region0RunC.lean ====
/-
  Region 0, the body's run at the last slab of a batch block, where the gate is finished.
-/
import proofs.«165288_j12446815224180_2_alg».proof.Proof.Region0RunB

-- membership in a rectangle of full extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- THE LAST SLAB of a batch block (slab coordinate 7: nothing is cleared, the gate is finished and stored).
    On whole memrefs, with the image block `x0` and the fourteen weight arrays `x1 … x14` in their buffers, the
    output block at anything and the two accumulators at what the point before left (`xs0`, `xs1`), the body runs
    to a state where the inputs are as they were, each accumulator holds what its one piece writes (`xs0` plus the
    slab's sums, `xs1` plus the slab's sums of squares) and the output block holds what its one piece `L15` writes:
    the gate computed from the finished sums — mean and deviation through their two squeeze-excite blocks, the
    split bottleneck, the last squeeze-excite block and the logistic function. -/
noncomputable def kernelRun0_C (c : Dev nD) (i : grid0.Coords) (arg2 : Memref sig .tc .vmem S8x256x16x128 .f32) (harg2 : arg2.IsWhole) (arg3 : Memref sig .tc .vmem S16x256 .f32) (harg3 : arg3.IsWhole) (arg4 : Memref sig .tc .vmem S16 .f32) (harg4 : arg4.IsWhole) (arg5 : Memref sig .tc .vmem S256x16 .f32) (harg5 : arg5.IsWhole) (arg6 : Memref sig .tc .vmem S256 .f32) (harg6 : arg6.IsWhole) (arg7 : Memref sig .tc .vmem S16x256 .f32) (harg7 : arg7.IsWhole) (arg8 : Memref sig .tc .vmem S16 .f32) (harg8 : arg8.IsWhole) (arg9 : Memref sig .tc .vmem S256x16 .f32) (harg9 : arg9.IsWhole) (arg10 : Memref sig .tc .vmem S256 .f32) (harg10 : arg10.IsWhole) (arg11 : Memref sig .tc .vmem S256x512 .f32) (harg11 : arg11.IsWhole) (arg12 : Memref sig .tc .vmem S256 .f32) (harg12 : arg12.IsWhole) (arg13 : Memref sig .tc .vmem S16x256 .f32) (harg13 : arg13.IsWhole) (arg14 : Memref sig .tc .vmem S16 .f32) (harg14 : arg14.IsWhole) (arg15 : Memref sig .tc .vmem S256x16 .f32) (harg15 : arg15.IsWhole) (arg16 : Memref sig .tc .vmem S256 .f32) (harg16 : arg16.IsWhole) (arg17 : Memref sig .tc .vmem S8x256 .f32) (harg17 : arg17.IsWhole) (arg18 : Memref sig .tc .vmem S8x256 .f32) (harg18 : arg18.IsWhole) (arg19 : Memref sig .tc .vmem S8x256 .f32) (harg19 : arg19.IsWhole) (hc0 : ¬cond0_0 i) (hc1 : cond0_1 i)
    (x0 : Vec F S8x256x16x128 .f32) (x1 : Vec F S16x256 .f32) (x2 : Vec F S16 .f32) (x3 : Vec F S256x16 .f32) (x4 : Vec F S256 .f32) (x5 : Vec F S16x256 .f32) (x6 : Vec F S16 .f32) (x7 : Vec F S256x16 .f32) (x8 : Vec F S256 .f32) (x9 : Vec F S256x512 .f32) (x10 : Vec F S256 .f32) (x11 : Vec F S16x256 .f32) (x12 : Vec F S16 .f32) (x13 : Vec F S256x16 .f32) (x14 : Vec F S256 .f32) (xs0 : Vec F S8x256 .f32) (xs1 : Vec F S8x256 .f32) :
    Σ' (L15 : List (View.Piece (Elt F) S8x256 .f32)) (LS0 : List (View.Piece (Elt F) S8x256 .f32)), { LS1 : List (View.Piece (Elt F) S8x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ (∃ d, owns (c : Thread nD τ) arg17 fullShare d) ∗ owns (c : Thread nD τ) arg18 fullShare xs0 ∗ owns (c : Thread nD τ) arg19 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ (∃ f, arg17.view.loc (c : Thread nD τ) ↦[arg17.view.set]{fullShare} arg17.view.writes (Elt F) f L15) ∗ (∃ f, arg18.view.loc (c : Thread nD τ) ↦[arg18.view.set]{fullShare} arg18.view.writes (Elt F) f LS0) ∗ (∃ f, arg19.view.loc (c : Thread nD τ) ↦[arg19.view.set]{fullShare} arg19.view.writes (Elt F) f LS1)) -∗ K ⟨⟩))
          ⊢ wp frame (wpE (defs₀ (F := F)) Variants.none c none) E (cc0__stats_mask_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, fun E K => ?run⟩
  case run =>
    simp only [cc0__stats_mask_kernel_eq_skeleton]; unfold cc0__stats_mask_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg18.eq_unread hfs0; obtain rfl := harg19.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]; · iexists _; iexact H15
    isplitl [HS0]; · iexists _; iexact HS0
    iexists _; iexact HS1

end Cert.KernelIdeal.Hand

end
-- ==== Proof.Region0.lean ====
/-
  Region 0 (the statistics-and-gate kernel) as the pipeline's proof data, at any float instance.

  The grid has 16 points t = 8·bo + ho.  The body adds the x block's per-(batch, channel) sums and sums of squares
  into two [8,256] accumulators that live in scratch memory ACROSS the points of one bo: at ho = 0 it first zeroes
  them, at ho = 7 it also computes the gate from them and stores it into the output block, which the pipeline writes
  back only there.  So what the two accumulators hold after point t is a function of what they held after point t − 1
  (except at ho = 0), and the region's invariant between points must say what they hold: before the first point
  anything, after point n the contents the case at n leaves (`outsAt0`).  The output block's buffer is untouched
  ("idle") at the points with ho ≠ 7.
-/
import proofs.«165288_j12446815224180_2_alg».proof.Proof.Region0RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not (an unfetched
    point has the block index of the point before). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not (an unfetched
    point has the block index of the point before). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not (an unfetched
    point has the block index of the point before). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not (an unfetched
    point has the block index of the point before). -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not (an unfetched
    point has the block index of the point before). -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not (an unfetched
    point has the block index of the point before). -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, fetched there or not (an unfetched
    point has the block index of the point before). -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Input window 7's current staging buffer holds its block at every point, fetched there or not (an unfetched
    point has the block index of the point before). -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-- Input window 8's current staging buffer holds its block at every point, fetched there or not (an unfetched
    point has the block index of the point before). -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-- Input window 9's current staging buffer holds its block at every point, fetched there or not (an unfetched
    point has the block index of the point before). -/
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)

/-- Input window 10's current staging buffer holds its block at every point, fetched there or not (an unfetched
    point has the block index of the point before). -/
theorem before0_10_of {c : Dev nD} (dat : Dat τ (Elt F) Unit ℕ (UR sig nD τ) ℕ cfg0 c) (hA : dat.A 10 = V c (Pipeline.arrRef spec0 10))
    (hafter : ∀ t, dat.after 10 t = iblk0 V c 10 t) (t : Fin cfg0.N) (d) : dat.before 10 t d = iblk0 V c 10 t :=
  (dat.before_in_eq_fetched 10 rfl (fun _ => rfl) (fun _ _ _ => rfl) (fun t => by rw [hafter]; unfold Dat.blockOf iblk0; rw [hA]; try rfl) t d).trans
    (by unfold Dat.fetched Dat.blockOf iblk0; rw [hA]; try rfl)

/-- Input window 11's current staging buffer holds its block at every point, fetched there or not (an unfetched
    point has the block index of the point before). -/
theorem before0_11_of {c : Dev nD} (dat : Dat τ (Elt F) Unit ℕ (UR sig nD τ) ℕ cfg0 c) (hA : dat.A 11 = V c (Pipeline.arrRef spec0 11))
    (hafter : ∀ t, dat.after 11 t = iblk0 V c 11 t) (t : Fin cfg0.N) (d) : dat.before 11 t d = iblk0 V c 11 t :=
  (dat.before_in_eq_fetched 11 rfl (fun _ => rfl) (fun _ _ _ => rfl) (fun t => by rw [hafter]; unfold Dat.blockOf iblk0; rw [hA]; try rfl) t d).trans
    (by unfold Dat.fetched Dat.blockOf iblk0; rw [hA]; try rfl)

/-- Input window 12's current staging buffer holds its block at every point, fetched there or not (an unfetched
    point has the block index of the point before). -/
theorem before0_12_of {c : Dev nD} (dat : Dat τ (Elt F) Unit ℕ (UR sig nD τ) ℕ cfg0 c) (hA : dat.A 12 = V c (Pipeline.arrRef spec0 12))
    (hafter : ∀ t, dat.after 12 t = iblk0 V c 12 t) (t : Fin cfg0.N) (d) : dat.before 12 t d = iblk0 V c 12 t :=
  (dat.before_in_eq_fetched 12 rfl (fun _ => rfl) (fun _ _ _ => rfl) (fun t => by rw [hafter]; unfold Dat.blockOf iblk0; rw [hA]; try rfl) t d).trans
    (by unfold Dat.fetched Dat.blockOf iblk0; rw [hA]; try rfl)

/-- Input window 13's current staging buffer holds its block at every point, fetched there or not (an unfetched
    point has the block index of the point before). -/
theorem before0_13_of {c : Dev nD} (dat : Dat τ (Elt F) Unit ℕ (UR sig nD τ) ℕ cfg0 c) (hA : dat.A 13 = V c (Pipeline.arrRef spec0 13))
    (hafter : ∀ t, dat.after 13 t = iblk0 V c 13 t) (t : Fin cfg0.N) (d) : dat.before 13 t d = iblk0 V c 13 t :=
  (dat.before_in_eq_fetched 13 rfl (fun _ => rfl) (fun _ _ _ => rfl) (fun t => by rw [hafter]; unfold Dat.blockOf iblk0; rw [hA]; try rfl) t d).trans
    (by unfold Dat.fetched Dat.blockOf iblk0; rw [hA]; try rfl)

/-- Input window 14's current staging buffer holds its block at every point, fetched there or not (an unfetched
    point has the block index of the point before). -/
theorem before0_14_of {c : Dev nD} (dat : Dat τ (Elt F) Unit ℕ (UR sig nD τ) ℕ cfg0 c) (hA : dat.A 14 = V c (Pipeline.arrRef spec0 14))
    (hafter : ∀ t, dat.after 14 t = iblk0 V c 14 t) (t : Fin cfg0.N) (d) : dat.before 14 t d = iblk0 V c 14 t :=
  (dat.before_in_eq_fetched 14 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves: the output block's buffer, then the two accumulators -/

/-- The three buffers after the body at a point with ho = 0 (the accumulators zeroed, then this block added; the
    output buffer's component is a placeholder nothing consults: the window is idle there). -/
def resA (c : Dev nD) (t : Fin cfg0.N) (h0 : t.val % 8 = 0) (h1 : ¬t.val % 8 = 7) : Vec F S8x256 .f32 × Vec F S8x256 .f32 × Vec F S8x256 .f32 :=
  (VO0_15.read (Elt F) (VO0_15.writes (Elt F) VO0_15.junk (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t)).1), VS0_0.read (Elt F) (VS0_0.writes (Elt F) VS0_0.junk (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t)).2.1), VS0_1.read (Elt F) (VS0_1.writes (Elt F) VS0_1.junk (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t)).2.2.1))

/-- The same at a point with 0 < ho < 7, over what the point before left in the accumulators. -/
def resB (c : Dev nD) (t : Fin cfg0.N) (h0 : ¬t.val % 8 = 0) (h1 : ¬t.val % 8 = 7) (xs0 xs1 : Vec F S8x256 .f32) : Vec F S8x256 .f32 × Vec F S8x256 .f32 × Vec F S8x256 .f32 :=
  (VO0_15.read (Elt F) (VO0_15.writes (Elt F) VO0_15.junk (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) xs0 xs1).1), VS0_0.read (Elt F) (VS0_0.writes (Elt F) VS0_0.junk (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) xs0 xs1).2.1), VS0_1.read (Elt F) (VS0_1.writes (Elt F) VS0_1.junk (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) xs0 xs1).2.2.1))

/-- The same at a point with ho = 7: the output buffer's component is the gate block. -/
def resC (c : Dev nD) (t : Fin cfg0.N) (h0 : ¬t.val % 8 = 0) (h1 : t.val % 8 = 7) (xs0 xs1 : Vec F S8x256 .f32) : Vec F S8x256 .f32 × Vec F S8x256 .f32 × Vec F S8x256 .f32 :=
  (VO0_15.read (Elt F) (VO0_15.writes (Elt F) VO0_15.junk (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) xs0 xs1).1), VS0_0.read (Elt F) (VS0_0.writes (Elt F) VS0_0.junk (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) xs0 xs1).2.1), VS0_1.read (Elt F) (VS0_1.writes (Elt F) VS0_1.junk (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) xs0 xs1).2.2.1))

/-- Each case's stores into an accumulator (and, at ho = 7, into the output block) tile the buffer, so they cover it. -/
theorem scoverA_0 (c : Dev nD) (t : Fin cfg0.N) (h0 : t.val % 8 = 0) (h1 : ¬t.val % 8 = 7) (y : S8x256.Idx) :
    ∃ pc ∈ (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t)).2.1, y ∈ pc.1.set :=
  View.cover_of_tiledL _ S8x256.size (by sl_kernel_rfl) y
theorem scoverA_1 (c : Dev nD) (t : Fin cfg0.N) (h0 : t.val % 8 = 0) (h1 : ¬t.val % 8 = 7) (y : S8x256.Idx) :
    ∃ pc ∈ (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t)).2.2.1, y ∈ pc.1.set :=
  View.cover_of_tiledL _ S8x256.size (by sl_kernel_rfl) y
theorem scoverB_0 (c : Dev nD) (t : Fin cfg0.N) (h0 : ¬t.val % 8 = 0) (h1 : ¬t.val % 8 = 7) (xs0 xs1 : Vec F S8x256 .f32) (y : S8x256.Idx) :
    ∃ pc ∈ (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) xs0 xs1).2.1, y ∈ pc.1.set :=
  View.cover_of_tiledL _ S8x256.size (by sl_kernel_rfl) y
theorem scoverB_1 (c : Dev nD) (t : Fin cfg0.N) (h0 : ¬t.val % 8 = 0) (h1 : ¬t.val % 8 = 7) (xs0 xs1 : Vec F S8x256 .f32) (y : S8x256.Idx) :
    ∃ pc ∈ (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) xs0 xs1).2.2.1, y ∈ pc.1.set :=
  View.cover_of_tiledL _ S8x256.size (by sl_kernel_rfl) y
theorem scoverC_0 (c : Dev nD) (t : Fin cfg0.N) (h0 : ¬t.val % 8 = 0) (h1 : t.val % 8 = 7) (xs0 xs1 : Vec F S8x256 .f32) (y : S8x256.Idx) :
    ∃ pc ∈ (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) xs0 xs1).2.1, y ∈ pc.1.set :=
  View.cover_of_tiledL _ S8x256.size (by sl_kernel_rfl) y
theorem scoverC_1 (c : Dev nD) (t : Fin cfg0.N) (h0 : ¬t.val % 8 = 0) (h1 : t.val % 8 = 7) (xs0 xs1 : Vec F S8x256 .f32) (y : S8x256.Idx) :
    ∃ pc ∈ (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) xs0 xs1).2.2.1, y ∈ pc.1.set :=
  View.cover_of_tiledL _ S8x256.size (by sl_kernel_rfl) y
theorem coverC_15 (c : Dev nD) (t : Fin cfg0.N) (h0 : ¬t.val % 8 = 0) (h1 : t.val % 8 = 7) (xs0 xs1 : Vec F S8x256 .f32) (y : S8x256.Idx) :
    ∃ pc ∈ (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) xs0 xs1).1, y ∈ pc.1.set :=
  View.cover_of_tiledL _ S8x256.size (by sl_kernel_rfl) y

/-! ## What the three buffers hold after each point -/

/-- THE ACCUMULATION: the output block's buffer and the two accumulators after the body at position `n` — the case
    ho = n % 8 selects, run on the point's blocks, the accumulators taken from position n − 1 unless ho = 0. -/
def outsAt0 (c : Dev nD) : (n : ℕ) → n < cfg0.N → Vec F S8x256 .f32 × Vec F S8x256 .f32 × Vec F S8x256 .f32
  | 0, hn => resA V c ⟨0, hn⟩ (Nat.zero_mod _) (by show ¬(0 % 8 = 7); omega)
  | n + 1, hn =>
    if h0 : (n + 1) % 8 = 0 then resA V c ⟨n + 1, hn⟩ h0 (by show ¬((n + 1) % 8 = 7); omega)
    else if h1 : (n + 1) % 8 = 7 then resC V c ⟨n + 1, hn⟩ h0 h1 (outsAt0 c n (Nat.lt_of_succ_lt hn)).2.1 (outsAt0 c n (Nat.lt_of_succ_lt hn)).2.2
    else resB V c ⟨n + 1, hn⟩ h0 h1 (outsAt0 c n (Nat.lt_of_succ_lt hn)).2.1 (outsAt0 c n (Nat.lt_of_succ_lt hn)).2.2

theorem outsAt0_A (c : Dev nD) (t : Fin cfg0.N) (h0 : t.val % 8 = 0) (h1 : ¬t.val % 8 = 7) :
    outsAt0 V c t.val t.isLt = resA V c t h0 h1 := by
  obtain ⟨n, hn⟩ := t
  cases n with
  | zero => rfl
  | succ n => exact (dif_pos h0).trans rfl

theorem outsAt0_B (c : Dev nD) (t : Fin cfg0.N) (h0 : ¬t.val % 8 = 0) (h1 : ¬t.val % 8 = 7) :
    outsAt0 V c t.val t.isLt = resB V c t h0 h1 (outsAt0 V c (t.val - 1) (Nat.lt_of_le_of_lt (Nat.sub_le _ _) t.isLt)).2.1
      (outsAt0 V c (t.val - 1) (Nat.lt_of_le_of_lt (Nat.sub_le _ _) t.isLt)).2.2 := by
  obtain ⟨n, hn⟩ := t
  cases n with
  | zero => exact absurd (Nat.zero_mod _) h0
  | succ n => exact (dif_neg h0).trans ((dif_neg h1).trans rfl)

theorem outsAt0_C (c : Dev nD) (t : Fin cfg0.N) (h0 : ¬t.val % 8 = 0) (h1 : t.val % 8 = 7) :
    outsAt0 V c t.val t.isLt = resC V c t h0 h1 (outsAt0 V c (t.val - 1) (Nat.lt_of_le_of_lt (Nat.sub_le _ _) t.isLt)).2.1
      (outsAt0 V c (t.val - 1) (Nat.lt_of_le_of_lt (Nat.sub_le _ _) t.isLt)).2.2 := by
  obtain ⟨n, hn⟩ := t
  cases n with
  | zero => exact absurd (Nat.zero_mod _) h0
  | succ n => exact (dif_neg h0).trans ((dif_pos h1).trans rfl)

/-! ## The invariant between points -/

/-- Before the first point: the two accumulators (and the other kernel's idle staging buffers) at anything; after point
    `n`: the accumulators at what that point left, the rest at anything; the generator register at some state throughout. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.1) ∗ owns (c : Thread nD τ) scM0_1 fullShare ((outsAt0 V c n hn).2.2) ∗ rest0 (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2.1) ∗ owns (c : Thread nD τ) scM0_1 fullShare ((outsAt0 V c n hn).2.2) ∗ rest0 (F := F) c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2.1) ∗ owns (c : Thread nD τ) scM0_1 fullShare ((outsAt0 V c (n - 1) (by omega)).2.2) ∗ rest0 (F := F) c) ∗ (∃ r, prngReg c r)) := by
  cases n with
  | zero => exact absurd rfl hz
  | succ n => rfl

/-! ## The pipeline's proof data -/

/-- The arrays as the region finds them; after the body at point `t` each input's buffer at its block and the output's
    at `outsAt0`'s first component; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => iblk0 V c 12 t
    | ⟨13, _⟩ => iblk0 V c 13 t
    | ⟨14, _⟩ => iblk0 V c 14 t
    | ⟨15, _⟩ => (outsAt0 V c t.val t.isLt).1
    | ⟨_ + 16, h⟩ => absurd h (Nat.not_lt.2 (Nat.le_add_left _ _))
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = iblk0 V c 11 t := by dsimp only [dat0]
theorem after0_12 (c : Dev nD) (t : Fin cfg0.N) : (dat0 V c).after 12 t = iblk0 V c 12 t := by dsimp only [dat0]
theorem after0_13 (c : Dev nD) (t : Fin cfg0.N) : (dat0 V c).after 13 t = iblk0 V c 13 t := by dsimp only [dat0]
theorem after0_14 (c : Dev nD) (t : Fin cfg0.N) : (dat0 V c).after 14 t = iblk0 V c 14 t := by dsimp only [dat0]
theorem after0_15 (c : Dev nD) (t : Fin cfg0.N) : (dat0 V c).after 15 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d
theorem before0_10 (c : Dev nD) (t : Fin cfg0.N) (d) : (dat0 V c).before 10 t d = iblk0 V c 10 t :=
  before0_10_of V (dat0 V c) (A_eq0 V c 10) (after0_10 V c) t d
theorem before0_11 (c : Dev nD) (t : Fin cfg0.N) (d) : (dat0 V c).before 11 t d = iblk0 V c 11 t :=
  before0_11_of V (dat0 V c) (A_eq0 V c 11) (after0_11 V c) t d
theorem before0_12 (c : Dev nD) (t : Fin cfg0.N) (d) : (dat0 V c).before 12 t d = iblk0 V c 12 t :=
  before0_12_of V (dat0 V c) (A_eq0 V c 12) (after0_12 V c) t d
theorem before0_13 (c : Dev nD) (t : Fin cfg0.N) (d) : (dat0 V c).before 13 t d = iblk0 V c 13 t :=
  before0_13_of V (dat0 V c) (A_eq0 V c 13) (after0_13 V c) t d
theorem before0_14 (c : Dev nD) (t : Fin cfg0.N) (d) : (dat0 V c).before 14 t d = iblk0 V c 14 t :=
  before0_14_of V (dat0 V c) (A_eq0 V c 14) (after0_14 V c) t d

/-! ## The body obligation -/

/-- What the body is called with at point `t`: the invariant, the core's dues, each window's current staging buffer. -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d))
    ∗ (∃ d, owns (c : Thread nD τ) (ms0_10 t) fullShare ((dat0 V c).before 10 t d))
    ∗ (∃ d, owns (c : Thread nD τ) (ms0_11 t) fullShare ((dat0 V c).before 11 t d))
    ∗ (∃ d, owns (c : Thread nD τ) (ms0_12 t) fullShare ((dat0 V c).before 12 t d))
    ∗ (∃ d, owns (c : Thread nD τ) (ms0_13 t) fullShare ((dat0 V c).before 13 t d))
    ∗ (∃ d, owns (c : Thread nD τ) (ms0_14 t) fullShare ((dat0 V c).before 14 t d))
    ∗ (∃ d, owns (c : Thread nD τ) (ms0_15 t) fullShare ((dat0 V c).before 15 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t
    ∗ (dat0 V c).leavesExact 9 t
    ∗ (dat0 V c).leavesExact 10 t
    ∗ (dat0 V c).leavesExact 11 t
    ∗ (dat0 V c).leavesExact 12 t
    ∗ (dat0 V c).leavesExact 13 t
    ∗ (dat0 V c).leavesExact 14 t
    ∗ (dat0 V c).leavesExact 15 t)

set_option maxHeartbeats 16000000 in
/-- The body at any point. The closed forms of the two conditions say which case the point is in; each input's buffer
    holds its block; the invariant hands the body the two accumulators — at what the point before left, or at anything
    before the first point — and takes them back at this point's contents; the output block's buffer is handed back
    untouched unless ho = 7, where it ends at the case's stores; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10, before0_11, before0_12, before0_13, before0_14]
  rw [show (dat0 V c).owesAt () t.succ = (dat0 V c).owesAt () t.castSucc from rfl]
  rw [show (dat0 V c).Φ t.succ = PhiS V c (t.val + 1) t.isLt from rfl, PhiS_succ]
  have hN : t.val < 16 := lt_of_lt_of_eq t.isLt (show cfg0.N = 16 from N_0)
  by_cases h0 : t.val % 8 = 0
  · have h1 : ¬t.val % 8 = 7 := by omega
    rw [show (dat0 V c).leavesExact 0 t = owns (c : Thread nD τ) (ms0_0 t) fullShare ((dat0 V c).after 0 t) from by
      unfold Dat.leavesExact; rw [liveAt0_0 t], after0_0]
    rw [show (dat0 V c).leavesExact 1 t = owns (c : Thread nD τ) (ms0_1 t) fullShare ((dat0 V c).after 1 t) from by
      unfold Dat.leavesExact; rw [liveAt0_1 t], after0_1]
    rw [show (dat0 V c).leavesExact 2 t = owns (c : Thread nD τ) (ms0_2 t) fullShare ((dat0 V c).after 2 t) from by
      unfold Dat.leavesExact; rw [liveAt0_2 t], after0_2]
    rw [show (dat0 V c).leavesExact 3 t = owns (c : Thread nD τ) (ms0_3 t) fullShare ((dat0 V c).after 3 t) from by
      unfold Dat.leavesExact; rw [liveAt0_3 t], after0_3]
    rw [show (dat0 V c).leavesExact 4 t = owns (c : Thread nD τ) (ms0_4 t) fullShare ((dat0 V c).after 4 t) from by
      unfold Dat.leavesExact; rw [liveAt0_4 t], after0_4]
    rw [show (dat0 V c).leavesExact 5 t = owns (c : Thread nD τ) (ms0_5 t) fullShare ((dat0 V c).after 5 t) from by
      unfold Dat.leavesExact; rw [liveAt0_5 t], after0_5]
    rw [show (dat0 V c).leavesExact 6 t = owns (c : Thread nD τ) (ms0_6 t) fullShare ((dat0 V c).after 6 t) from by
      unfold Dat.leavesExact; rw [liveAt0_6 t], after0_6]
    rw [show (dat0 V c).leavesExact 7 t = owns (c : Thread nD τ) (ms0_7 t) fullShare ((dat0 V c).after 7 t) from by
      unfold Dat.leavesExact; rw [liveAt0_7 t], after0_7]
    rw [show (dat0 V c).leavesExact 8 t = owns (c : Thread nD τ) (ms0_8 t) fullShare ((dat0 V c).after 8 t) from by
      unfold Dat.leavesExact; rw [liveAt0_8 t], after0_8]
    rw [show (dat0 V c).leavesExact 9 t = owns (c : Thread nD τ) (ms0_9 t) fullShare ((dat0 V c).after 9 t) from by
      unfold Dat.leavesExact; rw [liveAt0_9 t], after0_9]
    rw [show (dat0 V c).leavesExact 10 t = owns (c : Thread nD τ) (ms0_10 t) fullShare ((dat0 V c).after 10 t) from by
      unfold Dat.leavesExact; rw [liveAt0_10 t], after0_10]
    rw [show (dat0 V c).leavesExact 11 t = owns (c : Thread nD τ) (ms0_11 t) fullShare ((dat0 V c).after 11 t) from by
      unfold Dat.leavesExact; rw [liveAt0_11 t], after0_11]
    rw [show (dat0 V c).leavesExact 12 t = owns (c : Thread nD τ) (ms0_12 t) fullShare ((dat0 V c).after 12 t) from by
      unfold Dat.leavesExact; rw [liveAt0_12 t], after0_12]
    rw [show (dat0 V c).leavesExact 13 t = owns (c : Thread nD τ) (ms0_13 t) fullShare ((dat0 V c).after 13 t) from by
      unfold Dat.leavesExact; rw [liveAt0_13 t], after0_13]
    rw [show (dat0 V c).leavesExact 14 t = owns (c : Thread nD τ) (ms0_14 t) fullShare ((dat0 V c).after 14 t) from by
      unfold Dat.leavesExact; rw [liveAt0_14 t], after0_14]
    rw [Dat.leavesExact_idle (dat0 V c) 15 t (idleAt0_15_A t ((hcond0_0 t).mpr h0) (fun h => h1 ((hcond0_1 t).mp h))) (noFlush0_15_A t ((hcond0_0 t).mpr h0) (fun h => h1 ((hcond0_1 t).mp h)))]
    rw [outsAt0_A V c t h0 h1]
    unfold resA; (try dsimp only)
    by_cases hz : t.val = 0
    ·
      rw [PhiS_castSucc V c t, PhiS_zero V c _ _ hz, PhiA0_eq]
      iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
      iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t)).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [HS0]; · iexact HS0
      isplitl [HS1]; · iexact HS1
      iintro ⟨H0, H1, H2, H3, H4, H5, H6, H7, H8, H9, H10, H11, H12, H13, H14, H15, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scoverA_0 V c t h0 h1)
          isplitl [HS1]
          · unfold owns; iexists _; isplitr
            swap; · iexact HS1
            ipureintro; exact View.read_writes_of_cover _ _ _ _ _ (scoverA_1 V c t h0 h1)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      iexists _; iexact H15
    ·
      rw [PhiS_castSucc V c t, PhiS_pos V c _ _ hz]
      iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
      iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t)).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [HS0]; · iexists _; iexact HS0
      isplitl [HS1]; · iexists _; iexact HS1
      iintro ⟨H0, H1, H2, H3, H4, H5, H6, H7, H8, H9, H10, H11, H12, H13, H14, H15, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scoverA_0 V c t h0 h1)
          isplitl [HS1]
          · unfold owns; iexists _; isplitr
            swap; · iexact HS1
            ipureintro; exact View.read_writes_of_cover _ _ _ _ _ (scoverA_1 V c t h0 h1)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      iexists _; iexact H15
  · have hz : t.val ≠ 0 := fun e => h0 (by rw [e])
    by_cases h1 : t.val % 8 = 7
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [show (dat0 V c).leavesExact 7 t = owns (c : Thread nD τ) (ms0_7 t) fullShare ((dat0 V c).after 7 t) from by
        unfold Dat.leavesExact; rw [liveAt0_7 t], after0_7]
      rw [show (dat0 V c).leavesExact 8 t = owns (c : Thread nD τ) (ms0_8 t) fullShare ((dat0 V c).after 8 t) from by
        unfold Dat.leavesExact; rw [liveAt0_8 t], after0_8]
      rw [show (dat0 V c).leavesExact 9 t = owns (c : Thread nD τ) (ms0_9 t) fullShare ((dat0 V c).after 9 t) from by
        unfold Dat.leavesExact; rw [liveAt0_9 t], after0_9]
      rw [show (dat0 V c).leavesExact 10 t = owns (c : Thread nD τ) (ms0_10 t) fullShare ((dat0 V c).after 10 t) from by
        unfold Dat.leavesExact; rw [liveAt0_10 t], after0_10]
      rw [show (dat0 V c).leavesExact 11 t = owns (c : Thread nD τ) (ms0_11 t) fullShare ((dat0 V c).after 11 t) from by
        unfold Dat.leavesExact; rw [liveAt0_11 t], after0_11]
      rw [show (dat0 V c).leavesExact 12 t = owns (c : Thread nD τ) (ms0_12 t) fullShare ((dat0 V c).after 12 t) from by
        unfold Dat.leavesExact; rw [liveAt0_12 t], after0_12]
      rw [show (dat0 V c).leavesExact 13 t = owns (c : Thread nD τ) (ms0_13 t) fullShare ((dat0 V c).after 13 t) from by
        unfold Dat.leavesExact; rw [liveAt0_13 t], after0_13]
      rw [show (dat0 V c).leavesExact 14 t = owns (c : Thread nD τ) (ms0_14 t) fullShare ((dat0 V c).after 14 t) from by
        unfold Dat.leavesExact; rw [liveAt0_14 t], after0_14]
      rw [show (dat0 V c).leavesExact 15 t = owns (c : Thread nD τ) (ms0_15 t) fullShare ((dat0 V c).after 15 t) from by
        unfold Dat.leavesExact; rw [liveAt0_15_C t (fun h => h0 ((hcond0_0 t).mp h)) ((hcond0_1 t).mpr h1)], after0_15]
      rw [outsAt0_C V c t h0 h1]
      unfold resC; (try dsimp only)
      rw [PhiS_castSucc V c t, PhiS_pos V c _ _ hz]
      iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
      iapply ((kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) _ _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexists _; iexact H15
      isplitl [HS0]; · iexact HS0
      isplitl [HS1]; · iexact HS1
      iintro ⟨H0, H1, H2, H3, H4, H5, H6, H7, H8, H9, H10, H11, H12, H13, H14, ⟨%e15, H15⟩, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scoverC_0 V c t h0 h1 _ _)
          isplitl [HS1]
          · unfold owns; iexists _; isplitr
            swap; · iexact HS1
            ipureintro; exact View.read_writes_of_cover _ _ _ _ _ (scoverC_1 V c t h0 h1 _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      unfold owns; iexists _; isplitr
      swap; · iexact H15
      ipureintro; exact View.read_writes_of_cover _ _ _ _ _ (coverC_15 V c t h0 h1 _ _)
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [show (dat0 V c).leavesExact 7 t = owns (c : Thread nD τ) (ms0_7 t) fullShare ((dat0 V c).after 7 t) from by
        unfold Dat.leavesExact; rw [liveAt0_7 t], after0_7]
      rw [show (dat0 V c).leavesExact 8 t = owns (c : Thread nD τ) (ms0_8 t) fullShare ((dat0 V c).after 8 t) from by
        unfold Dat.leavesExact; rw [liveAt0_8 t], after0_8]
      rw [show (dat0 V c).leavesExact 9 t = owns (c : Thread nD τ) (ms0_9 t) fullShare ((dat0 V c).after 9 t) from by
        unfold Dat.leavesExact; rw [liveAt0_9 t], after0_9]
      rw [show (dat0 V c).leavesExact 10 t = owns (c : Thread nD τ) (ms0_10 t) fullShare ((dat0 V c).after 10 t) from by
        unfold Dat.leavesExact; rw [liveAt0_10 t], after0_10]
      rw [show (dat0 V c).leavesExact 11 t = owns (c : Thread nD τ) (ms0_11 t) fullShare ((dat0 V c).after 11 t) from by
        unfold Dat.leavesExact; rw [liveAt0_11 t], after0_11]
      rw [show (dat0 V c).leavesExact 12 t = owns (c : Thread nD τ) (ms0_12 t) fullShare ((dat0 V c).after 12 t) from by
        unfold Dat.leavesExact; rw [liveAt0_12 t], after0_12]
      rw [show (dat0 V c).leavesExact 13 t = owns (c : Thread nD τ) (ms0_13 t) fullShare ((dat0 V c).after 13 t) from by
        unfold Dat.leavesExact; rw [liveAt0_13 t], after0_13]
      rw [show (dat0 V c).leavesExact 14 t = owns (c : Thread nD τ) (ms0_14 t) fullShare ((dat0 V c).after 14 t) from by
        unfold Dat.leavesExact; rw [liveAt0_14 t], after0_14]
      rw [Dat.leavesExact_idle (dat0 V c) 15 t (idleAt0_15_B t (fun h => h0 ((hcond0_0 t).mp h)) (fun h => h1 ((hcond0_1 t).mp h))) (noFlush0_15_B t (fun h => h0 ((hcond0_0 t).mp h)) (fun h => h1 ((hcond0_1 t).mp h)))]
      rw [outsAt0_B V c t h0 h1]
      unfold resB; (try dsimp only)
      rw [PhiS_castSucc V c t, PhiS_pos V c _ _ hz]
      iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
      iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) _ _).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [HS0]; · iexact HS0
      isplitl [HS1]; · iexact HS1
      iintro ⟨H0, H1, H2, H3, H4, H5, H6, H7, H8, H9, H10, H11, H12, H13, H14, H15, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scoverB_0 V c t h0 h1 _ _)
          isplitl [HS1]
          · unfold owns; iexists _; isplitr
            swap; · iexact HS1
            ipureintro; exact View.read_writes_of_cover _ _ _ _ _ (scoverB_1 V c t h0 h1 _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      iexists _; iexact H15

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the region is entered with is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the class's back: what the accumulators hold is forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HS1, HR⟩, Hg⟩
  isplitl [HS0 HS1 HR]
  · isplitl [HS0]; · iexists _; iexact HS0
    isplitl [HS1]; · iexists _; iexact HS1
    iexact HR
  iexact Hg

theorem hout0 (c : Dev nD) : (dat0 V c).Φ (Fin.last cfg0.N) ⊢ Pipeline.ΦA spec0 c :=
  Phi_out0 V c _ (by rw [Fin.val_last]; have : cfg0.N = 16 := N_0; omega)

end Cert.KernelIdeal.Hand

end
-- ==== Proof.Region1.lean ====
/-
  The scaling region's half of the frame, at a parameter V: the contents of the TensorCore's buffers when the region
  is entered.

  The region walks an 8 × 8 grid.  At a point it holds three staging buffers: a [512,2048] block of the tensor x
  (laid out as a [4096,16384] matrix, one row per (batch, channel) pair), the matching [512,1] block of the gate
  column, and a [512,2048] block of the result.  The body multiplies each row of the x block by that row's gate
  entry and stores the whole product block.  Everything here is uniform in the float instance.
-/
import proofs.«165288_j12446815224180_2_alg».proof.Proof.Gen.KernelIdeal.Launch
import proofs.«165288_j12446815224180_2_alg».proof.Proof.Gen.KernelIdeal.Skeleton
import proofs.«165288_j12446815224180_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The x window's current staging buffer holds the x block of the point, for any proof data whose array is the
    entry contents and whose body leaves the block in place.  The block index moves at every point, so the buffer
    was fetched at this very point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The gate window's current staging buffer holds the gate block of the point.  Its block index depends on the
    first grid coordinate only, so it is fetched once in every 8 points; at the 7 points between two fetches the
    index has not moved and the body has left the block in place, so the buffer still holds the block of the point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each staging buffer whole -/

abbrev r1_0 : Rect S512x2048 := Rect.unit (s := S512x2048) ![0, 0] S512x2048.size inb_S512x2048_S512x2048_0_0
abbrev r1_1 : Rect S512x1 := Rect.unit (s := S512x1) ![0, 0] S512x1.size inb_S512x1_S512x1_0_0
abbrev r1_2 : Rect S512x2048 := Rect.unit (s := S512x2048) ![0, 0] S512x2048.size inb_S512x2048_S512x2048_0_0

/-! ## What the body leaves in the result window's buffer -/

/-- The result buffer after the body, from the x block `x0` and the gate block `x1`: one store of the whole
    buffer, whose value is the row-wise product of `x0` with the gate column `x1` broadcast along the row. -/
def out1_2 (x0 : Vec F S512x2048 .f32) (x1 : Vec F S512x1 .f32) : Vec F S512x2048 .f32 :=
  View.canon [⟨r1_2, k1_pay1 (View.ld x0 r1_0) (View.ld x1 r1_1)⟩]

/-- The one store is of the whole buffer, so it covers every index. -/
theorem cover1_2 (p0 : Vec F S512x2048 .f32) (y : S512x2048.Idx) :
    ∃ pc ∈ ([⟨r1_2, p0⟩] : List (View.Piece (Elt F) S512x2048 .f32)), y ∈ pc.1.set :=
  View.cover_of_tiledL [⟨r1_2, p0⟩] S512x2048.size (by sl_kernel_rfl) y

/-! ## The body's triple -/

set_option maxHeartbeats 1000000 in
/-- The body on whole staging memrefs — the x buffer at `x0`, the gate buffer at `x1`, the result buffer at anything —
    runs to the continuation with the two inputs as they were and the result buffer at `out1_2 x0 x1`.  The body also
    loads the result buffer before storing into it; the loaded value is not used. -/
theorem sound_kernel1 (c : Dev nD) (E : Set ℕ) (i : grid1.Coords) (arg2 : Memref sig .tc .vmem S512x2048 .f32) (harg2 : arg2.IsWhole)
    (arg3 : Memref sig .tc .vmem S512x1 .f32) (harg3 : arg3.IsWhole) (arg4 : Memref sig .tc .vmem S512x2048 .f32) (harg4 : arg4.IsWhole)
    (x0 : Vec F S512x2048 .f32) (x1 : Vec F S512x1 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out1_2 x0 x1)) -∗ K ⟨⟩))
      ⊢ wp frame (wpE (defs₀ (F := F)) Variants.none c none) E (cc1__scale_kernel i arg2 harg2 arg3 harg3 arg4 harg4) K := by
  simp only [cc1__scale_kernel_eq_skeleton]; unfold cc1__scale_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of the region on core `c`: the arrays as the region finds them; after the body at point `t` the x
    and gate buffers at their blocks and the result buffer at `out1_2` of the two blocks; the invariant is the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`: the invariant, the core's debts, and the three current staging
    buffers, each at what the pipeline has put there. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns: the same, each staging buffer at what the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so the body's triple applies; the invariant and the
    core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.Run.lean ====
/-
  The whole run of @main, at any float instance: region 0, two host reshapes, region 1, one host reshape.

  The contents of every unscoped buffer at each boundary between two items are written as a fold from the launch memory:
  a region replaces its windows' arrays by what its write-backs leave (the inputs as entered, the output block by block)
  and touches nothing else; a host stretch applies its operations.  Each region is entered from "every unscoped buffer
  at the boundary's contents, the generator register at some state, nothing owed" and left in the same form at the next
  boundary, so the items chain; at the end every unscoped buffer is read against the final memory, and it holds the
  last fold's contents.  The frame claim (the fifteen arguments end as launched) and the value of the result array are
  both read off that one statement.
-/
import proofs.«165288_j12446815224180_2_alg».proof.Proof.Region0
import proofs.«165288_j12446815224180_2_alg».proof.Proof.Region1
import proofs.«165288_j12446815224180_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch (region 0's entry: no host operation comes before it). -/
abbrev W0 : Dev nD → Valuation τ sig (Elt F) := fun c b => (s₀ m ρ).mem ((c : Dev nD), b)
abbrev Ve0 : (c : Dev nD) → (b : Ref sig .tc) → Buf (Elt F) ((c : Thread nD τ).loc b) := fun c b => W0 m ρ c b
/-- At region 0's exit: the gate array at what the sixteen points' write-backs leave, everything else as entered. -/
def W1 (c : Dev nD) : Valuation τ sig (Elt F) :=
  Pipeline.withArrays spec0 c (W0 m ρ c) fun w => (dat0 (Ve0 m ρ) c).arrAt w cfg0.N
theorem W1_arr (c : Dev nD) (w : Fin cfg0.W) :
    W1 m ρ c (Proc.devRef .tc (Pipeline.arrRef spec0 w)) = (dat0 (Ve0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev Vx0 : (c : Dev nD) → (b : Ref sig .tc) → Buf (Elt F) ((c : Thread nD τ).loc b) := fun c b => W1 m ρ c b
theorem hF0 (c : Dev nD) (w : Fin cfg0.W) : (dat0 (Ve0 m ρ) c).arrAt w cfg0.N = Vx0 m ρ c (Pipeline.arrRef spec0 w) :=
  (W1_arr m ρ c w).symm
theorem hrest0 (c : Dev nD) : ∀ b, b ∉ Finset.univ.image (Pipeline.arrRef spec0) → Vx0 m ρ c b = Ve0 m ρ c b :=
  fun b hb => W1_of_ne m ρ c b fun w e => hb (Finset.mem_image.mpr ⟨w, Finset.mem_univ _, e⟩)

/-- After the two reshapes (region 1's entry). -/
abbrev W2 : Dev nD → Valuation τ sig (Elt F) := fun c => StableHlo.after hostOps1 (W1 m ρ c)
abbrev Ve1 : (c : Dev nD) → (b : Ref sig .tc) → Buf (Elt F) ((c : Thread nD τ).loc b) := fun c b => W2 m ρ c b
/-- At region 1's exit: the scaled [4096,16384] array at what the sixty-four points' write-backs leave. -/
def W3 (c : Dev nD) : Valuation τ sig (Elt F) :=
  Pipeline.withArrays spec1 c (W2 m ρ c) fun w => (dat1 (Ve1 m ρ) c).arrAt w cfg1.N
theorem W3_arr (c : Dev nD) (w : Fin cfg1.W) :
    W3 m ρ c (Proc.devRef .tc (Pipeline.arrRef spec1 w)) = (dat1 (Ve1 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev Vx1 : (c : Dev nD) → (b : Ref sig .tc) → Buf (Elt F) ((c : Thread nD τ).loc b) := fun c b => W3 m ρ c b
theorem hF1 (c : Dev nD) (w : Fin cfg1.W) : (dat1 (Ve1 m ρ) c).arrAt w cfg1.N = Vx1 m ρ c (Pipeline.arrRef spec1 w) :=
  (W3_arr m ρ c w).symm
theorem hrest1 (c : Dev nD) : ∀ b, b ∉ Finset.univ.image (Pipeline.arrRef spec1) → Vx1 m ρ c b = Ve1 m ρ c b :=
  fun b hb => W3_of_ne m ρ c b fun w e => hb (Finset.mem_image.mpr ⟨w, Finset.mem_univ _, e⟩)

/-- After the last reshape: the end. -/
abbrev W4 : Dev nD → Valuation τ sig (Elt F) := fun c => StableHlo.after hostOps2 (W3 m ρ c)

/-! ### The arguments end as launched: region 0 only reads them (each is an input window's array), the reshapes write
    other buffers, region 1 does not touch them -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_writes_sub hostOps2 _ hostOps2_writes (r := main_arg0) (by decide)
    _ = W2 m ρ c (Proc.devRef .tc main_arg0) := W3_of_ne m ρ c main_arg0 (by decide)
    _ = W1 m ρ c (Proc.devRef .tc main_arg0) := StableHlo.after_of_writes_sub hostOps1 _ hostOps1_writes (r := main_arg0) (by decide)
    _ = W0 m ρ c (Proc.devRef .tc main_arg0) := (W1_arr m ρ c 0).trans (((dat0 (Ve0 m ρ) c).arrAt_in 0 rfl _).trans (A_eq0 (Ve0 m ρ) c 0))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_writes_sub hostOps2 _ hostOps2_writes (r := main_arg1) (by decide)
    _ = W2 m ρ c (Proc.devRef .tc main_arg1) := W3_of_ne m ρ c main_arg1 (by decide)
    _ = W1 m ρ c (Proc.devRef .tc main_arg1) := StableHlo.after_of_writes_sub hostOps1 _ hostOps1_writes (r := main_arg1) (by decide)
    _ = W0 m ρ c (Proc.devRef .tc main_arg1) := (W1_arr m ρ c 1).trans (((dat0 (Ve0 m ρ) c).arrAt_in 1 rfl _).trans (A_eq0 (Ve0 m ρ) c 1))
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := StableHlo.after_of_writes_sub hostOps2 _ hostOps2_writes (r := main_arg2) (by decide)
    _ = W2 m ρ c (Proc.devRef .tc main_arg2) := W3_of_ne m ρ c main_arg2 (by decide)
    _ = W1 m ρ c (Proc.devRef .tc main_arg2) := StableHlo.after_of_writes_sub hostOps1 _ hostOps1_writes (r := main_arg2) (by decide)
    _ = W0 m ρ c (Proc.devRef .tc main_arg2) := (W1_arr m ρ c 2).trans (((dat0 (Ve0 m ρ) c).arrAt_in 2 rfl _).trans (A_eq0 (Ve0 m ρ) c 2))
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := StableHlo.after_of_writes_sub hostOps2 _ hostOps2_writes (r := main_arg3) (by decide)
    _ = W2 m ρ c (Proc.devRef .tc main_arg3) := W3_of_ne m ρ c main_arg3 (by decide)
    _ = W1 m ρ c (Proc.devRef .tc main_arg3) := StableHlo.after_of_writes_sub hostOps1 _ hostOps1_writes (r := main_arg3) (by decide)
    _ = W0 m ρ c (Proc.devRef .tc main_arg3) := (W1_arr m ρ c 3).trans (((dat0 (Ve0 m ρ) c).arrAt_in 3 rfl _).trans (A_eq0 (Ve0 m ρ) c 3))
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := StableHlo.after_of_writes_sub hostOps2 _ hostOps2_writes (r := main_arg4) (by decide)
    _ = W2 m ρ c (Proc.devRef .tc main_arg4) := W3_of_ne m ρ c main_arg4 (by decide)
    _ = W1 m ρ c (Proc.devRef .tc main_arg4) := StableHlo.after_of_writes_sub hostOps1 _ hostOps1_writes (r := main_arg4) (by decide)
    _ = W0 m ρ c (Proc.devRef .tc main_arg4) := (W1_arr m ρ c 4).trans (((dat0 (Ve0 m ρ) c).arrAt_in 4 rfl _).trans (A_eq0 (Ve0 m ρ) c 4))
    _ = m ((c : Thread nD τ).loc main_arg4) := rfl

theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := StableHlo.after_of_writes_sub hostOps2 _ hostOps2_writes (r := main_arg5) (by decide)
    _ = W2 m ρ c (Proc.devRef .tc main_arg5) := W3_of_ne m ρ c main_arg5 (by decide)
    _ = W1 m ρ c (Proc.devRef .tc main_arg5) := StableHlo.after_of_writes_sub hostOps1 _ hostOps1_writes (r := main_arg5) (by decide)
    _ = W0 m ρ c (Proc.devRef .tc main_arg5) := (W1_arr m ρ c 5).trans (((dat0 (Ve0 m ρ) c).arrAt_in 5 rfl _).trans (A_eq0 (Ve0 m ρ) c 5))
    _ = m ((c : Thread nD τ).loc main_arg5) := rfl

theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := StableHlo.after_of_writes_sub hostOps2 _ hostOps2_writes (r := main_arg6) (by decide)
    _ = W2 m ρ c (Proc.devRef .tc main_arg6) := W3_of_ne m ρ c main_arg6 (by decide)
    _ = W1 m ρ c (Proc.devRef .tc main_arg6) := StableHlo.after_of_writes_sub hostOps1 _ hostOps1_writes (r := main_arg6) (by decide)
    _ = W0 m ρ c (Proc.devRef .tc main_arg6) := (W1_arr m ρ c 6).trans (((dat0 (Ve0 m ρ) c).arrAt_in 6 rfl _).trans (A_eq0 (Ve0 m ρ) c 6))
    _ = m ((c : Thread nD τ).loc main_arg6) := rfl

theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := StableHlo.after_of_writes_sub hostOps2 _ hostOps2_writes (r := main_arg7) (by decide)
    _ = W2 m ρ c (Proc.devRef .tc main_arg7) := W3_of_ne m ρ c main_arg7 (by decide)
    _ = W1 m ρ c (Proc.devRef .tc main_arg7) := StableHlo.after_of_writes_sub hostOps1 _ hostOps1_writes (r := main_arg7) (by decide)
    _ = W0 m ρ c (Proc.devRef .tc main_arg7) := (W1_arr m ρ c 7).trans (((dat0 (Ve0 m ρ) c).arrAt_in 7 rfl _).trans (A_eq0 (Ve0 m ρ) c 7))
    _ = m ((c : Thread nD τ).loc main_arg7) := rfl

theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := StableHlo.after_of_writes_sub hostOps2 _ hostOps2_writes (r := main_arg8) (by decide)
    _ = W2 m ρ c (Proc.devRef .tc main_arg8) := W3_of_ne m ρ c main_arg8 (by decide)
    _ = W1 m ρ c (Proc.devRef .tc main_arg8) := StableHlo.after_of_writes_sub hostOps1 _ hostOps1_writes (r := main_arg8) (by decide)
    _ = W0 m ρ c (Proc.devRef .tc main_arg8) := (W1_arr m ρ c 8).trans (((dat0 (Ve0 m ρ) c).arrAt_in 8 rfl _).trans (A_eq0 (Ve0 m ρ) c 8))
    _ = m ((c : Thread nD τ).loc main_arg8) := rfl

theorem W4_main_arg9 (c : Dev nD) : W4 m ρ c (Proc.devRef .tc main_arg9) = m ((c : Thread nD τ).loc main_arg9) :=
  calc W4 m ρ c (Proc.devRef .tc main_arg9)
    _ = W3 m ρ c (Proc.devRef .tc main_arg9) := StableHlo.after_of_writes_sub hostOps2 _ hostOps2_writes (r := main_arg9) (by decide)
    _ = W2 m ρ c (Proc.devRef .tc main_arg9) := W3_of_ne m ρ c main_arg9 (by decide)
    _ = W1 m ρ c (Proc.devRef .tc main_arg9) := StableHlo.after_of_writes_sub hostOps1 _ hostOps1_writes (r := main_arg9) (by decide)
    _ = W0 m ρ c (Proc.devRef .tc main_arg9) := (W1_arr m ρ c 9).trans (((dat0 (Ve0 m ρ) c).arrAt_in 9 rfl _).trans (A_eq0 (Ve0 m ρ) c 9))
    _ = m ((c : Thread nD τ).loc main_arg9) := rfl

theorem W4_main_arg10 (c : Dev nD) : W4 m ρ c (Proc.devRef .tc main_arg10) = m ((c : Thread nD τ).loc main_arg10) :=
  calc W4 m ρ c (Proc.devRef .tc main_arg10)
    _ = W3 m ρ c (Proc.devRef .tc main_arg10) := StableHlo.after_of_writes_sub hostOps2 _ hostOps2_writes (r := main_arg10) (by decide)
    _ = W2 m ρ c (Proc.devRef .tc main_arg10) := W3_of_ne m ρ c main_arg10 (by decide)
    _ = W1 m ρ c (Proc.devRef .tc main_arg10) := StableHlo.after_of_writes_sub hostOps1 _ hostOps1_writes (r := main_arg10) (by decide)
    _ = W0 m ρ c (Proc.devRef .tc main_arg10) := (W1_arr m ρ c 10).trans (((dat0 (Ve0 m ρ) c).arrAt_in 10 rfl _).trans (A_eq0 (Ve0 m ρ) c 10))
    _ = m ((c : Thread nD τ).loc main_arg10) := rfl

theorem W4_main_arg11 (c : Dev nD) : W4 m ρ c (Proc.devRef .tc main_arg11) = m ((c : Thread nD τ).loc main_arg11) :=
  calc W4 m ρ c (Proc.devRef .tc main_arg11)
    _ = W3 m ρ c (Proc.devRef .tc main_arg11) := StableHlo.after_of_writes_sub hostOps2 _ hostOps2_writes (r := main_arg11) (by decide)
    _ = W2 m ρ c (Proc.devRef .tc main_arg11) := W3_of_ne m ρ c main_arg11 (by decide)
    _ = W1 m ρ c (Proc.devRef .tc main_arg11) := StableHlo.after_of_writes_sub hostOps1 _ hostOps1_writes (r := main_arg11) (by decide)
    _ = W0 m ρ c (Proc.devRef .tc main_arg11) := (W1_arr m ρ c 11).trans (((dat0 (Ve0 m ρ) c).arrAt_in 11 rfl _).trans (A_eq0 (Ve0 m ρ) c 11))
    _ = m ((c : Thread nD τ).loc main_arg11) := rfl

theorem W4_main_arg12 (c : Dev nD) : W4 m ρ c (Proc.devRef .tc main_arg12) = m ((c : Thread nD τ).loc main_arg12) :=
  calc W4 m ρ c (Proc.devRef .tc main_arg12)
    _ = W3 m ρ c (Proc.devRef .tc main_arg12) := StableHlo.after_of_writes_sub hostOps2 _ hostOps2_writes (r := main_arg12) (by decide)
    _ = W2 m ρ c (Proc.devRef .tc main_arg12) := W3_of_ne m ρ c main_arg12 (by decide)
    _ = W1 m ρ c (Proc.devRef .tc main_arg12) := StableHlo.after_of_writes_sub hostOps1 _ hostOps1_writes (r := main_arg12) (by decide)
    _ = W0 m ρ c (Proc.devRef .tc main_arg12) := (W1_arr m ρ c 12).trans (((dat0 (Ve0 m ρ) c).arrAt_in 12 rfl _).trans (A_eq0 (Ve0 m ρ) c 12))
    _ = m ((c : Thread nD τ).loc main_arg12) := rfl

theorem W4_main_arg13 (c : Dev nD) : W4 m ρ c (Proc.devRef .tc main_arg13) = m ((c : Thread nD τ).loc main_arg13) :=
  calc W4 m ρ c (Proc.devRef .tc main_arg13)
    _ = W3 m ρ c (Proc.devRef .tc main_arg13) := StableHlo.after_of_writes_sub hostOps2 _ hostOps2_writes (r := main_arg13) (by decide)
    _ = W2 m ρ c (Proc.devRef .tc main_arg13) := W3_of_ne m ρ c main_arg13 (by decide)
    _ = W1 m ρ c (Proc.devRef .tc main_arg13) := StableHlo.after_of_writes_sub hostOps1 _ hostOps1_writes (r := main_arg13) (by decide)
    _ = W0 m ρ c (Proc.devRef .tc main_arg13) := (W1_arr m ρ c 13).trans (((dat0 (Ve0 m ρ) c).arrAt_in 13 rfl _).trans (A_eq0 (Ve0 m ρ) c 13))
    _ = m ((c : Thread nD τ).loc main_arg13) := rfl

theorem W4_main_arg14 (c : Dev nD) : W4 m ρ c (Proc.devRef .tc main_arg14) = m ((c : Thread nD τ).loc main_arg14) :=
  calc W4 m ρ c (Proc.devRef .tc main_arg14)
    _ = W3 m ρ c (Proc.devRef .tc main_arg14) := StableHlo.after_of_writes_sub hostOps2 _ hostOps2_writes (r := main_arg14) (by decide)
    _ = W2 m ρ c (Proc.devRef .tc main_arg14) := W3_of_ne m ρ c main_arg14 (by decide)
    _ = W1 m ρ c (Proc.devRef .tc main_arg14) := StableHlo.after_of_writes_sub hostOps1 _ hostOps1_writes (r := main_arg14) (by decide)
    _ = W0 m ρ c (Proc.devRef .tc main_arg14) := (W1_arr m ρ c 14).trans (((dat0 (Ve0 m ρ) c).arrAt_in 14 rfl _).trans (A_eq0 (Ve0 m ρ) c 14))
    _ = m ((c : Thread nD τ).loc main_arg14) := rfl

/-! ## The proof data family and the thread state -/

/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (Ve0 m ρ) c
  | ⟨1, _⟩ => fun c => dat1 (Ve1 m ρ) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last fold, the generator register at some state. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Ve0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (Ve0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Ve0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : Pipeline.ΦA spec0 c ⊢ (pdats m ρ 0 c).Φ 0 := hin0 (Ve0 m ρ) c
    unfold Pipeline.ΦA at h
    iintro ⟨Hp, -, Hr⟩
    iapply h
    isplitl [Hr]; · iexact Hr
    iexact Hp
  hout c := by
    rw [Pipeline.ownSems0_none]
    have h : (pdats m ρ 0 c).Φ (Fin.last _) ⊢ Pipeline.ΦA spec0 c := hout0 (Ve0 m ρ) c
    unfold Pipeline.ΦA at h
    iintro HΦ
    ihave H := h $$ HΦ
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Ve0 m ρ c) (Vx0 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Ve1 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (Ve1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Ve1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Ve1 m ρ c) (Vx1 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)) ]

theorem main_run (c : Dev nD) : main (F := F) c = Pipeline.Seg.run (segs m ρ) :=
  main_segs adm (pdats m ρ) () 𝒱₀ L lv _ _ (reg0 m ρ) (reg1 m ρ) rfl rfl c

set_option backward.isDefEq.respectTransparency.types false in
/-- THE RUN: from any memory with zero counters every weakly fair execution of @main terminates, nothing faulting, and in
    every final state each unscoped buffer holds the last fold's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c =>
      (show (iprop(StableHlo.held (c : Thread nD τ) (Pipeline.ucRefs τ sig) (W4 m ρ c) ∗ R c) : sProp 𝕄)
          ⊢ iprop(Tₙ m ρ c ∗ ∃ W, owes (c : Thread nD τ) (0 : CellTallies nD τ sig Unit) W) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- THE FRAME: the fifteen argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c),
     (h c _ (mem_uc main_arg8 (by decide))).trans (W4_main_arg8 m ρ c),
     (h c _ (mem_uc main_arg9 (by decide))).trans (W4_main_arg9 m ρ c),
     (h c _ (mem_uc main_arg10 (by decide))).trans (W4_main_arg10 m ρ c),
     (h c _ (mem_uc main_arg11 (by decide))).trans (W4_main_arg11 m ρ c),
     (h c _ (mem_uc main_arg12 (by decide))).trans (W4_main_arg12 m ρ c),
     (h c _ (mem_uc main_arg13 (by decide))).trans (W4_main_arg13 m ρ c),
     (h c _ (mem_uc main_arg14 (by decide))).trans (W4_main_arg14 m ρ c)⟩) (run_all m ρ)

end Cert.KernelIdeal.Hand

end
-- ==== Proof.Spec.lean ====
/-
  The gated tensor as ONE function of the argument arrays, index by index, on the extended reals.

  For a batch b and channel c let the spatial sum be S(b,c) = ∑_{h,w} x(b,c,h,w) over the 128 × 128 positions and
  n = 16384.  The channel descriptors are the mean  μ = S / n  and the (biased) standard deviation  σ = √v.
  The variance is written in two arrangements:
    * two passes:  v  = (∑_{h,w} (x − μ)·(x − μ)) / n;
    * one pass:    v' = max (Q / n − μ·μ, 0)  with  Q = ∑_{h,w} x·x.
  On real entries  ∑ (x − μ)² = Q − n μ²,  so  v = Q / n − μ² ≥ 0  and the clamp is the identity: v' = v.

  A squeeze-excite block is  se d W₁ b₁ W₂ b₂ (b,c) = (∑_{h<16} relu (∑_{k<256} d(b,k)·W₁(h,k) + b₁ h) · W₂(c,h)) + b₂ c.
  The bottleneck contracts the 512 joined features [se σ | se μ] with a 256 × 512 matrix; split at column 256 it is the
  sum of two 256-term contractions (only a regrouping of one finite sum).  The gate is the logistic function of a last
  squeeze-excite block, and the result is x(b,c,h,w) · gate(b,c).
-/
import Idealize.ShloMosaic.PureOps.Ideal
import Idealize.ShloMosaic.Lib.ValueIdx

noncomputable section

namespace Cert.GateSpec

open Idealize.ShloMosaic Idealize.ShloMosaic.ValueIdx

/-- The literal index types of the arrays. -/
abbrev I4 := (⟨4, ![16, 256, 128, 128]⟩ : Shape).Idx
abbrev IHC := (⟨2, ![16, 256]⟩ : Shape).Idx      -- a [16,256] matrix: hidden × channel, or batch × channel
abbrev ICH := (⟨2, ![256, 16]⟩ : Shape).Idx      -- a [256,16] matrix: channel × hidden
abbrev IH := (⟨1, ![16]⟩ : Shape).Idx
abbrev IC := (⟨1, ![256]⟩ : Shape).Idx
abbrev IBW := (⟨2, ![256, 512]⟩ : Shape).Idx

/-- The number of spatial positions, 16384, as the float word both programs print. -/
def nHW : EReal := Ideal.ofBits .f32 0x46800000#32
/-- The float word of zero. -/
def zeroW : EReal := Ideal.ofBits .f32 0x00000000#32

/-- S(b,c): the sum of x over the 128 × 128 positions of channel c of batch b. -/
def sumHW (x : I4 → EReal) (b : Fin 16) (c : Fin 256) : EReal :=
  ∑ h : Fin 128, ∑ w : Fin 128, x (ix4 b c h w)
/-- Q(b,c): the sum of the squares. -/
def sumSqHW (x : I4 → EReal) (b : Fin 16) (c : Fin 256) : EReal :=
  ∑ h : Fin 128, ∑ w : Fin 128, x (ix4 b c h w) * x (ix4 b c h w)
/-- μ(b,c) = S / n. -/
def mean (x : I4 → EReal) (b : Fin 16) (c : Fin 256) : EReal := Ideal.div (sumHW x b c) nHW
/-- The two-pass variance: the mean of (x − μ)·(x − μ). -/
def var2 (x : I4 → EReal) (b : Fin 16) (c : Fin 256) : EReal :=
  Ideal.div (∑ h : Fin 128, ∑ w : Fin 128, (x (ix4 b c h w) - mean x b c) * (x (ix4 b c h w) - mean x b c)) nHW
/-- The one-pass variance: max (Q / n − μ·μ, 0). -/
def var1 (x : I4 → EReal) (b : Fin 16) (c : Fin 256) : EReal :=
  max (Ideal.div (sumSqHW x b c) nHW - mean x b c * mean x b c) zeroW

/-- A squeeze-excite block on a [16,256] descriptor d: 256 → 16 (relu) → 256. -/
def se (d : Fin 16 → Fin 256 → EReal) (w1 : IHC → EReal) (b1 : IH → EReal) (w2 : ICH → EReal) (b2 : IC → EReal)
    (b : Fin 16) (c : Fin 256) : EReal :=
  (∑ h : Fin 16, max ((∑ k : Fin 256, d b k * w1 (ix2 h k)) + b1 (ix1 h)) zeroW * w2 (ix2 c h)) + b2 (ix1 c)

/-- The 512 joined features: se σ in columns 0..255, se μ in columns 256..511. -/
def joined (rs rm : Fin 16 → Fin 256 → EReal) (b : Fin 16) (d : Fin 512) : EReal :=
  if h : d.val < 256 then rs b ⟨d.val, h⟩ else rm b ⟨d.val - 256, by omega⟩

/-- The bottleneck as ONE 512-term contraction, then bias and relu. -/
def neck (rs rm : Fin 16 → Fin 256 → EReal) (bw : IBW → EReal) (bb : IC → EReal) (b : Fin 16) (c : Fin 256) : EReal :=
  max ((∑ d : Fin 512, joined rs rm b d * bw (ix2 c d)) + bb (ix1 c)) zeroW
/-- The bottleneck as TWO 256-term contractions against the left and the right half of the matrix. -/
def neckSplit (rs rm : Fin 16 → Fin 256 → EReal) (bw : IBW → EReal) (bb : IC → EReal) (b : Fin 16) (c : Fin 256) : EReal :=
  max (((∑ d : Fin 256, rs b d * bw (ix2 c ⟨d.val, by omega⟩)) + (∑ d : Fin 256, rm b d * bw (ix2 c ⟨256 + d.val, by omega⟩)))
    + bb (ix1 c)) zeroW

/-- The arguments other than x. -/
structure Weights where
  sw1 : IHC → EReal
  sb1 : IH → EReal
  sw2 : ICH → EReal
  sb2 : IC → EReal
  mw1 : IHC → EReal
  mb1 : IH → EReal
  mw2 : ICH → EReal
  mb2 : IC → EReal
  bw : IBW → EReal
  bb : IC → EReal
  fw1 : IHC → EReal
  fb1 : IH → EReal
  fw2 : ICH → EReal
  fb2 : IC → EReal

/-- The gate from a mean descriptor μ and a deviation descriptor σ, with the bottleneck in the given arrangement. -/
def gateOf (nk : (Fin 16 → Fin 256 → EReal) → (Fin 16 → Fin 256 → EReal) → (IBW → EReal) → (IC → EReal) → Fin 16 → Fin 256 → EReal)
    (W : Weights) (μ σ : Fin 16 → Fin 256 → EReal) (b : Fin 16) (c : Fin 256) : EReal :=
  Ideal.logistic (se (nk (se σ W.sw1 W.sb1 W.sw2 W.sb2) (se μ W.mw1 W.mb1 W.mw2 W.mb2) W.bw W.bb) W.fw1 W.fb1 W.fw2 W.fb2 b c)

/-- The gate in the reference's arrangement: two-pass variance, one 512-term bottleneck. -/
def gate (x : I4 → EReal) (W : Weights) : Fin 16 → Fin 256 → EReal :=
  gateOf neck W (mean x) (fun b c => Ideal.sqrt (var2 x b c))
/-- The gate in the kernel's arrangement: one-pass variance, split bottleneck. -/
def gate' (x : I4 → EReal) (W : Weights) : Fin 16 → Fin 256 → EReal :=
  gateOf neckSplit W (mean x) (fun b c => Ideal.sqrt (var1 x b c))

/-- THE result, reference's arrangement. -/
def G (x : I4 → EReal) (W : Weights) : I4 → EReal := fun i => x i * gate x W (i 0) (i 1)
/-- THE result, kernel's arrangement. -/
def G' (x : I4 → EReal) (W : Weights) : I4 → EReal := fun i => x i * gate' x W (i 0) (i 1)

end Cert.GateSpec

end
-- ==== Proof.LibBroadcast.lean ====
/-
  Broadcasts of a single column, read at an index, and the two small re-layouts of a vector as a matrix.

  An `[a, 1]` array broadcast to `[a, b]` has at `(p, c)` the column's entry `p`.  A vector of length `n` re-laid as a
  `[1, n]` row or as an `[n, 1]` column keeps its entries in order.
-/
import Idealize.ShloMosaic.Lib.Pipeline.Value
import Idealize.ShloMosaic.Lib.ValueLayout
import Idealize.ShloMosaic.Lib.ValueIdx

noncomputable section

namespace Cert.Layout

open Idealize.ShloMosaic Idealize.ShloMosaic.ValueIdx

variable {α : Type}

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector re-laid as a one-row matrix: entry `(0, q)` is entry `q`. -/
theorem shapeCast_row_apply {n : ℕ} (v : (⟨1, ![n]⟩ : Shape).Idx → α) (h : (⟨1, ![n]⟩ : Shape).ShapeCasts ⟨2, ![1, n]⟩) (q : Fin n) :
    shapeCast (⟨2, ![1, n]⟩ : Shape) v h (ix2 (0 : Fin 1) q) = v (ix1 q) := by
  refine shapeCast_apply v h (ix2 (0 : Fin 1) q) (ix1 q) ?_
  rw [Shape.rowMajor_val_two, Shape.rowMajor_val_one]
  show q.val = 0 * n + q.val
  omega

/-- A vector re-laid as a one-column matrix: entry `(p, 0)` is entry `p`. -/
theorem shapeCast_col_apply {n : ℕ} (v : (⟨1, ![n]⟩ : Shape).Idx → α) (h : (⟨1, ![n]⟩ : Shape).ShapeCasts ⟨2, ![n, 1]⟩) (p : Fin n) :
    shapeCast (⟨2, ![n, 1]⟩ : Shape) v h (ix2 p (0 : Fin 1)) = v (ix1 p) := by
  refine shapeCast_apply v h (ix2 p (0 : Fin 1)) (ix1 p) ?_
  rw [Shape.rowMajor_val_two, Shape.rowMajor_val_one]
  show p.val = p.val * 1 + 0
  omega

end Cert.Layout

end
-- ==== Proof.PayScale.lean ====
/-
  The scaling kernel's stored value, read at an index.

  The body multiplies a [512, 2048] block by a [512, 1] column broadcast along the columns: entry (r, q) of the
  result is the block's entry (r, q) times the column's entry r.  The two re-layouts to the same shape are identities.
-/
import proofs.«165288_j12446815224180_2_alg».proof.Proof.Gen.KernelIdeal.Skeleton
import proofs.«165288_j12446815224180_2_alg».proof.Proof.Spec
import proofs.«165288_j12446815224180_2_alg».proof.Proof.LibBroadcast
import Idealize.ShloMosaic.Lib.ValueIdx
import Idealize.ShloMosaic.Lib.Pipeline.Value
import Idealize.ShloMosaic.Lib.ValueLayout
import Idealize.ShloMosaic.PureOps.Ideal.Laws

noncomputable section

namespace Cert.KernelGate

open Cert.KernelIdeal Cert.KernelIdeal.Gen Idealize.ShloMosaic Idealize.ShloMosaic.ValueIdx Cert.GateSpec

/-- Entry `(r, q)` of the scaled block: the block's entry times the gate column's entry of row `r`. -/
theorem pay_scale_apply (v0 : Vec Ideal S512x2048 .f32) (v2 : Vec Ideal S512x1 .f32) (r : Fin 512) (q : Fin 2048) :
    k1_pay1 v0 v2 (ix2 r q) = v0 (ix2 r q) * v2 (ix2 r (0 : Fin 1)) := by
  unfold k1_pay1
  simp only [shapeCast_self]
  refine (mulf_apply _ _ _).trans ?_
  exact congrArg (v0 (ix2 r q) * ·) (Cert.Layout.broadcastTo_a1_ab_apply v2 _ r q)

end Cert.KernelGate

end
-- ==== Proof.ValueRegion1.lean ====
/-
  The scaling region read as a value on the extended reals.

  The region's result array is a [4096,16384] matrix, one row per (batch, channel) pair and one column per spatial
  position.  The grid point with coordinates (a, b) writes back the [512,2048] block whose rows start at 512·a and
  whose columns start at 2048·b; that block is the matching block of x multiplied row by row with the matching
  [512,1] block of the gate column.  So every block written back is a block of ONE function of the whole arrays,
  entry (r, q) ↦ x(r, q) · gate(r), and the 64 blocks tile the matrix: after the region the result array is that
  function everywhere.
-/
import proofs.«165288_j12446815224180_2_alg».proof.Proof.Region1
import proofs.«165288_j12446815224180_2_alg».proof.Proof.PayScale
import Idealize.ShloMosaic.Lib.Pipeline.Value
import Idealize.ShloMosaic.Lib.ValueIdx

noncomputable section

namespace Cert.KernelIdeal.HandValue

open Cert.KernelIdeal Cert.KernelIdeal.Gen Cert.KernelIdeal.Hand Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

/-- The body's accesses start at the origin of their buffers. -/
theorem origin2 : (![0, 0] : Fin 2 → Nat) = fun _ => 0 := funext fun a => by fin_cases a <;> rfl

/-- What the result array ends holding: entry (r, q) of x times the gate of row r. -/
def scaled (c : Dev nD) : S4096x16384.Idx → EReal :=
  fun i => @HMul.hMul EReal EReal EReal instHMul (V c main_v1 i) (V c main_v2 (ix2 (n0 := 4096) (n1 := 1) (i 0) (0 : Fin 1)))

/-- The three windows' block indices at a grid point, decided over the 64 points: the x block and the result block
    have the same index on both axes; the gate block has the result block's row index and column index 0; and both
    result block indices are at most 7. -/
theorem block_indices : ∀ t : Fin cfg1.N, win1_0.index t (0 : Fin 2) = win1_2.index t (0 : Fin 2)
    ∧ win1_0.index t (1 : Fin 2) = win1_2.index t (1 : Fin 2)
    ∧ win1_1.index t (0 : Fin 2) = win1_2.index t (0 : Fin 2)
    ∧ win1_1.index t (1 : Fin 2) = 0
    ∧ win1_2.index t (0 : Fin 2) ≤ 7
    ∧ win1_2.index t (1 : Fin 2) ≤ 7 :=
  (by decide +kernel : ∀ t : Fin grid1.N, _)

/-- Every pair of block indices below 8 is some grid point's. -/
theorem block_onto : ∀ (q0 : Fin 8) (q1 : Fin 8), ∃ t : Fin cfg1.N, win1_2.index t = ![q0.val, q1.val] :=
  (by decide +kernel : ∀ (q0 : Fin 8) (q1 : Fin 8), ∃ t : Fin grid1.N, win1_2.index t = ![q0.val, q1.val])

/-- WHAT POINT `t` WRITES BACK is block `t` of `scaled`.  The body's one store leaves the product of the x block and
    the broadcast gate block; entry (r, q) of the x block is x at row 512·a + r and column 2048·b + q, entry (r, 0) of
    the gate block is the gate at row 512·a + r, and entry (r, q) of the result block sits at the same row and column. -/
theorem flushed_eq (c : Dev nD) (t : Fin cfg1.N) :
    (dat1 (F := Ideal) V c).flushed 2 t = ((cfg1.win 2).blk t).view.read (Elt Ideal) (scaled V c) := by
  show (cfg1.win 2).cut (grid1.coords t) ((dat1 (F := Ideal) V c).after 2 t) = _
  rw [after1_2]
  unfold out1_2
  rw [View.canon_unit_zero origin2]
  simp only [View.ld_unit_zero (S := S512x2048) origin2, View.ld_unit_zero (S := S512x1) origin2]
  obtain ⟨e0, e1, e2, e3, e4, e5⟩ := block_indices t
  funext j
  show k1_pay1 (iblk1 V c 0 t) (iblk1 V c 1 t) j = scaled V c (((cfg1.win 2).blk t).view.emb j)
  refine (congrArg (k1_pay1 (iblk1 V c 0 t) (iblk1 V c 1 t)) (eq_ix2 (n0 := 512) (n1 := 2048) j)).trans ?_
  refine (Cert.KernelGate.pay_scale_apply (iblk1 V c 0 t) (iblk1 V c 1 t) (j 0) (j 1)).trans ?_
  show @HMul.hMul EReal EReal EReal instHMul
        (V c main_v1 (((cfg1.win 0).blk t).view.emb (ix2 (n0 := 512) (n1 := 2048) (j 0) (j 1))))
        (V c main_v2 (((cfg1.win 1).blk t).view.emb (ix2 (n0 := 512) (n1 := 1) (j 0) (0 : Fin 1))))
    = @HMul.hMul EReal EReal EReal instHMul
        (V c main_v1 (((cfg1.win 2).blk t).view.emb j))
        (V c main_v2 (ix2 (n0 := 4096) (n1 := 1) ((((cfg1.win 2).blk t).view.emb j) 0) (0 : Fin 1)))
  have hj0 : (j 0).val < 512 := (j 0).isLt
  have hj1 : (j 1).val < 2048 := (j 1).isLt
  have h0 : ((cfg1.win 0).blk t).view.emb (ix2 (n0 := 512) (n1 := 2048) (j 0) (j 1)) = ((cfg1.win 2).blk t).view.emb j := by
    funext a; apply Fin.ext
    match a with
    | ⟨0, _⟩ => show win1_0.index t (0 : Fin 2) * 512 + 1 * (j 0).val = win1_2.index t (0 : Fin 2) * 512 + 1 * (j 0).val; omega
    | ⟨1, _⟩ => show win1_0.index t (1 : Fin 2) * 2048 + 1 * (j 1).val = win1_2.index t (1 : Fin 2) * 2048 + 1 * (j 1).val; omega
  have h1 : ((cfg1.win 1).blk t).view.emb (ix2 (n0 := 512) (n1 := 1) (j 0) (0 : Fin 1))
      = ix2 (n0 := 4096) (n1 := 1) ((((cfg1.win 2).blk t).view.emb j) 0) (0 : Fin 1) := by
    funext a; apply Fin.ext
    match a with
    | ⟨0, _⟩ => show win1_1.index t (0 : Fin 2) * 512 + 1 * (j 0).val = win1_2.index t (0 : Fin 2) * 512 + 1 * (j 0).val; omega
    | ⟨1, _⟩ => show win1_1.index t (1 : Fin 2) * 1 + 1 * 0 = 0; omega
  rw [h0, h1]

/-- An index of the result array is in point `t`'s block iff each coordinate is in the block's range on its axis. -/
theorem mem_blk (t : Fin cfg1.N) (i : S4096x16384.Idx) :
    i ∈ ((cfg1.win 2).blk t).view.set ↔ ∀ a : Fin 2, win1_2.index t a * S512x2048.size a ≤ (i a).val ∧ (i a).val < win1_2.index t a * S512x2048.size a + S512x2048.size a := by
  show i ∈ ((View.whole main_v3).slice (win1_2.rect t)).set ↔ _
  rw [View.set_slice_whole, Rect.mem_set_unit]
  exact Iff.rfl

/-- The 64 blocks tile the matrix: entry (r, q) is in the block of the point whose block indices are r / 512 and
    q / 2048, and every point writes its block back. -/
theorem covered (i : S4096x16384.Idx) :
    ∃ t : Fin cfg1.N, (cfg1.win 2).flush t = true ∧ i ∈ ((cfg1.win 2).blk t).view.set := by
  have hi0 : (i 0).val < 4096 := (i 0).isLt
  have hi1 : (i 1).val < 16384 := (i 1).isLt
  obtain ⟨t, ht⟩ := block_onto ⟨(i 0).val / 512, by omega⟩ ⟨(i 1).val / 2048, by omega⟩
  have q0 : win1_2.index t (0 : Fin 2) = (i 0).val / 512 := congrFun ht 0
  have q1 : win1_2.index t (1 : Fin 2) = (i 1).val / 2048 := congrFun ht 1
  refine ⟨t, flush1_2 t, ?_⟩
  rw [mem_blk]
  intro a
  match a with
  | ⟨0, _⟩ => show win1_2.index t (0 : Fin 2) * 512 ≤ (i 0).val ∧ (i 0).val < win1_2.index t (0 : Fin 2) * 512 + 512; omega
  | ⟨1, _⟩ => show win1_2.index t (1 : Fin 2) * 2048 ≤ (i 1).val ∧ (i 1).val < win1_2.index t (1 : Fin 2) * 2048 + 2048; omega

/-- THE RESULT ARRAY after the region is `scaled`: every block written back is a block of it, and the blocks cover
    the array. -/
theorem arr1_eq (c : Dev nD) : (dat1 (F := Ideal) V c).arrAt 2 cfg1.N = scaled V c :=
  (dat1 (F := Ideal) V c).arrAt_eq_of_cover 2 (scaled V c) (fun t _ => flushed_eq V c t) covered

/-- Entry (r, q) of the result array after the region: x at (r, q) times the gate of row r. -/
theorem arr1_apply (c : Dev nD) (r : Fin 4096) (q : Fin 16384) :
    (dat1 (F := Ideal) V c).arrAt 2 cfg1.N (ix2 r q)
      = @HMul.hMul EReal EReal EReal instHMul (V c main_v1 (ix2 r q)) (V c main_v2 (ix2 r (0 : Fin 1))) :=
  congrFun (arr1_eq V c) (ix2 r q)

end Cert.KernelIdeal.HandValue

end
-- ==== Proof.ValueScaleHost.lean ====
/-
  The three row-major re-layouts of the program, read at an index.

  A [16,256,128,128] array seen as a [4096,16384] matrix keeps its entries in row-major order: entry (r, q) of the
  matrix is entry (r / 256, r % 256, q / 128, q % 128) of the array, and back.  A [16,256] matrix seen as a
  [4096,1] column has at (r, 0) the entry (r / 256, r % 256).  Each statement is about the contents after a stretch
  of re-layouts applied to ANY contents before it.
-/
import proofs.«165288_j12446815224180_2_alg».proof.Proof.Gen.KernelIdeal.Launch
import proofs.«165288_j12446815224180_2_alg».proof.Proof.Spec
import Idealize.ShloMosaic.Lib.StableHlo.Run
import Idealize.ShloMosaic.Lib.Pipeline.Value
import Idealize.ShloMosaic.Lib.ValueIdx

noncomputable section

namespace Cert.KernelIdeal.HandValue

open Cert.KernelIdeal Cert.KernelIdeal.Gen Idealize.ShloMosaic Idealize.ShloMosaic.ValueIdx Cert.GateSpec
open Idealize.ShloMosaic.TcCoe Idealize.ShloMosaic.StableHlo

variable {F : FTy → Type} [FloatOps F]

/-! ## The re-layouts as pure functions, read at an index -/

/-- The tensor as a matrix with one row per (batch, channel) pair: entry (r, q) is the tensor's entry
    (r / 256, r % 256, q / 128, q % 128). -/
theorem flatten_apply {α : Type} (x : S16x256x128x128.Idx → α) (h : S16x256x128x128.ShapeCasts S4096x16384)
    (r : Fin 4096) (q : Fin 16384) :
    shapeCast S4096x16384 x h (ix2 r q)
      = x (ix4 (⟨r.val / 256, by omega⟩ : Fin 16) (⟨r.val % 256, by omega⟩ : Fin 256)
            (⟨q.val / 128, by omega⟩ : Fin 128) (⟨q.val % 128, by omega⟩ : Fin 128)) := by
  refine shapeCast_apply x h (ix2 r q) _ ?_
  rw [Shape.rowMajor_val_two, Shape.rowMajor_val_four]
  show ((r.val / 256 * 256 + r.val % 256) * 128 + q.val / 128) * 128 + q.val % 128 = r.val * 16384 + q.val
  have := r.isLt; have := q.isLt
  omega

/-- The [16,256] matrix as a column: entry (r, 0) is the matrix's entry (r / 256, r % 256). -/
theorem column_apply {α : Type} (x : S16x256.Idx → α) (h : S16x256.ShapeCasts S4096x1) (r : Fin 4096) :
    shapeCast S4096x1 x h (ix2 r (0 : Fin 1))
      = x (ix2 (⟨r.val / 256, by omega⟩ : Fin 16) (⟨r.val % 256, by omega⟩ : Fin 256)) := by
  refine shapeCast_apply x h (ix2 r (0 : Fin 1)) _ ?_
  rw [Shape.rowMajor_val_two, Shape.rowMajor_val_two]
  show r.val / 256 * 256 + r.val % 256 = r.val * 1 + 0
  have := r.isLt
  omega

/-- The matrix seen again as a tensor: entry (b, ch, h, w) is the matrix's entry (256 b + ch, 128 h + w). -/
theorem unflatten_apply {α : Type} (x : S4096x16384.Idx → α) (h : S4096x16384.ShapeCasts S16x256x128x128)
    (b : Fin 16) (ch : Fin 256) (hh w : Fin 128) :
    shapeCast S16x256x128x128 x h (ix4 b ch hh w)
      = x (ix2 (⟨256 * b.val + ch.val, by omega⟩ : Fin 4096) (⟨128 * hh.val + w.val, by omega⟩ : Fin 16384)) := by
  refine shapeCast_apply x h (ix4 b ch hh w) _ ?_
  rw [Shape.rowMajor_val_two, Shape.rowMajor_val_four]
  show (256 * b.val + ch.val) * 16384 + (128 * hh.val + w.val) = ((b.val * 256 + ch.val) * 128 + hh.val) * 128 + w.val
  have := b.isLt; have := ch.isLt; have := hh.isLt; have := w.isLt
  omega

/-! ## The contents after each stretch, from any contents before it -/

/-- After the first stretch the [4096,16384] matrix is the argument tensor re-laid. -/
theorem host1_main_v1 (W : Valuation τ sig (Elt F)) :
    StableHlo.after hostOps1 W (Proc.devRef .tc main_v1)
      = shapeCast S4096x16384 (W (Proc.devRef .tc main_arg0)) shapeCasts_S16x256x128x128_S4096x16384 := by
  after_results
  rfl

/-- After the first stretch the [4096,1] column is the gate matrix re-laid. -/
theorem host1_main_v2 (W : Valuation τ sig (Elt F)) :
    StableHlo.after hostOps1 W (Proc.devRef .tc main_v2)
      = shapeCast S4096x1 (W (Proc.devRef .tc main_v0)) shapeCasts_S16x256_S4096x1 := by
  after_results
  rfl

/-- After the last stretch the result tensor is the scaled matrix re-laid. -/
theorem host2_main_v4 (W : Valuation τ sig (Elt F)) :
    StableHlo.after hostOps2 W (Proc.devRef .tc main_v4)
      = shapeCast S16x256x128x128 (W (Proc.devRef .tc main_v3)) shapeCasts_S4096x16384_S16x256x128x128 := by
  after_results
  rfl

/-- Entry (r, q) of the matrix after the first stretch. -/
theorem host1_main_v1_apply (W : Valuation τ sig (Elt F)) (r : Fin 4096) (q : Fin 16384) :
    StableHlo.after hostOps1 W (Proc.devRef .tc main_v1) (ix2 r q)
      = W (Proc.devRef .tc main_arg0) (ix4 (⟨r.val / 256, by omega⟩ : Fin 16) (⟨r.val % 256, by omega⟩ : Fin 256)
            (⟨q.val / 128, by omega⟩ : Fin 128) (⟨q.val % 128, by omega⟩ : Fin 128)) :=
  (congrFun (host1_main_v1 W) (ix2 r q)).trans (flatten_apply _ _ r q)

/-- Entry (r, 0) of the column after the first stretch. -/
theorem host1_main_v2_apply (W : Valuation τ sig (Elt F)) (r : Fin 4096) :
    StableHlo.after hostOps1 W (Proc.devRef .tc main_v2) (ix2 r (0 : Fin 1))
      = W (Proc.devRef .tc main_v0) (ix2 (⟨r.val / 256, by omega⟩ : Fin 16) (⟨r.val % 256, by omega⟩ : Fin 256)) :=
  (congrFun (host1_main_v2 W) (ix2 r (0 : Fin 1))).trans (column_apply _ _ r)

/-- Entry (b, ch, h, w) of the result tensor after the last stretch. -/
theorem host2_main_v4_apply (W : Valuation τ sig (Elt F)) (b : Fin 16) (ch : Fin 256) (hh w : Fin 128) :
    StableHlo.after hostOps2 W (Proc.devRef .tc main_v4) (ix4 b ch hh w)
      = W (Proc.devRef .tc main_v3) (ix2 (⟨256 * b.val + ch.val, by omega⟩ : Fin 4096) (⟨128 * hh.val + w.val, by omega⟩ : Fin 16384)) :=
  (congrFun (host2_main_v4 W) (ix4 b ch hh w)).trans (unflatten_apply _ _ b ch hh w)

end Cert.KernelIdeal.HandValue

end
-- ==== Proof.ValueScale.lean ====
/-
  The two re-layouts, the scaling region and the last re-layout, read as values: entry (b, ch, h, w) of the result
  tensor is the launch tensor's entry (b, ch, h, w) times the gate matrix's entry (b, ch).

  The tensor [16,256,128,128] is laid out as a [4096,16384] matrix, one row per (batch, channel) pair, and the gate
  [16,256] as a [4096,1] column; the scaling region multiplies row r of the matrix by entry r of the column; the
  product is laid out as a tensor again.  Row r = 256 b + ch and column q = 128 h + w, so the quotients and
  remainders of the first re-layout undo the last one.
-/
import proofs.«165288_j12446815224180_2_alg».proof.Proof.Run
import proofs.«165288_j12446815224180_2_alg».proof.Proof.ValueRegion1
import proofs.«165288_j12446815224180_2_alg».proof.Proof.ValueScaleHost
import Idealize.ShloMosaic.Lib.Pipeline.Value

noncomputable section

namespace Cert.KernelIdeal.HandValue

open Cert.KernelIdeal Cert.KernelIdeal.Gen Cert.KernelIdeal.Hand Idealize.ShloMosaic Idealize.ShloMosaic.ValueIdx Cert.GateSpec
open Idealize.ShloMosaic.TcCoe
open Idealize.ShloMosaic.Pipeline (Dat)

variable (m : (ℓ : Loc nD τ sig) → Buf (Elt Ideal) ℓ) (ρ : Dev nD → PrngReg)

/-! ## The arrays at the boundaries, as functions into the extended reals -/

/-- The launch tensor x. -/
abbrev xArg (c : Dev nD) : I4 → EReal := m ((c : Thread nD τ).loc main_arg0)
/-- The gate matrix as region 0 leaves it. -/
abbrev gateArr (c : Dev nD) : IHC → EReal := W1 m ρ c (Proc.devRef .tc main_v0)
/-- The tensor as a [4096,16384] matrix, as the scaling region reads it. -/
abbrev xMat (c : Dev nD) : S4096x16384.Idx → EReal := W2 m ρ c (Proc.devRef .tc main_v1)
/-- The gate as a [4096,1] column, as the scaling region reads it. -/
abbrev gateCol (c : Dev nD) : S4096x1.Idx → EReal := W2 m ρ c (Proc.devRef .tc main_v2)

/-! ## Region 0 only reads the argument tensor -/

/-- At region 0's exit the argument tensor is as launched: it is an input window's array. -/
theorem W1_main_arg0 (c : Dev nD) : W1 m ρ c (Proc.devRef .tc main_arg0) = m ((c : Thread nD τ).loc main_arg0) :=
  (W1_arr m ρ c 0).trans (((dat0 (Ve0 m ρ) c).arrAt_in 0 rfl _).trans (A_eq0 (Ve0 m ρ) c 0))

/-! ## The two re-layouts before the scaling region -/

/-- Entry (r, q) of the [4096,16384] matrix the scaling region reads: the launch tensor's entry
    (r / 256, r % 256, q / 128, q % 128). -/
theorem W2_main_v1_apply (c : Dev nD) (r : Fin 4096) (q : Fin 16384) :
    W2 m ρ c (Proc.devRef .tc main_v1) (ix2 r q)
      = m ((c : Thread nD τ).loc main_arg0) (ix4 (⟨r.val / 256, by omega⟩ : Fin 16) (⟨r.val % 256, by omega⟩ : Fin 256)
          (⟨q.val / 128, by omega⟩ : Fin 128) (⟨q.val % 128, by omega⟩ : Fin 128)) :=
  (host1_main_v1_apply (F := Ideal) (W1 m ρ c) r q).trans (congrFun (W1_main_arg0 m ρ c) _)

/-- Entry (r, 0) of the gate column the scaling region reads: the gate matrix's entry (r / 256, r % 256). -/
theorem W2_main_v2_apply (c : Dev nD) (r : Fin 4096) :
    W2 m ρ c (Proc.devRef .tc main_v2) (ix2 r (0 : Fin 1))
      = W1 m ρ c (Proc.devRef .tc main_v0) (ix2 (⟨r.val / 256, by omega⟩ : Fin 16) (⟨r.val % 256, by omega⟩ : Fin 256)) :=
  host1_main_v2_apply (F := Ideal) (W1 m ρ c) r

/-! ## The scaling region -/

/-- Entry (r, q) of the scaled matrix: the matrix's entry times the gate column's entry of row r. -/
theorem W3_main_v3_apply (c : Dev nD) (r : Fin 4096) (q : Fin 16384) :
    W3 m ρ c (Proc.devRef .tc main_v3) (ix2 r q)
      = xMat m ρ c (ix2 r q) * gateCol m ρ c (ix2 r (0 : Fin 1)) :=
  (congrFun (W3_arr m ρ c 2) (ix2 r q)).trans (arr1_apply (Ve1 m ρ) c r q)

/-! ## The last re-layout -/

/-- Entry (b, ch, h, w) of the result tensor: the scaled matrix's entry (256 b + ch, 128 h + w). -/
theorem W4_main_v4_apply_coords (c : Dev nD) (b : Fin 16) (ch : Fin 256) (h w : Fin 128) :
    W4 m ρ c (Proc.devRef .tc main_v4) (ix4 b ch h w)
      = W3 m ρ c (Proc.devRef .tc main_v3) (ix2 (⟨256 * b.val + ch.val, by omega⟩ : Fin 4096) (⟨128 * h.val + w.val, by omega⟩ : Fin 16384)) :=
  host2_main_v4_apply (F := Ideal) (W3 m ρ c) b ch h w

/-- The same at an index of the result tensor. -/
theorem W4_main_v4_apply (c : Dev nD) (i : I4) :
    W4 m ρ c (Proc.devRef .tc main_v4) i
      = W3 m ρ c (Proc.devRef .tc main_v3)
          (ix2 (⟨256 * (i 0).val + (i 1).val, by have h0 : (i 0).val < 16 := (i 0).isLt; have h1 : (i 1).val < 256 := (i 1).isLt; omega⟩ : Fin 4096)
            (⟨128 * (i 2).val + (i 3).val, by have h2 : (i 2).val < 128 := (i 2).isLt; have h3 : (i 3).val < 128 := (i 3).isLt; omega⟩ : Fin 16384)) := by
  obtain ⟨b, ch, h, w, rfl⟩ : ∃ (b : Fin 16) (ch : Fin 256) (h w : Fin 128), i = ix4 b ch h w := ⟨i 0, i 1, i 2, i 3, eq_ix4 i⟩
  exact W4_main_v4_apply_coords m ρ c b ch h w

/-! ## The result, entry by entry -/

/-- THE RESULT: entry (b, ch, h, w) of the result tensor is the launch tensor's entry times the gate matrix's entry
    (b, ch) as region 0 leaves it.  The quotients and remainders of the two re-layouts cancel. -/
theorem result_apply (c : Dev nD) (b : Fin 16) (ch : Fin 256) (h w : Fin 128) :
    W4 m ρ c (Proc.devRef .tc main_v4) (ix4 b ch h w)
      = xArg m c (ix4 b ch h w) * gateArr m ρ c (ix2 b ch) := by
  have hb := b.isLt; have hch := ch.isLt; have hh := h.isLt; have hw := w.isLt
  have i1 : (ix4 (⟨(256 * b.val + ch.val) / 256, by omega⟩ : Fin 16) (⟨(256 * b.val + ch.val) % 256, by omega⟩ : Fin 256)
      (⟨(128 * h.val + w.val) / 128, by omega⟩ : Fin 128) (⟨(128 * h.val + w.val) % 128, by omega⟩ : Fin 128) : I4) = ix4 b ch h w := by
    funext a; apply Fin.ext
    match a with
    | ⟨0, _⟩ => show (256 * b.val + ch.val) / 256 = b.val; omega
    | ⟨1, _⟩ => show (256 * b.val + ch.val) % 256 = ch.val; omega
    | ⟨2, _⟩ => show (128 * h.val + w.val) / 128 = h.val; omega
    | ⟨3, _⟩ => show (128 * h.val + w.val) % 128 = w.val; omega
  have i2 : (ix2 (⟨(256 * b.val + ch.val) / 256, by omega⟩ : Fin 16) (⟨(256 * b.val + ch.val) % 256, by omega⟩ : Fin 256) : IHC) = ix2 b ch := by
    funext a; apply Fin.ext
    match a with
    | ⟨0, _⟩ => show (256 * b.val + ch.val) / 256 = b.val; omega
    | ⟨1, _⟩ => show (256 * b.val + ch.val) % 256 = ch.val; omega
  calc W4 m ρ c (Proc.devRef .tc main_v4) (ix4 b ch h w)
    _ = W3 m ρ c (Proc.devRef .tc main_v3) (ix2 (⟨256 * b.val + ch.val, by omega⟩ : Fin 4096) (⟨128 * h.val + w.val, by omega⟩ : Fin 16384)) :=
        W4_main_v4_apply_coords m ρ c b ch h w
    _ = xMat m ρ c (ix2 (⟨256 * b.val + ch.val, by omega⟩ : Fin 4096) (⟨128 * h.val + w.val, by omega⟩ : Fin 16384))
          * gateCol m ρ c (ix2 (⟨256 * b.val + ch.val, by omega⟩ : Fin 4096) (0 : Fin 1)) :=
        W3_main_v3_apply m ρ c _ _
    _ = xArg m c (ix4 (⟨(256 * b.val + ch.val) / 256, by omega⟩ : Fin 16) (⟨(256 * b.val + ch.val) % 256, by omega⟩ : Fin 256)
            (⟨(128 * h.val + w.val) / 128, by omega⟩ : Fin 128) (⟨(128 * h.val + w.val) % 128, by omega⟩ : Fin 128))
          * gateArr m ρ c (ix2 (⟨(256 * b.val + ch.val) / 256, by omega⟩ : Fin 16) (⟨(256 * b.val + ch.val) % 256, by omega⟩ : Fin 256)) :=
        congr (congrArg (fun (x y : EReal) => x * y) (W2_main_v1_apply m ρ c _ _)) (W2_main_v2_apply m ρ c _)
    _ = xArg m c (ix4 b ch h w) * gateArr m ρ c (ix2 b ch) := by
        rw [i1, i2]

end Cert.KernelIdeal.HandValue

end
-- ==== Proof.ValueGateIdx.lean ====
/-
  Region 0's windows read at an index.

  A grid point t of the 2 × 8 grid is batch block t / 8 and slab t % 8.  The image window's block at t is the
  [8, 256, 16, 128] part of the image array at block index (t / 8, 0, t % 8, 0): its entry (b', ch, h, w) is the array's
  entry (8·(t / 8) + b', ch, 16·(t % 8) + h, w).  Each of the fourteen weight windows has one block, the whole array.
  The gate window's block at t is rows 8·(t / 8) … 8·(t / 8) + 7 of the [16, 256] gate array.
-/
import proofs.«165288_j12446815224180_2_alg».proof.Proof.Gen.KernelIdeal.Launch
import proofs.«165288_j12446815224180_2_alg».proof.Proof.Gen.KernelIdeal.Points
import proofs.«165288_j12446815224180_2_alg».proof.Proof.Spec
import Idealize.ShloMosaic.Lib.ValueIdx
import Idealize.ShloMosaic.Lib.Pipeline.Value

noncomputable section

namespace Cert.KernelIdeal.HandValue

open Cert.KernelIdeal Cert.KernelIdeal.Gen Idealize.ShloMosaic Idealize.ShloMosaic.ValueIdx Cert.GateSpec
open Idealize.ShloMosaic.TcCoe Idealize.SL.Sem

variable {F : FTy → Type} [FloatOps F]

/-- The printed index maps of the image window and of the gate window, decided over the sixteen grid points:
    point t is batch block t / 8 and slab t % 8. -/
theorem idx_facts0 : ∀ t : Fin cfg0.N, win0_0.index t (0 : Fin 4) = t.val / 8 ∧ win0_0.index t (1 : Fin 4) = 0
    ∧ win0_0.index t (2 : Fin 4) = t.val % 8 ∧ win0_0.index t (3 : Fin 4) = 0
    ∧ win0_15.index t (0 : Fin 2) = t.val / 8 ∧ win0_15.index t (1 : Fin 2) = 0 :=
  (by decide +kernel : ∀ t : Fin grid0.N, _)

/-- The image block at point t read at (b', ch, h, w): the array's entry at batch row 8·(t / 8) + b', channel ch,
    image row 16·(t % 8) + h, column w. -/
theorem blk0_0_read (c : Dev nD) (A : Buf (Elt F) ((c : Thread nD τ).loc main_arg0)) (t : Fin cfg0.N) (b' : Fin 8) (ch : Fin 256) (h : Fin 16) (w : Fin 128) :
    (((cfg0.win 0).blk t).view.read (Elt F) A : Vec F S8x256x16x128 .f32) (ix4 b' ch h w)
      = A (ix4 ⟨8 * (t.val / 8) + b'.val, by have := t.isLt; have : cfg0.N = 16 := N_0; omega⟩ ch ⟨16 * (t.val % 8) + h.val, by omega⟩ w) := by
  obtain ⟨e0, e1, e2, e3, -, -⟩ := idx_facts0 t
  rw [View.read_apply]
  show A _ = A _
  refine congrArg A (funext fun a => Fin.ext ?_)
  match a with
  | ⟨0, _⟩ => show win0_0.index t (0 : Fin 4) * 8 + 1 * b'.val = 8 * (t.val / 8) + b'.val; rw [e0]; omega
  | ⟨1, _⟩ => show win0_0.index t (1 : Fin 4) * 256 + 1 * ch.val = ch.val; rw [e1]; omega
  | ⟨2, _⟩ => show win0_0.index t (2 : Fin 4) * 16 + 1 * h.val = 16 * (t.val % 8) + h.val; rw [e2]; omega
  | ⟨3, _⟩ => show win0_0.index t (3 : Fin 4) * 128 + 1 * w.val = w.val; rw [e3]; omega

/-- Window 1's block is its whole array at every point (block index zero on every axis). -/
theorem blk0_1_read (c : Dev nD) (A : Buf (Elt F) ((c : Thread nD τ).loc main_arg1)) (t : Fin cfg0.N) :
    (((cfg0.win 1).blk t).view.read (Elt F) A : Vec F S16x256 .f32) = A := by
  have e : ∀ a, win0_1.index t a = 0 := (by decide +kernel : ∀ (t : Fin grid0.N) a, win0_1.index t a = 0) t
  funext j
  rw [View.read_apply]
  show A _ = A _
  refine congrArg A (funext fun a => Fin.ext ?_)
  match a with
  | ⟨0, _⟩ => show win0_1.index t (0 : Fin 2) * 16 + 1 * (j 0).val = (j 0).val; rw [e]; omega
  | ⟨1, _⟩ => show win0_1.index t (1 : Fin 2) * 256 + 1 * (j 1).val = (j 1).val; rw [e]; omega

/-- Window 2's block is its whole array at every point (block index zero on every axis). -/
theorem blk0_2_read (c : Dev nD) (A : Buf (Elt F) ((c : Thread nD τ).loc main_arg2)) (t : Fin cfg0.N) :
    (((cfg0.win 2).blk t).view.read (Elt F) A : Vec F S16 .f32) = A := by
  have e : ∀ a, win0_2.index t a = 0 := (by decide +kernel : ∀ (t : Fin grid0.N) a, win0_2.index t a = 0) t
  funext j
  rw [View.read_apply]
  show A _ = A _
  refine congrArg A (funext fun a => Fin.ext ?_)
  match a with
  | ⟨0, _⟩ => show win0_2.index t (0 : Fin 1) * 16 + 1 * (j 0).val = (j 0).val; rw [e]; omega

/-- Window 3's block is its whole array at every point (block index zero on every axis). -/
theorem blk0_3_read (c : Dev nD) (A : Buf (Elt F) ((c : Thread nD τ).loc main_arg3)) (t : Fin cfg0.N) :
    (((cfg0.win 3).blk t).view.read (Elt F) A : Vec F S256x16 .f32) = A := by
  have e : ∀ a, win0_3.index t a = 0 := (by decide +kernel : ∀ (t : Fin grid0.N) a, win0_3.index t a = 0) t
  funext j
  rw [View.read_apply]
  show A _ = A _
  refine congrArg A (funext fun a => Fin.ext ?_)
  match a with
  | ⟨0, _⟩ => show win0_3.index t (0 : Fin 2) * 256 + 1 * (j 0).val = (j 0).val; rw [e]; omega
  | ⟨1, _⟩ => show win0_3.index t (1 : Fin 2) * 16 + 1 * (j 1).val = (j 1).val; rw [e]; omega

/-- Window 4's block is its whole array at every point (block index zero on every axis). -/
theorem blk0_4_read (c : Dev nD) (A : Buf (Elt F) ((c : Thread nD τ).loc main_arg4)) (t : Fin cfg0.N) :
    (((cfg0.win 4).blk t).view.read (Elt F) A : Vec F S256 .f32) = A := by
  have e : ∀ a, win0_4.index t a = 0 := (by decide +kernel : ∀ (t : Fin grid0.N) a, win0_4.index t a = 0) t
  funext j
  rw [View.read_apply]
  show A _ = A _
  refine congrArg A (funext fun a => Fin.ext ?_)
  match a with
  | ⟨0, _⟩ => show win0_4.index t (0 : Fin 1) * 256 + 1 * (j 0).val = (j 0).val; rw [e]; omega

/-- Window 5's block is its whole array at every point (block index zero on every axis). -/
theorem blk0_5_read (c : Dev nD) (A : Buf (Elt F) ((c : Thread nD τ).loc main_arg5)) (t : Fin cfg0.N) :
    (((cfg0.win 5).blk t).view.read (Elt F) A : Vec F S16x256 .f32) = A := by
  have e : ∀ a, win0_5.index t a = 0 := (by decide +kernel : ∀ (t : Fin grid0.N) a, win0_5.index t a = 0) t
  funext j
  rw [View.read_apply]
  show A _ = A _
  refine congrArg A (funext fun a => Fin.ext ?_)
  match a with
  | ⟨0, _⟩ => show win0_5.index t (0 : Fin 2) * 16 + 1 * (j 0).val = (j 0).val; rw [e]; omega
  | ⟨1, _⟩ => show win0_5.index t (1 : Fin 2) * 256 + 1 * (j 1).val = (j 1).val; rw [e]; omega

/-- Window 6's block is its whole array at every point (block index zero on every axis). -/
theorem blk0_6_read (c : Dev nD) (A : Buf (Elt F) ((c : Thread nD τ).loc main_arg6)) (t : Fin cfg0.N) :
    (((cfg0.win 6).blk t).view.read (Elt F) A : Vec F S16 .f32) = A := by
  have e : ∀ a, win0_6.index t a = 0 := (by decide +kernel : ∀ (t : Fin grid0.N) a, win0_6.index t a = 0) t
  funext j
  rw [View.read_apply]
  show A _ = A _
  refine congrArg A (funext fun a => Fin.ext ?_)
  match a with
  | ⟨0, _⟩ => show win0_6.index t (0 : Fin 1) * 16 + 1 * (j 0).val = (j 0).val; rw [e]; omega

/-- Window 7's block is its whole array at every point (block index zero on every axis). -/
theorem blk0_7_read (c : Dev nD) (A : Buf (Elt F) ((c : Thread nD τ).loc main_arg7)) (t : Fin cfg0.N) :
    (((cfg0.win 7).blk t).view.read (Elt F) A : Vec F S256x16 .f32) = A := by
  have e : ∀ a, win0_7.index t a = 0 := (by decide +kernel : ∀ (t : Fin grid0.N) a, win0_7.index t a = 0) t
  funext j
  rw [View.read_apply]
  show A _ = A _
  refine congrArg A (funext fun a => Fin.ext ?_)
  match a with
  | ⟨0, _⟩ => show win0_7.index t (0 : Fin 2) * 256 + 1 * (j 0).val = (j 0).val; rw [e]; omega
  | ⟨1, _⟩ => show win0_7.index t (1 : Fin 2) * 16 + 1 * (j 1).val = (j 1).val; rw [e]; omega

/-- Window 8's block is its whole array at every point (block index zero on every axis). -/
theorem blk0_8_read (c : Dev nD) (A : Buf (Elt F) ((c : Thread nD τ).loc main_arg8)) (t : Fin cfg0.N) :
    (((cfg0.win 8).blk t).view.read (Elt F) A : Vec F S256 .f32) = A := by
  have e : ∀ a, win0_8.index t a = 0 := (by decide +kernel : ∀ (t : Fin grid0.N) a, win0_8.index t a = 0) t
  funext j
  rw [View.read_apply]
  show A _ = A _
  refine congrArg A (funext fun a => Fin.ext ?_)
  match a with
  | ⟨0, _⟩ => show win0_8.index t (0 : Fin 1) * 256 + 1 * (j 0).val = (j 0).val; rw [e]; omega

/-- Window 9's block is its whole array at every point (block index zero on every axis). -/
theorem blk0_9_read (c : Dev nD) (A : Buf (Elt F) ((c : Thread nD τ).loc main_arg9)) (t : Fin cfg0.N) :
    (((cfg0.win 9).blk t).view.read (Elt F) A : Vec F S256x512 .f32) = A := by
  have e : ∀ a, win0_9.index t a = 0 := (by decide +kernel : ∀ (t : Fin grid0.N) a, win0_9.index t a = 0) t
  funext j
  rw [View.read_apply]
  show A _ = A _
  refine congrArg A (funext fun a => Fin.ext ?_)
  match a with
  | ⟨0, _⟩ => show win0_9.index t (0 : Fin 2) * 256 + 1 * (j 0).val = (j 0).val; rw [e]; omega
  | ⟨1, _⟩ => show win0_9.index t (1 : Fin 2) * 512 + 1 * (j 1).val = (j 1).val; rw [e]; omega

/-- Window 10's block is its whole array at every point (block index zero on every axis). -/
theorem blk0_10_read (c : Dev nD) (A : Buf (Elt F) ((c : Thread nD τ).loc main_arg10)) (t : Fin cfg0.N) :
    (((cfg0.win 10).blk t).view.read (Elt F) A : Vec F S256 .f32) = A := by
  have e : ∀ a, win0_10.index t a = 0 := (by decide +kernel : ∀ (t : Fin grid0.N) a, win0_10.index t a = 0) t
  funext j
  rw [View.read_apply]
  show A _ = A _
  refine congrArg A (funext fun a => Fin.ext ?_)
  match a with
  | ⟨0, _⟩ => show win0_10.index t (0 : Fin 1) * 256 + 1 * (j 0).val = (j 0).val; rw [e]; omega

/-- Window 11's block is its whole array at every point (block index zero on every axis). -/
theorem blk0_11_read (c : Dev nD) (A : Buf (Elt F) ((c : Thread nD τ).loc main_arg11)) (t : Fin cfg0.N) :
    (((cfg0.win 11).blk t).view.read (Elt F) A : Vec F S16x256 .f32) = A := by
  have e : ∀ a, win0_11.index t a = 0 := (by decide +kernel : ∀ (t : Fin grid0.N) a, win0_11.index t a = 0) t
  funext j
  rw [View.read_apply]
  show A _ = A _
  refine congrArg A (funext fun a => Fin.ext ?_)
  match a with
  | ⟨0, _⟩ => show win0_11.index t (0 : Fin 2) * 16 + 1 * (j 0).val = (j 0).val; rw [e]; omega
  | ⟨1, _⟩ => show win0_11.index t (1 : Fin 2) * 256 + 1 * (j 1).val = (j 1).val; rw [e]; omega

/-- Window 12's block is its whole array at every point (block index zero on every axis). -/
theorem blk0_12_read (c : Dev nD) (A : Buf (Elt F) ((c : Thread nD τ).loc main_arg12)) (t : Fin cfg0.N) :
    (((cfg0.win 12).blk t).view.read (Elt F) A : Vec F S16 .f32) = A := by
  have e : ∀ a, win0_12.index t a = 0 := (by decide +kernel : ∀ (t : Fin grid0.N) a, win0_12.index t a = 0) t
  funext j
  rw [View.read_apply]
  show A _ = A _
  refine congrArg A (funext fun a => Fin.ext ?_)
  match a with
  | ⟨0, _⟩ => show win0_12.index t (0 : Fin 1) * 16 + 1 * (j 0).val = (j 0).val; rw [e]; omega

/-- Window 13's block is its whole array at every point (block index zero on every axis). -/
theorem blk0_13_read (c : Dev nD) (A : Buf (Elt F) ((c : Thread nD τ).loc main_arg13)) (t : Fin cfg0.N) :
    (((cfg0.win 13).blk t).view.read (Elt F) A : Vec F S256x16 .f32) = A := by
  have e : ∀ a, win0_13.index t a = 0 := (by decide +kernel : ∀ (t : Fin grid0.N) a, win0_13.index t a = 0) t
  funext j
  rw [View.read_apply]
  show A _ = A _
  refine congrArg A (funext fun a => Fin.ext ?_)
  match a with
  | ⟨0, _⟩ => show win0_13.index t (0 : Fin 2) * 256 + 1 * (j 0).val = (j 0).val; rw [e]; omega
  | ⟨1, _⟩ => show win0_13.index t (1 : Fin 2) * 16 + 1 * (j 1).val = (j 1).val; rw [e]; omega

/-- Window 14's block is its whole array at every point (block index zero on every axis). -/
theorem blk0_14_read (c : Dev nD) (A : Buf (Elt F) ((c : Thread nD τ).loc main_arg14)) (t : Fin cfg0.N) :
    (((cfg0.win 14).blk t).view.read (Elt F) A : Vec F S256 .f32) = A := by
  have e : ∀ a, win0_14.index t a = 0 := (by decide +kernel : ∀ (t : Fin grid0.N) a, win0_14.index t a = 0) t
  funext j
  rw [View.read_apply]
  show A _ = A _
  refine congrArg A (funext fun a => Fin.ext ?_)
  match a with
  | ⟨0, _⟩ => show win0_14.index t (0 : Fin 1) * 256 + 1 * (j 0).val = (j 0).val; rw [e]; omega

/-- The left half of a [256, 512] matrix, loaded as a [256, 256] matrix: entry (c, d) is the matrix's entry (c, d). -/
theorem ld_left (X : Vec F S256x512 .f32) (c d : Fin 256) :
    View.ld X (Rect.unit (s := S256x512) ![0, 0] S256x256.size inb_S256x512_S256x256_0_0) (ix2 c d)
      = X (ix2 c ⟨d.val, by omega⟩) := by
  show X _ = X _
  refine congrArg X (funext fun a => Fin.ext ?_)
  match a with
  | ⟨0, _⟩ => show 0 + 1 * c.val = c.val; omega
  | ⟨1, _⟩ => show 0 + 1 * d.val = d.val; omega

/-- The right half: entry (c, d) is the matrix's entry (c, 256 + d). -/
theorem ld_right (X : Vec F S256x512 .f32) (c d : Fin 256) :
    View.ld X (Rect.unit (s := S256x512) ![0, 256] S256x256.size inb_S256x512_S256x256_0_256) (ix2 c d)
      = X (ix2 c ⟨256 + d.val, by omega⟩) := by
  show X _ = X _
  refine congrArg X (funext fun a => Fin.ext ?_)
  match a with
  | ⟨0, _⟩ => show 0 + 1 * c.val = c.val; omega
  | ⟨1, _⟩ => show 256 + 1 * d.val = 256 + d.val; omega

end Cert.KernelIdeal.HandValue

end
-- ==== Proof.AccSums.lean ====
/-
  Row sums accumulated block by block.

  The 128 rows of one channel are visited in 8 consecutive blocks of 16 rows: row 16·j + h is row h of block j.
  (1) A sum over the 128 rows is the sum over the 8 blocks of the sums over each block's 16 rows: a regrouping of one
      finite sum along the bijection (j, h) ↦ 16·j + h between Fin 8 × Fin 16 and Fin 128, valid in any additive
      commutative monoid (so on the extended reals with no finiteness assumption).
  (2) An accumulator that starts as 0 plus the first block's contribution and then adds one block's contribution per
      step holds, after step n, the sum of the contributions of blocks 0..n; after the last step, the whole sum.
  (3) With the block contribution "sum over the block's 16 rows and the 128 columns" of x (of x·x) the accumulator ends
      as the spatial sum S(b,c) (the sum of squares Q(b,c)) of the specification.
-/
import proofs.«165288_j12446815224180_2_alg».proof.Proof.Spec
import Idealize.ShloMosaic.PureOps.Ideal
import Idealize.ShloMosaic.PureOps.Ideal.Laws
import Idealize.ShloMosaic.Lib.ValueIdx
import Mathlib.Algebra.BigOperators.Fin
import Mathlib.Logic.Equiv.Fin.Basic

noncomputable section

open scoped BigOperators

namespace Cert.GateSpec

open Idealize.ShloMosaic Idealize.ShloMosaic.ValueIdx

/-! ### (1) 128 = 8 · 16 -/

/-- A sum over 128 rows, grouped into 8 blocks of 16 consecutive rows. -/
theorem sum_blocks_128 {M : Type*} [AddCommMonoid M] (f : Fin 128 → M) :
    (∑ j : Fin 8, ∑ h : Fin 16, f ⟨16 * j.val + h.val, by omega⟩) = ∑ h : Fin 128, f h := by
  have e := (finProdFinEquiv (m := 8) (n := 16)).sum_comp (fun i : Fin (8 * 16) => f i)
  rw [Fintype.sum_prod_type] at e
  refine Eq.trans ?_ e
  refine Finset.sum_congr rfl fun j _ => Finset.sum_congr rfl fun h _ => ?_
  refine congrArg f (Fin.ext ?_)
  show 16 * j.val + h.val = h.val + 16 * j.val
  omega

/-! ### (2) the accumulator as a recurrence -/

/-- After step n the accumulator holds the contributions of blocks 0..n. -/
theorem acc_eq_sum_upto (blk : Fin 8 → EReal) (acc : ℕ → EReal) (h0 : acc 0 = zeroW + blk 0)
    (hs : ∀ j (hj : j + 1 < 8), acc (j + 1) = acc j + blk ⟨j + 1, hj⟩) :
    ∀ n (hn : n < 8), acc n = ∑ j : Fin (n + 1), blk ⟨j.val, by omega⟩ := by
  intro n
  induction n with
  | zero =>
    intro _
    rw [h0, Fin.sum_univ_one]
    unfold zeroW
    rw [Ideal.ofBits_zero_f32, zero_add]
    rfl
  | succ n ih =>
    intro hn
    rw [hs n hn, ih (by omega), Fin.sum_univ_castSucc (n := n + 1)]
    rfl

/-- After the last step the accumulator holds the sum of all 8 contributions. -/
theorem acc_eq_sum (blk : Fin 8 → EReal) (acc : ℕ → EReal) (h0 : acc 0 = zeroW + blk 0)
    (hs : ∀ j (hj : j + 1 < 8), acc (j + 1) = acc j + blk ⟨j + 1, hj⟩) : acc 7 = ∑ j : Fin 8, blk j :=
  acc_eq_sum_upto blk acc h0 hs 7 (by omega)

/-! ### (3) at the shapes used -/

/-- Block j's contribution to S(b,c): the sum of x over its 16 rows and the 128 columns. -/
def blockSum (x : I4 → EReal) (b : Fin 16) (c : Fin 256) (j : Fin 8) : EReal :=
  ∑ h : Fin 16, ∑ w : Fin 128, x (ix4 b c (⟨16 * j.val + h.val, by omega⟩ : Fin 128) w)

/-- Block j's contribution to Q(b,c): the sum of x·x over its 16 rows and the 128 columns. -/
def blockSumSq (x : I4 → EReal) (b : Fin 16) (c : Fin 256) (j : Fin 8) : EReal :=
  ∑ h : Fin 16, ∑ w : Fin 128,
    x (ix4 b c (⟨16 * j.val + h.val, by omega⟩ : Fin 128) w) * x (ix4 b c (⟨16 * j.val + h.val, by omega⟩ : Fin 128) w)

/-- The 8 block contributions add up to S(b,c). -/
theorem sum_blockSum (x : I4 → EReal) (b : Fin 16) (c : Fin 256) : (∑ j : Fin 8, blockSum x b c j) = sumHW x b c := by
  unfold sumHW
  exact sum_blocks_128 (fun h : Fin 128 => ∑ w : Fin 128, x (ix4 b c h w))

/-- The 8 block contributions of squares add up to Q(b,c). -/
theorem sum_blockSumSq (x : I4 → EReal) (b : Fin 16) (c : Fin 256) :
    (∑ j : Fin 8, blockSumSq x b c j) = sumSqHW x b c := by
  unfold sumSqHW
  exact sum_blocks_128 (fun h : Fin 128 => ∑ w : Fin 128, x (ix4 b c h w) * x (ix4 b c h w))

/-- An accumulator fed the block contributions of x ends as S(b,c). -/
theorem acc_eq_sumHW (x : I4 → EReal) (b : Fin 16) (c : Fin 256) (acc : ℕ → EReal)
    (h0 : acc 0 = zeroW + blockSum x b c 0)
    (hs : ∀ j (hj : j + 1 < 8), acc (j + 1) = acc j + blockSum x b c ⟨j + 1, hj⟩) : acc 7 = sumHW x b c :=
  (acc_eq_sum (blockSum x b c) acc h0 hs).trans (sum_blockSum x b c)

/-- An accumulator fed the block contributions of x·x ends as Q(b,c). -/
theorem acc_eq_sumSqHW (x : I4 → EReal) (b : Fin 16) (c : Fin 256) (acc : ℕ → EReal)
    (h0 : acc 0 = zeroW + blockSumSq x b c 0)
    (hs : ∀ j (hj : j + 1 < 8), acc (j + 1) = acc j + blockSumSq x b c ⟨j + 1, hj⟩) : acc 7 = sumSqHW x b c :=
  (acc_eq_sum (blockSumSq x b c) acc h0 hs).trans (sum_blockSumSq x b c)

end Cert.GateSpec

end
-- ==== Proof.PayAcc.lean ====
/-
  The statistics kernel's accumulator stores, read at an index.

  At the first step of a batch block both accumulators are set to the zero word.  At every step the first accumulator
  gains, at (b, c), the sum of the [8, 256, 16, 128] block over its last two axes, and the second the sum of the squares:
  a lane sum along the last axis followed by a lane sum along the axis before it, each from zero, is the double sum.
-/
import proofs.«165288_j12446815224180_2_alg».proof.Proof.Gen.KernelIdeal.Skeleton
import proofs.«165288_j12446815224180_2_alg».proof.Proof.Spec

import Idealize.ShloMosaic.Lib.ValueIdx
import Idealize.ShloMosaic.Lib.Pipeline.Value
import Idealize.ShloMosaic.Lib.ValueLayout
import Idealize.ShloMosaic.PureOps.Ideal.Laws

noncomputable section

namespace Cert.KernelGate

open Cert.KernelIdeal Cert.KernelIdeal.Gen Idealize.ShloMosaic Idealize.ShloMosaic.ValueIdx Cert.GateSpec

variable {φ : FTy}

/-- A lane sum along the last axis of an `[a, b, c, d]` array, read at `(p, q, r)`: the sum over `k` of the entries `(p, q, r, k)`. -/
theorem sumLast4_apply {a b c d : ℕ} (v : FVec Ideal ⟨4, ![a, b, c, d]⟩ φ) (acc : BitVec φ.bits)
    (h : (⟨4, ![a, b, c, d]⟩ : Shape).Reduces [3] ⟨3, ![a, b, c]⟩) (hφ : FKind.Formats φ) (hacc : acc = FKind.add.neutral φ hφ)
    (p : Fin a) (q : Fin b) (r : Fin c) :
    multiReduction .add [3] ⟨3, ![a, b, c]⟩ v acc h hφ hacc (ix3 p q r) = ∑ k : Fin d, v (ix4 p q r k) :=
  (Ideal.multiReduction_add_single v acc h hφ hacc (ix3 p q r)).trans
    (Finset.sum_congr rfl fun k _ => congrArg v (funext fun ax => Fin.ext (by
      match ax with
      | ⟨0, _⟩ => rfl
      | ⟨1, _⟩ => rfl
      | ⟨2, _⟩ => rfl
      | ⟨3, _⟩ => rfl)))

/-- A lane sum along the last axis of an `[a, b, c]` array, read at `(p, q)`: the sum over `k` of the entries `(p, q, k)`. -/
theorem sumLast3_apply {a b c : ℕ} (v : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ v acc h hφ hacc (ix2 p q) = ∑ k : Fin c, v (ix3 p q k) :=
  (Ideal.multiReduction_add_single v acc h hφ hacc (ix2 p q)).trans
    (Finset.sum_congr rfl fun k _ => congrArg v (funext fun ax => Fin.ext (by
      match ax with
      | ⟨0, _⟩ => rfl
      | ⟨1, _⟩ => rfl
      | ⟨2, _⟩ => rfl)))

/-- The first accumulator's reset value: the zero word everywhere. -/
theorem pay1_apply (j : S8x256.Idx) : k0_pay1 (F := Ideal) j = zeroW := by
  unfold k0_pay1
  simp only [shapeCast_self]
  rfl

/-- The second accumulator's reset value: the zero word everywhere. -/
theorem pay2_apply (j : S8x256.Idx) : k0_pay2 (F := Ideal) j = zeroW := by
  unfold k0_pay2
  simp only [shapeCast_self]
  rfl

/-- The first accumulator after a step: what it held plus the block's sum over the 16 × 128 positions. -/
theorem pay3_apply (v3 : Vec Ideal S8x256x16x128 .f32) (v9 : Vec Ideal S8x256 .f32) (b : Fin 8) (c : Fin 256) :
    k0_pay3 v3 v9 (ix2 b c) = v9 (ix2 b c) + ∑ h : Fin 16, ∑ w : Fin 128, v3 (ix4 b c h w) := by
  unfold k0_pay3
  simp only [shapeCast_self]
  refine (addf_apply _ _ _).trans ?_
  refine congrArg (v9 (ix2 b c) + ·) ?_
  refine (sumLast3_apply _ _ _ _ _ b c).trans ?_
  exact Finset.sum_congr rfl fun h _ => sumLast4_apply _ _ _ _ _ b c h

/-- The second accumulator after a step: what it held plus the block's sum of squares over the 16 × 128 positions. -/
theorem pay4_apply (v3 : Vec Ideal S8x256x16x128 .f32) (v14 : Vec Ideal S8x256 .f32) (b : Fin 8) (c : Fin 256) :
    k0_pay4 v3 v14 (ix2 b c) = v14 (ix2 b c) + ∑ h : Fin 16, ∑ w : Fin 128, v3 (ix4 b c h w) * v3 (ix4 b c h w) := by
  unfold k0_pay4
  simp only [shapeCast_self]
  refine (addf_apply _ _ _).trans ?_
  refine congrArg (v14 (ix2 b c) + ·) ?_
  refine (sumLast3_apply _ _ _ _ _ b c).trans ?_
  exact Finset.sum_congr rfl fun h _ => (sumLast4_apply _ _ _ _ _ b c h).trans (Finset.sum_congr rfl fun w _ => mulf_apply _ _ _)

end Cert.KernelGate

end
-- ==== Proof.ValueGateSums.lean ====
/-
  The two accumulators at the last slab of a batch block are the specification's spatial sums.

  The image block at grid position n holds, at (b', ch, h, w), the image's entry (8·(n / 8) + b', ch, 16·(n % 8) + h, w); its
  sum over the 16 rows and 128 columns is the contribution of slab n % 8 to the spatial sum of batch row 8·(n / 8) + b'.  The
  first accumulator is the zero block plus that contribution at a first slab and the previous contents plus that
  contribution afterwards, so at the eighth slab it holds the eight contributions, which regroup into the sum over the
  128 image rows; the second accumulator does the same with the squares.
-/
import proofs.«165288_j12446815224180_2_alg».proof.Proof.AccSums
import proofs.«165288_j12446815224180_2_alg».proof.Proof.PayAcc

noncomputable section

namespace Cert.KernelIdeal.HandValue

open Cert.KernelIdeal Cert.KernelIdeal.Gen Idealize.ShloMosaic Idealize.ShloMosaic.ValueIdx Cert.GateSpec
open Idealize.ShloMosaic.TcCoe Idealize.SL.Sem

/-- A block whose entry (b', ch, h, w) is the image's entry (8·(n / 8) + b', ch, 16·(n % 8) + h, w), summed over its 16 rows
    and 128 columns at (b', ch), is slab n % 8's contribution to the spatial sum of batch row 8·(n / 8) + b'. -/
theorem blk_sum_eq (x : I4 → EReal) (X : Vec Ideal S8x256x16x128 .f32) (n : ℕ) (hn : n < 16)
    (hX : ∀ (b' : Fin 8) (ch : Fin 256) (h : Fin 16) (w : Fin 128),
      X (ix4 b' ch h w) = x (ix4 ⟨8 * (n / 8) + b'.val, by omega⟩ ch ⟨16 * (n % 8) + h.val, by omega⟩ w))
    (b' : Fin 8) (ch : Fin 256) (b : Fin 16) (j : Fin 8) (hb : b.val = 8 * (n / 8) + b'.val) (hj : j.val = n % 8) :
    (∑ h : Fin 16, ∑ w : Fin 128, X (ix4 b' ch h w)) = blockSum x b ch j := by
  unfold blockSum
  refine Finset.sum_congr rfl fun h _ => Finset.sum_congr rfl fun w _ => ?_
  rw [hX]
  have e1 : (⟨8 * (n / 8) + b'.val, by omega⟩ : Fin 16) = b := Fin.ext hb.symm
  have e2 : (⟨16 * (n % 8) + h.val, by omega⟩ : Fin 128) = ⟨16 * j.val + h.val, by omega⟩ := Fin.ext (by show 16 * (n % 8) + h.val = 16 * j.val + h.val; rw [hj])
  rw [e1, e2]

/-- The same for the squares. -/
theorem blk_sumSq_eq (x : I4 → EReal) (X : Vec Ideal S8x256x16x128 .f32) (n : ℕ) (hn : n < 16)
    (hX : ∀ (b' : Fin 8) (ch : Fin 256) (h : Fin 16) (w : Fin 128),
      X (ix4 b' ch h w) = x (ix4 ⟨8 * (n / 8) + b'.val, by omega⟩ ch ⟨16 * (n % 8) + h.val, by omega⟩ w))
    (b' : Fin 8) (ch : Fin 256) (b : Fin 16) (j : Fin 8) (hb : b.val = 8 * (n / 8) + b'.val) (hj : j.val = n % 8) :
    (∑ h : Fin 16, ∑ w : Fin 128, X (ix4 b' ch h w) * X (ix4 b' ch h w)) = blockSumSq x b ch j := by
  unfold blockSumSq
  refine Finset.sum_congr rfl fun h _ => Finset.sum_congr rfl fun w _ => ?_
  rw [hX]
  have e1 : (⟨8 * (n / 8) + b'.val, by omega⟩ : Fin 16) = b := Fin.ext hb.symm
  have e2 : (⟨16 * (n % 8) + h.val, by omega⟩ : Fin 128) = ⟨16 * j.val + h.val, by omega⟩ := Fin.ext (by show 16 * (n % 8) + h.val = 16 * j.val + h.val; rw [hj])
  rw [e1, e2]

/-- THE ACCUMULATED SUMS.  Let S n be the first accumulator after grid position n and X n the image block there
    (entry (b', ch, h, w) of X n is the image's entry (8·(n / 8) + b', ch, 16·(n % 8) + h, w)).  If S n is the zero block
    plus X n's sums at a first slab and S (n − 1) plus X n's sums elsewhere, then at a last slab S n is the spatial sum of
    the eight rows of its batch block: the eight slabs' contributions, regrouped into the sum over the 128 image rows. -/
theorem acc_sum_last (x : I4 → EReal) (S : ℕ → Vec Ideal S8x256 .f32) (X : ℕ → Vec Ideal S8x256x16x128 .f32)
    (hX : ∀ (n : ℕ) (hn : n < 16) (b' : Fin 8) (ch : Fin 256) (h : Fin 16) (w : Fin 128),
      X n (ix4 b' ch h w) = x (ix4 ⟨8 * (n / 8) + b'.val, by omega⟩ ch ⟨16 * (n % 8) + h.val, by omega⟩ w))
    (hA : ∀ n, n < 16 → n % 8 = 0 → S n = k0_pay3 (X n) (k0_pay1 (F := Ideal)))
    (hS : ∀ n, n < 16 → ¬n % 8 = 0 → S n = k0_pay3 (X n) (S (n - 1)))
    (n : ℕ) (hn : n < 16) (h7 : n % 8 = 7) (b' : Fin 8) (ch : Fin 256) :
    S n (ix2 b' ch) = sumHW x ⟨8 * (n / 8) + b'.val, by omega⟩ ch := by
  have hbase : n - 7 + 7 = n := by omega
  have key := acc_eq_sumHW x ⟨8 * (n / 8) + b'.val, by omega⟩ ch (fun j => S (n - 7 + j) (ix2 b' ch)) ?_ ?_
  · rw [← key]; show S n (ix2 b' ch) = S (n - 7 + 7) (ix2 b' ch); rw [hbase]
  · show S (n - 7 + 0) (ix2 b' ch) = _
    rw [Nat.add_zero, hA (n - 7) (by omega) (by omega), Cert.KernelGate.pay3_apply, Cert.KernelGate.pay1_apply]
    refine congrArg (zeroW + ·) ?_
    exact blk_sum_eq x (X (n - 7)) (n - 7) (by omega) (hX (n - 7) (by omega)) b' ch _ 0 (by show 8 * (n / 8) + b'.val = 8 * ((n - 7) / 8) + b'.val; omega) (by show 0 = (n - 7) % 8; omega)
  · intro j hj
    show S (n - 7 + (j + 1)) (ix2 b' ch) = S (n - 7 + j) (ix2 b' ch) + _
    rw [hS (n - 7 + (j + 1)) (by omega) (by omega), Cert.KernelGate.pay3_apply]
    have e : n - 7 + (j + 1) - 1 = n - 7 + j := by omega
    rw [e]
    refine congrArg (S (n - 7 + j) (ix2 b' ch) + ·) ?_
    exact blk_sum_eq x (X (n - 7 + (j + 1))) (n - 7 + (j + 1)) (by omega) (hX _ (by omega)) b' ch _ ⟨j + 1, hj⟩
      (by show 8 * (n / 8) + b'.val = 8 * ((n - 7 + (j + 1)) / 8) + b'.val; omega) (by show j + 1 = (n - 7 + (j + 1)) % 8; omega)

/-- The same for the second accumulator and the sums of squares. -/
theorem acc_sumSq_last (x : I4 → EReal) (S : ℕ → Vec Ideal S8x256 .f32) (X : ℕ → Vec Ideal S8x256x16x128 .f32)
    (hX : ∀ (n : ℕ) (hn : n < 16) (b' : Fin 8) (ch : Fin 256) (h : Fin 16) (w : Fin 128),
      X n (ix4 b' ch h w) = x (ix4 ⟨8 * (n / 8) + b'.val, by omega⟩ ch ⟨16 * (n % 8) + h.val, by omega⟩ w))
    (hA : ∀ n, n < 16 → n % 8 = 0 → S n = k0_pay4 (X n) (k0_pay2 (F := Ideal)))
    (hS : ∀ n, n < 16 → ¬n % 8 = 0 → S n = k0_pay4 (X n) (S (n - 1)))
    (n : ℕ) (hn : n < 16) (h7 : n % 8 = 7) (b' : Fin 8) (ch : Fin 256) :
    S n (ix2 b' ch) = sumSqHW x ⟨8 * (n / 8) + b'.val, by omega⟩ ch := by
  have hbase : n - 7 + 7 = n := by omega
  have key := acc_eq_sumSqHW x ⟨8 * (n / 8) + b'.val, by omega⟩ ch (fun j => S (n - 7 + j) (ix2 b' ch)) ?_ ?_
  · rw [← key]; show S n (ix2 b' ch) = S (n - 7 + 7) (ix2 b' ch); rw [hbase]
  · show S (n - 7 + 0) (ix2 b' ch) = _
    rw [Nat.add_zero, hA (n - 7) (by omega) (by omega), Cert.KernelGate.pay4_apply, Cert.KernelGate.pay2_apply]
    refine congrArg (zeroW + ·) ?_
    exact blk_sumSq_eq x (X (n - 7)) (n - 7) (by omega) (hX (n - 7) (by omega)) b' ch _ 0 (by show 8 * (n / 8) + b'.val = 8 * ((n - 7) / 8) + b'.val; omega) (by show 0 = (n - 7) % 8; omega)
  · intro j hj
    show S (n - 7 + (j + 1)) (ix2 b' ch) = S (n - 7 + j) (ix2 b' ch) + _
    rw [hS (n - 7 + (j + 1)) (by omega) (by omega), Cert.KernelGate.pay4_apply]
    have e : n - 7 + (j + 1) - 1 = n - 7 + j := by omega
    rw [e]
    refine congrArg (S (n - 7 + j) (ix2 b' ch) + ·) ?_
    exact blk_sumSq_eq x (X (n - 7 + (j + 1))) (n - 7 + (j + 1)) (by omega) (hX _ (by omega)) b' ch _ ⟨j + 1, hj⟩
      (by show 8 * (n / 8) + b'.val = 8 * ((n - 7 + (j + 1)) / 8) + b'.val; omega) (by show j + 1 = (n - 7 + (j + 1)) % 8; omega)

end Cert.KernelIdeal.HandValue

end
-- ==== Proof.ValueGatePiecesC.lean ====
/-
  Region 0's body at the last slab of a batch block: what its three stores leave, for the body run on arbitrary whole
  buffers.  Each of the three buffers is stored into once, through the whole [8, 256] rectangle, so reading the stores
  back gives the store's payload: the first accumulator ends at what it held plus the block's sums, the second at what it
  held plus the block's sums of squares, and the output block at the gate stages applied to these two new contents (the
  body reads the accumulators back after storing into them), to the weight arrays, and to the left and right [256, 256]
  halves of the [256, 512] bottleneck matrix.
-/
import proofs.«165288_j12446815224180_2_alg».proof.Proof.Region0RunC
import Idealize.ShloMosaic.Lib.Pipeline.Value
import Idealize.ShloMosaic.Lib.ValueIdx

set_option maxRecDepth 16384

noncomputable section

namespace Cert.KernelIdeal.HandValue

open Cert.KernelIdeal Cert.KernelIdeal.Gen Cert.KernelIdeal.Hand Idealize.ShloMosaic Idealize.ShloMosaic.ValueIdx
open Idealize.ShloMosaic.TcCoe Idealize.ShloMosaic.Tactic Idealize.SL.Sem

variable {F : FTy → Type} [FloatOps F]

/-- The zero offsets of a whole rectangle of rank 1, 2 and 4. -/
theorem hz1 : (![0] : Fin 1 → Nat) = fun _ => 0 := funext fun a => by fin_cases a <;> rfl
theorem hz2 : (![0, 0] : Fin 2 → Nat) = fun _ => 0 := funext fun a => by fin_cases a <;> rfl
theorem hz4 : (![0, 0, 0, 0] : Fin 4 → Nat) = fun _ => 0 := funext fun a => by fin_cases a <;> rfl

/-- At the last slab the one store into the first accumulator covers its buffer. -/
theorem runC_cover0 (c : Dev nD) (i : grid0.Coords) (arg2 : Memref sig .tc .vmem S8x256x16x128 .f32) (harg2 : arg2.IsWhole) (arg3 : Memref sig .tc .vmem S16x256 .f32) (harg3 : arg3.IsWhole) (arg4 : Memref sig .tc .vmem S16 .f32) (harg4 : arg4.IsWhole) (arg5 : Memref sig .tc .vmem S256x16 .f32) (harg5 : arg5.IsWhole) (arg6 : Memref sig .tc .vmem S256 .f32) (harg6 : arg6.IsWhole) (arg7 : Memref sig .tc .vmem S16x256 .f32) (harg7 : arg7.IsWhole) (arg8 : Memref sig .tc .vmem S16 .f32) (harg8 : arg8.IsWhole) (arg9 : Memref sig .tc .vmem S256x16 .f32) (harg9 : arg9.IsWhole) (arg10 : Memref sig .tc .vmem S256 .f32) (harg10 : arg10.IsWhole) (arg11 : Memref sig .tc .vmem S256x512 .f32) (harg11 : arg11.IsWhole) (arg12 : Memref sig .tc .vmem S256 .f32) (harg12 : arg12.IsWhole) (arg13 : Memref sig .tc .vmem S16x256 .f32) (harg13 : arg13.IsWhole) (arg14 : Memref sig .tc .vmem S16 .f32) (harg14 : arg14.IsWhole) (arg15 : Memref sig .tc .vmem S256x16 .f32) (harg15 : arg15.IsWhole) (arg16 : Memref sig .tc .vmem S256 .f32) (harg16 : arg16.IsWhole) (arg17 : Memref sig .tc .vmem S8x256 .f32) (harg17 : arg17.IsWhole) (arg18 : Memref sig .tc .vmem S8x256 .f32) (harg18 : arg18.IsWhole) (arg19 : Memref sig .tc .vmem S8x256 .f32) (harg19 : arg19.IsWhole) (hc0 : ¬cond0_0 i) (hc1 : cond0_1 i) (x0 : Vec F S8x256x16x128 .f32) (x1 : Vec F S16x256 .f32) (x2 : Vec F S16 .f32) (x3 : Vec F S256x16 .f32) (x4 : Vec F S256 .f32) (x5 : Vec F S16x256 .f32) (x6 : Vec F S16 .f32) (x7 : Vec F S256x16 .f32) (x8 : Vec F S256 .f32) (x9 : Vec F S256x512 .f32) (x10 : Vec F S256 .f32) (x11 : Vec F S16x256 .f32) (x12 : Vec F S16 .f32) (x13 : Vec F S256x16 .f32) (x14 : Vec F S256 .f32) (xs0 : Vec F S8x256 .f32) (xs1 : Vec F S8x256 .f32) (y : S8x256.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 x14 xs0 xs1).2.1, y ∈ pc.1.set :=
  View.cover_of_tiledL _ S8x256.size (by sl_kernel_rfl) y

/-- At the last slab the one store into the second accumulator covers its buffer. -/
theorem runC_cover1 (c : Dev nD) (i : grid0.Coords) (arg2 : Memref sig .tc .vmem S8x256x16x128 .f32) (harg2 : arg2.IsWhole) (arg3 : Memref sig .tc .vmem S16x256 .f32) (harg3 : arg3.IsWhole) (arg4 : Memref sig .tc .vmem S16 .f32) (harg4 : arg4.IsWhole) (arg5 : Memref sig .tc .vmem S256x16 .f32) (harg5 : arg5.IsWhole) (arg6 : Memref sig .tc .vmem S256 .f32) (harg6 : arg6.IsWhole) (arg7 : Memref sig .tc .vmem S16x256 .f32) (harg7 : arg7.IsWhole) (arg8 : Memref sig .tc .vmem S16 .f32) (harg8 : arg8.IsWhole) (arg9 : Memref sig .tc .vmem S256x16 .f32) (harg9 : arg9.IsWhole) (arg10 : Memref sig .tc .vmem S256 .f32) (harg10 : arg10.IsWhole) (arg11 : Memref sig .tc .vmem S256x512 .f32) (harg11 : arg11.IsWhole) (arg12 : Memref sig .tc .vmem S256 .f32) (harg12 : arg12.IsWhole) (arg13 : Memref sig .tc .vmem S16x256 .f32) (harg13 : arg13.IsWhole) (arg14 : Memref sig .tc .vmem S16 .f32) (harg14 : arg14.IsWhole) (arg15 : Memref sig .tc .vmem S256x16 .f32) (harg15 : arg15.IsWhole) (arg16 : Memref sig .tc .vmem S256 .f32) (harg16 : arg16.IsWhole) (arg17 : Memref sig .tc .vmem S8x256 .f32) (harg17 : arg17.IsWhole) (arg18 : Memref sig .tc .vmem S8x256 .f32) (harg18 : arg18.IsWhole) (arg19 : Memref sig .tc .vmem S8x256 .f32) (harg19 : arg19.IsWhole) (hc0 : ¬cond0_0 i) (hc1 : cond0_1 i) (x0 : Vec F S8x256x16x128 .f32) (x1 : Vec F S16x256 .f32) (x2 : Vec F S16 .f32) (x3 : Vec F S256x16 .f32) (x4 : Vec F S256 .f32) (x5 : Vec F S16x256 .f32) (x6 : Vec F S16 .f32) (x7 : Vec F S256x16 .f32) (x8 : Vec F S256 .f32) (x9 : Vec F S256x512 .f32) (x10 : Vec F S256 .f32) (x11 : Vec F S16x256 .f32) (x12 : Vec F S16 .f32) (x13 : Vec F S256x16 .f32) (x14 : Vec F S256 .f32) (xs0 : Vec F S8x256 .f32) (xs1 : Vec F S8x256 .f32) (y : S8x256.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 x14 xs0 xs1).2.2.1, y ∈ pc.1.set :=
  View.cover_of_tiledL _ S8x256.size (by sl_kernel_rfl) y

/-- At the last slab the one store into the output block covers its buffer. -/
theorem runC_cover15 (c : Dev nD) (i : grid0.Coords) (arg2 : Memref sig .tc .vmem S8x256x16x128 .f32) (harg2 : arg2.IsWhole) (arg3 : Memref sig .tc .vmem S16x256 .f32) (harg3 : arg3.IsWhole) (arg4 : Memref sig .tc .vmem S16 .f32) (harg4 : arg4.IsWhole) (arg5 : Memref sig .tc .vmem S256x16 .f32) (harg5 : arg5.IsWhole) (arg6 : Memref sig .tc .vmem S256 .f32) (harg6 : arg6.IsWhole) (arg7 : Memref sig .tc .vmem S16x256 .f32) (harg7 : arg7.IsWhole) (arg8 : Memref sig .tc .vmem S16 .f32) (harg8 : arg8.IsWhole) (arg9 : Memref sig .tc .vmem S256x16 .f32) (harg9 : arg9.IsWhole) (arg10 : Memref sig .tc .vmem S256 .f32) (harg10 : arg10.IsWhole) (arg11 : Memref sig .tc .vmem S256x512 .f32) (harg11 : arg11.IsWhole) (arg12 : Memref sig .tc .vmem S256 .f32) (harg12 : arg12.IsWhole) (arg13 : Memref sig .tc .vmem S16x256 .f32) (harg13 : arg13.IsWhole) (arg14 : Memref sig .tc .vmem S16 .f32) (harg14 : arg14.IsWhole) (arg15 : Memref sig .tc .vmem S256x16 .f32) (harg15 : arg15.IsWhole) (arg16 : Memref sig .tc .vmem S256 .f32) (harg16 : arg16.IsWhole) (arg17 : Memref sig .tc .vmem S8x256 .f32) (harg17 : arg17.IsWhole) (arg18 : Memref sig .tc .vmem S8x256 .f32) (harg18 : arg18.IsWhole) (arg19 : Memref sig .tc .vmem S8x256 .f32) (harg19 : arg19.IsWhole) (hc0 : ¬cond0_0 i) (hc1 : cond0_1 i) (x0 : Vec F S8x256x16x128 .f32) (x1 : Vec F S16x256 .f32) (x2 : Vec F S16 .f32) (x3 : Vec F S256x16 .f32) (x4 : Vec F S256 .f32) (x5 : Vec F S16x256 .f32) (x6 : Vec F S16 .f32) (x7 : Vec F S256x16 .f32) (x8 : Vec F S256 .f32) (x9 : Vec F S256x512 .f32) (x10 : Vec F S256 .f32) (x11 : Vec F S16x256 .f32) (x12 : Vec F S16 .f32) (x13 : Vec F S256x16 .f32) (x14 : Vec F S256 .f32) (xs0 : Vec F S8x256 .f32) (xs1 : Vec F S8x256 .f32) (y : S8x256.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 x14 xs0 xs1).1, y ∈ pc.1.set :=
  View.cover_of_tiledL _ S8x256.size (by sl_kernel_rfl) y

/-- The last slab's one store into the first accumulator: what it held plus the block's sums. -/
theorem runC_acc0 (c : Dev nD) (i : grid0.Coords) (arg2 : Memref sig .tc .vmem S8x256x16x128 .f32) (harg2 : arg2.IsWhole) (arg3 : Memref sig .tc .vmem S16x256 .f32) (harg3 : arg3.IsWhole) (arg4 : Memref sig .tc .vmem S16 .f32) (harg4 : arg4.IsWhole) (arg5 : Memref sig .tc .vmem S256x16 .f32) (harg5 : arg5.IsWhole) (arg6 : Memref sig .tc .vmem S256 .f32) (harg6 : arg6.IsWhole) (arg7 : Memref sig .tc .vmem S16x256 .f32) (harg7 : arg7.IsWhole) (arg8 : Memref sig .tc .vmem S16 .f32) (harg8 : arg8.IsWhole) (arg9 : Memref sig .tc .vmem S256x16 .f32) (harg9 : arg9.IsWhole) (arg10 : Memref sig .tc .vmem S256 .f32) (harg10 : arg10.IsWhole) (arg11 : Memref sig .tc .vmem S256x512 .f32) (harg11 : arg11.IsWhole) (arg12 : Memref sig .tc .vmem S256 .f32) (harg12 : arg12.IsWhole) (arg13 : Memref sig .tc .vmem S16x256 .f32) (harg13 : arg13.IsWhole) (arg14 : Memref sig .tc .vmem S16 .f32) (harg14 : arg14.IsWhole) (arg15 : Memref sig .tc .vmem S256x16 .f32) (harg15 : arg15.IsWhole) (arg16 : Memref sig .tc .vmem S256 .f32) (harg16 : arg16.IsWhole) (arg17 : Memref sig .tc .vmem S8x256 .f32) (harg17 : arg17.IsWhole) (arg18 : Memref sig .tc .vmem S8x256 .f32) (harg18 : arg18.IsWhole) (arg19 : Memref sig .tc .vmem S8x256 .f32) (harg19 : arg19.IsWhole) (hc0 : ¬cond0_0 i) (hc1 : cond0_1 i) (x0 : Vec F S8x256x16x128 .f32) (x1 : Vec F S16x256 .f32) (x2 : Vec F S16 .f32) (x3 : Vec F S256x16 .f32) (x4 : Vec F S256 .f32) (x5 : Vec F S16x256 .f32) (x6 : Vec F S16 .f32) (x7 : Vec F S256x16 .f32) (x8 : Vec F S256 .f32) (x9 : Vec F S256x512 .f32) (x10 : Vec F S256 .f32) (x11 : Vec F S16x256 .f32) (x12 : Vec F S16 .f32) (x13 : Vec F S256x16 .f32) (x14 : Vec F S256 .f32) (xs0 : Vec F S8x256 .f32) (xs1 : Vec F S8x256 .f32) :
    VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 x14 xs0 xs1).2.1) = k0_pay3 x0 xs0 := by
  rw [View.read_writes_eq_canon _ _ _ (runC_cover0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 x14 xs0 xs1)]
  unfold kernelRun0_C
  dsimp only
  sl_unfold_words
  rw [View.canon_unit_zero hz2]
  simp only [View.readAt_eq_ld, harg2.read_unread, harg18.read_unread, View.ld_unit_zero (S := S8x256x16x128) hz4, View.ld_unit_zero (S := S8x256) hz2]

/-- The last slab's one store into the second accumulator: what it held plus the block's sums of squares. -/
theorem runC_acc1 (c : Dev nD) (i : grid0.Coords) (arg2 : Memref sig .tc .vmem S8x256x16x128 .f32) (harg2 : arg2.IsWhole) (arg3 : Memref sig .tc .vmem S16x256 .f32) (harg3 : arg3.IsWhole) (arg4 : Memref sig .tc .vmem S16 .f32) (harg4 : arg4.IsWhole) (arg5 : Memref sig .tc .vmem S256x16 .f32) (harg5 : arg5.IsWhole) (arg6 : Memref sig .tc .vmem S256 .f32) (harg6 : arg6.IsWhole) (arg7 : Memref sig .tc .vmem S16x256 .f32) (harg7 : arg7.IsWhole) (arg8 : Memref sig .tc .vmem S16 .f32) (harg8 : arg8.IsWhole) (arg9 : Memref sig .tc .vmem S256x16 .f32) (harg9 : arg9.IsWhole) (arg10 : Memref sig .tc .vmem S256 .f32) (harg10 : arg10.IsWhole) (arg11 : Memref sig .tc .vmem S256x512 .f32) (harg11 : arg11.IsWhole) (arg12 : Memref sig .tc .vmem S256 .f32) (harg12 : arg12.IsWhole) (arg13 : Memref sig .tc .vmem S16x256 .f32) (harg13 : arg13.IsWhole) (arg14 : Memref sig .tc .vmem S16 .f32) (harg14 : arg14.IsWhole) (arg15 : Memref sig .tc .vmem S256x16 .f32) (harg15 : arg15.IsWhole) (arg16 : Memref sig .tc .vmem S256 .f32) (harg16 : arg16.IsWhole) (arg17 : Memref sig .tc .vmem S8x256 .f32) (harg17 : arg17.IsWhole) (arg18 : Memref sig .tc .vmem S8x256 .f32) (harg18 : arg18.IsWhole) (arg19 : Memref sig .tc .vmem S8x256 .f32) (harg19 : arg19.IsWhole) (hc0 : ¬cond0_0 i) (hc1 : cond0_1 i) (x0 : Vec F S8x256x16x128 .f32) (x1 : Vec F S16x256 .f32) (x2 : Vec F S16 .f32) (x3 : Vec F S256x16 .f32) (x4 : Vec F S256 .f32) (x5 : Vec F S16x256 .f32) (x6 : Vec F S16 .f32) (x7 : Vec F S256x16 .f32) (x8 : Vec F S256 .f32) (x9 : Vec F S256x512 .f32) (x10 : Vec F S256 .f32) (x11 : Vec F S16x256 .f32) (x12 : Vec F S16 .f32) (x13 : Vec F S256x16 .f32) (x14 : Vec F S256 .f32) (xs0 : Vec F S8x256 .f32) (xs1 : Vec F S8x256 .f32) :
    VS0_1.read (Elt F) (VS0_1.writes (Elt F) VS0_1.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 x14 xs0 xs1).2.2.1) = k0_pay4 x0 xs1 := by
  rw [View.read_writes_eq_canon _ _ _ (runC_cover1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 x14 xs0 xs1)]
  unfold kernelRun0_C
  dsimp only
  sl_unfold_words
  rw [View.canon_unit_zero hz2]
  simp only [View.readAt_eq_ld, harg2.read_unread, harg19.read_unread, View.ld_unit_zero (S := S8x256x16x128) hz4, View.ld_unit_zero (S := S8x256) hz2]

/-- The last slab's one store into the output block: the gate stages applied to the two accumulators as just stored
    (they are read back after this slab's stores), the weight arrays, and the left and the right half of the
    bottleneck matrix. -/
theorem runC_out (c : Dev nD) (i : grid0.Coords) (arg2 : Memref sig .tc .vmem S8x256x16x128 .f32) (harg2 : arg2.IsWhole) (arg3 : Memref sig .tc .vmem S16x256 .f32) (harg3 : arg3.IsWhole) (arg4 : Memref sig .tc .vmem S16 .f32) (harg4 : arg4.IsWhole) (arg5 : Memref sig .tc .vmem S256x16 .f32) (harg5 : arg5.IsWhole) (arg6 : Memref sig .tc .vmem S256 .f32) (harg6 : arg6.IsWhole) (arg7 : Memref sig .tc .vmem S16x256 .f32) (harg7 : arg7.IsWhole) (arg8 : Memref sig .tc .vmem S16 .f32) (harg8 : arg8.IsWhole) (arg9 : Memref sig .tc .vmem S256x16 .f32) (harg9 : arg9.IsWhole) (arg10 : Memref sig .tc .vmem S256 .f32) (harg10 : arg10.IsWhole) (arg11 : Memref sig .tc .vmem S256x512 .f32) (harg11 : arg11.IsWhole) (arg12 : Memref sig .tc .vmem S256 .f32) (harg12 : arg12.IsWhole) (arg13 : Memref sig .tc .vmem S16x256 .f32) (harg13 : arg13.IsWhole) (arg14 : Memref sig .tc .vmem S16 .f32) (harg14 : arg14.IsWhole) (arg15 : Memref sig .tc .vmem S256x16 .f32) (harg15 : arg15.IsWhole) (arg16 : Memref sig .tc .vmem S256 .f32) (harg16 : arg16.IsWhole) (arg17 : Memref sig .tc .vmem S8x256 .f32) (harg17 : arg17.IsWhole) (arg18 : Memref sig .tc .vmem S8x256 .f32) (harg18 : arg18.IsWhole) (arg19 : Memref sig .tc .vmem S8x256 .f32) (harg19 : arg19.IsWhole) (hc0 : ¬cond0_0 i) (hc1 : cond0_1 i) (x0 : Vec F S8x256x16x128 .f32) (x1 : Vec F S16x256 .f32) (x2 : Vec F S16 .f32) (x3 : Vec F S256x16 .f32) (x4 : Vec F S256 .f32) (x5 : Vec F S16x256 .f32) (x6 : Vec F S16 .f32) (x7 : Vec F S256x16 .f32) (x8 : Vec F S256 .f32) (x9 : Vec F S256x512 .f32) (x10 : Vec F S256 .f32) (x11 : Vec F S16x256 .f32) (x12 : Vec F S16 .f32) (x13 : Vec F S256x16 .f32) (x14 : Vec F S256 .f32) (xs0 : Vec F S8x256 .f32) (xs1 : Vec F S8x256 .f32) :
    VO0_15.read (Elt F) (VO0_15.writes (Elt F) VO0_15.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 x14 xs0 xs1).1)
      = k0_pay5 (k0_pay7 (k0_pay3 x0 xs0) (k0_pay4 x0 xs1) x1 x2 x3 x4) (k0_pay8 (k0_pay3 x0 xs0) x5 x6 x7) x8
          (View.ld x9 (Rect.unit (s := S256x512) ![0, 0] S256x256.size inb_S256x512_S256x256_0_0))
          (View.ld x9 (Rect.unit (s := S256x512) ![0, 256] S256x256.size inb_S256x512_S256x256_0_256)) x10 x11 x12 x13 x14 := by
  rw [View.read_writes_eq_canon _ _ _ (runC_cover15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 x14 xs0 xs1)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg18.read_unread, harg19.read_unread, View.ld_unit_zero (S := S8x256x16x128) hz4, View.ld_unit_zero (S := S8x256) hz2, View.ld_unit_zero (S := S16x256) hz2, View.ld_unit_zero (S := S256x16) hz2, View.ld_unit_zero (S := S16) hz1, View.ld_unit_zero (S := S256) hz1]
  rw [View.readCov_unit_zero (S := S8x256) arg18.view hz2, View.readCov_unit_zero (S := S8x256) arg19.view hz2]

end Cert.KernelIdeal.HandValue

end
-- ==== Proof.ValueGateResC.lean ====
/-
  What region 0's body leaves at the last slab of a batch block, at the pipeline's own buffers and blocks: the first
  accumulator at what the point before left plus the image block's sums, the second at what it held plus the sums of
  squares, and the output block at the gate stages applied to these two new contents, the weight blocks, and the left and
  the right half of the bottleneck matrix's block.
-/
import proofs.«165288_j12446815224180_2_alg».proof.Proof.Region0
import proofs.«165288_j12446815224180_2_alg».proof.Proof.ValueGatePiecesC

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem

variable {F : FTy → Type} [FloatOps F]
variable (V : (c : Dev nD) → (b : Ref sig .tc) → Buf (Elt F) ((c : Thread nD τ).loc b))

/-- Last slab, first accumulator: what it held plus the image block's sums. -/
theorem resC_s (c : Dev nD) (t : Fin cfg0.N) (h0 : ¬t.val % 8 = 0) (h1 : t.val % 8 = 7) (xs0 xs1 : Vec F S8x256 .f32) :
    (resC V c t h0 h1 xs0 xs1).2.1 = k0_pay3 (iblk0 V c 0 t) xs0 := by
  unfold resC
  exact runC_acc0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) xs0 xs1

/-- Last slab, second accumulator: what it held plus the image block's sums of squares. -/
theorem resC_q (c : Dev nD) (t : Fin cfg0.N) (h0 : ¬t.val % 8 = 0) (h1 : t.val % 8 = 7) (xs0 xs1 : Vec F S8x256 .f32) :
    (resC V c t h0 h1 xs0 xs1).2.2 = k0_pay4 (iblk0 V c 0 t) xs1 := by
  unfold resC
  exact runC_acc1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) xs0 xs1

/-- Last slab, output block: the gate stages on the two accumulators as just stored. -/
theorem resC_out (c : Dev nD) (t : Fin cfg0.N) (h0 : ¬t.val % 8 = 0) (h1 : t.val % 8 = 7) (xs0 xs1 : Vec F S8x256 .f32) :
    (resC V c t h0 h1 xs0 xs1).1
      = k0_pay5 (k0_pay7 (k0_pay3 (iblk0 V c 0 t) xs0) (k0_pay4 (iblk0 V c 0 t) xs1) (iblk0 V c 1 t) (iblk0 V c 2 t) (iblk0 V c 3 t) (iblk0 V c 4 t))
          (k0_pay8 (k0_pay3 (iblk0 V c 0 t) xs0) (iblk0 V c 5 t) (iblk0 V c 6 t) (iblk0 V c 7 t)) (iblk0 V c 8 t)
          (View.ld (iblk0 V c 9 t) (Rect.unit (s := S256x512) ![0, 0] S256x256.size inb_S256x512_S256x256_0_0))
          (View.ld (iblk0 V c 9 t) (Rect.unit (s := S256x512) ![0, 256] S256x256.size inb_S256x512_S256x256_0_256))
          (iblk0 V c 10 t) (iblk0 V c 11 t) (iblk0 V c 12 t) (iblk0 V c 13 t) (iblk0 V c 14 t) := by
  unfold resC
  exact runC_out c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) xs0 xs1

end Cert.KernelIdeal.HandValue

end
-- ==== Proof.ValuePiecesAB0.lean ====
/-
  What the two accumulators of region 0 hold after the body at a point that does not finish the gate, for the body
  run on arbitrary whole buffers.  The body's stores into an accumulator are found as a list of pieces, last store
  first; each piece is the whole [8,256] buffer, so reading the list back gives the last store's payload.  At the first
  slab of a batch block the body first stores the zero block and then the slab's sums over what it reads back (the zero
  block); at a middle slab it stores the slab's sums over what the accumulator held.
-/
import proofs.«165288_j12446815224180_2_alg».proof.Proof.Region0RunA
import proofs.«165288_j12446815224180_2_alg».proof.Proof.Region0RunB
import Idealize.ShloMosaic.Lib.Pipeline.Value
import Idealize.ShloMosaic.Lib.Tactic

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.Tactic Idealize.SL.Sem

variable {F : FTy → Type} [FloatOps F]

/-- The zero offsets of a whole rank-2, respectively rank-4, rectangle. -/
theorem off2_zero : (![0, 0] : Fin 2 → Nat) = fun _ => 0 := funext fun a => by fin_cases a <;> rfl
theorem off4_zero : (![0, 0, 0, 0] : Fin 4 → Nat) = fun _ => 0 := funext fun a => by fin_cases a <;> rfl

/-- At the first slab the stores into accumulator 0 tile its buffer (the zero block, then the block's sums over it). -/
theorem coverA_0 (c : Dev nD) (i : grid0.Coords) (arg2 : Memref sig .tc .vmem S8x256x16x128 .f32) (harg2 : arg2.IsWhole) (arg3 : Memref sig .tc .vmem S16x256 .f32) (harg3 : arg3.IsWhole) (arg4 : Memref sig .tc .vmem S16 .f32) (harg4 : arg4.IsWhole) (arg5 : Memref sig .tc .vmem S256x16 .f32) (harg5 : arg5.IsWhole) (arg6 : Memref sig .tc .vmem S256 .f32) (harg6 : arg6.IsWhole) (arg7 : Memref sig .tc .vmem S16x256 .f32) (harg7 : arg7.IsWhole) (arg8 : Memref sig .tc .vmem S16 .f32) (harg8 : arg8.IsWhole) (arg9 : Memref sig .tc .vmem S256x16 .f32) (harg9 : arg9.IsWhole) (arg10 : Memref sig .tc .vmem S256 .f32) (harg10 : arg10.IsWhole) (arg11 : Memref sig .tc .vmem S256x512 .f32) (harg11 : arg11.IsWhole) (arg12 : Memref sig .tc .vmem S256 .f32) (harg12 : arg12.IsWhole) (arg13 : Memref sig .tc .vmem S16x256 .f32) (harg13 : arg13.IsWhole) (arg14 : Memref sig .tc .vmem S16 .f32) (harg14 : arg14.IsWhole) (arg15 : Memref sig .tc .vmem S256x16 .f32) (harg15 : arg15.IsWhole) (arg16 : Memref sig .tc .vmem S256 .f32) (harg16 : arg16.IsWhole) (arg17 : Memref sig .tc .vmem S8x256 .f32) (harg17 : arg17.IsWhole) (arg18 : Memref sig .tc .vmem S8x256 .f32) (harg18 : arg18.IsWhole) (arg19 : Memref sig .tc .vmem S8x256 .f32) (harg19 : arg19.IsWhole) (hc0 : cond0_0 i) (hc1 : ¬cond0_1 i) (x0 : Vec F S8x256x16x128 .f32) (x1 : Vec F S16x256 .f32) (x2 : Vec F S16 .f32) (x3 : Vec F S256x16 .f32) (x4 : Vec F S256 .f32) (x5 : Vec F S16x256 .f32) (x6 : Vec F S16 .f32) (x7 : Vec F S256x16 .f32) (x8 : Vec F S256 .f32) (x9 : Vec F S256x512 .f32) (x10 : Vec F S256 .f32) (x11 : Vec F S16x256 .f32) (x12 : Vec F S16 .f32) (x13 : Vec F S256x16 .f32) (x14 : Vec F S256 .f32) (y : S8x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 x14).2.1, y ∈ pc.1.set :=
  View.cover_of_tiledL _ S8x256.size (by sl_kernel_rfl) y

/-- At the first slab accumulator 0 ends at the slab's sums added to the zero block: the second store's payload reads
    back the first store. -/
theorem runA_acc0 (c : Dev nD) (i : grid0.Coords) (arg2 : Memref sig .tc .vmem S8x256x16x128 .f32) (harg2 : arg2.IsWhole) (arg3 : Memref sig .tc .vmem S16x256 .f32) (harg3 : arg3.IsWhole) (arg4 : Memref sig .tc .vmem S16 .f32) (harg4 : arg4.IsWhole) (arg5 : Memref sig .tc .vmem S256x16 .f32) (harg5 : arg5.IsWhole) (arg6 : Memref sig .tc .vmem S256 .f32) (harg6 : arg6.IsWhole) (arg7 : Memref sig .tc .vmem S16x256 .f32) (harg7 : arg7.IsWhole) (arg8 : Memref sig .tc .vmem S16 .f32) (harg8 : arg8.IsWhole) (arg9 : Memref sig .tc .vmem S256x16 .f32) (harg9 : arg9.IsWhole) (arg10 : Memref sig .tc .vmem S256 .f32) (harg10 : arg10.IsWhole) (arg11 : Memref sig .tc .vmem S256x512 .f32) (harg11 : arg11.IsWhole) (arg12 : Memref sig .tc .vmem S256 .f32) (harg12 : arg12.IsWhole) (arg13 : Memref sig .tc .vmem S16x256 .f32) (harg13 : arg13.IsWhole) (arg14 : Memref sig .tc .vmem S16 .f32) (harg14 : arg14.IsWhole) (arg15 : Memref sig .tc .vmem S256x16 .f32) (harg15 : arg15.IsWhole) (arg16 : Memref sig .tc .vmem S256 .f32) (harg16 : arg16.IsWhole) (arg17 : Memref sig .tc .vmem S8x256 .f32) (harg17 : arg17.IsWhole) (arg18 : Memref sig .tc .vmem S8x256 .f32) (harg18 : arg18.IsWhole) (arg19 : Memref sig .tc .vmem S8x256 .f32) (harg19 : arg19.IsWhole) (hc0 : cond0_0 i) (hc1 : ¬cond0_1 i) (x0 : Vec F S8x256x16x128 .f32) (x1 : Vec F S16x256 .f32) (x2 : Vec F S16 .f32) (x3 : Vec F S256x16 .f32) (x4 : Vec F S256 .f32) (x5 : Vec F S16x256 .f32) (x6 : Vec F S16 .f32) (x7 : Vec F S256x16 .f32) (x8 : Vec F S256 .f32) (x9 : Vec F S256x512 .f32) (x10 : Vec F S256 .f32) (x11 : Vec F S16x256 .f32) (x12 : Vec F S16 .f32) (x13 : Vec F S256x16 .f32) (x14 : Vec F S256 .f32) :
    VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 x14).2.1) = k0_pay3 x0 (k0_pay1 (F := F)) := by
  rw [View.read_writes_eq_canon _ _ _ (coverA_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 x14)]
  unfold kernelRun0_A
  dsimp only
  sl_unfold_words
  rw [View.canon_cons_unit_zero (S := S8x256) off2_zero, View.readCov_unit_zero (S := S8x256) _ off2_zero]
  simp only [View.readAt_eq_ld, harg2.read_unread, View.ld_unit_zero (S := S8x256x16x128) off4_zero]

/-- At the first slab the stores into accumulator 1 tile its buffer (the zero block, then the block's sums over it). -/
theorem coverA_1 (c : Dev nD) (i : grid0.Coords) (arg2 : Memref sig .tc .vmem S8x256x16x128 .f32) (harg2 : arg2.IsWhole) (arg3 : Memref sig .tc .vmem S16x256 .f32) (harg3 : arg3.IsWhole) (arg4 : Memref sig .tc .vmem S16 .f32) (harg4 : arg4.IsWhole) (arg5 : Memref sig .tc .vmem S256x16 .f32) (harg5 : arg5.IsWhole) (arg6 : Memref sig .tc .vmem S256 .f32) (harg6 : arg6.IsWhole) (arg7 : Memref sig .tc .vmem S16x256 .f32) (harg7 : arg7.IsWhole) (arg8 : Memref sig .tc .vmem S16 .f32) (harg8 : arg8.IsWhole) (arg9 : Memref sig .tc .vmem S256x16 .f32) (harg9 : arg9.IsWhole) (arg10 : Memref sig .tc .vmem S256 .f32) (harg10 : arg10.IsWhole) (arg11 : Memref sig .tc .vmem S256x512 .f32) (harg11 : arg11.IsWhole) (arg12 : Memref sig .tc .vmem S256 .f32) (harg12 : arg12.IsWhole) (arg13 : Memref sig .tc .vmem S16x256 .f32) (harg13 : arg13.IsWhole) (arg14 : Memref sig .tc .vmem S16 .f32) (harg14 : arg14.IsWhole) (arg15 : Memref sig .tc .vmem S256x16 .f32) (harg15 : arg15.IsWhole) (arg16 : Memref sig .tc .vmem S256 .f32) (harg16 : arg16.IsWhole) (arg17 : Memref sig .tc .vmem S8x256 .f32) (harg17 : arg17.IsWhole) (arg18 : Memref sig .tc .vmem S8x256 .f32) (harg18 : arg18.IsWhole) (arg19 : Memref sig .tc .vmem S8x256 .f32) (harg19 : arg19.IsWhole) (hc0 : cond0_0 i) (hc1 : ¬cond0_1 i) (x0 : Vec F S8x256x16x128 .f32) (x1 : Vec F S16x256 .f32) (x2 : Vec F S16 .f32) (x3 : Vec F S256x16 .f32) (x4 : Vec F S256 .f32) (x5 : Vec F S16x256 .f32) (x6 : Vec F S16 .f32) (x7 : Vec F S256x16 .f32) (x8 : Vec F S256 .f32) (x9 : Vec F S256x512 .f32) (x10 : Vec F S256 .f32) (x11 : Vec F S16x256 .f32) (x12 : Vec F S16 .f32) (x13 : Vec F S256x16 .f32) (x14 : Vec F S256 .f32) (y : S8x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 x14).2.2.1, y ∈ pc.1.set :=
  View.cover_of_tiledL _ S8x256.size (by sl_kernel_rfl) y

/-- At the first slab accumulator 1 ends at the slab's sums of squares added to the zero block. -/
theorem runA_acc1 (c : Dev nD) (i : grid0.Coords) (arg2 : Memref sig .tc .vmem S8x256x16x128 .f32) (harg2 : arg2.IsWhole) (arg3 : Memref sig .tc .vmem S16x256 .f32) (harg3 : arg3.IsWhole) (arg4 : Memref sig .tc .vmem S16 .f32) (harg4 : arg4.IsWhole) (arg5 : Memref sig .tc .vmem S256x16 .f32) (harg5 : arg5.IsWhole) (arg6 : Memref sig .tc .vmem S256 .f32) (harg6 : arg6.IsWhole) (arg7 : Memref sig .tc .vmem S16x256 .f32) (harg7 : arg7.IsWhole) (arg8 : Memref sig .tc .vmem S16 .f32) (harg8 : arg8.IsWhole) (arg9 : Memref sig .tc .vmem S256x16 .f32) (harg9 : arg9.IsWhole) (arg10 : Memref sig .tc .vmem S256 .f32) (harg10 : arg10.IsWhole) (arg11 : Memref sig .tc .vmem S256x512 .f32) (harg11 : arg11.IsWhole) (arg12 : Memref sig .tc .vmem S256 .f32) (harg12 : arg12.IsWhole) (arg13 : Memref sig .tc .vmem S16x256 .f32) (harg13 : arg13.IsWhole) (arg14 : Memref sig .tc .vmem S16 .f32) (harg14 : arg14.IsWhole) (arg15 : Memref sig .tc .vmem S256x16 .f32) (harg15 : arg15.IsWhole) (arg16 : Memref sig .tc .vmem S256 .f32) (harg16 : arg16.IsWhole) (arg17 : Memref sig .tc .vmem S8x256 .f32) (harg17 : arg17.IsWhole) (arg18 : Memref sig .tc .vmem S8x256 .f32) (harg18 : arg18.IsWhole) (arg19 : Memref sig .tc .vmem S8x256 .f32) (harg19 : arg19.IsWhole) (hc0 : cond0_0 i) (hc1 : ¬cond0_1 i) (x0 : Vec F S8x256x16x128 .f32) (x1 : Vec F S16x256 .f32) (x2 : Vec F S16 .f32) (x3 : Vec F S256x16 .f32) (x4 : Vec F S256 .f32) (x5 : Vec F S16x256 .f32) (x6 : Vec F S16 .f32) (x7 : Vec F S256x16 .f32) (x8 : Vec F S256 .f32) (x9 : Vec F S256x512 .f32) (x10 : Vec F S256 .f32) (x11 : Vec F S16x256 .f32) (x12 : Vec F S16 .f32) (x13 : Vec F S256x16 .f32) (x14 : Vec F S256 .f32) :
    VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 x14).2.2.1) = k0_pay4 x0 (k0_pay2 (F := F)) := by
  rw [View.read_writes_eq_canon _ _ _ (coverA_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 x14)]
  unfold kernelRun0_A
  dsimp only
  sl_unfold_words
  rw [View.canon_cons_unit_zero (S := S8x256) off2_zero, View.readCov_unit_zero (S := S8x256) _ off2_zero]
  simp only [View.readAt_eq_ld, harg2.read_unread, View.ld_unit_zero (S := S8x256x16x128) off4_zero]

/-- At a middle slab the one store into accumulator 0 tiles its buffer. -/
theorem coverB_0 (c : Dev nD) (i : grid0.Coords) (arg2 : Memref sig .tc .vmem S8x256x16x128 .f32) (harg2 : arg2.IsWhole) (arg3 : Memref sig .tc .vmem S16x256 .f32) (harg3 : arg3.IsWhole) (arg4 : Memref sig .tc .vmem S16 .f32) (harg4 : arg4.IsWhole) (arg5 : Memref sig .tc .vmem S256x16 .f32) (harg5 : arg5.IsWhole) (arg6 : Memref sig .tc .vmem S256 .f32) (harg6 : arg6.IsWhole) (arg7 : Memref sig .tc .vmem S16x256 .f32) (harg7 : arg7.IsWhole) (arg8 : Memref sig .tc .vmem S16 .f32) (harg8 : arg8.IsWhole) (arg9 : Memref sig .tc .vmem S256x16 .f32) (harg9 : arg9.IsWhole) (arg10 : Memref sig .tc .vmem S256 .f32) (harg10 : arg10.IsWhole) (arg11 : Memref sig .tc .vmem S256x512 .f32) (harg11 : arg11.IsWhole) (arg12 : Memref sig .tc .vmem S256 .f32) (harg12 : arg12.IsWhole) (arg13 : Memref sig .tc .vmem S16x256 .f32) (harg13 : arg13.IsWhole) (arg14 : Memref sig .tc .vmem S16 .f32) (harg14 : arg14.IsWhole) (arg15 : Memref sig .tc .vmem S256x16 .f32) (harg15 : arg15.IsWhole) (arg16 : Memref sig .tc .vmem S256 .f32) (harg16 : arg16.IsWhole) (arg17 : Memref sig .tc .vmem S8x256 .f32) (harg17 : arg17.IsWhole) (arg18 : Memref sig .tc .vmem S8x256 .f32) (harg18 : arg18.IsWhole) (arg19 : Memref sig .tc .vmem S8x256 .f32) (harg19 : arg19.IsWhole) (hc0 : ¬cond0_0 i) (hc1 : ¬cond0_1 i) (x0 : Vec F S8x256x16x128 .f32) (x1 : Vec F S16x256 .f32) (x2 : Vec F S16 .f32) (x3 : Vec F S256x16 .f32) (x4 : Vec F S256 .f32) (x5 : Vec F S16x256 .f32) (x6 : Vec F S16 .f32) (x7 : Vec F S256x16 .f32) (x8 : Vec F S256 .f32) (x9 : Vec F S256x512 .f32) (x10 : Vec F S256 .f32) (x11 : Vec F S16x256 .f32) (x12 : Vec F S16 .f32) (x13 : Vec F S256x16 .f32) (x14 : Vec F S256 .f32) (xs0 : Vec F S8x256 .f32) (xs1 : Vec F S8x256 .f32) (y : S8x256.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 x14 xs0 xs1).2.1, y ∈ pc.1.set :=
  View.cover_of_tiledL _ S8x256.size (by sl_kernel_rfl) y

/-- At a middle slab accumulator 0 ends at the slab's sums added to what it held. -/
theorem runB_acc0 (c : Dev nD) (i : grid0.Coords) (arg2 : Memref sig .tc .vmem S8x256x16x128 .f32) (harg2 : arg2.IsWhole) (arg3 : Memref sig .tc .vmem S16x256 .f32) (harg3 : arg3.IsWhole) (arg4 : Memref sig .tc .vmem S16 .f32) (harg4 : arg4.IsWhole) (arg5 : Memref sig .tc .vmem S256x16 .f32) (harg5 : arg5.IsWhole) (arg6 : Memref sig .tc .vmem S256 .f32) (harg6 : arg6.IsWhole) (arg7 : Memref sig .tc .vmem S16x256 .f32) (harg7 : arg7.IsWhole) (arg8 : Memref sig .tc .vmem S16 .f32) (harg8 : arg8.IsWhole) (arg9 : Memref sig .tc .vmem S256x16 .f32) (harg9 : arg9.IsWhole) (arg10 : Memref sig .tc .vmem S256 .f32) (harg10 : arg10.IsWhole) (arg11 : Memref sig .tc .vmem S256x512 .f32) (harg11 : arg11.IsWhole) (arg12 : Memref sig .tc .vmem S256 .f32) (harg12 : arg12.IsWhole) (arg13 : Memref sig .tc .vmem S16x256 .f32) (harg13 : arg13.IsWhole) (arg14 : Memref sig .tc .vmem S16 .f32) (harg14 : arg14.IsWhole) (arg15 : Memref sig .tc .vmem S256x16 .f32) (harg15 : arg15.IsWhole) (arg16 : Memref sig .tc .vmem S256 .f32) (harg16 : arg16.IsWhole) (arg17 : Memref sig .tc .vmem S8x256 .f32) (harg17 : arg17.IsWhole) (arg18 : Memref sig .tc .vmem S8x256 .f32) (harg18 : arg18.IsWhole) (arg19 : Memref sig .tc .vmem S8x256 .f32) (harg19 : arg19.IsWhole) (hc0 : ¬cond0_0 i) (hc1 : ¬cond0_1 i) (x0 : Vec F S8x256x16x128 .f32) (x1 : Vec F S16x256 .f32) (x2 : Vec F S16 .f32) (x3 : Vec F S256x16 .f32) (x4 : Vec F S256 .f32) (x5 : Vec F S16x256 .f32) (x6 : Vec F S16 .f32) (x7 : Vec F S256x16 .f32) (x8 : Vec F S256 .f32) (x9 : Vec F S256x512 .f32) (x10 : Vec F S256 .f32) (x11 : Vec F S16x256 .f32) (x12 : Vec F S16 .f32) (x13 : Vec F S256x16 .f32) (x14 : Vec F S256 .f32) (xs0 : Vec F S8x256 .f32) (xs1 : Vec F S8x256 .f32) :
    VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 x14 xs0 xs1).2.1) = k0_pay3 x0 xs0 := by
  rw [View.read_writes_eq_canon _ _ _ (coverB_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 x14 xs0 xs1)]
  unfold kernelRun0_B
  dsimp only
  sl_unfold_words
  rw [View.canon_unit_zero off2_zero]
  simp only [View.readAt_eq_ld, harg2.read_unread, harg18.read_unread, View.ld_unit_zero (S := S8x256x16x128) off4_zero,
    View.ld_unit_zero (S := S8x256) off2_zero]

/-- At a middle slab the one store into accumulator 1 tiles its buffer. -/
theorem coverB_1 (c : Dev nD) (i : grid0.Coords) (arg2 : Memref sig .tc .vmem S8x256x16x128 .f32) (harg2 : arg2.IsWhole) (arg3 : Memref sig .tc .vmem S16x256 .f32) (harg3 : arg3.IsWhole) (arg4 : Memref sig .tc .vmem S16 .f32) (harg4 : arg4.IsWhole) (arg5 : Memref sig .tc .vmem S256x16 .f32) (harg5 : arg5.IsWhole) (arg6 : Memref sig .tc .vmem S256 .f32) (harg6 : arg6.IsWhole) (arg7 : Memref sig .tc .vmem S16x256 .f32) (harg7 : arg7.IsWhole) (arg8 : Memref sig .tc .vmem S16 .f32) (harg8 : arg8.IsWhole) (arg9 : Memref sig .tc .vmem S256x16 .f32) (harg9 : arg9.IsWhole) (arg10 : Memref sig .tc .vmem S256 .f32) (harg10 : arg10.IsWhole) (arg11 : Memref sig .tc .vmem S256x512 .f32) (harg11 : arg11.IsWhole) (arg12 : Memref sig .tc .vmem S256 .f32) (harg12 : arg12.IsWhole) (arg13 : Memref sig .tc .vmem S16x256 .f32) (harg13 : arg13.IsWhole) (arg14 : Memref sig .tc .vmem S16 .f32) (harg14 : arg14.IsWhole) (arg15 : Memref sig .tc .vmem S256x16 .f32) (harg15 : arg15.IsWhole) (arg16 : Memref sig .tc .vmem S256 .f32) (harg16 : arg16.IsWhole) (arg17 : Memref sig .tc .vmem S8x256 .f32) (harg17 : arg17.IsWhole) (arg18 : Memref sig .tc .vmem S8x256 .f32) (harg18 : arg18.IsWhole) (arg19 : Memref sig .tc .vmem S8x256 .f32) (harg19 : arg19.IsWhole) (hc0 : ¬cond0_0 i) (hc1 : ¬cond0_1 i) (x0 : Vec F S8x256x16x128 .f32) (x1 : Vec F S16x256 .f32) (x2 : Vec F S16 .f32) (x3 : Vec F S256x16 .f32) (x4 : Vec F S256 .f32) (x5 : Vec F S16x256 .f32) (x6 : Vec F S16 .f32) (x7 : Vec F S256x16 .f32) (x8 : Vec F S256 .f32) (x9 : Vec F S256x512 .f32) (x10 : Vec F S256 .f32) (x11 : Vec F S16x256 .f32) (x12 : Vec F S16 .f32) (x13 : Vec F S256x16 .f32) (x14 : Vec F S256 .f32) (xs0 : Vec F S8x256 .f32) (xs1 : Vec F S8x256 .f32) (y : S8x256.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 x14 xs0 xs1).2.2.1, y ∈ pc.1.set :=
  View.cover_of_tiledL _ S8x256.size (by sl_kernel_rfl) y

/-- At a middle slab accumulator 1 ends at the slab's sums of squares added to what it held. -/
theorem runB_acc1 (c : Dev nD) (i : grid0.Coords) (arg2 : Memref sig .tc .vmem S8x256x16x128 .f32) (harg2 : arg2.IsWhole) (arg3 : Memref sig .tc .vmem S16x256 .f32) (harg3 : arg3.IsWhole) (arg4 : Memref sig .tc .vmem S16 .f32) (harg4 : arg4.IsWhole) (arg5 : Memref sig .tc .vmem S256x16 .f32) (harg5 : arg5.IsWhole) (arg6 : Memref sig .tc .vmem S256 .f32) (harg6 : arg6.IsWhole) (arg7 : Memref sig .tc .vmem S16x256 .f32) (harg7 : arg7.IsWhole) (arg8 : Memref sig .tc .vmem S16 .f32) (harg8 : arg8.IsWhole) (arg9 : Memref sig .tc .vmem S256x16 .f32) (harg9 : arg9.IsWhole) (arg10 : Memref sig .tc .vmem S256 .f32) (harg10 : arg10.IsWhole) (arg11 : Memref sig .tc .vmem S256x512 .f32) (harg11 : arg11.IsWhole) (arg12 : Memref sig .tc .vmem S256 .f32) (harg12 : arg12.IsWhole) (arg13 : Memref sig .tc .vmem S16x256 .f32) (harg13 : arg13.IsWhole) (arg14 : Memref sig .tc .vmem S16 .f32) (harg14 : arg14.IsWhole) (arg15 : Memref sig .tc .vmem S256x16 .f32) (harg15 : arg15.IsWhole) (arg16 : Memref sig .tc .vmem S256 .f32) (harg16 : arg16.IsWhole) (arg17 : Memref sig .tc .vmem S8x256 .f32) (harg17 : arg17.IsWhole) (arg18 : Memref sig .tc .vmem S8x256 .f32) (harg18 : arg18.IsWhole) (arg19 : Memref sig .tc .vmem S8x256 .f32) (harg19 : arg19.IsWhole) (hc0 : ¬cond0_0 i) (hc1 : ¬cond0_1 i) (x0 : Vec F S8x256x16x128 .f32) (x1 : Vec F S16x256 .f32) (x2 : Vec F S16 .f32) (x3 : Vec F S256x16 .f32) (x4 : Vec F S256 .f32) (x5 : Vec F S16x256 .f32) (x6 : Vec F S16 .f32) (x7 : Vec F S256x16 .f32) (x8 : Vec F S256 .f32) (x9 : Vec F S256x512 .f32) (x10 : Vec F S256 .f32) (x11 : Vec F S16x256 .f32) (x12 : Vec F S16 .f32) (x13 : Vec F S256x16 .f32) (x14 : Vec F S256 .f32) (xs0 : Vec F S8x256 .f32) (xs1 : Vec F S8x256 .f32) :
    VS0_1.read (Elt F) (VS0_1.writes (Elt F) VS0_1.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 x14 xs0 xs1).2.2.1) = k0_pay4 x0 xs1 := by
  rw [View.read_writes_eq_canon _ _ _ (coverB_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 x14 xs0 xs1)]
  unfold kernelRun0_B
  dsimp only
  sl_unfold_words
  rw [View.canon_unit_zero off2_zero]
  simp only [View.readAt_eq_ld, harg2.read_unread, harg19.read_unread, View.ld_unit_zero (S := S8x256x16x128) off4_zero,
    View.ld_unit_zero (S := S8x256) off2_zero]

end Cert.KernelIdeal.HandValue

end
-- ==== Proof.ValuePiecesAB.lean ====
/-
  What the two accumulators of region 0 hold after a point that does not finish the gate, at the pipeline's own
  buffers and blocks: at the first slab of a batch block (slab coordinate 0) the slab's sums, respectively sums of
  squares, of the image block added to the zero block; at a middle slab the same added to what the point before left.
-/
import proofs.«165288_j12446815224180_2_alg».proof.Proof.Region0
import proofs.«165288_j12446815224180_2_alg».proof.Proof.ValuePiecesAB0

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem

variable {F : FTy → Type} [FloatOps F]
variable (V : (c : Dev nD) → (b : Ref sig .tc) → Buf (Elt F) ((c : Thread nD τ).loc b))

/-- First slab, accumulator 0: zero plus the image block's sums. -/
theorem resA_acc0 (c : Dev nD) (t : Fin cfg0.N) (h0 : t.val % 8 = 0) (h1 : ¬t.val % 8 = 7) :
    (resA V c t h0 h1).2.1 = k0_pay3 (iblk0 V c 0 t) (k0_pay1 (F := F)) := by
  unfold resA
  exact runA_acc0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t)

/-- First slab, accumulator 1: zero plus the image block's sums of squares. -/
theorem resA_acc1 (c : Dev nD) (t : Fin cfg0.N) (h0 : t.val % 8 = 0) (h1 : ¬t.val % 8 = 7) :
    (resA V c t h0 h1).2.2 = k0_pay4 (iblk0 V c 0 t) (k0_pay2 (F := F)) := by
  unfold resA
  exact runA_acc1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t)

/-- Middle slab, accumulator 0: what it held plus the image block's sums. -/
theorem resB_acc0 (c : Dev nD) (t : Fin cfg0.N) (h0 : ¬t.val % 8 = 0) (h1 : ¬t.val % 8 = 7) (xs0 xs1 : Vec F S8x256 .f32) :
    (resB V c t h0 h1 xs0 xs1).2.1 = k0_pay3 (iblk0 V c 0 t) xs0 := by
  unfold resB
  exact runB_acc0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) xs0 xs1

/-- Middle slab, accumulator 1: what it held plus the image block's sums of squares. -/
theorem resB_acc1 (c : Dev nD) (t : Fin cfg0.N) (h0 : ¬t.val % 8 = 0) (h1 : ¬t.val % 8 = 7) (xs0 xs1 : Vec F S8x256 .f32) :
    (resB V c t h0 h1 xs0 xs1).2.2 = k0_pay4 (iblk0 V c 0 t) xs1 := by
  unfold resB
  exact runB_acc1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) xs0 xs1

end Cert.KernelIdeal.HandValue

end
-- ==== Proof.ValueArr0.lean ====
/-
  The gate array after region 0, read at an index.

  The gate window's block at grid point t is rows 8·(t / 8) … 8·(t / 8) + 7 of the [16, 256] gate array, and the
  block is written back only at the points with t % 8 = 7.  Row b of the array lies in the block of the point
  8·(b / 8) + 7, which writes back, so the two writing points together cover the array; if what each of them leaves in the
  block is rows of one function g of (row, channel), the array ends holding g.
-/
import proofs.«165288_j12446815224180_2_alg».proof.Proof.Gen.KernelIdeal.Launch
import proofs.«165288_j12446815224180_2_alg».proof.Proof.Gen.KernelIdeal.Points
import proofs.«165288_j12446815224180_2_alg».proof.Proof.Region0
import Idealize.ShloMosaic.Lib.ValueIdx
import Idealize.ShloMosaic.Lib.Pipeline.Value

noncomputable section

namespace Cert.KernelIdeal.HandValue

open Cert.KernelIdeal Cert.KernelIdeal.Gen Cert.KernelIdeal.Hand Idealize.ShloMosaic Idealize.ShloMosaic.ValueIdx
open Idealize.ShloMosaic.TcCoe Idealize.SL.Sem
open Idealize.ShloMosaic.Pipeline (Dat)

/-- The gate window's printed index map, decided over the sixteen grid points: block row t / 8, block column 0. -/
theorem idx15 : ∀ t : Fin cfg0.N, win0_15.index t (0 : Fin 2) = t.val / 8 ∧ win0_15.index t (1 : Fin 2) = 0 :=
  (by decide +kernel : ∀ t : Fin grid0.N, _)

/-- An index of the gate array is in point t's block iff each coordinate is in the block's range on its axis. -/
theorem mem_blk15 (t : Fin cfg0.N) (i : S16x256.Idx) :
    i ∈ ((cfg0.win 15).blk t).view.set ↔ ∀ a : Fin 2, win0_15.index t a * S8x256.size a ≤ (i a).val
      ∧ (i a).val < win0_15.index t a * S8x256.size a + S8x256.size a := by
  show i ∈ ((View.whole main_v0).slice (win0_15.rect t)).set ↔ _
  rw [View.set_slice_whole, Rect.mem_set_unit]
  exact Iff.rfl

/-- For any proof data of region 0: if what every writing point leaves in the gate block is its rows of g, the gate
    array after the last point is g. -/
theorem arrAt15_of_after {c : Dev nD} (dat : Dat τ (Elt Ideal) Unit ℕ (UR sig nD τ) ℕ cfg0 c)
    (g : Fin 16 → Fin 256 → EReal)
    (H : ∀ (t : Fin cfg0.N), t.val % 8 = 7 → ∀ (b' : Fin 8) (ch : Fin 256),
      dat.after 15 t (ix2 b' ch)
        = g ⟨8 * (t.val / 8) + b'.val, by have := t.isLt; have : cfg0.N = 16 := N_0; omega⟩ ch)
    (b : Fin 16) (ch : Fin 256) : dat.arrAt 15 cfg0.N (ix2 b ch) = g b ch := by
  have hfin := dat.arrAt_eq_of_cover 15 (fun i : S16x256.Idx => g (i 0) (i 1)) ?hG ?hcover
  · exact congrFun hfin (ix2 b ch)
  case hG =>
    intro t hf
    have h7 := (flush0_15 t).mp hf
    obtain ⟨e0, e1⟩ := idx15 t
    funext j
    obtain ⟨b', ch', rfl⟩ : ∃ (b' : Fin 8) (ch' : Fin 256), j = ix2 b' ch' := ⟨j 0, j 1, eq_ix2 (n0 := 8) (n1 := 256) j⟩
    refine Eq.trans (show dat.flushed 15 t (ix2 b' ch') = dat.after 15 t (ix2 b' ch') from rfl) ?_
    refine (H t h7 b' ch').trans ?_
    rw [View.read_apply]
    show g _ _ = g _ _
    refine congr (congrArg g (Fin.ext ?_)) (Fin.ext ?_)
    · show 8 * (t.val / 8) + b'.val = win0_15.index t (0 : Fin 2) * 8 + 1 * b'.val
      rw [e0]; omega
    · show ch'.val = win0_15.index t (1 : Fin 2) * 256 + 1 * ch'.val
      rw [e1]; omega
  case hcover =>
    intro i
    have hi0 : (i 0).val < 16 := (i 0).isLt
    have hi1 : (i 1).val < 256 := (i 1).isLt
    obtain ⟨t, htv⟩ : ∃ t : Fin cfg0.N, t.val = 8 * ((i 0).val / 8) + 7 :=
      ⟨⟨8 * ((i 0).val / 8) + 7, by have : cfg0.N = 16 := N_0; omega⟩, rfl⟩
    obtain ⟨e0, e1⟩ := idx15 t
    refine ⟨t, (flush0_15 t).mpr (by rw [htv]; omega), ?_⟩
    rw [mem_blk15]
    intro a
    match a with
    | ⟨0, _⟩ =>
      show win0_15.index t (0 : Fin 2) * 8 ≤ (i 0).val ∧ (i 0).val < win0_15.index t (0 : Fin 2) * 8 + 8
      rw [e0, htv]; omega
    | ⟨1, _⟩ =>
      show win0_15.index t (1 : Fin 2) * 256 ≤ (i 1).val ∧ (i 1).val < win0_15.index t (1 : Fin 2) * 256 + 256
      rw [e1]; omega

variable (V : (c : Dev nD) → (b : Ref sig .tc) → Buf (Elt Ideal) ((c : Thread nD τ).loc b))

/-- The gate array after region 0, from what the writing points leave in the gate block. -/
theorem arr0_15_apply (c : Dev nD) (g : Fin 16 → Fin 256 → EReal)
    (H : ∀ (t : Fin cfg0.N), t.val % 8 = 7 → ∀ (b' : Fin 8) (ch : Fin 256),
      (dat0 (F := Ideal) V c).after 15 t (ix2 b' ch)
        = g ⟨8 * (t.val / 8) + b'.val, by have := t.isLt; have : cfg0.N = 16 := N_0; omega⟩ ch)
    (b : Fin 16) (ch : Fin 256) : (dat0 (F := Ideal) V c).arrAt 15 cfg0.N (ix2 b ch) = g b ch :=
  arrAt15_of_after (dat0 (F := Ideal) V c) g H b ch

end Cert.KernelIdeal.HandValue

end
-- ==== Proof.LibRowsProduct.lean ====
/-
  Two small facts about `[m, k]` arrays, at the ideal values where a product is an exact sum.

  A one-row matrix broadcast down `a` rows has at `(p, q)` the row's entry `q`.  The matrix product that contracts the
  SECOND axis of both operands — `A · Bᵀ` for `A : [m, k]`, `B : [n, k]` — into a zero accumulator has at `(a, b)` the
  sum over `c` of `A (a, c) · B (b, c)`.
-/
import Idealize.ShloMosaic.Lib.Pipeline.Value
import Idealize.ShloMosaic.Lib.ValueLayout
import Idealize.ShloMosaic.Lib.ValueIdx
import Idealize.ShloMosaic.PureOps.Ideal.Laws

noncomputable section

namespace Cert.RowsProduct

open Idealize.ShloMosaic Idealize.ShloMosaic.ValueIdx

/-- A `[1, n]` array broadcast to `[a, n]` reads, at `(p, q)`, the operand's one row at `q`. -/
theorem broadcastTo_1n_an_apply {α : Type} {a n : ℕ} (v : (⟨2, ![1, n]⟩ : Shape).Idx → α)
    (h : (⟨2, ![1, n]⟩ : Shape).Broadcasts ⟨2, ![a, n]⟩) (p : Fin a) (q : Fin n) :
    broadcastTo ⟨2, ![a, n]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if n = 1 then 0 else q.val
    split
    · have := q.isLt; omega
    · rfl

/-- `A · Bᵀ` into the zero accumulator, read at `(a, b)`: the sum over the shared second coordinate of the products. -/
theorem matmul_nt_apply {m n k : ℕ} {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂) (a : Fin m) (b : Fin n) :
    FloatOps.matmul (⟨[1], [1], [0], [0], [], [], w⟩ : DotDims _ _ _) prec A B (constant _ .f32 0x00000000#32) (ix2 a b)
      = ∑ c : Fin k, A (ix2 a c) * B (ix2 b c) := by
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Cert.RowsProduct

end
-- ==== Proof.PayGate.lean ====
/-
  The stages of the gate computation on an 8-row block, each read at an index.

  Every stage acts row by row.  A squeeze-excite stage takes a block d of 8 rows of 256 features to the hidden layer
    hid (b', h) = max ((∑_{k<256} d(b', k) · W₁(h, k)) + b₁ h, 0)
  and then to  ∑_{h<16} hid (b', h) · W₂(c, h);  its last bias, a [256] row added to every row of the block, is a
  separate stage because the kernel adds one of them late.  The mean block is s / n and the deviation block is
  √ max (q / n − (s / n)·(s / n), 0).  All three matrix products contract the second axis of both operands into a zero
  accumulator, so each is a plain finite sum.
-/
import proofs.«165288_j12446815224180_2_alg».proof.Proof.Gen.KernelIdeal.Skeleton
import proofs.«165288_j12446815224180_2_alg».proof.Proof.Spec
import proofs.«165288_j12446815224180_2_alg».proof.Proof.LibBroadcast
import proofs.«165288_j12446815224180_2_alg».proof.Proof.LibRowsProduct
import Idealize.ShloMosaic.Lib.ValueIdx
import Idealize.ShloMosaic.Lib.Pipeline.Value
import Idealize.ShloMosaic.Lib.ValueLayout
import Idealize.ShloMosaic.PureOps.Ideal.Laws

noncomputable section

namespace Cert.KernelGate

open Cert.KernelIdeal Cert.KernelIdeal.Gen Idealize.ShloMosaic Idealize.ShloMosaic.ValueIdx Cert.GateSpec

/-- The hidden layer of a squeeze-excite stage on an 8-row block: product with `W₁ᵀ`, bias, clamp at zero. -/
def hid (d : FVec Ideal S8x256 .f32) (w1 : Vec Ideal S16x256 .f32) (b1 : Vec Ideal S16 .f32) : FVec Ideal S8x16 .f32 :=
  maximumf (addf (matmul (φ₂ := .f32) dot_S8x256_S16x256_S8x16_1_1_0_0_n_n none d w1 (constant S8x16 .f32 0x00000000#32))
      (broadcastTo S8x16 (shapeCast S1x16 b1 shapeCasts_S16_S1x16) broadcasts_S1x16_S8x16))
    (broadcast S8x16 (Scalar.ofBits .f32 0x00000000#32))

/-- A squeeze-excite stage without its last bias: the hidden layer's product with `W₂ᵀ`. -/
def seOut (d : FVec Ideal S8x256 .f32) (w1 : Vec Ideal S16x256 .f32) (b1 : Vec Ideal S16 .f32) (w2 : Vec Ideal S256x16 .f32) :
    FVec Ideal S8x256 .f32 :=
  matmul (φ₂ := .f32) dot_S8x16_S256x16_S8x256_1_1_0_0_n_n none (hid d w1 b1) w2 (constant S8x256 .f32 0x00000000#32)

/-- A `[256]` row added to every row of an 8-row block. -/
def addRow (x : FVec Ideal S8x256 .f32) (r : Vec Ideal S256 .f32) : FVec Ideal S8x256 .f32 :=
  addf x (broadcastTo S8x256 (shapeCast S1x256 r shapeCasts_S256_S1x256) broadcasts_S1x256_S8x256)

/-- The clamp at zero of an 8-row block. -/
def relu (x : FVec Ideal S8x256 .f32) : FVec Ideal S8x256 .f32 :=
  maximumf x (broadcast S8x256 (Scalar.ofBits .f32 0x00000000#32))

/-- The product of an 8-row block with the transpose of a `[256, 256]` matrix, from zero. -/
def mm (x : FVec Ideal S8x256 .f32) (w : Vec Ideal S256x256 .f32) : FVec Ideal S8x256 .f32 :=
  matmul (φ₂ := .f32) dot_S8x256_S256x256_S8x256_1_1_0_0_n_n none x w (constant S8x256 .f32 0x00000000#32)

/-- The deviation block: `√ max (q / n − (s / n)·(s / n), 0)`. -/
def devBlk (s q : Vec Ideal S8x256 .f32) : FVec Ideal S8x256 .f32 :=
  sqrt (maximumf (subf (divf q (broadcast S8x256 (Scalar.ofBits .f32 0x46800000#32))) (mulf (k0_pay6 s) (k0_pay6 s)))
    (broadcast S8x256 (Scalar.ofBits .f32 0x00000000#32)))

theorem hid_apply (d : FVec Ideal S8x256 .f32) (w1 : Vec Ideal S16x256 .f32) (b1 : Vec Ideal S16 .f32) (b' : Fin 8) (h : Fin 16) :
    hid d w1 b1 (ix2 b' h) = max ((∑ k : Fin 256, d (ix2 b' k) * w1 (ix2 h k)) + b1 (ix1 h)) zeroW := by
  unfold hid
  refine (maximumf_apply _ _ _).trans (congrArg₂ max ?_ rfl)
  refine (addf_apply _ _ _).trans (congrArg₂ (· + ·) ?_ ?_)
  · exact Cert.RowsProduct.matmul_nt_apply (φ₂ := .f32) _ none d w1 b' h
  · exact (Cert.RowsProduct.broadcastTo_1n_an_apply _ _ b' h).trans (Cert.Layout.shapeCast_row_apply b1 _ h)

theorem seOut_apply (d : FVec Ideal S8x256 .f32) (w1 : Vec Ideal S16x256 .f32) (b1 : Vec Ideal S16 .f32) (w2 : Vec Ideal S256x16 .f32)
    (b' : Fin 8) (c : Fin 256) :
    seOut d w1 b1 w2 (ix2 b' c)
      = ∑ h : Fin 16, max ((∑ k : Fin 256, d (ix2 b' k) * w1 (ix2 h k)) + b1 (ix1 h)) zeroW * w2 (ix2 c h) := by
  unfold seOut
  refine (Cert.RowsProduct.matmul_nt_apply (φ₂ := .f32) _ none (hid d w1 b1) w2 b' c).trans ?_
  exact Finset.sum_congr rfl fun h _ => congrArg (· * w2 (ix2 c h)) (hid_apply d w1 b1 b' h)

theorem addRow_apply (x : FVec Ideal S8x256 .f32) (r : Vec Ideal S256 .f32) (b' : Fin 8) (c : Fin 256) :
    addRow x r (ix2 b' c) = x (ix2 b' c) + r (ix1 c) := by
  unfold addRow
  refine (addf_apply _ _ _).trans (congrArg (x (ix2 b' c) + ·) ?_)
  exact (Cert.RowsProduct.broadcastTo_1n_an_apply _ _ b' c).trans (Cert.Layout.shapeCast_row_apply r _ c)

theorem relu_apply (x : FVec Ideal S8x256 .f32) (j : S8x256.Idx) : relu x j = max (x j) zeroW := rfl

theorem mm_apply (x : FVec Ideal S8x256 .f32) (w : Vec Ideal S256x256 .f32) (b' : Fin 8) (c : Fin 256) :
    mm x w (ix2 b' c) = ∑ d : Fin 256, x (ix2 b' d) * w (ix2 c d) := by
  unfold mm
  exact Cert.RowsProduct.matmul_nt_apply (φ₂ := .f32) _ none x w b' c

/-- The mean block at an index: `s / n`. -/
theorem meanBlk_apply (s : Vec Ideal S8x256 .f32) (j : S8x256.Idx) : k0_pay6 s j = Ideal.div (s j) nHW := rfl

theorem devBlk_apply (s q : Vec Ideal S8x256 .f32) (j : S8x256.Idx) :
    devBlk s q j = Ideal.sqrt (max (Ideal.div (q j) nHW - Ideal.div (s j) nHW * Ideal.div (s j) nHW) zeroW) := rfl

/-- The deviation branch as stored: a whole squeeze-excite stage on the deviation block. -/
theorem pay7_eq (s q : Vec Ideal S8x256 .f32) (w1 : Vec Ideal S16x256 .f32) (b1 : Vec Ideal S16 .f32) (w2 : Vec Ideal S256x16 .f32)
    (b2 : Vec Ideal S256 .f32) : k0_pay7 s q w1 b1 w2 b2 = addRow (seOut (devBlk s q) w1 b1 w2) b2 := rfl

/-- The mean branch as stored: a squeeze-excite stage on the mean block, still without its last bias. -/
theorem pay8_eq (s : Vec Ideal S8x256 .f32) (w1 : Vec Ideal S16x256 .f32) (b1 : Vec Ideal S16 .f32) (w2 : Vec Ideal S256x16 .f32) :
    k0_pay8 s w1 b1 w2 = seOut (k0_pay6 s) w1 b1 w2 := rfl

/-- The gate as stored: the mean branch's late bias, the two half contractions, bias, clamp, the last squeeze-excite
    stage and the logistic function. -/
theorem pay5_eq (A B : FVec Ideal S8x256 .f32) (mb2 : Vec Ideal S256 .f32) (bwL bwR : Vec Ideal S256x256 .f32) (bb : Vec Ideal S256 .f32)
    (w1 : Vec Ideal S16x256 .f32) (b1 : Vec Ideal S16 .f32) (w2 : Vec Ideal S256x16 .f32) (b2 : Vec Ideal S256 .f32) :
    k0_pay5 A B mb2 bwL bwR bb w1 b1 w2 b2
      = logistic (addRow (seOut (relu (addRow (addf (mm A bwL) (mm (addRow B mb2) bwR)) bb)) w1 b1 w2) b2) := rfl

/-! ## The gate block is the specification's gate

  Row b' of the 8-row block computes what the specification computes for the batch row b it holds: the mean block is
  μ(b, ·) and the deviation block σ(b, ·) on that row, each squeeze-excite stage reads only its own row, and the two
  256-term contractions against the left and the right half of the bottleneck matrix are the split bottleneck.  The
  mean branch's last bias is added just before its contraction, which is where the specification has it too. -/

/-- A whole squeeze-excite stage on a block whose row `b'` is the descriptor's row `b`. -/
theorem se_block (d : FVec Ideal S8x256 .f32) (D : Fin 16 → Fin 256 → EReal) (b' : Fin 8) (b : Fin 16)
    (hd : ∀ k : Fin 256, d (ix2 b' k) = D b k)
    (w1 : Vec Ideal S16x256 .f32) (b1 : Vec Ideal S16 .f32) (w2 : Vec Ideal S256x16 .f32) (b2 : Vec Ideal S256 .f32) (c : Fin 256) :
    addRow (seOut d w1 b1 w2) b2 (ix2 b' c) = se D w1 b1 w2 b2 b c := by
  unfold se
  refine (addRow_apply _ _ b' c).trans (congrArg (· + b2 (ix1 c)) ?_)
  refine (seOut_apply d w1 b1 w2 b' c).trans (Finset.sum_congr rfl fun h _ => ?_)
  refine congrArg (fun t => max (t + b1 (ix1 h)) zeroW * w2 (ix2 c h)) ?_
  exact Finset.sum_congr rfl fun k _ => congrArg (· * w1 (ix2 h k)) (hd k)

/-- Entry `(b', c)` of the gate block is the gate of batch row `b` and channel `c`. -/
theorem pay_gate_apply (s q : Vec Ideal S8x256 .f32)
    (sw1 : Vec Ideal S16x256 .f32) (sb1 : Vec Ideal S16 .f32) (sw2 : Vec Ideal S256x16 .f32) (sb2 : Vec Ideal S256 .f32)
    (mw1 : Vec Ideal S16x256 .f32) (mb1 : Vec Ideal S16 .f32) (mw2 : Vec Ideal S256x16 .f32) (mb2 : Vec Ideal S256 .f32)
    (bwL bwR : Vec Ideal S256x256 .f32) (bw : IBW → EReal) (bb : Vec Ideal S256 .f32)
    (fw1 : Vec Ideal S16x256 .f32) (fb1 : Vec Ideal S16 .f32) (fw2 : Vec Ideal S256x16 .f32) (fb2 : Vec Ideal S256 .f32)
    (b' : Fin 8) (c : Fin 256) (b : Fin 16) (μ σ : Fin 16 → Fin 256 → EReal)
    (hμ : ∀ k : Fin 256, μ b k = Ideal.div (s (ix2 b' k)) nHW)
    (hσ : ∀ k : Fin 256, σ b k = Ideal.sqrt (max (Ideal.div (q (ix2 b' k)) nHW - μ b k * μ b k) zeroW))
    (hL : ∀ (c d : Fin 256), bwL (ix2 c d) = bw (ix2 c ⟨d.val, by omega⟩))
    (hR : ∀ (c d : Fin 256), bwR (ix2 c d) = bw (ix2 c ⟨256 + d.val, by omega⟩)) :
    k0_pay5 (k0_pay7 s q sw1 sb1 sw2 sb2) (k0_pay8 s mw1 mb1 mw2) mb2 bwL bwR bb fw1 fb1 fw2 fb2 (ix2 b' c)
      = gateOf neckSplit ⟨sw1, sb1, sw2, sb2, mw1, mb1, mw2, mb2, bw, bb, fw1, fb1, fw2, fb2⟩ μ σ b c := by
  rw [pay5_eq, pay7_eq, pay8_eq]
  unfold gateOf
  refine congrArg Ideal.logistic ?_
  refine se_block _ _ b' b (fun k => ?_) fw1 fb1 fw2 fb2 c
  unfold neckSplit
  refine (relu_apply _ _).trans (congrArg (max · zeroW) ?_)
  refine (addRow_apply _ _ b' k).trans (congrArg (· + bb (ix1 k)) ?_)
  refine (addf_apply _ _ _).trans (congrArg₂ (· + ·) ?_ ?_)
  · refine (mm_apply _ _ b' k).trans (Finset.sum_congr rfl fun d _ => congrArg₂ (· * ·) ?_ (hL k d))
    refine se_block (devBlk s q) σ b' b (fun k' => ?_) sw1 sb1 sw2 sb2 d
    rw [devBlk_apply, hσ k', hμ k']
  · refine (mm_apply _ _ b' k).trans (Finset.sum_congr rfl fun d _ => congrArg₂ (· * ·) ?_ (hR k d))
    refine se_block (k0_pay6 s) μ b' b (fun k' => ?_) mw1 mb1 mw2 mb2 d
    rw [meanBlk_apply, hμ k']

end Cert.KernelGate

end
-- ==== Proof.ValueGate.lean ====
/-
  Region 0 read as a value: the gate array it leaves is the specification's gate.

  Along the sixteen grid positions the two accumulators follow the recurrence "zero block plus the image block's sums at
  a first slab, the previous contents plus the image block's sums otherwise" (and the same with squares), so at a last
  slab they hold, in row b', the spatial sum and the spatial sum of squares of batch row 8·(t / 8) + b'.  There the body
  stores into the output block the gate stages applied to exactly these two contents and to the weight arrays: the mean
  is the sum over n, the deviation the root of the clamped one-pass variance, and the two loaded halves of the bottleneck
  matrix are its columns 0..255 and 256..511, which is the split bottleneck.  The two writing points cover the gate array,
  each with its batch block's eight rows.
-/
import proofs.«165288_j12446815224180_2_alg».proof.Proof.Run
import proofs.«165288_j12446815224180_2_alg».proof.Proof.ValueGateIdx
import proofs.«165288_j12446815224180_2_alg».proof.Proof.ValueGateSums
import proofs.«165288_j12446815224180_2_alg».proof.Proof.ValueGateResC
import proofs.«165288_j12446815224180_2_alg».proof.Proof.ValuePiecesAB
import proofs.«165288_j12446815224180_2_alg».proof.Proof.ValueArr0
import proofs.«165288_j12446815224180_2_alg».proof.Proof.PayGate

set_option maxRecDepth 16384

noncomputable section

namespace Cert.KernelIdeal.HandValue

open Cert.KernelIdeal Cert.KernelIdeal.Gen Cert.KernelIdeal.Hand Idealize.ShloMosaic Idealize.ShloMosaic.ValueIdx Cert.GateSpec
open Idealize.ShloMosaic.TcCoe Idealize.SL.Sem

/-! ## The gate block from finished sums -/

/-- The gate stages on a block whose accumulators hold, in row b', the spatial sums and sums of squares of batch row b:
    entry (b', ch) is the specification's gate of (b, ch).  The mean is the sum over n, the deviation the root of the
    clamped one-pass variance, and the two loaded halves of the bottleneck matrix are its columns 0..255 and 256..511. -/
theorem gate_block_apply (x : I4 → EReal) (sw1 : Vec Ideal S16x256 .f32) (sb1 : Vec Ideal S16 .f32) (sw2 : Vec Ideal S256x16 .f32) (sb2 : Vec Ideal S256 .f32) (mw1 : Vec Ideal S16x256 .f32) (mb1 : Vec Ideal S16 .f32) (mw2 : Vec Ideal S256x16 .f32) (mb2 : Vec Ideal S256 .f32) (bw : Vec Ideal S256x512 .f32) (bb : Vec Ideal S256 .f32) (fw1 : Vec Ideal S16x256 .f32) (fb1 : Vec Ideal S16 .f32) (fw2 : Vec Ideal S256x16 .f32) (fb2 : Vec Ideal S256 .f32)
    (s q : Vec Ideal S8x256 .f32) (b' : Fin 8) (b : Fin 16) (ch : Fin 256)
    (hs : ∀ k : Fin 256, s (ix2 b' k) = sumHW x b k) (hq : ∀ k : Fin 256, q (ix2 b' k) = sumSqHW x b k) :
    k0_pay5 (k0_pay7 s q sw1 sb1 sw2 sb2) (k0_pay8 s mw1 mb1 mw2) mb2 (View.ld bw (Rect.unit (s := S256x512) ![0, 0] S256x256.size inb_S256x512_S256x256_0_0)) (View.ld bw (Rect.unit (s := S256x512) ![0, 256] S256x256.size inb_S256x512_S256x256_0_256)) bb fw1 fb1 fw2 fb2 (ix2 b' ch)
      = gate' x ⟨sw1, sb1, sw2, sb2, mw1, mb1, mw2, mb2, bw, bb, fw1, fb1, fw2, fb2⟩ b ch :=
  Cert.KernelGate.pay_gate_apply s q sw1 sb1 sw2 sb2 mw1 mb1 mw2 mb2 (View.ld bw (Rect.unit (s := S256x512) ![0, 0] S256x256.size inb_S256x512_S256x256_0_0)) (View.ld bw (Rect.unit (s := S256x512) ![0, 256] S256x256.size inb_S256x512_S256x256_0_256)) bw bb fw1 fb1 fw2 fb2 b' ch b
    (mean x) (fun b c => Ideal.sqrt (var1 x b c))
    (fun k => by rw [hs k]; rfl)
    (fun k => by rw [hq k]; rfl)
    (fun c d => ld_left bw c d) (fun c d => ld_right bw c d)

section region

variable (V : (c : Dev nD) → (b : Ref sig .tc) → Buf (Elt Ideal) ((c : Thread nD τ).loc b))

/-! ## The blocks the body is run on -/

/-- The image block at point t, read at (b', ch, h, w). -/
theorem iblk0_0_at (c : Dev nD) (t : Fin cfg0.N) (b' : Fin 8) (ch : Fin 256) (h : Fin 16) (w : Fin 128) :
    (iblk0 V c 0 t : Vec Ideal S8x256x16x128 .f32) (ix4 b' ch h w)
      = (V c main_arg0 : I4 → EReal) (ix4 ⟨8 * (t.val / 8) + b'.val, by have := t.isLt; have : cfg0.N = 16 := N_0; omega⟩ ch ⟨16 * (t.val % 8) + h.val, by omega⟩ w) := by
  unfold iblk0
  exact blk0_0_read c (V c main_arg0) t b' ch h w

/-- Window 1's block is its whole array. -/
theorem iblk0_1_whole (c : Dev nD) (t : Fin cfg0.N) : (iblk0 V c 1 t : Vec Ideal S16x256 .f32) = V c main_arg1 := by
  unfold iblk0
  exact blk0_1_read c (V c main_arg1) t

/-- Window 2's block is its whole array. -/
theorem iblk0_2_whole (c : Dev nD) (t : Fin cfg0.N) : (iblk0 V c 2 t : Vec Ideal S16 .f32) = V c main_arg2 := by
  unfold iblk0
  exact blk0_2_read c (V c main_arg2) t

/-- Window 3's block is its whole array. -/
theorem iblk0_3_whole (c : Dev nD) (t : Fin cfg0.N) : (iblk0 V c 3 t : Vec Ideal S256x16 .f32) = V c main_arg3 := by
  unfold iblk0
  exact blk0_3_read c (V c main_arg3) t

/-- Window 4's block is its whole array. -/
theorem iblk0_4_whole (c : Dev nD) (t : Fin cfg0.N) : (iblk0 V c 4 t : Vec Ideal S256 .f32) = V c main_arg4 := by
  unfold iblk0
  exact blk0_4_read c (V c main_arg4) t

/-- Window 5's block is its whole array. -/
theorem iblk0_5_whole (c : Dev nD) (t : Fin cfg0.N) : (iblk0 V c 5 t : Vec Ideal S16x256 .f32) = V c main_arg5 := by
  unfold iblk0
  exact blk0_5_read c (V c main_arg5) t

/-- Window 6's block is its whole array. -/
theorem iblk0_6_whole (c : Dev nD) (t : Fin cfg0.N) : (iblk0 V c 6 t : Vec Ideal S16 .f32) = V c main_arg6 := by
  unfold iblk0
  exact blk0_6_read c (V c main_arg6) t

/-- Window 7's block is its whole array. -/
theorem iblk0_7_whole (c : Dev nD) (t : Fin cfg0.N) : (iblk0 V c 7 t : Vec Ideal S256x16 .f32) = V c main_arg7 := by
  unfold iblk0
  exact blk0_7_read c (V c main_arg7) t

/-- Window 8's block is its whole array. -/
theorem iblk0_8_whole (c : Dev nD) (t : Fin cfg0.N) : (iblk0 V c 8 t : Vec Ideal S256 .f32) = V c main_arg8 := by
  unfold iblk0
  exact blk0_8_read c (V c main_arg8) t

/-- Window 9's block is its whole array. -/
theorem iblk0_9_whole (c : Dev nD) (t : Fin cfg0.N) : (iblk0 V c 9 t : Vec Ideal S256x512 .f32) = V c main_arg9 := by
  unfold iblk0
  exact blk0_9_read c (V c main_arg9) t

/-- Window 10's block is its whole array. -/
theorem iblk0_10_whole (c : Dev nD) (t : Fin cfg0.N) : (iblk0 V c 10 t : Vec Ideal S256 .f32) = V c main_arg10 := by
  unfold iblk0
  exact blk0_10_read c (V c main_arg10) t

/-- Window 11's block is its whole array. -/
theorem iblk0_11_whole (c : Dev nD) (t : Fin cfg0.N) : (iblk0 V c 11 t : Vec Ideal S16x256 .f32) = V c main_arg11 := by
  unfold iblk0
  exact blk0_11_read c (V c main_arg11) t

/-- Window 12's block is its whole array. -/
theorem iblk0_12_whole (c : Dev nD) (t : Fin cfg0.N) : (iblk0 V c 12 t : Vec Ideal S16 .f32) = V c main_arg12 := by
  unfold iblk0
  exact blk0_12_read c (V c main_arg12) t

/-- Window 13's block is its whole array. -/
theorem iblk0_13_whole (c : Dev nD) (t : Fin cfg0.N) : (iblk0 V c 13 t : Vec Ideal S256x16 .f32) = V c main_arg13 := by
  unfold iblk0
  exact blk0_13_read c (V c main_arg13) t

/-- Window 14's block is its whole array. -/
theorem iblk0_14_whole (c : Dev nD) (t : Fin cfg0.N) : (iblk0 V c 14 t : Vec Ideal S256 .f32) = V c main_arg14 := by
  unfold iblk0
  exact blk0_14_read c (V c main_arg14) t

/-! ## The accumulators along the grid -/

/-- The first accumulator after grid position n (the zero block past the grid). -/
def accS (c : Dev nD) (n : ℕ) : Vec Ideal S8x256 .f32 :=
  if hn : n < cfg0.N then (outsAt0 V c n hn).2.1 else k0_pay1 (F := Ideal)
/-- The second accumulator after grid position n. -/
def accQ (c : Dev nD) (n : ℕ) : Vec Ideal S8x256 .f32 :=
  if hn : n < cfg0.N then (outsAt0 V c n hn).2.2 else k0_pay2 (F := Ideal)
/-- The image block at grid position n. -/
def blkX (c : Dev nD) (n : ℕ) : Vec Ideal S8x256x16x128 .f32 :=
  if hn : n < cfg0.N then iblk0 V c 0 ⟨n, hn⟩ else fun _ => zeroW

theorem accS_eq (c : Dev nD) (n : ℕ) (hn : n < cfg0.N) : accS V c n = (outsAt0 V c n hn).2.1 := dif_pos hn
theorem accQ_eq (c : Dev nD) (n : ℕ) (hn : n < cfg0.N) : accQ V c n = (outsAt0 V c n hn).2.2 := dif_pos hn
theorem blkX_eq (c : Dev nD) (n : ℕ) (hn : n < cfg0.N) : blkX V c n = iblk0 V c 0 ⟨n, hn⟩ := dif_pos hn

theorem blkX_at (c : Dev nD) (n : ℕ) (hn : n < 16) (b' : Fin 8) (ch : Fin 256) (h : Fin 16) (w : Fin 128) :
    blkX V c n (ix4 b' ch h w)
      = (V c main_arg0 : I4 → EReal) (ix4 ⟨8 * (n / 8) + b'.val, by omega⟩ ch ⟨16 * (n % 8) + h.val, by omega⟩ w) := by
  have hN : n < cfg0.N := lt_of_lt_of_eq hn N_0.symm
  rw [blkX_eq V c n hN]
  exact iblk0_0_at V c ⟨n, hN⟩ b' ch h w

/-- At a first slab the first accumulator is the zero block plus the block's sums. -/
theorem accS_first (c : Dev nD) (n : ℕ) (hn : n < 16) (h0 : n % 8 = 0) : accS V c n = k0_pay3 (blkX V c n) (k0_pay1 (F := Ideal)) := by
  have hN : n < cfg0.N := lt_of_lt_of_eq hn N_0.symm
  have h1 : ¬n % 8 = 7 := by omega
  rw [accS_eq V c n hN, blkX_eq V c n hN]
  exact (congrArg (fun p => p.2.1) (outsAt0_A V c ⟨n, hN⟩ h0 h1)).trans (resA_acc0 V c ⟨n, hN⟩ h0 h1)

/-- Elsewhere it is what the position before left plus the block's sums. -/
theorem accS_next (c : Dev nD) (n : ℕ) (hn : n < 16) (h0 : ¬n % 8 = 0) : accS V c n = k0_pay3 (blkX V c n) (accS V c (n - 1)) := by
  have hN : n < cfg0.N := lt_of_lt_of_eq hn N_0.symm
  have hN' : n - 1 < cfg0.N := lt_of_le_of_lt (Nat.sub_le _ _) hN
  rw [accS_eq V c n hN, blkX_eq V c n hN, accS_eq V c (n - 1) hN']
  by_cases h1 : n % 8 = 7
  · exact (congrArg (fun p => p.2.1) (outsAt0_C V c ⟨n, hN⟩ h0 h1)).trans (resC_s V c ⟨n, hN⟩ h0 h1 _ _)
  · exact (congrArg (fun p => p.2.1) (outsAt0_B V c ⟨n, hN⟩ h0 h1)).trans (resB_acc0 V c ⟨n, hN⟩ h0 h1 _ _)

theorem accQ_first (c : Dev nD) (n : ℕ) (hn : n < 16) (h0 : n % 8 = 0) : accQ V c n = k0_pay4 (blkX V c n) (k0_pay2 (F := Ideal)) := by
  have hN : n < cfg0.N := lt_of_lt_of_eq hn N_0.symm
  have h1 : ¬n % 8 = 7 := by omega
  rw [accQ_eq V c n hN, blkX_eq V c n hN]
  exact (congrArg (fun p => p.2.2) (outsAt0_A V c ⟨n, hN⟩ h0 h1)).trans (resA_acc1 V c ⟨n, hN⟩ h0 h1)

theorem accQ_next (c : Dev nD) (n : ℕ) (hn : n < 16) (h0 : ¬n % 8 = 0) : accQ V c n = k0_pay4 (blkX V c n) (accQ V c (n - 1)) := by
  have hN : n < cfg0.N := lt_of_lt_of_eq hn N_0.symm
  have hN' : n - 1 < cfg0.N := lt_of_le_of_lt (Nat.sub_le _ _) hN
  rw [accQ_eq V c n hN, blkX_eq V c n hN, accQ_eq V c (n - 1) hN']
  by_cases h1 : n % 8 = 7
  · exact (congrArg (fun p => p.2.2) (outsAt0_C V c ⟨n, hN⟩ h0 h1)).trans (resC_q V c ⟨n, hN⟩ h0 h1 _ _)
  · exact (congrArg (fun p => p.2.2) (outsAt0_B V c ⟨n, hN⟩ h0 h1)).trans (resB_acc1 V c ⟨n, hN⟩ h0 h1 _ _)

/-- At a last slab the first accumulator holds the spatial sums of its batch block's rows, -/
theorem accS_last (c : Dev nD) (t : Fin cfg0.N) (h7 : t.val % 8 = 7) (b' : Fin 8) (ch : Fin 256) :
    (outsAt0 V c t.val t.isLt).2.1 (ix2 b' ch)
      = sumHW (V c main_arg0) ⟨8 * (t.val / 8) + b'.val, by have := t.isLt; have : cfg0.N = 16 := N_0; omega⟩ ch := by
  have hn : t.val < 16 := lt_of_lt_of_eq t.isLt N_0
  rw [← accS_eq V c t.val t.isLt]
  exact acc_sum_last (V c main_arg0) (accS V c) (blkX V c) (blkX_at V c) (accS_first V c) (accS_next V c) t.val hn h7 b' ch

/-- and the second the spatial sums of squares. -/
theorem accQ_last (c : Dev nD) (t : Fin cfg0.N) (h7 : t.val % 8 = 7) (b' : Fin 8) (ch : Fin 256) :
    (outsAt0 V c t.val t.isLt).2.2 (ix2 b' ch)
      = sumSqHW (V c main_arg0) ⟨8 * (t.val / 8) + b'.val, by have := t.isLt; have : cfg0.N = 16 := N_0; omega⟩ ch := by
  have hn : t.val < 16 := lt_of_lt_of_eq t.isLt N_0
  rw [← accQ_eq V c t.val t.isLt]
  exact acc_sumSq_last (V c main_arg0) (accQ V c) (blkX V c) (blkX_at V c) (accQ_first V c) (accQ_next V c) t.val hn h7 b' ch

/-! ## The output block at a writing point -/

/-- The weight arrays as the region finds them. -/
def kerV (c : Dev nD) : Weights :=
  ⟨V c main_arg1, V c main_arg2, V c main_arg3, V c main_arg4, V c main_arg5, V c main_arg6, V c main_arg7, V c main_arg8, V c main_arg9, V c main_arg10, V c main_arg11, V c main_arg12, V c main_arg13, V c main_arg14⟩

/-- At a last slab the body leaves in the output block the gate of the batch block's eight rows. -/
theorem after15_gate (c : Dev nD) (t : Fin cfg0.N) (h7 : t.val % 8 = 7) (b' : Fin 8) (ch : Fin 256) :
    (dat0 V c).after 15 t (ix2 b' ch)
      = gate' (V c main_arg0) (kerV V c) ⟨8 * (t.val / 8) + b'.val, by have := t.isLt; have : cfg0.N = 16 := N_0; omega⟩ ch := by
  have h0 : ¬t.val % 8 = 0 := by omega
  have hC := outsAt0_C V c t h0 h7
  rw [after0_15]
  refine (congrFun ((congrArg (fun p => p.1) hC).trans (resC_out V c t h0 h7 _ _)) (ix2 b' ch)).trans ?_
  rw [iblk0_1_whole V c t, iblk0_2_whole V c t, iblk0_3_whole V c t, iblk0_4_whole V c t, iblk0_5_whole V c t, iblk0_6_whole V c t, iblk0_7_whole V c t, iblk0_8_whole V c t, iblk0_9_whole V c t, iblk0_10_whole V c t, iblk0_11_whole V c t, iblk0_12_whole V c t, iblk0_13_whole V c t, iblk0_14_whole V c t]
  refine gate_block_apply (V c main_arg0) (V c main_arg1) (V c main_arg2) (V c main_arg3) (V c main_arg4) (V c main_arg5) (V c main_arg6) (V c main_arg7) (V c main_arg8) (V c main_arg9) (V c main_arg10) (V c main_arg11) (V c main_arg12) (V c main_arg13) (V c main_arg14) _ _ b' _ ch (fun k => ?_) (fun k => ?_)
  · exact (congrFun ((congrArg (fun p => p.2.1) hC).trans (resC_s V c t h0 h7 _ _)).symm (ix2 b' k)).trans (accS_last V c t h7 b' k)
  · exact (congrFun ((congrArg (fun p => p.2.2) hC).trans (resC_q V c t h0 h7 _ _)).symm (ix2 b' k)).trans (accQ_last V c t h7 b' k)

end region

/-! ## The gate array after region 0 -/

variable (m : (ℓ : Loc nD τ sig) → Buf (Elt Ideal) ℓ) (ρ : Dev nD → PrngReg)

/-- The fourteen weight arrays at launch. -/
def kerW (c : Dev nD) : Cert.GateSpec.Weights :=
  ⟨m ((c : Thread nD τ).loc main_arg1), m ((c : Thread nD τ).loc main_arg2), m ((c : Thread nD τ).loc main_arg3), m ((c : Thread nD τ).loc main_arg4), m ((c : Thread nD τ).loc main_arg5), m ((c : Thread nD τ).loc main_arg6), m ((c : Thread nD τ).loc main_arg7), m ((c : Thread nD τ).loc main_arg8), m ((c : Thread nD τ).loc main_arg9), m ((c : Thread nD τ).loc main_arg10), m ((c : Thread nD τ).loc main_arg11), m ((c : Thread nD τ).loc main_arg12), m ((c : Thread nD τ).loc main_arg13), m ((c : Thread nD τ).loc main_arg14)⟩

/-- THE GATE ARRAY after region 0 is the specification's gate (one-pass variance, split bottleneck) of the image and
    weight arrays at launch: the two writing points cover it, and each leaves its batch block's rows of the gate. -/
theorem W1_main_v0_apply (c : Dev nD) (b : Fin 16) (ch : Fin 256) :
    W1 m ρ c (Proc.devRef .tc main_v0) (ix2 b ch) = Cert.GateSpec.gate' (m ((c : Thread nD τ).loc main_arg0)) (kerW m c) b ch := by
  refine (congrFun (W1_arr m ρ c 15) (ix2 b ch)).trans ?_
  exact arr0_15_apply (Ve0 m ρ) c (gate' (m ((c : Thread nD τ).loc main_arg0)) (kerW m c))
    (fun t h7 b' ch' => after15_gate (Ve0 m ρ) c t h7 b' ch') b ch

end Cert.KernelIdeal.HandValue

end
-- ==== Proof.Algebra.lean ====
/-
  The algebra between the two arrangements of the gate.

  (1) The bottleneck.  A sum over 512 indices is the sum over the first 256 plus the sum over the next 256; on the first
      half the joined feature is the deviation block's, on the second the mean block's.  This is a regrouping of one
      finite sum in an additive commutative monoid: nothing about finiteness of the entries is used.

  (2) The variance.  Let f(h,w) be the real entries of one channel, n = 16384 = 128 · 128 their number, S = ∑ f,
      Q = ∑ f², μ = S / n.  Then  ∑ (f − μ)² = Q − 2 μ S + n μ² = Q − n μ²  (because S = n μ), so
      (∑ (f − μ)²) / n = Q / n − μ².  The left side is a sum of squares over a positive n, hence ≥ 0, and the clamp
      max (·, 0) of the one-pass arrangement is the identity.  Over the extended reals the same holds for real entries:
      the word 0x46800000 denotes the real 16384, division by a nonzero real is multiplication by its reciprocal, and
      the inclusion of the reals commutes with finite sums, products, differences and maxima.

  (3) The two gates are then the same function of (bottleneck, μ, σ), and so are the two results.
-/
import proofs.«165288_j12446815224180_2_alg».proof.Proof.Spec
import Idealize.ShloMosaic.PureOps.Ideal
import Idealize.ShloMosaic.PureOps.Ideal.Laws
import Mathlib.Algebra.BigOperators.Fin
import Mathlib.Data.EReal.Operations

noncomputable section

open scoped BigOperators

namespace Cert.GateSpec

open Idealize.ShloMosaic Idealize.ShloMosaic.ValueIdx

/-! ### The bottleneck: one 512-term sum is two 256-term sums -/

/-- A sum over 512 indices, split at 256. -/
theorem sum_split_512 (f : Fin 512 → EReal) :
    ∑ d : Fin 512, f d
      = (∑ d : Fin 256, f ⟨d.val, by omega⟩) + ∑ d : Fin 256, f ⟨256 + d.val, by omega⟩ := by
  have h := Fin.sum_univ_add (a := 256) (b := 256) (f := (f : Fin (256 + 256) → EReal))
  exact h

theorem joined_left (rs rm : Fin 16 → Fin 256 → EReal) (b : Fin 16) (d : Fin 256) :
    joined rs rm b ⟨d.val, by omega⟩ = rs b d := by
  unfold joined
  rw [dif_pos (show (⟨d.val, by omega⟩ : Fin 512).val < 256 from d.isLt)]

theorem joined_right (rs rm : Fin 16 → Fin 256 → EReal) (b : Fin 16) (d : Fin 256) :
    joined rs rm b ⟨256 + d.val, by omega⟩ = rm b d := by
  unfold joined
  rw [dif_neg (show ¬ (⟨256 + d.val, by omega⟩ : Fin 512).val < 256 from by simp)]
  congr 1
  exact Fin.ext (by simp)

/-- The split bottleneck is the bottleneck. -/
theorem neckSplit_eq_neck (rs rm : Fin 16 → Fin 256 → EReal) (bw : IBW → EReal) (bb : IC → EReal) (b : Fin 16)
    (c : Fin 256) : neckSplit rs rm bw bb b c = neck rs rm bw bb b c := by
  unfold neckSplit neck
  rw [sum_split_512 (fun d => joined rs rm b d * bw (ix2 c d))]
  simp only [joined_left, joined_right]

/-! ### The variance over the reals -/

/-- The inclusion of the reals in the extended reals commutes with finite sums. -/
theorem coe_sum {ι : Type} (s : Finset ι) (f : ι → ℝ) :
    ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-- Over the reals: the mean of the squared deviations is the mean of the squares minus the squared mean, for
    128 × 128 = 16384 entries. -/
theorem var_real (f : Fin 128 → Fin 128 → ℝ) (μ : ℝ) (hμ : μ = (∑ h, ∑ w, f h w) * (1 / 16384)) :
    (∑ h, ∑ w, (f h w - μ) * (f h w - μ)) * (1 / 16384) = (∑ h, ∑ w, f h w * f h w) * (1 / 16384) - μ * μ := by
  have hS : (∑ h, ∑ w, f h w) = 16384 * μ := by rw [hμ]; ring
  have e : ∀ h w, (f h w - μ) * (f h w - μ) = f h w * f h w - 2 * μ * f h w + μ * μ := fun h w => by ring
  have hexp : (∑ h, ∑ w, (f h w - μ) * (f h w - μ))
      = (∑ h, ∑ w, f h w * f h w) - 2 * μ * (∑ h, ∑ w, f h w) + 16384 * (μ * μ) := by
    simp only [e, Finset.sum_add_distrib, Finset.sum_sub_distrib, ← Finset.mul_sum, Finset.sum_const,
      Finset.card_univ, Fintype.card_fin, nsmul_eq_mul]
    norm_num
    ring
  rw [hexp, hS]
  ring

/-- The mean of the squared deviations is not negative. -/
theorem var_real_nonneg (f : Fin 128 → Fin 128 → ℝ) (μ : ℝ) :
    0 ≤ (∑ h, ∑ w, (f h w - μ) * (f h w - μ)) * (1 / 16384) := by
  refine mul_nonneg ?_ (by norm_num)
  exact Finset.sum_nonneg fun h _ => Finset.sum_nonneg fun w _ => mul_self_nonneg _

/-! ### The variance over the extended reals -/

/-- The word 0x46800000 denotes the real 16384. -/
theorem nHW_eq : nHW = ((16384 : ℝ) : EReal) := by
  unfold nHW
  simp [Ideal.ofBits, Ideal.ieee, -EReal.coe_mul]; norm_num

/-- The word of zero denotes the real 0. -/
theorem zeroW_eq : zeroW = ((0 : ℝ) : EReal) := by
  unfold zeroW
  rw [Ideal.ofBits_zero_f32]; rfl

/-- Division by the number of positions is multiplication by the real 1/16384. -/
theorem div_nHW (y : EReal) : Ideal.div y nHW = y * ((1 / 16384 : ℝ) : EReal) := by
  rw [nHW_eq]
  exact Ideal.div_coe (by norm_num) y

/-- On real entries the one-pass variance is the two-pass variance. -/
theorem var1_eq_var2 (x : I4 → EReal) (hx : ∀ i, ∃ r : ℝ, x i = (r : EReal)) (b : Fin 16) (c : Fin 256) :
    var1 x b c = var2 x b c := by
  choose r hr using hx
  -- the real entries of this channel, and its real mean
  let f : Fin 128 → Fin 128 → ℝ := fun h w => r (ix4 b c h w)
  have hf : ∀ h w, x (ix4 b c h w) = ((f h w : ℝ) : EReal) := fun h w => hr _
  obtain ⟨μ, hμ⟩ : ∃ μ : ℝ, μ = (∑ h, ∑ w, f h w) * (1 / 16384) := ⟨_, rfl⟩
  have hmean : mean x b c = ((μ : ℝ) : EReal) := by
    unfold mean sumHW
    rw [div_nHW, hμ]
    simp only [hf]
    simp only [← coe_sum, ← EReal.coe_mul]
  have hsq : Ideal.div (sumSqHW x b c) nHW = (((∑ h, ∑ w, f h w * f h w) * (1 / 16384) : ℝ) : EReal) := by
    unfold sumSqHW
    rw [div_nHW]
    simp only [hf]
    simp only [← EReal.coe_mul, ← coe_sum]
  have hv2 : var2 x b c = (((∑ h, ∑ w, (f h w - μ) * (f h w - μ)) * (1 / 16384) : ℝ) : EReal) := by
    unfold var2
    rw [div_nHW, hmean]
    simp only [hf]
    simp only [← EReal.coe_sub, ← EReal.coe_mul, ← coe_sum]
  have hv1 : var1 x b c = ((max ((∑ h, ∑ w, f h w * f h w) * (1 / 16384) - μ * μ) 0 : ℝ) : EReal) := by
    unfold var1
    rw [hsq, hmean, zeroW_eq, ← EReal.coe_mul, ← EReal.coe_sub]
    exact (EReal.coe_strictMono.monotone.map_max).symm
  rw [hv1, hv2, ← var_real f μ hμ, max_eq_left (var_real_nonneg f μ)]

/-! ### The two gates and the two results -/

/-- On real entries the kernel's gate is the reference's gate. -/
theorem gate'_eq_gate (x : I4 → EReal) (W : Weights) (hx : ∀ i, ∃ r : ℝ, x i = (r : EReal)) :
    gate' x W = gate x W := by
  have hσ : (fun b c => Ideal.sqrt (var1 x b c)) = (fun b c => Ideal.sqrt (var2 x b c)) :=
    funext fun b => funext fun c => congrArg Ideal.sqrt (var1_eq_var2 x hx b c)
  have hnk : neckSplit = neck :=
    funext fun rs => funext fun rm => funext fun bw => funext fun bb => funext fun b => funext fun c =>
      neckSplit_eq_neck rs rm bw bb b c
  unfold gate' gate
  rw [hσ, hnk]

/-- On real entries the two arrangements give the same result. -/
theorem G'_eq_G (x : I4 → EReal) (W : Weights) (hx : ∀ i, ∃ r : ℝ, x i = (r : EReal)) : G' x W = G x W := by
  unfold G' G
  rw [gate'_eq_gate x W hx]

end Cert.GateSpec

end
-- ==== Proof.KernelValue.lean ====
/-
  The idealized kernel's run with its result named: the result array is the gated tensor in the kernel's arrangement
  (one-pass variance, split bottleneck), which on real entries of x is the reference's arrangement.
-/
import proofs.«165288_j12446815224180_2_alg».proof.Proof.Run
import proofs.«165288_j12446815224180_2_alg».proof.Proof.ValueScale
import proofs.«165288_j12446815224180_2_alg».proof.Proof.ValueGate
import proofs.«165288_j12446815224180_2_alg».proof.Proof.Algebra

noncomputable section

namespace Cert.KernelIdeal.HandValue

open Idealize.ShloMosaic Idealize.ShloMosaic.TcCoe Idealize.SL.Sem
open Idealize.ShloMosaic.ValueIdx
open Cert.KernelIdeal Cert.KernelIdeal.Gen Cert.KernelIdeal.Hand Cert.GateSpec

variable (m : (ℓ : Loc nD τ sig) → Buf (Elt Ideal) ℓ) (ρ : Dev nD → PrngReg)

/-- The last fold at the result array, index by index: x times the gate of its batch and channel. -/
theorem result_eq_G' (c : Dev nD) :
    (W4 m ρ c (Proc.devRef .tc main_v4) : I4 → EReal) = G' (m ((c : Thread nD τ).loc main_arg0)) (kerW m c) := by
  funext i
  obtain ⟨b, ch, h, w, rfl⟩ : ∃ (b : Fin 16) (ch : Fin 256) (h w : Fin 128), i = ix4 b ch h w := ⟨i 0, i 1, i 2, i 3, eq_ix4 i⟩
  refine (result_apply m ρ c b ch h w).trans ?_
  show xArg m c (ix4 b ch h w) * gateArr m ρ c (ix2 b ch) = _
  rw [show gateArr m ρ c (ix2 b ch) = gate' (m ((c : Thread nD τ).loc main_arg0)) (kerW m c) b ch from W1_main_v0_apply m ρ c b ch]
  rfl

/-- With real entries of x, the reference's arrangement. -/
theorem result_eq_G (c : Dev nD) (hx : ∀ i, ∃ r : ℝ, m ((c : Thread nD τ).loc main_arg0) i = (r : EReal)) :
    (W4 m ρ c (Proc.devRef .tc main_v4) : I4 → EReal) = G (m ((c : Thread nD τ).loc main_arg0)) (kerW m c) :=
  (result_eq_G' m ρ c).trans (G'_eq_G _ _ hx)

/-- The run, its result named and the arguments unchanged. -/
theorem kernel_run (hx : ∀ (c : Dev nD) i, ∃ r : ℝ, m ((c : Thread nD τ).loc main_arg0) i = (r : EReal)) :
    θ_run (defs (F := Ideal)) (onTc (τ := τ) (main (F := Ideal))) ⟨m, fun _ => 0, ρ⟩ (fun r => ∀ c : Dev nD,
      r.2.mem ((c.tc : Thread nD τ).loc main_v4) = G (m ((c.tc : Thread nD τ).loc main_arg0)) (kerW m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c =>
    ⟨(h c _ (mem_uc main_v4 (by decide))).trans (result_eq_G m ρ c (hx c)),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c),
     (h c _ (mem_uc main_arg8 (by decide))).trans (W4_main_arg8 m ρ c),
     (h c _ (mem_uc main_arg9 (by decide))).trans (W4_main_arg9 m ρ c),
     (h c _ (mem_uc main_arg10 (by decide))).trans (W4_main_arg10 m ρ c),
     (h c _ (mem_uc main_arg11 (by decide))).trans (W4_main_arg11 m ρ c),
     (h c _ (mem_uc main_arg12 (by decide))).trans (W4_main_arg12 m ρ c),
     (h c _ (mem_uc main_arg13 (by decide))).trans (W4_main_arg13 m ρ c),
     (h c _ (mem_uc main_arg14 (by decide))).trans (W4_main_arg14 m ρ c)⟩) (run_all m ρ)

end Cert.KernelIdeal.HandValue

end
-- ==== Proof.RefValue1.lean ====
/-
  Host operations of the reference read at an index, on the extended reals:
  the sum over the two spatial axes of a rank-4 array, the join of two [16,256] matrices along the
  column axis, and the float word of one.
-/
import Idealize.ShloMosaic.Lib.Pipeline.Value
import Idealize.ShloMosaic.Lib.ValueIdx
import Idealize.ShloMosaic.PureOps.Ideal.Laws
import proofs.«165288_j12446815224180_2_alg».proof.Proof.Spec

noncomputable section

namespace Cert.RefGate

open Idealize.ShloMosaic Idealize.ShloMosaic.ValueIdx

/-- The float word 0x3F800000 denotes the real number one. -/
theorem one_word : Ideal.ofBits .f32 0x3F800000#32 = 1 := by
  simp [Ideal.ofBits, Ideal.ieee, -EReal.coe_mul]
  norm_num

/-- The host's sum over the last two axes of a rank-4 array, from an initial value, read at (b, c):
    the indices that drop to (b, c) are exactly (b, c, p, q) for p, q ranging over the two summed axes. -/
theorem hostReduceAdd_hw {n0 n1 n2 n3 : ℕ}
    (h' : (⟨4, ![n0, n1, n2, n3]⟩ : Shape).ReducesTo [2, 3] ⟨2, ![n0, n1]⟩)
    (x : (⟨4, ![n0, n1, n2, n3]⟩ : Shape).Idx → EReal) (init : EReal) (b : Fin n0) (c : Fin n1) :
    Ideal.hostReduceAdd h' x init (ix2 b c) = init + ∑ p : Fin n2, ∑ q : Fin n3, x (ix4 b c p q) := by
  unfold Ideal.hostReduceAdd
  refine congrArg (init + ·) ?_
  refine Eq.trans ?_ (Fintype.sum_prod_type' (fun (p : Fin n2) (q : Fin n3) => x (ix4 b c p q)))
  refine Finset.sum_nbij' (fun i => ((i 2, i 3) : Fin n2 × Fin n3)) (fun z => ix4 b c z.1 z.2) ?_ ?_ ?_ ?_ ?_
  · intro i _; exact Finset.mem_univ _
  · intro z _
    refine Finset.mem_filter.2 ⟨Finset.mem_univ _, ?_⟩
    funext a; apply Fin.ext
    match a with
    | ⟨0, _⟩ => rfl
    | ⟨1, _⟩ => rfl
  · intro i hi
    have hj := (Finset.mem_filter.1 hi).2
    have h0 : (i 0).val = b.val := congrArg Fin.val (congrFun hj (⟨0, by decide⟩ : Fin 2))
    have h1 : (i 1).val = c.val := congrArg Fin.val (congrFun hj (⟨1, by decide⟩ : Fin 2))
    funext a; apply Fin.ext
    match a with
    | ⟨0, _⟩ => exact h0.symm
    | ⟨1, _⟩ => exact h1.symm
    | ⟨2, _⟩ => rfl
    | ⟨3, _⟩ => rfl
  · intro z _; rfl
  · intro i hi
    have hj := (Finset.mem_filter.1 hi).2
    have h0 : (i 0).val = b.val := congrArg Fin.val (congrFun hj (⟨0, by decide⟩ : Fin 2))
    have h1 : (i 1).val = c.val := congrArg Fin.val (congrFun hj (⟨1, by decide⟩ : Fin 2))
    refine congrArg x ?_
    funext a; apply Fin.ext
    match a with
    | ⟨0, _⟩ => exact h0
    | ⟨1, _⟩ => exact h1
    | ⟨2, _⟩ => rfl
    | ⟨3, _⟩ => rfl

/-- Two [16,256] matrices joined along the column axis, read at (b, d): the first matrix at column d when
    d < 256, the second at column d − 256 otherwise. -/
theorem concat_cols_apply
    (hc : Shape.Concatenates [(⟨2, ![16, 256]⟩ : Shape), (⟨2, ![16, 256]⟩ : Shape)] ⟨2, ![16, 512]⟩ 1)
    (u v : Cert.GateSpec.IHC → EReal) (b : Fin 16) (d : Fin 512) :
    concatenate (⟨2, ![16, 512]⟩ : Shape) 1 [⟨(⟨2, ![16, 256]⟩ : Shape), u⟩, ⟨(⟨2, ![16, 256]⟩ : Shape), v⟩] hc (ix2 b d)
      = Cert.GateSpec.joined (fun b k => u (ix2 b k)) (fun b k => v (ix2 b k)) b d := by
  unfold Cert.GateSpec.joined
  split
  · next h =>
    exact concatenate_pair_apply_left 1 u v hc _ rfl (ix2 b ⟨d.val, h⟩) (fun a => by
      match a with
      | ⟨0, _⟩ => rfl
      | ⟨1, _⟩ => rfl)
  · next h =>
    exact concatenate_pair_apply_right 1 u v hc _ rfl rfl (ix2 b ⟨d.val - 256, by omega⟩)
      (fun a ha => by
        match a with
        | ⟨0, _⟩ => rfl
        | ⟨1, _⟩ => exact absurd rfl ha)
      (by show d.val - 256 + 256 = d.val; omega)

end Cert.RefGate

end
-- ==== Proof.RefValue2.lean ====
/-
  The reference's two channel descriptors and the two squeeze-excite blocks applied to them, read at an index.
  S(b,c) is the host's sum over the two spatial axes; the mean divides it by the word of 16384; the deviation is the
  square root of the mean of (x − μ)·(x − μ).  Each block is two contractions with a relu between them.
-/
import proofs.«165288_j12446815224180_2_alg».proof.Proof.Gen.ReferenceIdeal.Read
import proofs.«165288_j12446815224180_2_alg».proof.Proof.Spec
import proofs.«165288_j12446815224180_2_alg».proof.Proof.RefValue1

noncomputable section

namespace Cert.RefGate

open Cert.ReferenceIdeal Cert.ReferenceIdeal.Read Cert.GateSpec Idealize.ShloMosaic Idealize.ShloMosaic.ValueIdx

/-- The reference's first sum is S(b,c) (its initial value is the zero word). -/
theorem v0_eq (x0 : I4 → EReal) (b : Fin 16) (c : Fin 256) :
    val_main_v0 (F := Ideal) x0 (ix2 b c) = sumHW x0 b c := by
  unfold val_main_v0 Host.reduceAdd
  rw [Ideal.hostReduceAdd_def, hostReduceAdd_hw, val_main_cst_apply, Ideal.ofBits_def, Ideal.ofBits_zero_f32, zero_add]
  rfl

/-- The mean descriptor. -/
theorem v2_eq (x0 : I4 → EReal) (b : Fin 16) (c : Fin 256) :
    val_main_v2 (F := Ideal) x0 (ix2 b c) = mean x0 b c := by
  rw [val_main_v2_apply, v0_eq, val_main_v1_apply, val_main_cst_0_apply, Ideal.hostDivf_def, Ideal.ofBits_def]
  rfl

/-- The mean repeated over the spatial positions. -/
theorem v4_eq (x0 : I4 → EReal) (b : Fin 16) (c : Fin 256) (h w : Fin 128) :
    val_main_v4 (F := Ideal) x0 (ix4 b c h w) = mean x0 b c := by
  rw [val_main_v4_apply, val_main_v3_apply]
  have e : idx_main_v3 (idx_main_v4 (ix4 b c h w)) = ix2 b c := funext fun a => by match a with | ⟨0, _⟩ => rfl | ⟨1, _⟩ => rfl
  rw [e, v2_eq]

/-- The squared deviation at one position. -/
theorem v6_eq (x0 : I4 → EReal) (b : Fin 16) (c : Fin 256) (h w : Fin 128) :
    val_main_v6 (F := Ideal) x0 (ix4 b c h w)
      = (x0 (ix4 b c h w) - mean x0 b c) * (x0 (ix4 b c h w) - mean x0 b c) := by
  rw [val_main_v6_apply, val_main_v5_apply, v4_eq, Ideal.mulf_def, Ideal.subf_def]

/-- The deviation descriptor: the square root of the two-pass variance. -/
theorem v10_eq (x0 : I4 → EReal) (b : Fin 16) (c : Fin 256) :
    val_main_v10 (F := Ideal) x0 (ix2 b c) = Ideal.sqrt (var2 x0 b c) := by
  rw [val_main_v10_apply, val_main_v9_apply, val_main_v8_apply, val_main_cst_2_apply, Ideal.hostUnary_sqrt_def,
    Ideal.hostDivf_def, Ideal.ofBits_def]
  have e7 : val_main_v7 (F := Ideal) x0 (ix2 b c)
      = ∑ h : Fin 128, ∑ w : Fin 128, (x0 (ix4 b c h w) - mean x0 b c) * (x0 (ix4 b c h w) - mean x0 b c) := by
    unfold val_main_v7 Host.reduceAdd
    rw [Ideal.hostReduceAdd_def, hostReduceAdd_hw, val_main_cst_1_apply, Ideal.ofBits_def, Ideal.ofBits_zero_f32, zero_add]
    simp only [v6_eq]
  rw [e7]
  rfl

/-- The hidden layer of the block: relu of the 256-term contraction of the descriptor with the first matrix, plus bias. -/
theorem v15_eq (x0 : I4 → EReal) (x1 : IHC → EReal) (x2 : IH → EReal) (b h : Fin 16) :
    val_main_v15 (F := Ideal) x0 x1 x2 (ix2 b h)
      = max ((∑ k : Fin 256, Ideal.sqrt (var2 x0 b k) * x1 (ix2 h k)) + x2 (ix1 h)) zeroW := by
  rw [val_main_v15_apply, val_main_v14_apply, val_main_v11_apply, val_main_v13_apply, val_main_v12_apply,
    val_main_call0_v0_apply, val_main_call0_cst_apply]
  have e1 : ∀ k : Fin 256, lidx_main_v11 (ix2 b h) k = ix2 b k := fun k => funext fun a => by match a with | ⟨0, _⟩ => rfl | ⟨1, _⟩ => rfl
  have e2 : ∀ k : Fin 256, ridx_main_v11 (ix2 b h) k = ix2 h k := fun k => funext fun a => by match a with | ⟨0, _⟩ => rfl | ⟨1, _⟩ => rfl
  have e3 : idx_main_v12 (idx_main_v13 (ix2 b h)) = ix1 h := funext fun a => by match a with | ⟨0, _⟩ => rfl
  simp only [e1, e2, e3, v10_eq, Ideal.maximumf_def, Ideal.addf_def, Ideal.ofBits_def]
  rfl

/-- The block's output: the 16-term contraction of the hidden layer with the second matrix, plus bias. -/
theorem v19_eq (x0 : I4 → EReal) (x1 : IHC → EReal) (x2 : IH → EReal) (x3 : ICH → EReal) (x4 : IC → EReal) (b : Fin 16) (c : Fin 256) :
    val_main_v19 (F := Ideal) x0 x1 x2 x3 x4 (ix2 b c) = se (fun b k => Ideal.sqrt (var2 x0 b k)) x1 x2 x3 x4 b c := by
  rw [val_main_v19_apply, val_main_v16_apply, val_main_v18_apply, val_main_v17_apply]
  have e1 : ∀ k : Fin 16, lidx_main_v16 (ix2 b c) k = ix2 b k := fun k => funext fun a => by match a with | ⟨0, _⟩ => rfl | ⟨1, _⟩ => rfl
  have e2 : ∀ k : Fin 16, ridx_main_v16 (ix2 b c) k = ix2 c k := fun k => funext fun a => by match a with | ⟨0, _⟩ => rfl | ⟨1, _⟩ => rfl
  have e3 : idx_main_v17 (idx_main_v18 (ix2 b c)) = ix1 c := funext fun a => by match a with | ⟨0, _⟩ => rfl
  simp only [e1, e2, e3, v15_eq, Ideal.addf_def]
  rfl

/-- The hidden layer of the block: relu of the 256-term contraction of the descriptor with the first matrix, plus bias. -/
theorem v24_eq (x0 : I4 → EReal) (x5 : IHC → EReal) (x6 : IH → EReal) (b h : Fin 16) :
    val_main_v24 (F := Ideal) x0 x5 x6 (ix2 b h)
      = max ((∑ k : Fin 256, mean x0 b k * x5 (ix2 h k)) + x6 (ix1 h)) zeroW := by
  rw [val_main_v24_apply, val_main_v23_apply, val_main_v20_apply, val_main_v22_apply, val_main_v21_apply,
    val_main_call1_v0_apply, val_main_call1_cst_apply]
  have e1 : ∀ k : Fin 256, lidx_main_v20 (ix2 b h) k = ix2 b k := fun k => funext fun a => by match a with | ⟨0, _⟩ => rfl | ⟨1, _⟩ => rfl
  have e2 : ∀ k : Fin 256, ridx_main_v20 (ix2 b h) k = ix2 h k := fun k => funext fun a => by match a with | ⟨0, _⟩ => rfl | ⟨1, _⟩ => rfl
  have e3 : idx_main_v21 (idx_main_v22 (ix2 b h)) = ix1 h := funext fun a => by match a with | ⟨0, _⟩ => rfl
  simp only [e1, e2, e3, v2_eq, Ideal.maximumf_def, Ideal.addf_def, Ideal.ofBits_def]
  rfl

/-- The block's output: the 16-term contraction of the hidden layer with the second matrix, plus bias. -/
theorem v28_eq (x0 : I4 → EReal) (x5 : IHC → EReal) (x6 : IH → EReal) (x7 : ICH → EReal) (x8 : IC → EReal) (b : Fin 16) (c : Fin 256) :
    val_main_v28 (F := Ideal) x0 x5 x6 x7 x8 (ix2 b c) = se (mean x0) x5 x6 x7 x8 b c := by
  rw [val_main_v28_apply, val_main_v25_apply, val_main_v27_apply, val_main_v26_apply]
  have e1 : ∀ k : Fin 16, lidx_main_v25 (ix2 b c) k = ix2 b k := fun k => funext fun a => by match a with | ⟨0, _⟩ => rfl | ⟨1, _⟩ => rfl
  have e2 : ∀ k : Fin 16, ridx_main_v25 (ix2 b c) k = ix2 c k := fun k => funext fun a => by match a with | ⟨0, _⟩ => rfl | ⟨1, _⟩ => rfl
  have e3 : idx_main_v26 (idx_main_v27 (ix2 b c)) = ix1 c := funext fun a => by match a with | ⟨0, _⟩ => rfl
  simp only [e1, e2, e3, v24_eq, Ideal.addf_def]
  rfl

end Cert.RefGate

end
-- ==== Proof.RefValue3.lean ====
/-
  The reference's bottleneck, last squeeze-excite block, gate and result, read at an index.
  The two block outputs are joined along the column axis into 512 features; the bottleneck is one 512-term
  contraction with bias and relu; the gate is 1 / (1 + exp (−z)) of the last block's output z, which is the logistic
  function by its definition; the result multiplies every spatial position of a channel by the channel's gate.
-/
import proofs.«165288_j12446815224180_2_alg».proof.Proof.Gen.ReferenceIdeal.Read
import proofs.«165288_j12446815224180_2_alg».proof.Proof.Spec
import proofs.«165288_j12446815224180_2_alg».proof.Proof.RefValue1
import proofs.«165288_j12446815224180_2_alg».proof.Proof.RefValue2

noncomputable section

namespace Cert.RefGate

open Cert.ReferenceIdeal Cert.ReferenceIdeal.Read Cert.GateSpec Idealize.ShloMosaic Idealize.ShloMosaic.ValueIdx

/-- The 512 joined features. -/
theorem v29_eq (x0 : I4 → EReal) (x1 : IHC → EReal) (x2 : IH → EReal) (x3 : ICH → EReal) (x4 : IC → EReal) (x5 : IHC → EReal) (x6 : IH → EReal) (x7 : ICH → EReal) (x8 : IC → EReal) (b : Fin 16) (d : Fin 512) :
    val_main_v29 (F := Ideal) x0 x1 x2 x3 x4 x5 x6 x7 x8 (ix2 b d) = joined (se (fun b k => Ideal.sqrt (var2 x0 b k)) x1 x2 x3 x4) (se (mean x0) x5 x6 x7 x8) b d := by
  unfold val_main_v29
  rw [concat_cols_apply]
  simp only [v19_eq, v28_eq]

/-- The bottleneck: relu of the 512-term contraction of the joined features, plus bias. -/
theorem v34_eq (x0 : I4 → EReal) (x1 : IHC → EReal) (x2 : IH → EReal) (x3 : ICH → EReal) (x4 : IC → EReal) (x5 : IHC → EReal) (x6 : IH → EReal) (x7 : ICH → EReal) (x8 : IC → EReal) (x9 : IBW → EReal) (x10 : IC → EReal) (b : Fin 16) (c : Fin 256) :
    val_main_v34 (F := Ideal) x0 x1 x2 x3 x4 x5 x6 x7 x8 x9 x10 (ix2 b c) = neck (se (fun b k => Ideal.sqrt (var2 x0 b k)) x1 x2 x3 x4) (se (mean x0) x5 x6 x7 x8) x9 x10 b c := by
  rw [val_main_v34_apply, val_main_v33_apply, val_main_v30_apply, val_main_v32_apply, val_main_v31_apply,
    val_main_call2_v0_apply, val_main_call2_cst_apply]
  have e1 : ∀ k : Fin 512, lidx_main_v30 (ix2 b c) k = ix2 b k := fun k => funext fun a => by match a with | ⟨0, _⟩ => rfl | ⟨1, _⟩ => rfl
  have e2 : ∀ k : Fin 512, ridx_main_v30 (ix2 b c) k = ix2 c k := fun k => funext fun a => by match a with | ⟨0, _⟩ => rfl | ⟨1, _⟩ => rfl
  have e3 : idx_main_v31 (idx_main_v32 (ix2 b c)) = ix1 c := funext fun a => by match a with | ⟨0, _⟩ => rfl
  simp only [e1, e2, e3, v29_eq, Ideal.maximumf_def, Ideal.addf_def, Ideal.ofBits_def]
  rfl

/-- The hidden layer of the block: relu of the 256-term contraction of the descriptor with the first matrix, plus bias. -/
theorem v39_eq (x0 : I4 → EReal) (x1 : IHC → EReal) (x2 : IH → EReal) (x3 : ICH → EReal) (x4 : IC → EReal) (x5 : IHC → EReal) (x6 : IH → EReal) (x7 : ICH → EReal) (x8 : IC → EReal) (x9 : IBW → EReal) (x10 : IC → EReal) (x11 : IHC → EReal) (x12 : IH → EReal) (b h : Fin 16) :
    val_main_v39 (F := Ideal) x0 x1 x2 x3 x4 x5 x6 x7 x8 x9 x10 x11 x12 (ix2 b h)
      = max ((∑ k : Fin 256, neck (se (fun b k => Ideal.sqrt (var2 x0 b k)) x1 x2 x3 x4) (se (mean x0) x5 x6 x7 x8) x9 x10 b k * x11 (ix2 h k)) + x12 (ix1 h)) zeroW := by
  rw [val_main_v39_apply, val_main_v38_apply, val_main_v35_apply, val_main_v37_apply, val_main_v36_apply,
    val_main_call3_v0_apply, val_main_call3_cst_apply]
  have e1 : ∀ k : Fin 256, lidx_main_v35 (ix2 b h) k = ix2 b k := fun k => funext fun a => by match a with | ⟨0, _⟩ => rfl | ⟨1, _⟩ => rfl
  have e2 : ∀ k : Fin 256, ridx_main_v35 (ix2 b h) k = ix2 h k := fun k => funext fun a => by match a with | ⟨0, _⟩ => rfl | ⟨1, _⟩ => rfl
  have e3 : idx_main_v36 (idx_main_v37 (ix2 b h)) = ix1 h := funext fun a => by match a with | ⟨0, _⟩ => rfl
  simp only [e1, e2, e3, v34_eq, Ideal.maximumf_def, Ideal.addf_def, Ideal.ofBits_def]
  rfl

/-- The block's output: the 16-term contraction of the hidden layer with the second matrix, plus bias. -/
theorem v43_eq (x0 : I4 → EReal) (x1 : IHC → EReal) (x2 : IH → EReal) (x3 : ICH → EReal) (x4 : IC → EReal) (x5 : IHC → EReal) (x6 : IH → EReal) (x7 : ICH → EReal) (x8 : IC → EReal) (x9 : IBW → EReal) (x10 : IC → EReal) (x11 : IHC → EReal) (x12 : IH → EReal) (x13 : ICH → EReal) (x14 : IC → EReal) (b : Fin 16) (c : Fin 256) :
    val_main_v43 (F := Ideal) x0 x1 x2 x3 x4 x5 x6 x7 x8 x9 x10 x11 x12 x13 x14 (ix2 b c) = se (neck (se (fun b k => Ideal.sqrt (var2 x0 b k)) x1 x2 x3 x4) (se (mean x0) x5 x6 x7 x8) x9 x10) x11 x12 x13 x14 b c := by
  rw [val_main_v43_apply, val_main_v40_apply, val_main_v42_apply, val_main_v41_apply]
  have e1 : ∀ k : Fin 16, lidx_main_v40 (ix2 b c) k = ix2 b k := fun k => funext fun a => by match a with | ⟨0, _⟩ => rfl | ⟨1, _⟩ => rfl
  have e2 : ∀ k : Fin 16, ridx_main_v40 (ix2 b c) k = ix2 c k := fun k => funext fun a => by match a with | ⟨0, _⟩ => rfl | ⟨1, _⟩ => rfl
  have e3 : idx_main_v41 (idx_main_v42 (ix2 b c)) = ix1 c := funext fun a => by match a with | ⟨0, _⟩ => rfl
  simp only [e1, e2, e3, v39_eq, Ideal.addf_def]
  rfl

/-- The gate: 1 / (1 + exp (−z)) with both ones the float word of one, which is the logistic function of z. -/
theorem v49_eq (x0 : I4 → EReal) (x1 : IHC → EReal) (x2 : IH → EReal) (x3 : ICH → EReal) (x4 : IC → EReal) (x5 : IHC → EReal) (x6 : IH → EReal) (x7 : ICH → EReal) (x8 : IC → EReal) (x9 : IBW → EReal) (x10 : IC → EReal) (x11 : IHC → EReal) (x12 : IH → EReal)
    (x13 : ICH → EReal) (x14 : IC → EReal) (b : Fin 16) (c : Fin 256) :
    val_main_v49 (F := Ideal) x0 x1 x2 x3 x4 x5 x6 x7 x8 x9 x10 x11 x12 x13 x14 (ix2 b c)
      = gate x0 ⟨x1, x2, x3, x4, x5, x6, x7, x8, x9, x10, x11, x12, x13, x14⟩ b c := by
  rw [val_main_v49_apply, val_main_v48_apply, val_main_cst_4_apply, val_main_v47_apply, val_main_v46_apply,
    val_main_cst_3_apply, val_main_v45_apply, val_main_v44_apply, v43_eq]
  simp only [Ideal.hostDivf_def, Ideal.addf_def, Ideal.hostUnary_exp_def, Ideal.hostNegf_def, Ideal.negf_def,
    Ideal.ofBits_def, one_word]
  rfl

/-- The reference's result is the gated tensor in the reference's own arrangement. -/
theorem ref_value (x0 : I4 → EReal) (x1 : IHC → EReal) (x2 : IH → EReal) (x3 : ICH → EReal) (x4 : IC → EReal) (x5 : IHC → EReal) (x6 : IH → EReal) (x7 : ICH → EReal) (x8 : IC → EReal) (x9 : IBW → EReal) (x10 : IC → EReal) (x11 : IHC → EReal) (x12 : IH → EReal)
    (x13 : ICH → EReal) (x14 : IC → EReal) :
    val_main_v52 (F := Ideal) x0 x1 x2 x3 x4 x5 x6 x7 x8 x9 x10 x11 x12 x13 x14
      = G x0 ⟨x1, x2, x3, x4, x5, x6, x7, x8, x9, x10, x11, x12, x13, x14⟩ := by
  funext i
  obtain ⟨b, c, h, w, rfl⟩ : ∃ (b : Fin 16) (c : Fin 256) (h w : Fin 128), i = ix4 b c h w :=
    ⟨i 0, i 1, i 2, i 3, eq_ix4 i⟩
  rw [val_main_v52_apply, val_main_v51_apply, val_main_v50_apply]
  have e : idx_main_v50 (idx_main_v51 (ix4 b c h w)) = ix2 b c := funext fun a => by match a with | ⟨0, _⟩ => rfl | ⟨1, _⟩ => rfl
  rw [e, v49_eq, Ideal.mulf_def]
  rfl

end Cert.RefGate

end
-- ==== Proof.RefValue.lean ====
/-
  The reference program's run: every weakly fair execution terminates with the result array equal to the gated
  tensor G of the argument arrays (in the reference's own arrangement) and the fifteen argument arrays unchanged.
  The run itself is the generated one; its result term is the last stage of the index-by-index reading, which is G.
-/
import proofs.«165288_j12446815224180_2_alg».proof.Defs
import proofs.«165288_j12446815224180_2_alg».proof.Proof.Gen.ReferenceIdeal.Read
import proofs.«165288_j12446815224180_2_alg».proof.Proof.Spec
import proofs.«165288_j12446815224180_2_alg».proof.Proof.RefValue3

noncomputable section

namespace Cert.RefGate

open Idealize.ShloMosaic Idealize.ShloMosaic.TcCoe Idealize.SL.Sem

/-- The fourteen weight arrays as a device's memory holds them, in argument order. -/
def refW (m : (ℓ : Loc Cert.ReferenceIdeal.nD Cert.ReferenceIdeal.τ Cert.ReferenceIdeal.sig) → Buf (Elt Ideal) ℓ)
    (c : Dev Cert.ReferenceIdeal.nD) : Cert.GateSpec.Weights :=
  ⟨m ((c.tc : Thread Cert.ReferenceIdeal.nD Cert.ReferenceIdeal.τ).loc Cert.ReferenceIdeal.main_arg1),
   m ((c.tc : Thread Cert.ReferenceIdeal.nD Cert.ReferenceIdeal.τ).loc Cert.ReferenceIdeal.main_arg2),
   m ((c.tc : Thread Cert.ReferenceIdeal.nD Cert.ReferenceIdeal.τ).loc Cert.ReferenceIdeal.main_arg3),
   m ((c.tc : Thread Cert.ReferenceIdeal.nD Cert.ReferenceIdeal.τ).loc Cert.ReferenceIdeal.main_arg4),
   m ((c.tc : Thread Cert.ReferenceIdeal.nD Cert.ReferenceIdeal.τ).loc Cert.ReferenceIdeal.main_arg5),
   m ((c.tc : Thread Cert.ReferenceIdeal.nD Cert.ReferenceIdeal.τ).loc Cert.ReferenceIdeal.main_arg6),
   m ((c.tc : Thread Cert.ReferenceIdeal.nD Cert.ReferenceIdeal.τ).loc Cert.ReferenceIdeal.main_arg7),
   m ((c.tc : Thread Cert.ReferenceIdeal.nD Cert.ReferenceIdeal.τ).loc Cert.ReferenceIdeal.main_arg8),
   m ((c.tc : Thread Cert.ReferenceIdeal.nD Cert.ReferenceIdeal.τ).loc Cert.ReferenceIdeal.main_arg9),
   m ((c.tc : Thread Cert.ReferenceIdeal.nD Cert.ReferenceIdeal.τ).loc Cert.ReferenceIdeal.main_arg10),
   m ((c.tc : Thread Cert.ReferenceIdeal.nD Cert.ReferenceIdeal.τ).loc Cert.ReferenceIdeal.main_arg11),
   m ((c.tc : Thread Cert.ReferenceIdeal.nD Cert.ReferenceIdeal.τ).loc Cert.ReferenceIdeal.main_arg12),
   m ((c.tc : Thread Cert.ReferenceIdeal.nD Cert.ReferenceIdeal.τ).loc Cert.ReferenceIdeal.main_arg13),
   m ((c.tc : Thread Cert.ReferenceIdeal.nD Cert.ReferenceIdeal.τ).loc Cert.ReferenceIdeal.main_arg14)⟩

/-- The reference ends with G of its arguments in the result array, and its arguments unchanged. -/
theorem ref_run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => ∀ c : Dev Cert.ReferenceIdeal.nD,
      r.2.mem ((c.tc : Thread Cert.ReferenceIdeal.nD Cert.ReferenceIdeal.τ).loc Cert.ReferenceIdeal.main_v52)
        = Cert.GateSpec.G (m ((c.tc : Thread Cert.ReferenceIdeal.nD Cert.ReferenceIdeal.τ).loc Cert.ReferenceIdeal.main_arg0)) (refW m c)
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)) := by
  refine (θ_run Cert.ReferenceIdeal.defs _ _).mono (fun _ h c => ⟨(h c).1.trans ?_, (h c).2⟩)
    (Cert.ReferenceIdeal.Value.run (F := Ideal) m ρ)
  rw [Cert.ReferenceIdeal.Read.val_main_v52_eq, ref_value]
  rfl

/-- The reference runs to the end, faults nowhere, and leaves its arguments unchanged. -/
theorem ref_frame [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

end Cert.RefGate

end
-- ==== Proof.LibRealEntries.lean ====
/-
  Real entries of arrays over the extended reals, and how a finiteness precondition gives them.

  `IsReal x` says the extended real `x` is a real number.  Real numbers are closed under sums, products, maxima and
  finite sums.  A precondition of the usual form — for an input array `x`, the `and`-reduction over all axes, from
  `true`, of the entrywise test `|x| < +∞` came out `true` — makes every entry of `x` real: the reduction met `true`
  at every entry, and an extended real whose absolute value `max x (-x)` is below `+∞` is neither infinity.
-/
import Idealize.ShloMosaic.Lib.ReduceAll
import Idealize.ShloMosaic.Lib.Pipeline.Value
import Idealize.ShloMosaic.Lib.ValueIdx
import Idealize.ShloMosaic.PureOps.Ideal.Laws

noncomputable section

open scoped BigOperators

namespace Cert.RealEntries

open Idealize.ShloMosaic

/-- An extended real that is a real number. -/
def IsReal (x : EReal) : Prop := ∃ r : ℝ, x = (r : EReal)

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.max {x y : EReal} (hx : IsReal x) (hy : IsReal y) : IsReal (max x y) := by
  obtain ⟨a, rfl⟩ := hx; obtain ⟨b, rfl⟩ := hy
  exact ⟨Max.max a b, (EReal.coe_strictMono.monotone.map_max).symm⟩

/-- A finite sum of real numbers is real. -/
theorem IsReal.sum {ι : Type} (s : Finset ι) (f : ι → EReal) (h : ∀ i ∈ s, IsReal (f i)) : IsReal (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

/-- The single-precision word of 0.0 denotes a real number. -/
theorem isReal_zero_word : IsReal (Ideal.ofBits .f32 0x00000000#32) := ⟨0, by rw [Ideal.ofBits_zero_f32]; rfl⟩

/-- The single-precision word `0x7F800000` denotes `+∞`. -/
theorem ofBits_inf : Ideal.ofBits .f32 0x7F800000#32 = (⊤ : EReal) := by
  simp [Ideal.ofBits, Ideal.ieee]

/-- An extended real with `|x| < +∞`, as the ordered comparison of `max x (-x)` with the word of `+∞` reads it, is a
    real number. -/
theorem isReal_of_abs_lt (x : EReal)
    (h : Ideal.cmp .olt (Max.max x (-x)) (Ideal.ofBits .f32 0x7F800000#32) = 1#1) : IsReal x := by
  rw [ofBits_inf] at h
  have hlt : Max.max x (-x) < (⊤ : EReal) := by
    by_contra hc
    have h0 : Ideal.cmp .olt (Max.max x (-x)) (⊤ : EReal) = 0#1 := by
      show BitVec.ofBool (decide (Max.max x (-x) < (⊤ : EReal))) = 0#1
      rw [decide_eq_false hc]; rfl
    rw [h0] at h
    exact absurd h (by decide)
  induction x using EReal.rec with
  | bot => exact absurd hlt (by simp)
  | coe r => exact ⟨r, rfl⟩
  | top => exact absurd hlt (by simp)

instance : Subsingleton (⟨0, ![]⟩ : Shape).Idx := ⟨fun a b => funext fun d => d.elim0⟩

/-- ONE INPUT'S SHARE OF A FINITENESS PRECONDITION: when the `and`-reduction of `|x| < +∞` over the whole array `x`,
    started from `true`, came out `true`, every entry of `x` is real.  Any shape, any list of reduced axes. -/
theorem entries_real {s : Shape} {axes : List (Fin s.rank)} (x : FVec Ideal s .f32)
    (hb : (⟨0, ![]⟩ : Shape).BroadcastsInDim s (![] : Fin 0 → Fin s.rank)) (hr : s.ReducesTo axes ⟨0, ![]⟩)
    (hu : 0 < (⟨0, ![]⟩ : Shape).numel)
    (e : Host.reduce IntOp.andi
      (cmpf .olt (Host.absf x) (broadcastInDim s ![] hb (constant (F := Ideal) ⟨0, ![]⟩ .f32 0x7F800000#32)))
      (constantI ⟨0, ![]⟩ 1 1#1) hr hu ValueIdx.ix0 = 1#1) (i : s.Idx) : IsReal (x i) := by
  have h := Host.reduce_andi_all _ _ hr hu ValueIdx.ix0 e i
  refine isReal_of_abs_lt (x i) ?_
  have hb' : broadcastInDim s ![] hb (constant (F := Ideal) ⟨0, ![]⟩ .f32 0x7F800000#32) i = Ideal.ofBits .f32 0x7F800000#32 :=
    broadcastInDim_apply _ hb _ i (fun a => a.elim0) (fun a => a.elim0)
  rw [← hb']
  exact h

end Cert.RealEntries

end
-- ==== Proof.RealEntries.lean ====
/-
  From the finiteness precondition to real entries of the input tensor x.

  The precondition is the conjunction, over the fifteen argument arrays, of "the and-reduction over all axes, started
  from true, of the entrywise test |a| < +∞ came out true".  The conjunction is nested to the left, so its first
  conjunct, the one about x, sits under fourteen binary "and"s: a one-bit "and" is 1 exactly when both operands are 1,
  and fourteen first projections reach it.  An all-reduction that came out true met true at every entry, and an
  extended real whose absolute value is below +∞ is a real number.
-/
import proofs.«165288_j12446815224180_2_alg».proof.Defs
import proofs.«165288_j12446815224180_2_alg».proof.Proof.LibRealEntries
import Idealize.ShloMosaic.Lib.ReduceAll

noncomputable section

namespace Cert.GateFinite

open Idealize.ShloMosaic Cert.Pre_finite_inputs Cert.Pre_finite_inputs.Facts

/-- The first operand of a one-bit "and" of two scalars that came out 1 is 1. -/
theorem andi_left (a b : IVec S_ 1) (h : andi a b ValueIdx.ix0 = 1#1) : a ValueIdx.ix0 = 1#1 :=
  (IntOp.andi_eq_one.1 h).1

/-- The printed predicate came out all ones: every entry of its first argument is a real number. -/
theorem arg0_real [Cert.Pre_finite_inputs.Facts]
    (a0 : FVec Ideal S16x256x128x128 .f32) (a1 : FVec Ideal S16x256 .f32) (a2 : FVec Ideal S16 .f32)
    (a3 : FVec Ideal S256x16 .f32) (a4 : FVec Ideal S256 .f32) (a5 : FVec Ideal S16x256 .f32)
    (a6 : FVec Ideal S16 .f32) (a7 : FVec Ideal S256x16 .f32) (a8 : FVec Ideal S256 .f32)
    (a9 : FVec Ideal S256x512 .f32) (a10 : FVec Ideal S256 .f32) (a11 : FVec Ideal S16x256 .f32)
    (a12 : FVec Ideal S16 .f32) (a13 : FVec Ideal S256x16 .f32) (a14 : FVec Ideal S256 .f32)
    (h : Cert.Pre_finite_inputs.fn (F := Ideal) a0 a1 a2 a3 a4 a5 a6 a7 a8 a9 a10 a11 a12 a13 a14 = fun _ => 1#1)
    (i : S16x256x128x128.Idx) : ∃ r : ℝ, a0 i = (r : EReal) := by
  have h0 := congrFun h ValueIdx.ix0
  dsimp only [Cert.Pre_finite_inputs.fn, Cert.Pre_finite_inputs.fn_part1, Cert.Pre_finite_inputs.fn_part2,
    Cert.Pre_finite_inputs.fn_part3, Cert.Pre_finite_inputs.fn_part4] at h0
  -- fourteen first projections reach the conjunct about the first argument
  have e := andi_left _ _ (andi_left _ _ (andi_left _ _ (andi_left _ _ (andi_left _ _ (andi_left _ _ (andi_left _ _
    (andi_left _ _ (andi_left _ _ (andi_left _ _ (andi_left _ _ (andi_left _ _ (andi_left _ _
    (andi_left _ _ h0)))))))))))))
  exact Cert.RealEntries.entries_real a0 bcast_S_S16x256x128x128 reducesTo_S16x256x128x128_S_d0_1_2_3 h_S_ e i

/-- Under the precondition every entry of x is a real number, on every device. -/
theorem x_real [Cert.KernelIdeal.Facts] [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg0) i
      = (r : EReal) :=
  fun i => arg0_real _ _ _ _ _ _ _ _ _ _ _ _ _ _ _ (h c) i

end Cert.GateFinite

end
-- ==== Proof.lean ====
/-
  The certificate of the gating kernel against its reference.

  Both programs compute  x(b,c,h,w) · gate(b,c)  where the gate is the logistic function of a squeeze-excite block applied
  to a 512 → 256 bottleneck of two squeeze-excite blocks of the channel descriptors: the spatial mean μ and the
  standard deviation σ = √v of each (batch, channel).  The reference takes the variance in two passes,
  v = mean (x − μ)², and contracts the joined 512 features at once; the kernel accumulates ∑x and ∑x² block by block
  over a grid axis, takes v = max (∑x²/n − μ², 0) and contracts the two halves separately.  On the extended reals the
  split contraction is a regrouping of one finite sum, and for REAL entries of x — which the precondition gives — the
  two variances agree (∑(x − μ)² = ∑x² − nμ² ≥ 0, so the clamp is the identity).  The logistic function is on both sides
  1/(1 + e^(−z)) by definition.

  The frames: the word-level kernel and its idealization run region 0 (sixteen grid points, the two accumulators carried
  in scratch memory between points), two reshapes, region 1 (sixty-four points) and a reshape; every argument array is
  only read.  The reference is host operations only.  The idealization rewrote nothing, so `preserves` is trivial.
-/
import proofs.«165288_j12446815224180_2_alg».proof.Defs
import proofs.«165288_j12446815224180_2_alg».proof.Proof.Gen.Kernel
import proofs.«165288_j12446815224180_2_alg».proof.Proof.Gen.KernelIdeal
import proofs.«165288_j12446815224180_2_alg».proof.Proof.Gen.ReferenceIdeal
import proofs.«165288_j12446815224180_2_alg».proof.Proof.Gen.Pre_finite_inputs
import proofs.«165288_j12446815224180_2_alg».proof.Proof.RunK
import proofs.«165288_j12446815224180_2_alg».proof.Proof.KernelValue
import proofs.«165288_j12446815224180_2_alg».proof.Proof.RefValue
import proofs.«165288_j12446815224180_2_alg».proof.Proof.RealEntries
import Idealize.ShloMosaic.Adequacy
import Idealize.ShloMosaic.Init

noncomputable section

namespace Cert.Proof

open Idealize.ShloMosaic Idealize.SL.Sem

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite_inputs.Facts := Cert.Pre_finite_inputs.Gen.facts

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := Cert.RefGate.ref_frame

/-- Both runs end with the same function of the same arguments. -/
theorem algebraic : Cert.algebraic_KernelIdeal_ReferenceIdeal := by
  intro m ρ m' ρ' hpre hagree
  refine ⟨fun c => Cert.GateSpec.G (m ((c.tc : Thread Cert.KernelIdeal.nD Cert.KernelIdeal.τ).loc Cert.KernelIdeal.main_arg0)) (Cert.KernelIdeal.HandValue.kerW m c),
    Cert.KernelIdeal.HandValue.kernel_run m ρ (fun c => Cert.GateFinite.x_real m hpre c), ?_⟩
  refine (θ_run Cert.ReferenceIdeal.defs _ _).mono (fun _ h c => ⟨(h c).1.trans ?_, (h c).2⟩) (Cert.RefGate.ref_run m' ρ')
  unfold Cert.RefGate.refW Cert.KernelIdeal.HandValue.kerW
  rw [(hagree c).1, (hagree c).2.1, (hagree c).2.2.1, (hagree c).2.2.2.1, (hagree c).2.2.2.2.1, (hagree c).2.2.2.2.2.1,
    (hagree c).2.2.2.2.2.2.1, (hagree c).2.2.2.2.2.2.2.1, (hagree c).2.2.2.2.2.2.2.2.1, (hagree c).2.2.2.2.2.2.2.2.2.1,
    (hagree c).2.2.2.2.2.2.2.2.2.2.1, (hagree c).2.2.2.2.2.2.2.2.2.2.2.1, (hagree c).2.2.2.2.2.2.2.2.2.2.2.2.1,
    (hagree c).2.2.2.2.2.2.2.2.2.2.2.2.2.1, (hagree c).2.2.2.2.2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
